-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v203_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v454) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x8192 : Shape := ⟨2, ![6, 8192]⟩
abbrev S6x8192x4 : Shape := ⟨3, ![6, 8192, 4]⟩
abbrev S50000x300 : Shape := ⟨2, ![50000, 300]⟩
abbrev S300x1536 : Shape := ⟨2, ![300, 1536]⟩
abbrev S512x1536 : Shape := ⟨2, ![512, 1536]⟩
abbrev S1536 : Shape := ⟨1, ![1536]⟩
abbrev S300x512 : Shape := ⟨2, ![300, 512]⟩
abbrev S512x512 : Shape := ⟨2, ![512, 512]⟩
abbrev S512 : Shape := ⟨1, ![512]⟩
abbrev S_ : Shape := ⟨0, ![]⟩

class Facts : Prop where
  bcast_S_S6x8192 : S_.BroadcastsInDim S6x8192 (![] : Fin 0 → Fin S6x8192.rank)
  reducesTo_S6x8192_S_d0_1 : S6x8192.ReducesTo [0, 1] S_
  h_S_ : 0 < S_.numel
  bcast_S_S6x8192x4 : S_.BroadcastsInDim S6x8192x4 (![] : Fin 0 → Fin S6x8192x4.rank)
  reducesTo_S6x8192x4_S_d0_1_2 : S6x8192x4.ReducesTo [0, 1, 2] S_
  bcast_S_S50000x300 : S_.BroadcastsInDim S50000x300 (![] : Fin 0 → Fin S50000x300.rank)
  reducesTo_S50000x300_S_d0_1 : S50000x300.ReducesTo [0, 1] S_
  bcast_S_S300x1536 : S_.BroadcastsInDim S300x1536 (![] : Fin 0 → Fin S300x1536.rank)
  reducesTo_S300x1536_S_d0_1 : S300x1536.ReducesTo [0, 1] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S300x512 : S_.BroadcastsInDim S300x512 (![] : Fin 0 → Fin S300x512.rank)
  reducesTo_S300x512_S_d0_1 : S300x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512x512 .f32) (main_arg10 : FVec F S512 .f32) (main_v33 : IVec S_ 1) : IVec S_ 1 :=
  let main_v34 : FVec F S512x512 .f32 := Host.absf main_arg9
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg6 : FVec F S512x1536 .f32) (main_arg7 : FVec F S1536 .f32) (main_arg8 : FVec F S300x512 .f32) (main_arg9 : FVec F S512x512 .f32) (main_arg10 : FVec F S512 .f32) (main_v13 : IVec S_ 1) (main_v16 : IVec S300x1536 1) : IVec S_ 1 :=
  let main_c_5 : IVec S_ 1 := constantI S_ 1 1#1
  let main_v17 : IVec S_ 1 := (fun x v => Host.reduce IntOp.andi x v reducesTo_S300x1536_S_d0_1 h_S_) main_v16 main_c_5
  let main_v18 : IVec S_ 1 := andi main_v13 main_v17
  let main_v19 : FVec F S512x1536 .f32 := Host.absf main_arg6
  let main_cst_6 : FVec F S_ .f32 := constant S_ .f32 0x7F800000#32
  let main_v20 : FVec F S512x1536 .f32 := broadcastInDim S512x1536 ![] bcast_S_S512x1536 main_cst_6
  let main_v21 : IVec S512x1536 1 := cmpf .olt main_v19 main_v20
  let main_c_7 : IVec S_ 1 := constantI S_ 1 1#1
  let main_v22 : IVec S_ 1 := (fun x v => Host.reduce IntOp.andi x v reducesTo_S512x1536_S_d0_1 h_S_) main_v21 main_c_7
  let main_v23 : IVec S_ 1 := andi main_v18 main_v22
  let main_v24 : FVec F S1536 .f32 := Host.absf main_arg7
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S300x512 .f32 := Host.absf main_arg8
  let main_cst_10 : FVec F S_ .f32 := constant S_ .f32 0x7F800000#32
  let main_v30 : FVec F S300x512 .f32 := broadcastInDim S300x512 ![] bcast_S_S300x512 main_cst_10
  let main_v31 : IVec S300x512 1 := cmpf .olt main_v29 main_v30
  let main_c_11 : IVec S_ 1 := constantI S_ 1 1#1
  let main_v32 : IVec S_ 1 := (fun x v => Host.reduce IntOp.andi x v reducesTo_S300x512_S_d0_1 h_S_) main_v31 main_c_11
  let main_v33 : IVec S_ 1 := andi main_v28 main_v32
  fn_part2 (F := F) main_arg9 main_arg10 main_v33

def fn {F : FTy → Type} [FloatOps F] (main_arg0 : IVec S6x8192 32) (main_arg1 : IVec S6x8192x4 32) (main_arg2 : FVec F S6x8192 .f32) (main_arg3 : FVec F S6x8192x4 .f32) (main_arg4 : FVec F S50000x300 .f32) (main_arg5 : FVec F S300x1536 .f32) (main_arg6 : FVec F S512x1536 .f32) (main_arg7 : FVec F S1536 .f32) (main_arg8 : FVec F S300x512 .f32) (main_arg9 : FVec F S512x512 .f32) (main_arg10 : FVec F S512 .f32) : IVec S_ 1 :=
  let main_v0 : FVec F S6x8192 .f32 := Host.absf main_arg2
  let main_cst : FVec F S_ .f32 := constant S_ .f32 0x7F800000#32
  let main_v1 : FVec F S6x8192 .f32 := broadcastInDim S6x8192 ![] bcast_S_S6x8192 main_cst
  let main_v2 : IVec S6x8192 1 := cmpf .olt main_v0 main_v1
  let main_c : IVec S_ 1 := constantI S_ 1 1#1
  let main_v3 : IVec S_ 1 := (fun x v => Host.reduce IntOp.andi x v reducesTo_S6x8192_S_d0_1 h_S_) main_v2 main_c
  let main_v4 : FVec F S6x8192x4 .f32 := Host.absf main_arg3
  let main_cst_0 : FVec F S_ .f32 := constant S_ .f32 0x7F800000#32
  let main_v5 : FVec F S6x8192x4 .f32 := broadcastInDim S6x8192x4 ![] bcast_S_S6x8192x4 main_cst_0
  let main_v6 : IVec S6x8192x4 1 := cmpf .olt main_v4 main_v5
  let main_c_1 : IVec S_ 1 := constantI S_ 1 1#1
  let main_v7 : IVec S_ 1 := (fun x v => Host.reduce IntOp.andi x v reducesTo_S6x8192x4_S_d0_1_2 h_S_) main_v6 main_c_1
  let main_v8 : IVec S_ 1 := andi main_v3 main_v7
  let main_v9 : FVec F S50000x300 .f32 := Host.absf main_arg4
  let main_cst_2 : FVec F S_ .f32 := constant S_ .f32 0x7F800000#32
  let main_v10 : FVec F S50000x300 .f32 := broadcastInDim S50000x300 ![] bcast_S_S50000x300 main_cst_2
  let main_v11 : IVec S50000x300 1 := cmpf .olt main_v9 main_v10
  let main_c_3 : IVec S_ 1 := constantI S_ 1 1#1
  let main_v12 : IVec S_ 1 := (fun x v => Host.reduce IntOp.andi x v reducesTo_S50000x300_S_d0_1 h_S_) main_v11 main_c_3
  let main_v13 : IVec S_ 1 := andi main_v8 main_v12
  let main_v14 : FVec F S300x1536 .f32 := Host.absf main_arg5
  let main_cst_4 : FVec F S_ .f32 := constant S_ .f32 0x7F800000#32
  let main_v15 : FVec F S300x1536 .f32 := broadcastInDim S300x1536 ![] bcast_S_S300x1536 main_cst_4
  let main_v16 : IVec S300x1536 1 := cmpf .olt main_v14 main_v15
  fn_part1 (F := F) main_arg6 main_arg7 main_arg8 main_arg9 main_arg10 main_v13 main_v16
-- ==== Kernel.lean ====
abbrev S6x8192 : Shape := ⟨2, ![6, 8192]⟩
abbrev S6x8192x4 : Shape := ⟨3, ![6, 8192, 4]⟩
abbrev S50000x300 : Shape := ⟨2, ![50000, 300]⟩
abbrev S300x1536 : Shape := ⟨2, ![300, 1536]⟩
abbrev S512x1536 : Shape := ⟨2, ![512, 1536]⟩
abbrev S1536 : Shape := ⟨1, ![1536]⟩
abbrev S300x512 : Shape := ⟨2, ![300, 512]⟩
abbrev S512x512 : Shape := ⟨2, ![512, 512]⟩
abbrev S512 : Shape := ⟨1, ![512]⟩
abbrev S1x1536 : Shape := ⟨2, ![1, 1536]⟩
abbrev S300x2048 : Shape := ⟨2, ![300, 2048]⟩
abbrev S2048 : Shape := ⟨1, ![2048]⟩
abbrev S1x2048 : Shape := ⟨2, ![1, 2048]⟩
abbrev S1x8192 : Shape := ⟨2, ![1, 8192]⟩
abbrev S8192 : Shape := ⟨1, ![8192]⟩
abbrev S_ : Shape := ⟨0, ![]⟩
abbrev S8192x1 : Shape := ⟨2, ![8192, 1]⟩
abbrev S8192x300 : Shape := ⟨2, ![8192, 300]⟩
abbrev S8192x512 : Shape := ⟨2, ![8192, 512]⟩
abbrev S256x300 : Shape := ⟨2, ![256, 300]⟩
abbrev S256x512 : Shape := ⟨2, ![256, 512]⟩
abbrev S256x1536 : Shape := ⟨2, ![256, 1536]⟩
abbrev S1x8192x4 : Shape := ⟨3, ![1, 8192, 4]⟩
abbrev S8192x4 : Shape := ⟨2, ![8192, 4]⟩
abbrev S8192x4x1 : Shape := ⟨3, ![8192, 4, 1]⟩
abbrev S8192x4x512 : Shape := ⟨3, ![8192, 4, 512]⟩
abbrev S256x4x512 : Shape := ⟨3, ![256, 4, 512]⟩
abbrev S256x4 : Shape := ⟨2, ![256, 4]⟩
abbrev S256x2048 : Shape := ⟨2, ![256, 2048]⟩
abbrev S256x1 : Shape := ⟨2, ![256, 1]⟩
abbrev S256x1x512 : Shape := ⟨3, ![256, 1, 512]⟩

abbrev nBuf : Space → Nat
  | .hbm => 253
  | .vmem => 88
  | .smem => 0
  | _ => 0

abbrev hbmTy0_0 (i : Nat) : BufTy := match i % 128 with
  | 0 => ⟨S6x8192, .i32⟩
  | 1 => ⟨S6x8192x4, .i32⟩
  | 2 => ⟨S6x8192, .f32⟩
  | 3 => ⟨S6x8192x4, .f32⟩
  | 4 => ⟨S50000x300, .f32⟩
  | 5 => ⟨S300x1536, .f32⟩
  | 6 => ⟨S512x1536, .f32⟩
  | 7 => ⟨S1536, .f32⟩
  | 8 => ⟨S300x512, .f32⟩
  | 9 => ⟨S512x512, .f32⟩
  | 10 => ⟨S512, .f32⟩
  | 11 => ⟨S1x1536, .f32⟩
  | 12 => ⟨S300x2048, .f32⟩
  | 13 => ⟨S2048, .f32⟩
  | 14 => ⟨S1x2048, .f32⟩
  | 15 => ⟨S1x8192, .i32⟩
  | 16 => ⟨S8192, .i32⟩
  | 17 => ⟨S_, .i32⟩
  | 18 => ⟨S8192, .i32⟩
  | 19 => ⟨S8192, .i1⟩
  | 20 => ⟨S_, .i32⟩
  | 21 => ⟨S8192, .i32⟩
  | 22 => ⟨S8192, .i32⟩
  | 23 => ⟨S8192, .i32⟩
  | 24 => ⟨S8192x1, .i32⟩
  | 25 => ⟨S8192x300, .f32⟩
  | 26 => ⟨S1x8192, .f32⟩
  | 27 => ⟨S8192, .f32⟩
  | 28 => ⟨S8192x1, .f32⟩
  | 29 => ⟨S8192x300, .f32⟩
  | 30 => ⟨S8192x300, .f32⟩
  | 31 => ⟨S8192x512, .f32⟩
  | 32 => ⟨S8192x512, .f32⟩
  | 33 => ⟨S1x8192, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192x300, .f32⟩
  | 44 => ⟨S1x8192, .f32⟩
  | 45 => ⟨S8192, .f32⟩
  | 46 => ⟨S8192x1, .f32⟩
  | 47 => ⟨S8192x300, .f32⟩
  | 48 => ⟨S8192x300, .f32⟩
  | 49 => ⟨S8192x512, .bf16⟩
  | 50 => ⟨S8192x512, .bf16⟩
  | 51 => ⟨S1x8192x4, .i32⟩
  | 52 => ⟨S8192x4, .i32⟩
  | 53 => ⟨S_, .i32⟩
  | 54 => ⟨S8192x4, .i32⟩
  | 55 => ⟨S8192x4, .i1⟩
  | 56 => ⟨S_, .i32⟩
  | 57 => ⟨S8192x4, .i32⟩
  | 58 => ⟨S8192x4, .i32⟩
  | 59 => ⟨S8192x4, .i32⟩
  | 60 => ⟨S8192x4x1, .i32⟩
  | 61 => ⟨S8192x4x512, .bf16⟩
  | 62 => ⟨S1x8192x4, .i32⟩
  | 63 => ⟨S8192x4, .i32⟩
  | 64 => ⟨S_, .i32⟩
  | 65 => ⟨S8192x4, .i32⟩
  | 66 => ⟨S8192x4, .i1⟩
  | 67 => ⟨S_, .i32⟩
  | 68 => ⟨S8192x4, .i32⟩
  | 69 => ⟨S8192x4, .i32⟩
  | 70 => ⟨S8192x4, .i32⟩
  | 71 => ⟨S8192x4x1, .i32⟩
  | 72 => ⟨S8192x4x512, .bf16⟩
  | 73 => ⟨S1x8192x4, .f32⟩
  | 74 => ⟨S8192x4, .f32⟩
  | 75 => ⟨S8192x512, .f32⟩
  | 76 => ⟨S8192x512, .f32⟩
  | 77 => ⟨S1x8192, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192x300, .f32⟩
  | 88 => ⟨S1x8192, .f32⟩
  | 89 => ⟨S8192, .f32⟩
  | 90 => ⟨S8192x1, .f32⟩
  | 91 => ⟨S8192x300, .f32⟩
  | 92 => ⟨S8192x300, .f32⟩
  | 93 => ⟨S8192x512, .bf16⟩
  | 94 => ⟨S8192x512, .bf16⟩
  | 95 => ⟨S1x8192x4, .i32⟩
  | 96 => ⟨S8192x4, .i32⟩
  | 97 => ⟨S_, .i32⟩
  | 98 => ⟨S8192x4, .i32⟩
  | 99 => ⟨S8192x4, .i1⟩
  | 100 => ⟨S_, .i32⟩
  | 101 => ⟨S8192x4, .i32⟩
  | 102 => ⟨S8192x4, .i32⟩
  | 103 => ⟨S8192x4, .i32⟩
  | 104 => ⟨S8192x4x1, .i32⟩
  | 105 => ⟨S8192x4x512, .bf16⟩
  | 106 => ⟨S1x8192x4, .i32⟩
  | 107 => ⟨S8192x4, .i32⟩
  | 108 => ⟨S_, .i32⟩
  | 109 => ⟨S8192x4, .i32⟩
  | 110 => ⟨S8192x4, .i1⟩
  | 111 => ⟨S_, .i32⟩
  | 112 => ⟨S8192x4, .i32⟩
  | 113 => ⟨S8192x4, .i32⟩
  | 114 => ⟨S8192x4, .i32⟩
  | 115 => ⟨S8192x4x1, .i32⟩
  | 116 => ⟨S8192x4x512, .bf16⟩
  | 117 => ⟨S1x8192x4, .f32⟩
  | 118 => ⟨S8192x4, .f32⟩
  | 119 => ⟨S8192x512, .f32⟩
  | 120 => ⟨S8192x512, .f32⟩
  | 121 => ⟨S1x8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S6x8192, .i32⟩

abbrev hbmTy0_1 (i : Nat) : BufTy := match i % 128 with
  | 0 => ⟨S8192, .i32⟩
  | 1 => ⟨S8192, .i32⟩
  | 2 => ⟨S8192x1, .i32⟩
  | 3 => ⟨S8192x300, .f32⟩
  | 4 => ⟨S1x8192, .f32⟩
  | 5 => ⟨S8192, .f32⟩
  | 6 => ⟨S8192x1, .f32⟩
  | 7 => ⟨S8192x300, .f32⟩
  | 8 => ⟨S8192x300, .f32⟩
  | 9 => ⟨S8192x512, .bf16⟩
  | 10 => ⟨S8192x512, .bf16⟩
  | 11 => ⟨S1x8192x4, .i32⟩
  | 12 => ⟨S8192x4, .i32⟩
  | 13 => ⟨S_, .i32⟩
  | 14 => ⟨S8192x4, .i32⟩
  | 15 => ⟨S8192x4, .i1⟩
  | 16 => ⟨S_, .i32⟩
  | 17 => ⟨S8192x4, .i32⟩
  | 18 => ⟨S8192x4, .i32⟩
  | 19 => ⟨S8192x4, .i32⟩
  | 20 => ⟨S8192x4x1, .i32⟩
  | 21 => ⟨S8192x4x512, .bf16⟩
  | 22 => ⟨S1x8192x4, .i32⟩
  | 23 => ⟨S8192x4, .i32⟩
  | 24 => ⟨S_, .i32⟩
  | 25 => ⟨S8192x4, .i32⟩
  | 26 => ⟨S8192x4, .i1⟩
  | 27 => ⟨S_, .i32⟩
  | 28 => ⟨S8192x4, .i32⟩
  | 29 => ⟨S8192x4, .i32⟩
  | 30 => ⟨S8192x4, .i32⟩
  | 31 => ⟨S8192x4x1, .i32⟩
  | 32 => ⟨S8192x4x512, .bf16⟩
  | 33 => ⟨S1x8192x4, .f32⟩
  | 34 => ⟨S8192x4, .f32⟩
  | 35 => ⟨S8192x512, .f32⟩
  | 36 => ⟨S8192x512, .f32⟩
  | 37 => ⟨S1x8192, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x300, .f32⟩
  | 48 => ⟨S1x8192, .f32⟩
  | 49 => ⟨S8192, .f32⟩
  | 50 => ⟨S8192x1, .f32⟩
  | 51 => ⟨S8192x300, .f32⟩
  | 52 => ⟨S8192x300, .f32⟩
  | 53 => ⟨S8192x512, .bf16⟩
  | 54 => ⟨S8192x512, .bf16⟩
  | 55 => ⟨S1x8192x4, .i32⟩
  | 56 => ⟨S8192x4, .i32⟩
  | 57 => ⟨S_, .i32⟩
  | 58 => ⟨S8192x4, .i32⟩
  | 59 => ⟨S8192x4, .i1⟩
  | 60 => ⟨S_, .i32⟩
  | 61 => ⟨S8192x4, .i32⟩
  | 62 => ⟨S8192x4, .i32⟩
  | 63 => ⟨S8192x4, .i32⟩
  | 64 => ⟨S8192x4x1, .i32⟩
  | 65 => ⟨S8192x4x512, .bf16⟩
  | 66 => ⟨S1x8192x4, .i32⟩
  | 67 => ⟨S8192x4, .i32⟩
  | 68 => ⟨S_, .i32⟩
  | 69 => ⟨S8192x4, .i32⟩
  | 70 => ⟨S8192x4, .i1⟩
  | 71 => ⟨S_, .i32⟩
  | 72 => ⟨S8192x4, .i32⟩
  | 73 => ⟨S8192x4, .i32⟩
  | 74 => ⟨S8192x4, .i32⟩
  | 75 => ⟨S8192x4x1, .i32⟩
  | 76 => ⟨S8192x4x512, .bf16⟩
  | 77 => ⟨S1x8192x4, .f32⟩
  | 78 => ⟨S8192x4, .f32⟩
  | 79 => ⟨S8192x512, .f32⟩
  | 80 => ⟨S8192x512, .f32⟩
  | 81 => ⟨S1x8192, .i32⟩
  | 82 => ⟨S8192, .i32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192x300, .f32⟩
  | 92 => ⟨S1x8192, .f32⟩
  | 93 => ⟨S8192, .f32⟩
  | 94 => ⟨S8192x1, .f32⟩
  | 95 => ⟨S8192x300, .f32⟩
  | 96 => ⟨S8192x300, .f32⟩
  | 97 => ⟨S8192x512, .bf16⟩
  | 98 => ⟨S8192x512, .bf16⟩
  | 99 => ⟨S1x8192x4, .i32⟩
  | 100 => ⟨S8192x4, .i32⟩
  | 101 => ⟨S_, .i32⟩
  | 102 => ⟨S8192x4, .i32⟩
  | 103 => ⟨S8192x4, .i1⟩
  | 104 => ⟨S_, .i32⟩
  | 105 => ⟨S8192x4, .i32⟩
  | 106 => ⟨S8192x4, .i32⟩
  | 107 => ⟨S8192x4, .i32⟩
  | 108 => ⟨S8192x4x1, .i32⟩
  | 109 => ⟨S8192x4x512, .bf16⟩
  | 110 => ⟨S1x8192x4, .i32⟩
  | 111 => ⟨S8192x4, .i32⟩
  | 112 => ⟨S_, .i32⟩
  | 113 => ⟨S8192x4, .i32⟩
  | 114 => ⟨S8192x4, .i1⟩
  | 115 => ⟨S_, .i32⟩
  | 116 => ⟨S8192x4, .i32⟩
  | 117 => ⟨S8192x4, .i32⟩
  | 118 => ⟨S8192x4, .i32⟩
  | 119 => ⟨S8192x4x1, .i32⟩
  | 120 => ⟨S8192x4x512, .bf16⟩
  | 121 => ⟨S1x8192x4, .f32⟩
  | 122 => ⟨S8192x4, .f32⟩
  | 123 => ⟨S8192x512, .f32⟩
  | 124 => ⟨S8192x512, .f32⟩
  | _ => ⟨S6x8192, .i32⟩

abbrev hbmTy (i : Nat) : BufTy := match i / 128 with
  | 0 => hbmTy0_0 i
  | 1 => hbmTy0_1 i
  | _ => ⟨S6x8192, .i32⟩

abbrev bufTy : (tb : Table) → Fin (tcTables nBuf tb) → BufTy
  | .hbm, ⟨i, _⟩ => hbmTy i
  | .local _ .vmem, ⟨0, _⟩ => ⟨S256x300, .f32⟩
  | .local _ .vmem, ⟨1, _⟩ => ⟨S256x300, .f32⟩
  | .local _ .vmem, ⟨2, _⟩ => ⟨S300x1536, .f32⟩
  | .local _ .vmem, ⟨3, _⟩ => ⟨S1x1536, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x300, .f32⟩
  | .local _ .vmem, ⟨9, _⟩ => ⟨S256x300, .f32⟩
  | .local _ .vmem, ⟨10, _⟩ => ⟨S256x4x512, .bf16⟩
  | .local _ .vmem, ⟨11, _⟩ => ⟨S256x4x512, .bf16⟩
  | .local _ .vmem, ⟨12, _⟩ => ⟨S256x4x512, .bf16⟩
  | .local _ .vmem, ⟨13, _⟩ => ⟨S256x4x512, .bf16⟩
  | .local _ .vmem, ⟨14, _⟩ => ⟨S256x4, .f32⟩
  | .local _ .vmem, ⟨15, _⟩ => ⟨S256x4, .f32⟩
  | .local _ .vmem, ⟨16, _⟩ => ⟨S300x2048, .f32⟩
  | .local _ .vmem, ⟨17, _⟩ => ⟨S512x512, .f32⟩
  | .local _ .vmem, ⟨18, _⟩ => ⟨S1x2048, .f32⟩
  | .local _ .vmem, ⟨19, _⟩ => ⟨S512x1536, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x300, .f32⟩
  | .local _ .vmem, ⟨25, _⟩ => ⟨S256x300, .f32⟩
  | .local _ .vmem, ⟨26, _⟩ => ⟨S256x4x512, .bf16⟩
  | .local _ .vmem, ⟨27, _⟩ => ⟨S256x4x512, .bf16⟩
  | .local _ .vmem, ⟨28, _⟩ => ⟨S256x4x512, .bf16⟩
  | .local _ .vmem, ⟨29, _⟩ => ⟨S256x4x512, .bf16⟩
  | .local _ .vmem, ⟨30, _⟩ => ⟨S256x4, .f32⟩
  | .local _ .vmem, ⟨31, _⟩ => ⟨S256x4, .f32⟩
  | .local _ .vmem, ⟨32, _⟩ => ⟨S300x2048, .f32⟩
  | .local _ .vmem, ⟨33, _⟩ => ⟨S512x512, .f32⟩
  | .local _ .vmem, ⟨34, _⟩ => ⟨S1x2048, .f32⟩
  | .local _ .vmem, ⟨35, _⟩ => ⟨S512x1536, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x300, .f32⟩
  | .local _ .vmem, ⟨41, _⟩ => ⟨S256x300, .f32⟩
  | .local _ .vmem, ⟨42, _⟩ => ⟨S256x4x512, .bf16⟩
  | .local _ .vmem, ⟨43, _⟩ => ⟨S256x4x512, .bf16⟩
  | .local _ .vmem, ⟨44, _⟩ => ⟨S256x4x512, .bf16⟩
  | .local _ .vmem, ⟨45, _⟩ => ⟨S256x4x512, .bf16⟩
  | .local _ .vmem, ⟨46, _⟩ => ⟨S256x4, .f32⟩
  | .local _ .vmem, ⟨47, _⟩ => ⟨S256x4, .f32⟩
  | .local _ .vmem, ⟨48, _⟩ => ⟨S300x2048, .f32⟩
  | .local _ .vmem, ⟨49, _⟩ => ⟨S512x512, .f32⟩
  | .local _ .vmem, ⟨50, _⟩ => ⟨S1x2048, .f32⟩
  | .local _ .vmem, ⟨51, _⟩ => ⟨S512x1536, .f32⟩
  | .local _ .vmem, ⟨52, _⟩ => ⟨S256x512, .f32⟩
  | .local _ .vmem, ⟨53, _⟩ => ⟨S256x512, .f32⟩
  | .local _ .vmem, ⟨54, _⟩ => ⟨S256x512, .f32⟩
  | .local _ .vmem, ⟨55, _⟩ => ⟨S256x512, .f32⟩
  | .local _ .vmem, ⟨56, _⟩ => ⟨S256x300, .f32⟩
  | .local _ .vmem, ⟨57, _⟩ => ⟨S256x300, .f32⟩
  | .local _ .vmem, ⟨58, _⟩ => ⟨S256x4x512, .bf16⟩
  | .local _ .vmem, ⟨59, _⟩ => ⟨S256x4x512, .bf16⟩
  | .local _ .vmem, ⟨60, _⟩ => ⟨S256x4x512, .bf16⟩
  | .local _ .vmem, ⟨61, _⟩ => ⟨S256x4x512, .bf16⟩
  | .local _ .vmem, ⟨62, _⟩ => ⟨S256x4, .f32⟩
  | .local _ .vmem, ⟨63, _⟩ => ⟨S256x4, .f32⟩
  | .local _ .vmem, ⟨64, _⟩ => ⟨S300x2048, .f32⟩
  | .local _ .vmem, ⟨65, _⟩ => ⟨S512x512, .f32⟩
  | .local _ .vmem, ⟨66, _⟩ => ⟨S1x2048, .f32⟩
  | .local _ .vmem, ⟨67, _⟩ => ⟨S512x1536, .f32⟩
  | .local _ .vmem, ⟨68, _⟩ => ⟨S256x512, .f32⟩
  | .local _ .vmem, ⟨69, _⟩ => ⟨S256x512, .f32⟩
  | .local _ .vmem, ⟨70, _⟩ => ⟨S256x512, .f32⟩
  | .local _ .vmem, ⟨71, _⟩ => ⟨S256x512, .f32⟩
  | .local _ .vmem, ⟨72, _⟩ => ⟨S256x300, .f32⟩
  | .local _ .vmem, ⟨73, _⟩ => ⟨S256x300, .f32⟩
  | .local _ .vmem, ⟨74, _⟩ => ⟨S256x4x512, .bf16⟩
  | .local _ .vmem, ⟨75, _⟩ => ⟨S256x4x512, .bf16⟩
  | .local _ .vmem, ⟨76, _⟩ => ⟨S256x4x512, .bf16⟩
  | .local _ .vmem, ⟨77, _⟩ => ⟨S256x4x512, .bf16⟩
  | .local _ .vmem, ⟨78, _⟩ => ⟨S256x4, .f32⟩
  | .local _ .vmem, ⟨79, _⟩ => ⟨S256x4, .f32⟩
  | .local _ .vmem, ⟨80, _⟩ => ⟨S300x2048, .f32⟩
  | .local _ .vmem, ⟨81, _⟩ => ⟨S512x512, .f32⟩
  | .local _ .vmem, ⟨82, _⟩ => ⟨S1x2048, .f32⟩
  | .local _ .vmem, ⟨83, _⟩ => ⟨S512x1536, .f32⟩
  | .local _ .vmem, ⟨84, _⟩ => ⟨S256x512, .f32⟩
  | .local _ .vmem, ⟨85, _⟩ => ⟨S256x512, .f32⟩
  | .local _ .vmem, ⟨86, _⟩ => ⟨S256x512, .f32⟩
  | .local _ .vmem, ⟨87, _⟩ => ⟨S256x512, .f32⟩
  | _, _ => ⟨S6x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_5 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55_0 : Ref sig .tc := ⟨.hbm, 75, rfl⟩
abbrev main_v55_1 : Ref sig .tc := ⟨.hbm, 76, rfl⟩
abbrev main_v56 : Ref sig .tc := ⟨.hbm, 77, rfl⟩
abbrev main_v57 : Ref sig .tc := ⟨.hbm, 78, rfl⟩
abbrev main_c_7 : Ref sig .tc := ⟨.hbm, 79, rfl⟩
abbrev main_v58 : Ref sig .tc := ⟨.hbm, 80, rfl⟩
abbrev main_v59 : Ref sig .tc := ⟨.hbm, 81, rfl⟩
abbrev main_c_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_9 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_11 : Ref sig .tc := ⟨.hbm, 108, rfl⟩
abbrev main_v83 : Ref sig .tc := ⟨.hbm, 109, rfl⟩
abbrev main_v84 : Ref sig .tc := ⟨.hbm, 110, rfl⟩
abbrev main_c_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92_0 : Ref sig .tc := ⟨.hbm, 119, rfl⟩
abbrev main_v92_1 : Ref sig .tc := ⟨.hbm, 120, rfl⟩
abbrev main_v93 : Ref sig .tc := ⟨.hbm, 121, rfl⟩
abbrev main_v94 : Ref sig .tc := ⟨.hbm, 122, rfl⟩
abbrev main_c_13 : Ref sig .tc := ⟨.hbm, 123, rfl⟩
abbrev main_v95 : Ref sig .tc := ⟨.hbm, 124, rfl⟩
abbrev main_v96 : Ref sig .tc := ⟨.hbm, 125, rfl⟩
abbrev main_c_14 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_15 : Ref sig .tc := ⟨.hbm, 141, rfl⟩
abbrev main_v111 : Ref sig .tc := ⟨.hbm, 142, rfl⟩
abbrev main_v112 : Ref sig .tc := ⟨.hbm, 143, rfl⟩
abbrev main_c_16 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_c_17 : Ref sig .tc := ⟨.hbm, 152, rfl⟩
abbrev main_v120 : Ref sig .tc := ⟨.hbm, 153, rfl⟩
abbrev main_v121 : Ref sig .tc := ⟨.hbm, 154, rfl⟩
abbrev main_c_18 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129_0 : Ref sig .tc := ⟨.hbm, 163, rfl⟩
abbrev main_v129_1 : Ref sig .tc := ⟨.hbm, 164, rfl⟩
abbrev main_v130 : Ref sig .tc := ⟨.hbm, 165, rfl⟩
abbrev main_v131 : Ref sig .tc := ⟨.hbm, 166, rfl⟩
abbrev main_c_19 : Ref sig .tc := ⟨.hbm, 167, rfl⟩
abbrev main_v132 : Ref sig .tc := ⟨.hbm, 168, rfl⟩
abbrev main_v133 : Ref sig .tc := ⟨.hbm, 169, rfl⟩
abbrev main_c_20 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_c_21 : Ref sig .tc := ⟨.hbm, 185, rfl⟩
abbrev main_v148 : Ref sig .tc := ⟨.hbm, 186, rfl⟩
abbrev main_v149 : Ref sig .tc := ⟨.hbm, 187, rfl⟩
abbrev main_c_22 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_c_23 : Ref sig .tc := ⟨.hbm, 196, rfl⟩
abbrev main_v157 : Ref sig .tc := ⟨.hbm, 197, rfl⟩
abbrev main_v158 : Ref sig .tc := ⟨.hbm, 198, rfl⟩
abbrev main_c_24 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166_0 : Ref sig .tc := ⟨.hbm, 207, rfl⟩
abbrev main_v166_1 : Ref sig .tc := ⟨.hbm, 208, rfl⟩
abbrev main_v167 : Ref sig .tc := ⟨.hbm, 209, rfl⟩
abbrev main_v168 : Ref sig .tc := ⟨.hbm, 210, rfl⟩
abbrev main_c_25 : Ref sig .tc := ⟨.hbm, 211, rfl⟩
abbrev main_v169 : Ref sig .tc := ⟨.hbm, 212, rfl⟩
abbrev main_v170 : Ref sig .tc := ⟨.hbm, 213, rfl⟩
abbrev main_c_26 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_c_27 : Ref sig .tc := ⟨.hbm, 229, rfl⟩
abbrev main_v185 : Ref sig .tc := ⟨.hbm, 230, rfl⟩
abbrev main_v186 : Ref sig .tc := ⟨.hbm, 231, rfl⟩
abbrev main_c_28 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_c_29 : Ref sig .tc := ⟨.hbm, 240, rfl⟩
abbrev main_v194 : Ref sig .tc := ⟨.hbm, 241, rfl⟩
abbrev main_v195 : Ref sig .tc := ⟨.hbm, 242, rfl⟩
abbrev main_c_30 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203_0 : Ref sig .tc := ⟨.hbm, 251, rfl⟩
abbrev main_v203_1 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg9_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg8_1 : Ref sig .tc := ⟨.vmem, 53, rfl⟩
abbrev cc3_stg9_0 : Ref sig .tc := ⟨.vmem, 54, rfl⟩
abbrev cc3_stg9_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg5_0 : Ref sig .tc := ⟨.vmem, 65, rfl⟩
abbrev cc4_stg6_0 : Ref sig .tc := ⟨.vmem, 66, rfl⟩
abbrev cc4_stg7_0 : Ref sig .tc := ⟨.vmem, 67, rfl⟩
abbrev cc4_stg8_0 : Ref sig .tc := ⟨.vmem, 68, rfl⟩
abbrev cc4_stg8_1 : Ref sig .tc := ⟨.vmem, 69, rfl⟩
abbrev cc4_stg9_0 : Ref sig .tc := ⟨.vmem, 70, rfl⟩
abbrev cc4_stg9_1 : Ref sig .tc := ⟨.vmem, 71, rfl⟩
abbrev cc5_stg0_0 : Ref sig .tc := ⟨.vmem, 72, rfl⟩
abbrev cc5_stg0_1 : Ref sig .tc := ⟨.vmem, 73, rfl⟩
abbrev cc5_stg1_0 : Ref sig .tc := ⟨.vmem, 74, rfl⟩
abbrev cc5_stg1_1 : Ref sig .tc := ⟨.vmem, 75, rfl⟩
abbrev cc5_stg2_0 : Ref sig .tc := ⟨.vmem, 76, rfl⟩
abbrev cc5_stg2_1 : Ref sig .tc := ⟨.vmem, 77, rfl⟩
abbrev cc5_stg3_0 : Ref sig .tc := ⟨.vmem, 78, rfl⟩
abbrev cc5_stg3_1 : Ref sig .tc := ⟨.vmem, 79, rfl⟩
abbrev cc5_stg4_0 : Ref sig .tc := ⟨.vmem, 80, rfl⟩
abbrev cc5_stg5_0 : Ref sig .tc := ⟨.vmem, 81, rfl⟩
abbrev cc5_stg6_0 : Ref sig .tc := ⟨.vmem, 82, rfl⟩
abbrev cc5_stg7_0 : Ref sig .tc := ⟨.vmem, 83, rfl⟩
abbrev cc5_stg8_0 : Ref sig .tc := ⟨.vmem, 84, rfl⟩
abbrev cc5_stg8_1 : Ref sig .tc := ⟨.vmem, 85, rfl⟩
abbrev cc5_stg9_0 : Ref sig .tc := ⟨.vmem, 86, rfl⟩
abbrev cc5_stg9_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem8_1 : DmaSem sig := 37
abbrev cc2_sem9_0 : DmaSem sig := 38
abbrev cc2_sem9_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem8_1 : DmaSem sig := 53
abbrev cc3_sem9_0 : DmaSem sig := 54
abbrev cc3_sem9_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem5_0 : DmaSem sig := 65
abbrev cc4_sem6_0 : DmaSem sig := 66
abbrev cc4_sem7_0 : DmaSem sig := 67
abbrev cc4_sem8_0 : DmaSem sig := 68
abbrev cc4_sem8_1 : DmaSem sig := 69
abbrev cc4_sem9_0 : DmaSem sig := 70
abbrev cc4_sem9_1 : DmaSem sig := 71
abbrev cc5_sem0_0 : DmaSem sig := 72
abbrev cc5_sem0_1 : DmaSem sig := 73
abbrev cc5_sem1_0 : DmaSem sig := 74
abbrev cc5_sem1_1 : DmaSem sig := 75
abbrev cc5_sem2_0 : DmaSem sig := 76
abbrev cc5_sem2_1 : DmaSem sig := 77
abbrev cc5_sem3_0 : DmaSem sig := 78
abbrev cc5_sem3_1 : DmaSem sig := 79
abbrev cc5_sem4_0 : DmaSem sig := 80
abbrev cc5_sem5_0 : DmaSem sig := 81
abbrev cc5_sem6_0 : DmaSem sig := 82
abbrev cc5_sem7_0 : DmaSem sig := 83
abbrev cc5_sem8_0 : DmaSem sig := 84
abbrev cc5_sem8_1 : DmaSem sig := 85
abbrev cc5_sem9_0 : DmaSem sig := 86
abbrev cc5_sem9_1 : DmaSem sig := 87

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S300x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1536 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S300x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x1536 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x4x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S300x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x1536 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S256x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S256x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x4x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x4 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S300x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2048 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512x1536 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S256x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S256x512 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x4x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x4x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x4 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S300x2048 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x2048 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512x1536 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S256x512 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S256x512 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  shapeCasts_S1536_S1x1536 : S1536.ShapeCasts S1x1536
  concatenates_S300x512_S300x1536_S300x2048_d1 : Shape.Concatenates [S300x512, S300x1536] S300x2048 1
  concatenates_S512_S1536_S2048_d0 : Shape.Concatenates [S512, S1536] S2048 0
  shapeCasts_S2048_S1x2048 : S2048.ShapeCasts S1x2048
  slices_S6x8192_S1x8192_5_0 : S6x8192.Slices ![5, 0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x300_0_1 : S8192x1.BroadcastsInDim S8192x300 (![0, 1] : Fin 2 → Fin S8192x300.rank)
  inb_S256x300_S256x300_0_0 : ∀ a, (![0, 0] : Fin 2 → Nat) a + S256x300.size a ≤ S256x300.size a
  h_S256x300 : 0 < S256x300.numel
  shapeCasts_S256x300_S256x300 : S256x300.ShapeCasts S256x300
  bitsLt_bf16_f32 : FTy.bits .bf16 < FTy.bits .f32
  inb_S300x1536_S300x1536_0_0 : ∀ a, (![0, 0] : Fin 2 → Nat) a + S300x1536.size a ≤ S300x1536.size a
  h_S300x1536 : 0 < S300x1536.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S256x1536 : S1x1536.Broadcasts S256x1536
  slices_S256x1536_o0_0_S256x512 : S256x1536.Slices ![0, 0] S256x512
  slices_S256x1536_o0_512_S256x512 : S256x1536.Slices ![0, 512] S256x512
  slices_S256x1536_o0_1024_S256x512 : S256x1536.Slices ![0, 1024] S256x512
  inb_S256x512_S256x512_0_0 : ∀ a, (![0, 0] : Fin 2 → Nat) a + S256x512.size a ≤ S256x512.size a
  h_S256x512 : 0 < S256x512.numel
  slices_S6x8192_S1x8192_4_0 : S6x8192.Slices ![4, 0] S1x8192
  slices_S6x8192x4_S1x8192x4_4_0_0 : S6x8192x4.Slices ![4, 0, 0] S1x8192x4
  shapeCasts_S1x8192x4_S8192x4 : S1x8192x4.ShapeCasts S8192x4
  bcast_S_S8192x4 : S_.BroadcastsInDim S8192x4 (![] : Fin 0 → Fin S8192x4.rank)
  bcast_S8192x4_S8192x4x1_0_1 : S8192x4.BroadcastsInDim S8192x4x1 (![0, 1] : Fin 2 → Fin S8192x4x1.rank)
  inb_S300x2048_S300x2048_0_0 : ∀ a, (![0, 0] : Fin 2 → Nat) a + S300x2048.size a ≤ S300x2048.size a
  h_S300x2048 : 0 < S300x2048.numel
  shapeCasts_S300x2048_S300x2048 : S300x2048.ShapeCasts S300x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x512 : S256x2048.Slices ![0, 0] S256x512
  slices_S256x2048_o0_512_S256x1536 : S256x2048.Slices ![0, 512] S256x1536
  inb_S256x4x512_S256x4x512_0_0_0 : ∀ a, (![0, 0, 0] : Fin 3 → Nat) a + S256x4x512.size a ≤ S256x4x512.size a
  h_S256x4x512 : 0 < S256x4x512.numel
  shapeCasts_S256x4x512_S256x4x512 : S256x4x512.ShapeCasts S256x4x512
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S512x512_S512x512_0_0 : ∀ a, (![0, 0] : Fin 2 → Nat) a + S512x512.size a ≤ S512x512.size a
  h_S512x512 : 0 < S512x512.numel
  slices_S256x4_o0_0_S256x1 : S256x4.Slices ![0, 0] S256x1
  slices_S256x4x512_o0_0_0_S256x1x512 : S256x4x512.Slices ![0, 0, 0] S256x1x512
  shapeCasts_S256x1x512_S256x512 : S256x1x512.ShapeCasts S256x512
  broadcasts_S256x1_S256x512 : S256x1.Broadcasts S256x512
  slices_S256x4_o0_1_S256x1 : S256x4.Slices ![0, 1] S256x1
  slices_S256x4x512_o0_1_0_S256x1x512 : S256x4x512.Slices ![0, 1, 0] S256x1x512
  slices_S256x4_o0_2_S256x1 : S256x4.Slices ![0, 2] S256x1
  slices_S256x4x512_o0_2_0_S256x1x512 : S256x4x512.Slices ![0, 2, 0] S256x1x512
  slices_S256x4_o0_3_S256x1 : S256x4.Slices ![0, 3] S256x1
  slices_S256x4x512_o0_3_0_S256x1x512 : S256x4x512.Slices ![0, 3, 0] S256x1x512
  inb_S512x1536_S512x1536_0_0 : ∀ a, (![0, 0] : Fin 2 → Nat) a + S512x1536.size a ≤ S512x1536.size a
  h_S512x1536 : 0 < S512x1536.numel
  slices_S6x8192_S1x8192_3_0 : S6x8192.Slices ![3, 0] S1x8192
  slices_S6x8192x4_S1x8192x4_3_0_0 : S6x8192x4.Slices ![3, 0, 0] S1x8192x4
  slices_S6x8192_S1x8192_2_0 : S6x8192.Slices ![2, 0] S1x8192
  slices_S6x8192x4_S1x8192x4_2_0_0 : S6x8192x4.Slices ![2, 0, 0] S1x8192x4
  slices_S6x8192_S1x8192_1_0 : S6x8192.Slices ![1, 0] S1x8192
  slices_S6x8192x4_S1x8192x4_1_0_0 : S6x8192x4.Slices ![1, 0, 0] S1x8192x4
  slices_S6x8192_S1x8192_0_0 : S6x8192.Slices ![0, 0] S1x8192
  slices_S6x8192x4_S1x8192x4_0_0_0 : S6x8192x4.Slices ![0, 0, 0] S1x8192x4
  gather_S50000x300_S8192x1_S8192x300_1_0_n_n_0_1_1300_wf : GatherDims.WF S50000x300 S8192x1 S8192x300 [1] [0] [] [0] [] 1 ![1, 300]
  dot_S256x300_S300x1536_S256x1536_1_0_0_1_n_n_wf : DotDims.WF S256x300 S300x1536 S256x1536 [1] [0] [0] [1] [] []
  gather_S8192x512_S8192x4x1_S8192x4x512_2_0_n_n_0_2_1512_wf : GatherDims.WF S8192x512 S8192x4x1 S8192x4x512 [2] [0] [] [0] [] 2 ![1, 512]
  dot_S256x300_S300x2048_S256x2048_1_0_0_1_n_n_wf : DotDims.WF S256x300 S300x2048 S256x2048 [1] [0] [0] [1] [] []
  dot_S256x512_S512x512_S256x512_1_0_0_1_n_n_wf : DotDims.WF S256x512 S512x512 S256x512 [1] [0] [0] [1] [] []
  dot_S256x512_S512x1536_S256x1536_1_0_0_1_n_n_wf : DotDims.WF S256x512 S512x1536 S256x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x300.size a ≤ S8192x300.size a
  hwx0_0 : ∀ i : grid0.Coords, EltTy.bits .f32 = 32 ∨ (Rect.block (s := S8192x300) S256x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x1536.size a ≤ S300x1536.size a
  hwx0_1 : ∀ i : grid0.Coords, EltTy.bits .f32 = 32 ∨ (Rect.block (s := S300x1536) S300x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x512.size a
  hwx0_3 : ∀ i : grid0.Coords, EltTy.bits .f32 = 32 ∨ (Rect.block (s := S8192x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x512.size a
  hwx0_4 : ∀ i : grid0.Coords, EltTy.bits .f32 = 32 ∨ (Rect.block (s := S8192x512) S256x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x300.size a ≤ S8192x300.size a
  hwx1_0 : ∀ i : grid1.Coords, EltTy.bits .f32 = 32 ∨ (Rect.block (s := S8192x300) S256x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4x512.size a ≤ S8192x4x512.size a
  hwx1_1 : ∀ i : grid1.Coords, EltTy.bits .bf16 = 32 ∨ (Rect.block (s := S8192x4x512) S256x4x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4x512.size a ≤ S8192x4x512.size a
  hwx1_2 : ∀ i : grid1.Coords, EltTy.bits .bf16 = 32 ∨ (Rect.block (s := S8192x4x512) S256x4x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4.size a ≤ S8192x4.size a
  hwx1_3 : ∀ i : grid1.Coords, EltTy.bits .f32 = 32 ∨ (Rect.block (s := S8192x4) S256x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300x2048.size a ≤ S300x2048.size a
  hwx1_4 : ∀ i : grid1.Coords, EltTy.bits .f32 = 32 ∨ (Rect.block (s := S300x2048) S300x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x1536.size a ≤ S512x1536.size a
  hwx1_7 : ∀ i : grid1.Coords, EltTy.bits .f32 = 32 ∨ (Rect.block (s := S512x1536) S512x1536.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x512.size a ≤ S8192x512.size a
  hwx1_8 : ∀ i : grid1.Coords, EltTy.bits .f32 = 32 ∨ (Rect.block (s := S8192x512) S256x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x512.size a ≤ S8192x512.size a
  hwx1_9 : ∀ i : grid1.Coords, EltTy.bits .f32 = 32 ∨ (Rect.block (s := S8192x512) S256x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x300.size a ≤ S8192x300.size a
  hwx2_0 : ∀ i : grid2.Coords, EltTy.bits .f32 = 32 ∨ (Rect.block (s := S8192x300) S256x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4x512.size a ≤ S8192x4x512.size a
  hwx2_1 : ∀ i : grid2.Coords, EltTy.bits .bf16 = 32 ∨ (Rect.block (s := S8192x4x512) S256x4x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4x512.size a ≤ S8192x4x512.size a
  hwx2_2 : ∀ i : grid2.Coords, EltTy.bits .bf16 = 32 ∨ (Rect.block (s := S8192x4x512) S256x4x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4.size a ≤ S8192x4.size a
  hwx2_3 : ∀ i : grid2.Coords, EltTy.bits .f32 = 32 ∨ (Rect.block (s := S8192x4) S256x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S300x2048.size a ≤ S300x2048.size a
  hwx2_4 : ∀ i : grid2.Coords, EltTy.bits .f32 = 32 ∨ (Rect.block (s := S300x2048) S300x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .f32 = 32 ∨ (Rect.block (s := S512x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x1536.size a ≤ S512x1536.size a
  hwx2_7 : ∀ i : grid2.Coords, EltTy.bits .f32 = 32 ∨ (Rect.block (s := S512x1536) S512x1536.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x512.size a ≤ S8192x512.size a
  hwx2_8 : ∀ i : grid2.Coords, EltTy.bits .f32 = 32 ∨ (Rect.block (s := S8192x512) S256x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S256x512.size a ≤ S8192x512.size a
  hwx2_9 : ∀ i : grid2.Coords, EltTy.bits .f32 = 32 ∨ (Rect.block (s := S8192x512) S256x512.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x300.size a ≤ S8192x300.size a
  hwx3_0 : ∀ i : grid3.Coords, EltTy.bits .f32 = 32 ∨ (Rect.block (s := S8192x300) S256x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x4x512.size a ≤ S8192x4x512.size a
  hwx3_1 : ∀ i : grid3.Coords, EltTy.bits .bf16 = 32 ∨ (Rect.block (s := S8192x4x512) S256x4x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x4x512.size a ≤ S8192x4x512.size a
  hwx3_2 : ∀ i : grid3.Coords, EltTy.bits .bf16 = 32 ∨ (Rect.block (s := S8192x4x512) S256x4x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x4.size a ≤ S8192x4.size a
  hwx3_3 : ∀ i : grid3.Coords, EltTy.bits .f32 = 32 ∨ (Rect.block (s := S8192x4) S256x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S300x2048.size a ≤ S300x2048.size a
  hwx3_4 : ∀ i : grid3.Coords, EltTy.bits .f32 = 32 ∨ (Rect.block (s := S300x2048) S300x2048.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S512x512.size a
  hwx3_5 : ∀ i : grid3.Coords, EltTy.bits .f32 = 32 ∨ (Rect.block (s := S512x512) S512x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2048.size a ≤ S1x2048.size a
  hwx3_6 : ∀ i : grid3.Coords, EltTy.bits .f32 = 32 ∨ (Rect.block (s := S1x2048) S1x2048.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x1536.size a ≤ S512x1536.size a
  hwx3_7 : ∀ i : grid3.Coords, EltTy.bits .f32 = 32 ∨ (Rect.block (s := S512x1536) S512x1536.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S256x512.size a ≤ S8192x512.size a
  hwx3_8 : ∀ i : grid3.Coords, EltTy.bits .f32 = 32 ∨ (Rect.block (s := S8192x512) S256x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S256x512.size a ≤ S8192x512.size a
  hwx3_9 : ∀ i : grid3.Coords, EltTy.bits .f32 = 32 ∨ (Rect.block (s := S8192x512) S256x512.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x300.size a ≤ S8192x300.size a
  hwx4_0 : ∀ i : grid4.Coords, EltTy.bits .f32 = 32 ∨ (Rect.block (s := S8192x300) S256x300.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x4x512.size a ≤ S8192x4x512.size a
  hwx4_1 : ∀ i : grid4.Coords, EltTy.bits .bf16 = 32 ∨ (Rect.block (s := S8192x4x512) S256x4x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x4x512.size a ≤ S8192x4x512.size a
  hwx4_2 : ∀ i : grid4.Coords, EltTy.bits .bf16 = 32 ∨ (Rect.block (s := S8192x4x512) S256x4x512.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x4.size a ≤ S8192x4.size a
  hwx4_3 : ∀ i : grid4.Coords, EltTy.bits .f32 = 32 ∨ (Rect.block (s := S8192x4) S256x4.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S300x2048.size a ≤ S300x2048.size a
  hwx4_4 : ∀ i : grid4.Coords, EltTy.bits .f32 = 32 ∨ (Rect.block (s := S300x2048) S300x2048.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x512.size a ≤ S512x512.size a
  hwx4_5 : ∀ i : grid4.Coords, EltTy.bits .f32 = 32 ∨ (Rect.block (s := S512x512) S512x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2048.size a ≤ S1x2048.size a
  hwx4_6 : ∀ i : grid4.Coords, EltTy.bits .f32 = 32 ∨ (Rect.block (s := S1x2048) S1x2048.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S512x1536.size a ≤ S512x1536.size a
  hwx4_7 : ∀ i : grid4.Coords, EltTy.bits .f32 = 32 ∨ (Rect.block (s := S512x1536) S512x1536.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S256x512.size a ≤ S8192x512.size a
  hwx4_8 : ∀ i : grid4.Coords, EltTy.bits .f32 = 32 ∨ (Rect.block (s := S8192x512) S256x512.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S256x512.size a ≤ S8192x512.size a
  hwx4_9 : ∀ i : grid4.Coords, EltTy.bits .f32 = 32 ∨ (Rect.block (s := S8192x512) S256x512.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x300.size a ≤ S8192x300.size a
  hwx5_0 : ∀ i : grid5.Coords, EltTy.bits .f32 = 32 ∨ (Rect.block (s := S8192x300) S256x300.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x4x512.size a ≤ S8192x4x512.size a
  hwx5_1 : ∀ i : grid5.Coords, EltTy.bits .bf16 = 32 ∨ (Rect.block (s := S8192x4x512) S256x4x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x4x512.size a ≤ S8192x4x512.size a
  hwx5_2 : ∀ i : grid5.Coords, EltTy.bits .bf16 = 32 ∨ (Rect.block (s := S8192x4x512) S256x4x512.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x4.size a ≤ S8192x4.size a
  hwx5_3 : ∀ i : grid5.Coords, EltTy.bits .f32 = 32 ∨ (Rect.block (s := S8192x4) S256x4.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S300x2048.size a ≤ S300x2048.size a
  hwx5_4 : ∀ i : grid5.Coords, EltTy.bits .f32 = 32 ∨ (Rect.block (s := S300x2048) S300x2048.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x512.size a ≤ S512x512.size a
  hwx5_5 : ∀ i : grid5.Coords, EltTy.bits .f32 = 32 ∨ (Rect.block (s := S512x512) S512x512.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x2048.size a ≤ S1x2048.size a
  hwx5_6 : ∀ i : grid5.Coords, EltTy.bits .f32 = 32 ∨ (Rect.block (s := S1x2048) S1x2048.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x1536.size a ≤ S512x1536.size a
  hwx5_7 : ∀ i : grid5.Coords, EltTy.bits .f32 = 32 ∨ (Rect.block (s := S512x1536) S512x1536.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S256x512.size a ≤ S8192x512.size a
  hwx5_8 : ∀ i : grid5.Coords, EltTy.bits .f32 = 32 ∨ (Rect.block (s := S8192x512) S256x512.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S256x512.size a ≤ S8192x512.size a
  hwx5_9 : ∀ i : grid5.Coords, EltTy.bits .f32 = 32 ∨ (Rect.block (s := S8192x512) S256x512.size (cc5_transform_9 i) (hinb5_9 i)).WholeWords (EltTy.packing .f32)

variable [Facts₀]

def gather_S50000x300_S8192x1_S8192x300_1_0_n_n_0_1_1300 : GatherDims S50000x300 S8192x1 S8192x300 where
  offsetDims := [1]
  collapsedSliceDims := [0]
  operandBatchingDims := []
  startIndicesBatchingDims := []
  startIndexMap := [0]
  indexVectorDim := 1
  sliceSizes := ![1, 300]
  wf := gather_S50000x300_S8192x1_S8192x300_1_0_n_n_0_1_1300_wf
def dot_S256x300_S300x1536_S256x1536_1_0_0_1_n_n : DotDims S256x300 S300x1536 S256x1536 where
  lhsContracting := [1]
  rhsContracting := [0]
  lhsNonContracting := [0]
  rhsNonContracting := [1]
  lhsBatch := []
  rhsBatch := []
  wf := dot_S256x300_S300x1536_S256x1536_1_0_0_1_n_n_wf
def gather_S8192x512_S8192x4x1_S8192x4x512_2_0_n_n_0_2_1512 : GatherDims S8192x512 S8192x4x1 S8192x4x512 where
  offsetDims := [2]
  collapsedSliceDims := [0]
  operandBatchingDims := []
  startIndicesBatchingDims := []
  startIndexMap := [0]
  indexVectorDim := 2
  sliceSizes := ![1, 512]
  wf := gather_S8192x512_S8192x4x1_S8192x4x512_2_0_n_n_0_2_1512_wf
def dot_S256x300_S300x2048_S256x2048_1_0_0_1_n_n : DotDims S256x300 S300x2048 S256x2048 where
  lhsContracting := [1]
  rhsContracting := [0]
  lhsNonContracting := [0]
  rhsNonContracting := [1]
  lhsBatch := []
  rhsBatch := []
  wf := dot_S256x300_S300x2048_S256x2048_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf

abbrev win0_0 : Pipeline.Window sig grid0 :=
  Pipeline.Window.ofSpec (Memref.whole main_v17) S256x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S300x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S256x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S256x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S256x4x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S256x4x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S256x4.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S300x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S512x1536.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v55_0) S256x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v55_1) S256x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v69) S256x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S256x4x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S256x4x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v91) S256x4.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S300x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg6) S512x1536.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v92_0) S256x512.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v92_1) S256x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v106) S256x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v117) S256x4x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v126) S256x4x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v128) S256x4.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v1) S300x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S512x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v3) S1x2048.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg6) S512x1536.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v129_0) S256x512.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v129_1) S256x512.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v143) S256x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v154) S256x4x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v163) S256x4x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v165) S256x4.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v1) S300x2048.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S512x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v3) S1x2048.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg6) S512x1536.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v166_0) S256x512.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v166_1) S256x512.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v180) S256x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v191) S256x4x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v200) S256x4x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v202) S256x4.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v1) S300x2048.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg9) S512x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v3) S1x2048.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg6) S512x1536.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v203_0) S256x512.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v203_1) S256x512.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S6x8192 : Shape := ⟨2, ![6, 8192]⟩
abbrev S6x8192x4 : Shape := ⟨3, ![6, 8192, 4]⟩
abbrev S50000x300 : Shape := ⟨2, ![50000, 300]⟩
abbrev S300x1536 : Shape := ⟨2, ![300, 1536]⟩
abbrev S512x1536 : Shape := ⟨2, ![512, 1536]⟩
abbrev S1536 : Shape := ⟨1, ![1536]⟩
abbrev S300x512 : Shape := ⟨2, ![300, 512]⟩
abbrev S512x512 : Shape := ⟨2, ![512, 512]⟩
abbrev S512 : Shape := ⟨1, ![512]⟩
abbrev S_ : Shape := ⟨0, ![]⟩
abbrev S8192x512 : Shape := ⟨2, ![8192, 512]⟩
abbrev S1x8192 : Shape := ⟨2, ![1, 8192]⟩
abbrev S8192 : Shape := ⟨1, ![8192]⟩
abbrev S8192x1 : Shape := ⟨2, ![8192, 1]⟩
abbrev S8192x300 : Shape := ⟨2, ![8192, 300]⟩
abbrev S8192x1536 : Shape := ⟨2, ![8192, 1536]⟩
abbrev S1x1536 : Shape := ⟨2, ![1, 1536]⟩
abbrev S1x8192x4 : Shape := ⟨3, ![1, 8192, 4]⟩
abbrev S8192x4 : Shape := ⟨2, ![8192, 4]⟩
abbrev S8192x4x1 : Shape := ⟨3, ![8192, 4, 1]⟩
abbrev S8192x4x512 : Shape := ⟨3, ![8192, 4, 512]⟩
abbrev S8192x1x512 : Shape := ⟨3, ![8192, 1, 512]⟩
abbrev S1x1x512 : Shape := ⟨3, ![1, 1, 512]⟩

abbrev nBuf : Space → Nat
  | .hbm => 546
  | .vmem => 0
  | .smem => 0
  | _ => 0

abbrev hbmTy0_0 (i : Nat) : BufTy := match i % 128 with
  | 0 => ⟨S6x8192, .i32⟩
  | 1 => ⟨S6x8192x4, .i32⟩
  | 2 => ⟨S6x8192, .f32⟩
  | 3 => ⟨S6x8192x4, .f32⟩
  | 4 => ⟨S50000x300, .f32⟩
  | 5 => ⟨S300x1536, .f32⟩
  | 6 => ⟨S512x1536, .f32⟩
  | 7 => ⟨S1536, .f32⟩
  | 8 => ⟨S300x512, .f32⟩
  | 9 => ⟨S512x512, .f32⟩
  | 10 => ⟨S512, .f32⟩
  | 11 => ⟨S_, .f32⟩
  | 12 => ⟨S8192x512, .f32⟩
  | 13 => ⟨S_, .f32⟩
  | 14 => ⟨S8192x512, .f32⟩
  | 15 => ⟨S1x8192, .i32⟩
  | 16 => ⟨S8192, .i32⟩
  | 17 => ⟨S_, .i32⟩
  | 18 => ⟨S8192, .i32⟩
  | 19 => ⟨S8192, .i1⟩
  | 20 => ⟨S_, .i32⟩
  | 21 => ⟨S8192, .i32⟩
  | 22 => ⟨S8192, .i32⟩
  | 23 => ⟨S8192, .i32⟩
  | 24 => ⟨S8192x1, .i32⟩
  | 25 => ⟨S8192x300, .f32⟩
  | 26 => ⟨S1x8192, .f32⟩
  | 27 => ⟨S8192, .f32⟩
  | 28 => ⟨S8192x1, .f32⟩
  | 29 => ⟨S8192x300, .f32⟩
  | 30 => ⟨S8192x300, .f32⟩
  | 31 => ⟨S8192x512, .f32⟩
  | 32 => ⟨S_, .f32⟩
  | 33 => ⟨S8192x512, .f32⟩
  | 34 => ⟨S_, .f32⟩
  | 35 => ⟨S8192x512, .f32⟩
  | 36 => ⟨S8192x1536, .f32⟩
  | 37 => ⟨S8192x1536, .f32⟩
  | 38 => ⟨S8192x1536, .f32⟩
  | 39 => ⟨S1x1536, .f32⟩
  | 40 => ⟨S8192x1536, .f32⟩
  | 41 => ⟨S8192x1536, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S8192x512, .f32⟩
  | 66 => ⟨S1x8192, .i32⟩
  | 67 => ⟨S8192, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x300, .f32⟩
  | 77 => ⟨S1x8192, .f32⟩
  | 78 => ⟨S8192, .f32⟩
  | 79 => ⟨S8192x1, .f32⟩
  | 80 => ⟨S8192x300, .f32⟩
  | 81 => ⟨S8192x300, .f32⟩
  | 82 => ⟨S8192x512, .f32⟩
  | 83 => ⟨S1x8192x4, .f32⟩
  | 84 => ⟨S8192x4, .f32⟩
  | 85 => ⟨S8192x4x1, .f32⟩
  | 86 => ⟨S1x8192x4, .i32⟩
  | 87 => ⟨S8192x4, .i32⟩
  | 88 => ⟨S_, .i32⟩
  | 89 => ⟨S8192x4, .i32⟩
  | 90 => ⟨S8192x4, .i1⟩
  | 91 => ⟨S_, .i32⟩
  | 92 => ⟨S8192x4, .i32⟩
  | 93 => ⟨S8192x4, .i32⟩
  | 94 => ⟨S8192x4, .i32⟩
  | 95 => ⟨S8192x4x1, .i32⟩
  | 96 => ⟨S8192x4x512, .f32⟩
  | 97 => ⟨S8192x4x512, .f32⟩
  | 98 => ⟨S8192x4x512, .f32⟩
  | 99 => ⟨S1x8192x4, .i32⟩
  | 100 => ⟨S8192x4, .i32⟩
  | 101 => ⟨S_, .i32⟩
  | 102 => ⟨S8192x4, .i32⟩
  | 103 => ⟨S8192x4, .i1⟩
  | 104 => ⟨S_, .i32⟩
  | 105 => ⟨S8192x4, .i32⟩
  | 106 => ⟨S8192x4, .i32⟩
  | 107 => ⟨S8192x4, .i32⟩
  | 108 => ⟨S8192x4x1, .i32⟩
  | 109 => ⟨S8192x4x512, .f32⟩
  | 110 => ⟨S8192x4x512, .f32⟩
  | 111 => ⟨S8192x4x512, .f32⟩
  | 112 => ⟨S_, .f32⟩
  | 113 => ⟨S8192x512, .f32⟩
  | 114 => ⟨S8192x1x512, .f32⟩
  | 115 => ⟨S8192x4x512, .f32⟩
  | 116 => ⟨S8192x4x512, .f32⟩
  | 117 => ⟨S8192x4x512, .f32⟩
  | 118 => ⟨S1x1x512, .f32⟩
  | 119 => ⟨S8192x4x512, .f32⟩
  | 120 => ⟨S8192x4x512, .f32⟩
  | 121 => ⟨S8192x4x512, .f32⟩
  | 122 => ⟨S8192x4x512, .f32⟩
  | 123 => ⟨S_, .f32⟩
  | 124 => ⟨S8192x4x512, .f32⟩
  | 125 => ⟨S8192x4x512, .f32⟩
  | 126 => ⟨S_, .f32⟩
  | 127 => ⟨S8192x4x512, .f32⟩
  | _ => ⟨S6x8192, .i32⟩

abbrev hbmTy0_1 (i : Nat) : BufTy := match i % 128 with
  | 0 => ⟨S8192x4x512, .f32⟩
  | 1 => ⟨S8192x4x512, .f32⟩
  | 2 => ⟨S_, .f32⟩
  | 3 => ⟨S8192x512, .f32⟩
  | 4 => ⟨S8192x1536, .f32⟩
  | 5 => ⟨S8192x1536, .f32⟩
  | 6 => ⟨S8192x1536, .f32⟩
  | 7 => ⟨S1x1536, .f32⟩
  | 8 => ⟨S8192x1536, .f32⟩
  | 9 => ⟨S8192x1536, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x512, .f32⟩
  | 33 => ⟨S8192x512, .f32⟩
  | 34 => ⟨S1x8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x300, .f32⟩
  | 45 => ⟨S1x8192, .f32⟩
  | 46 => ⟨S8192, .f32⟩
  | 47 => ⟨S8192x1, .f32⟩
  | 48 => ⟨S8192x300, .f32⟩
  | 49 => ⟨S8192x300, .f32⟩
  | 50 => ⟨S8192x512, .f32⟩
  | 51 => ⟨S1x8192x4, .f32⟩
  | 52 => ⟨S8192x4, .f32⟩
  | 53 => ⟨S8192x4x1, .f32⟩
  | 54 => ⟨S1x8192x4, .i32⟩
  | 55 => ⟨S8192x4, .i32⟩
  | 56 => ⟨S_, .i32⟩
  | 57 => ⟨S8192x4, .i32⟩
  | 58 => ⟨S8192x4, .i1⟩
  | 59 => ⟨S_, .i32⟩
  | 60 => ⟨S8192x4, .i32⟩
  | 61 => ⟨S8192x4, .i32⟩
  | 62 => ⟨S8192x4, .i32⟩
  | 63 => ⟨S8192x4x1, .i32⟩
  | 64 => ⟨S8192x4x512, .f32⟩
  | 65 => ⟨S8192x4x512, .f32⟩
  | 66 => ⟨S8192x4x512, .f32⟩
  | 67 => ⟨S1x8192x4, .i32⟩
  | 68 => ⟨S8192x4, .i32⟩
  | 69 => ⟨S_, .i32⟩
  | 70 => ⟨S8192x4, .i32⟩
  | 71 => ⟨S8192x4, .i1⟩
  | 72 => ⟨S_, .i32⟩
  | 73 => ⟨S8192x4, .i32⟩
  | 74 => ⟨S8192x4, .i32⟩
  | 75 => ⟨S8192x4, .i32⟩
  | 76 => ⟨S8192x4x1, .i32⟩
  | 77 => ⟨S8192x4x512, .f32⟩
  | 78 => ⟨S8192x4x512, .f32⟩
  | 79 => ⟨S8192x4x512, .f32⟩
  | 80 => ⟨S_, .f32⟩
  | 81 => ⟨S8192x512, .f32⟩
  | 82 => ⟨S8192x1x512, .f32⟩
  | 83 => ⟨S8192x4x512, .f32⟩
  | 84 => ⟨S8192x4x512, .f32⟩
  | 85 => ⟨S8192x4x512, .f32⟩
  | 86 => ⟨S1x1x512, .f32⟩
  | 87 => ⟨S8192x4x512, .f32⟩
  | 88 => ⟨S8192x4x512, .f32⟩
  | 89 => ⟨S8192x4x512, .f32⟩
  | 90 => ⟨S8192x4x512, .f32⟩
  | 91 => ⟨S_, .f32⟩
  | 92 => ⟨S8192x4x512, .f32⟩
  | 93 => ⟨S8192x4x512, .f32⟩
  | 94 => ⟨S_, .f32⟩
  | 95 => ⟨S8192x4x512, .f32⟩
  | 96 => ⟨S8192x4x512, .f32⟩
  | 97 => ⟨S8192x4x512, .f32⟩
  | 98 => ⟨S_, .f32⟩
  | 99 => ⟨S8192x512, .f32⟩
  | 100 => ⟨S8192x1536, .f32⟩
  | 101 => ⟨S8192x1536, .f32⟩
  | 102 => ⟨S8192x1536, .f32⟩
  | 103 => ⟨S1x1536, .f32⟩
  | 104 => ⟨S8192x1536, .f32⟩
  | 105 => ⟨S8192x1536, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S_, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S_, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S6x8192, .i32⟩

abbrev hbmTy0_2 (i : Nat) : BufTy := match i % 128 with
  | 0 => ⟨S8192x512, .f32⟩
  | 1 => ⟨S8192x512, .f32⟩
  | 2 => ⟨S1x8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x300, .f32⟩
  | 13 => ⟨S1x8192, .f32⟩
  | 14 => ⟨S8192, .f32⟩
  | 15 => ⟨S8192x1, .f32⟩
  | 16 => ⟨S8192x300, .f32⟩
  | 17 => ⟨S8192x300, .f32⟩
  | 18 => ⟨S8192x512, .f32⟩
  | 19 => ⟨S1x8192x4, .f32⟩
  | 20 => ⟨S8192x4, .f32⟩
  | 21 => ⟨S8192x4x1, .f32⟩
  | 22 => ⟨S1x8192x4, .i32⟩
  | 23 => ⟨S8192x4, .i32⟩
  | 24 => ⟨S_, .i32⟩
  | 25 => ⟨S8192x4, .i32⟩
  | 26 => ⟨S8192x4, .i1⟩
  | 27 => ⟨S_, .i32⟩
  | 28 => ⟨S8192x4, .i32⟩
  | 29 => ⟨S8192x4, .i32⟩
  | 30 => ⟨S8192x4, .i32⟩
  | 31 => ⟨S8192x4x1, .i32⟩
  | 32 => ⟨S8192x4x512, .f32⟩
  | 33 => ⟨S8192x4x512, .f32⟩
  | 34 => ⟨S8192x4x512, .f32⟩
  | 35 => ⟨S1x8192x4, .i32⟩
  | 36 => ⟨S8192x4, .i32⟩
  | 37 => ⟨S_, .i32⟩
  | 38 => ⟨S8192x4, .i32⟩
  | 39 => ⟨S8192x4, .i1⟩
  | 40 => ⟨S_, .i32⟩
  | 41 => ⟨S8192x4, .i32⟩
  | 42 => ⟨S8192x4, .i32⟩
  | 43 => ⟨S8192x4, .i32⟩
  | 44 => ⟨S8192x4x1, .i32⟩
  | 45 => ⟨S8192x4x512, .f32⟩
  | 46 => ⟨S8192x4x512, .f32⟩
  | 47 => ⟨S8192x4x512, .f32⟩
  | 48 => ⟨S_, .f32⟩
  | 49 => ⟨S8192x512, .f32⟩
  | 50 => ⟨S8192x1x512, .f32⟩
  | 51 => ⟨S8192x4x512, .f32⟩
  | 52 => ⟨S8192x4x512, .f32⟩
  | 53 => ⟨S8192x4x512, .f32⟩
  | 54 => ⟨S1x1x512, .f32⟩
  | 55 => ⟨S8192x4x512, .f32⟩
  | 56 => ⟨S8192x4x512, .f32⟩
  | 57 => ⟨S8192x4x512, .f32⟩
  | 58 => ⟨S8192x4x512, .f32⟩
  | 59 => ⟨S_, .f32⟩
  | 60 => ⟨S8192x4x512, .f32⟩
  | 61 => ⟨S8192x4x512, .f32⟩
  | 62 => ⟨S_, .f32⟩
  | 63 => ⟨S8192x4x512, .f32⟩
  | 64 => ⟨S8192x4x512, .f32⟩
  | 65 => ⟨S8192x4x512, .f32⟩
  | 66 => ⟨S_, .f32⟩
  | 67 => ⟨S8192x512, .f32⟩
  | 68 => ⟨S8192x1536, .f32⟩
  | 69 => ⟨S8192x1536, .f32⟩
  | 70 => ⟨S8192x1536, .f32⟩
  | 71 => ⟨S1x1536, .f32⟩
  | 72 => ⟨S8192x1536, .f32⟩
  | 73 => ⟨S8192x1536, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S8192x512, .f32⟩
  | 97 => ⟨S8192x512, .f32⟩
  | 98 => ⟨S1x8192, .i32⟩
  | 99 => ⟨S8192, .i32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192x300, .f32⟩
  | 109 => ⟨S1x8192, .f32⟩
  | 110 => ⟨S8192, .f32⟩
  | 111 => ⟨S8192x1, .f32⟩
  | 112 => ⟨S8192x300, .f32⟩
  | 113 => ⟨S8192x300, .f32⟩
  | 114 => ⟨S8192x512, .f32⟩
  | 115 => ⟨S1x8192x4, .f32⟩
  | 116 => ⟨S8192x4, .f32⟩
  | 117 => ⟨S8192x4x1, .f32⟩
  | 118 => ⟨S1x8192x4, .i32⟩
  | 119 => ⟨S8192x4, .i32⟩
  | 120 => ⟨S_, .i32⟩
  | 121 => ⟨S8192x4, .i32⟩
  | 122 => ⟨S8192x4, .i1⟩
  | 123 => ⟨S_, .i32⟩
  | 124 => ⟨S8192x4, .i32⟩
  | 125 => ⟨S8192x4, .i32⟩
  | 126 => ⟨S8192x4, .i32⟩
  | 127 => ⟨S8192x4x1, .i32⟩
  | _ => ⟨S6x8192, .i32⟩

abbrev hbmTy0_3 (i : Nat) : BufTy := match i % 128 with
  | 0 => ⟨S8192x4x512, .f32⟩
  | 1 => ⟨S8192x4x512, .f32⟩
  | 2 => ⟨S8192x4x512, .f32⟩
  | 3 => ⟨S1x8192x4, .i32⟩
  | 4 => ⟨S8192x4, .i32⟩
  | 5 => ⟨S_, .i32⟩
  | 6 => ⟨S8192x4, .i32⟩
  | 7 => ⟨S8192x4, .i1⟩
  | 8 => ⟨S_, .i32⟩
  | 9 => ⟨S8192x4, .i32⟩
  | 10 => ⟨S8192x4, .i32⟩
  | 11 => ⟨S8192x4, .i32⟩
  | 12 => ⟨S8192x4x1, .i32⟩
  | 13 => ⟨S8192x4x512, .f32⟩
  | 14 => ⟨S8192x4x512, .f32⟩
  | 15 => ⟨S8192x4x512, .f32⟩
  | 16 => ⟨S_, .f32⟩
  | 17 => ⟨S8192x512, .f32⟩
  | 18 => ⟨S8192x1x512, .f32⟩
  | 19 => ⟨S8192x4x512, .f32⟩
  | 20 => ⟨S8192x4x512, .f32⟩
  | 21 => ⟨S8192x4x512, .f32⟩
  | 22 => ⟨S1x1x512, .f32⟩
  | 23 => ⟨S8192x4x512, .f32⟩
  | 24 => ⟨S8192x4x512, .f32⟩
  | 25 => ⟨S8192x4x512, .f32⟩
  | 26 => ⟨S8192x4x512, .f32⟩
  | 27 => ⟨S_, .f32⟩
  | 28 => ⟨S8192x4x512, .f32⟩
  | 29 => ⟨S8192x4x512, .f32⟩
  | 30 => ⟨S_, .f32⟩
  | 31 => ⟨S8192x4x512, .f32⟩
  | 32 => ⟨S8192x4x512, .f32⟩
  | 33 => ⟨S8192x4x512, .f32⟩
  | 34 => ⟨S_, .f32⟩
  | 35 => ⟨S8192x512, .f32⟩
  | 36 => ⟨S8192x1536, .f32⟩
  | 37 => ⟨S8192x1536, .f32⟩
  | 38 => ⟨S8192x1536, .f32⟩
  | 39 => ⟨S1x1536, .f32⟩
  | 40 => ⟨S8192x1536, .f32⟩
  | 41 => ⟨S8192x1536, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S8192x512, .f32⟩
  | 66 => ⟨S1x8192, .i32⟩
  | 67 => ⟨S8192, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x300, .f32⟩
  | 77 => ⟨S1x8192, .f32⟩
  | 78 => ⟨S8192, .f32⟩
  | 79 => ⟨S8192x1, .f32⟩
  | 80 => ⟨S8192x300, .f32⟩
  | 81 => ⟨S8192x300, .f32⟩
  | 82 => ⟨S8192x512, .f32⟩
  | 83 => ⟨S1x8192x4, .f32⟩
  | 84 => ⟨S8192x4, .f32⟩
  | 85 => ⟨S8192x4x1, .f32⟩
  | 86 => ⟨S1x8192x4, .i32⟩
  | 87 => ⟨S8192x4, .i32⟩
  | 88 => ⟨S_, .i32⟩
  | 89 => ⟨S8192x4, .i32⟩
  | 90 => ⟨S8192x4, .i1⟩
  | 91 => ⟨S_, .i32⟩
  | 92 => ⟨S8192x4, .i32⟩
  | 93 => ⟨S8192x4, .i32⟩
  | 94 => ⟨S8192x4, .i32⟩
  | 95 => ⟨S8192x4x1, .i32⟩
  | 96 => ⟨S8192x4x512, .f32⟩
  | 97 => ⟨S8192x4x512, .f32⟩
  | 98 => ⟨S8192x4x512, .f32⟩
  | 99 => ⟨S1x8192x4, .i32⟩
  | 100 => ⟨S8192x4, .i32⟩
  | 101 => ⟨S_, .i32⟩
  | 102 => ⟨S8192x4, .i32⟩
  | 103 => ⟨S8192x4, .i1⟩
  | 104 => ⟨S_, .i32⟩
  | 105 => ⟨S8192x4, .i32⟩
  | 106 => ⟨S8192x4, .i32⟩
  | 107 => ⟨S8192x4, .i32⟩
  | 108 => ⟨S8192x4x1, .i32⟩
  | 109 => ⟨S8192x4x512, .f32⟩
  | 110 => ⟨S8192x4x512, .f32⟩
  | 111 => ⟨S8192x4x512, .f32⟩
  | 112 => ⟨S_, .f32⟩
  | 113 => ⟨S8192x512, .f32⟩
  | 114 => ⟨S8192x1x512, .f32⟩
  | 115 => ⟨S8192x4x512, .f32⟩
  | 116 => ⟨S8192x4x512, .f32⟩
  | 117 => ⟨S8192x4x512, .f32⟩
  | 118 => ⟨S1x1x512, .f32⟩
  | 119 => ⟨S8192x4x512, .f32⟩
  | 120 => ⟨S8192x4x512, .f32⟩
  | 121 => ⟨S8192x4x512, .f32⟩
  | 122 => ⟨S8192x4x512, .f32⟩
  | 123 => ⟨S_, .f32⟩
  | 124 => ⟨S8192x4x512, .f32⟩
  | 125 => ⟨S8192x4x512, .f32⟩
  | 126 => ⟨S_, .f32⟩
  | 127 => ⟨S8192x4x512, .f32⟩
  | _ => ⟨S6x8192, .i32⟩

abbrev hbmTy0_4 (i : Nat) : BufTy := match i % 128 with
  | 0 => ⟨S8192x4x512, .f32⟩
  | 1 => ⟨S8192x4x512, .f32⟩
  | 2 => ⟨S_, .f32⟩
  | 3 => ⟨S8192x512, .f32⟩
  | 4 => ⟨S8192x1536, .f32⟩
  | 5 => ⟨S8192x1536, .f32⟩
  | 6 => ⟨S8192x1536, .f32⟩
  | 7 => ⟨S1x1536, .f32⟩
  | 8 => ⟨S8192x1536, .f32⟩
  | 9 => ⟨S8192x1536, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x512, .f32⟩
  | 33 => ⟨S8192x512, .f32⟩
  | _ => ⟨S6x8192, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S6x8192, .i32⟩

abbrev bufTy : (tb : Table) → Fin (tcTables nBuf tb) → BufTy
  | .hbm, ⟨i, _⟩ => hbmTy i
  | _, _ => ⟨S6x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_10 : Ref sig .tc := ⟨.hbm, 88, rfl⟩
abbrev main_v65 : Ref sig .tc := ⟨.hbm, 89, rfl⟩
abbrev main_v66 : Ref sig .tc := ⟨.hbm, 90, rfl⟩
abbrev main_c_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_12 : Ref sig .tc := ⟨.hbm, 101, rfl⟩
abbrev main_v76 : Ref sig .tc := ⟨.hbm, 102, rfl⟩
abbrev main_v77 : Ref sig .tc := ⟨.hbm, 103, rfl⟩
abbrev main_c_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_15 : Ref sig .tc := ⟨.hbm, 123, rfl⟩
abbrev main_v95 : Ref sig .tc := ⟨.hbm, 124, rfl⟩
abbrev main_v96 : Ref sig .tc := ⟨.hbm, 125, rfl⟩
abbrev main_cst_16 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_17 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_18 : Ref sig .tc := ⟨.hbm, 143, rfl⟩
abbrev main_v112 : Ref sig .tc := ⟨.hbm, 144, rfl⟩
abbrev main_v113 : Ref sig .tc := ⟨.hbm, 145, rfl⟩
abbrev main_cst_19 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_20 : Ref sig .tc := ⟨.hbm, 154, rfl⟩
abbrev main_v121 : Ref sig .tc := ⟨.hbm, 155, rfl⟩
abbrev main_v122 : Ref sig .tc := ⟨.hbm, 156, rfl⟩
abbrev main_cst_21 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_c_22 : Ref sig .tc := ⟨.hbm, 164, rfl⟩
abbrev main_v129 : Ref sig .tc := ⟨.hbm, 165, rfl⟩
abbrev main_v130 : Ref sig .tc := ⟨.hbm, 166, rfl⟩
abbrev main_c_23 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_c_24 : Ref sig .tc := ⟨.hbm, 184, rfl⟩
abbrev main_v147 : Ref sig .tc := ⟨.hbm, 185, rfl⟩
abbrev main_v148 : Ref sig .tc := ⟨.hbm, 186, rfl⟩
abbrev main_c_25 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_c_26 : Ref sig .tc := ⟨.hbm, 197, rfl⟩
abbrev main_v158 : Ref sig .tc := ⟨.hbm, 198, rfl⟩
abbrev main_v159 : Ref sig .tc := ⟨.hbm, 199, rfl⟩
abbrev main_c_27 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_28 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_29 : Ref sig .tc := ⟨.hbm, 219, rfl⟩
abbrev main_v177 : Ref sig .tc := ⟨.hbm, 220, rfl⟩
abbrev main_v178 : Ref sig .tc := ⟨.hbm, 221, rfl⟩
abbrev main_cst_30 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_cst_31 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_cst_32 : Ref sig .tc := ⟨.hbm, 239, rfl⟩
abbrev main_v194 : Ref sig .tc := ⟨.hbm, 240, rfl⟩
abbrev main_v195 : Ref sig .tc := ⟨.hbm, 241, rfl⟩
abbrev main_cst_33 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_cst_34 : Ref sig .tc := ⟨.hbm, 250, rfl⟩
abbrev main_v203 : Ref sig .tc := ⟨.hbm, 251, rfl⟩
abbrev main_v204 : Ref sig .tc := ⟨.hbm, 252, rfl⟩
abbrev main_cst_35 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_c_36 : Ref sig .tc := ⟨.hbm, 260, rfl⟩
abbrev main_v211 : Ref sig .tc := ⟨.hbm, 261, rfl⟩
abbrev main_v212 : Ref sig .tc := ⟨.hbm, 262, rfl⟩
abbrev main_c_37 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_c_38 : Ref sig .tc := ⟨.hbm, 280, rfl⟩
abbrev main_v229 : Ref sig .tc := ⟨.hbm, 281, rfl⟩
abbrev main_v230 : Ref sig .tc := ⟨.hbm, 282, rfl⟩
abbrev main_c_39 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_c_40 : Ref sig .tc := ⟨.hbm, 293, rfl⟩
abbrev main_v240 : Ref sig .tc := ⟨.hbm, 294, rfl⟩
abbrev main_v241 : Ref sig .tc := ⟨.hbm, 295, rfl⟩
abbrev main_c_41 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_cst_42 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_cst_43 : Ref sig .tc := ⟨.hbm, 315, rfl⟩
abbrev main_v259 : Ref sig .tc := ⟨.hbm, 316, rfl⟩
abbrev main_v260 : Ref sig .tc := ⟨.hbm, 317, rfl⟩
abbrev main_cst_44 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_cst_45 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_cst_46 : Ref sig .tc := ⟨.hbm, 335, rfl⟩
abbrev main_v276 : Ref sig .tc := ⟨.hbm, 336, rfl⟩
abbrev main_v277 : Ref sig .tc := ⟨.hbm, 337, rfl⟩
abbrev main_cst_47 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_cst_48 : Ref sig .tc := ⟨.hbm, 346, rfl⟩
abbrev main_v285 : Ref sig .tc := ⟨.hbm, 347, rfl⟩
abbrev main_v286 : Ref sig .tc := ⟨.hbm, 348, rfl⟩
abbrev main_cst_49 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_c_50 : Ref sig .tc := ⟨.hbm, 356, rfl⟩
abbrev main_v293 : Ref sig .tc := ⟨.hbm, 357, rfl⟩
abbrev main_v294 : Ref sig .tc := ⟨.hbm, 358, rfl⟩
abbrev main_c_51 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_c_52 : Ref sig .tc := ⟨.hbm, 376, rfl⟩
abbrev main_v311 : Ref sig .tc := ⟨.hbm, 377, rfl⟩
abbrev main_v312 : Ref sig .tc := ⟨.hbm, 378, rfl⟩
abbrev main_c_53 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_c_54 : Ref sig .tc := ⟨.hbm, 389, rfl⟩
abbrev main_v322 : Ref sig .tc := ⟨.hbm, 390, rfl⟩
abbrev main_v323 : Ref sig .tc := ⟨.hbm, 391, rfl⟩
abbrev main_c_55 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_cst_56 : Ref sig .tc := ⟨.hbm, 400, rfl⟩
abbrev main_v331 : Ref sig .tc := ⟨.hbm, 401, rfl⟩
abbrev main_v332 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_cst_57 : Ref sig .tc := ⟨.hbm, 411, rfl⟩
abbrev main_v341 : Ref sig .tc := ⟨.hbm, 412, rfl⟩
abbrev main_v342 : Ref sig .tc := ⟨.hbm, 413, rfl⟩
abbrev main_cst_58 : Ref sig .tc := ⟨.hbm, 414, rfl⟩
abbrev main_v343 : Ref sig .tc := ⟨.hbm, 415, rfl⟩
abbrev main_v344 : Ref sig .tc := ⟨.hbm, 416, rfl⟩
abbrev main_v345 : Ref sig .tc := ⟨.hbm, 417, rfl⟩
abbrev main_cst_59 : Ref sig .tc := ⟨.hbm, 418, rfl⟩
abbrev main_v346 : Ref sig .tc := ⟨.hbm, 419, rfl⟩
abbrev main_v347 : Ref sig .tc := ⟨.hbm, 420, rfl⟩
abbrev main_v348 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_cst_60 : Ref sig .tc := ⟨.hbm, 431, rfl⟩
abbrev main_v358 : Ref sig .tc := ⟨.hbm, 432, rfl⟩
abbrev main_v359 : Ref sig .tc := ⟨.hbm, 433, rfl⟩
abbrev main_cst_61 : Ref sig .tc := ⟨.hbm, 434, rfl⟩
abbrev main_v360 : Ref sig .tc := ⟨.hbm, 435, rfl⟩
abbrev main_v361 : Ref sig .tc := ⟨.hbm, 436, rfl⟩
abbrev main_v362 : Ref sig .tc := ⟨.hbm, 437, rfl⟩
abbrev main_v363 : Ref sig .tc := ⟨.hbm, 438, rfl⟩
abbrev main_v364 : Ref sig .tc := ⟨.hbm, 439, rfl⟩
abbrev main_v365 : Ref sig .tc := ⟨.hbm, 440, rfl⟩
abbrev main_v366 : Ref sig .tc := ⟨.hbm, 441, rfl⟩
abbrev main_cst_62 : Ref sig .tc := ⟨.hbm, 442, rfl⟩
abbrev main_v367 : Ref sig .tc := ⟨.hbm, 443, rfl⟩
abbrev main_v368 : Ref sig .tc := ⟨.hbm, 444, rfl⟩
abbrev main_cst_63 : Ref sig .tc := ⟨.hbm, 445, rfl⟩
abbrev main_v369 : Ref sig .tc := ⟨.hbm, 446, rfl⟩
abbrev main_v370 : Ref sig .tc := ⟨.hbm, 447, rfl⟩
abbrev main_v371 : Ref sig .tc := ⟨.hbm, 448, rfl⟩
abbrev main_v372 : Ref sig .tc := ⟨.hbm, 449, rfl⟩
abbrev main_v373 : Ref sig .tc := ⟨.hbm, 450, rfl⟩
abbrev main_v374 : Ref sig .tc := ⟨.hbm, 451, rfl⟩
abbrev main_c_64 : Ref sig .tc := ⟨.hbm, 452, rfl⟩
abbrev main_v375 : Ref sig .tc := ⟨.hbm, 453, rfl⟩
abbrev main_v376 : Ref sig .tc := ⟨.hbm, 454, rfl⟩
abbrev main_c_65 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_v380 : Ref sig .tc := ⟨.hbm, 459, rfl⟩
abbrev main_v381 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_v385 : Ref sig .tc := ⟨.hbm, 464, rfl⟩
abbrev main_v386 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_v392 : Ref sig .tc := ⟨.hbm, 471, rfl⟩
abbrev main_c_66 : Ref sig .tc := ⟨.hbm, 472, rfl⟩
abbrev main_v393 : Ref sig .tc := ⟨.hbm, 473, rfl⟩
abbrev main_v394 : Ref sig .tc := ⟨.hbm, 474, rfl⟩
abbrev main_c_67 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_v398 : Ref sig .tc := ⟨.hbm, 479, rfl⟩
abbrev main_v399 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_c_68 : Ref sig .tc := ⟨.hbm, 485, rfl⟩
abbrev main_v404 : Ref sig .tc := ⟨.hbm, 486, rfl⟩
abbrev main_v405 : Ref sig .tc := ⟨.hbm, 487, rfl⟩
abbrev main_c_69 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_cst_70 : Ref sig .tc := ⟨.hbm, 496, rfl⟩
abbrev main_v413 : Ref sig .tc := ⟨.hbm, 497, rfl⟩
abbrev main_v414 : Ref sig .tc := ⟨.hbm, 498, rfl⟩
abbrev main_v415 : Ref sig .tc := ⟨.hbm, 499, rfl⟩
abbrev main_v416 : Ref sig .tc := ⟨.hbm, 500, rfl⟩
abbrev main_v417 : Ref sig .tc := ⟨.hbm, 501, rfl⟩
abbrev main_v418 : Ref sig .tc := ⟨.hbm, 502, rfl⟩
abbrev main_v419 : Ref sig .tc := ⟨.hbm, 503, rfl⟩
abbrev main_v420 : Ref sig .tc := ⟨.hbm, 504, rfl⟩
abbrev main_v421 : Ref sig .tc := ⟨.hbm, 505, rfl⟩
abbrev main_v422 : Ref sig .tc := ⟨.hbm, 506, rfl⟩
abbrev main_cst_71 : Ref sig .tc := ⟨.hbm, 507, rfl⟩
abbrev main_v423 : Ref sig .tc := ⟨.hbm, 508, rfl⟩
abbrev main_v424 : Ref sig .tc := ⟨.hbm, 509, rfl⟩
abbrev main_cst_72 : Ref sig .tc := ⟨.hbm, 510, rfl⟩
abbrev main_v425 : Ref sig .tc := ⟨.hbm, 511, rfl⟩
abbrev main_v426 : Ref sig .tc := ⟨.hbm, 512, rfl⟩
abbrev main_v427 : Ref sig .tc := ⟨.hbm, 513, rfl⟩
abbrev main_cst_73 : Ref sig .tc := ⟨.hbm, 514, rfl⟩
abbrev main_v428 : Ref sig .tc := ⟨.hbm, 515, rfl⟩
abbrev main_v429 : Ref sig .tc := ⟨.hbm, 516, rfl⟩
abbrev main_v430 : Ref sig .tc := ⟨.hbm, 517, rfl⟩
abbrev main_v431 : Ref sig .tc := ⟨.hbm, 518, rfl⟩
abbrev main_v432 : Ref sig .tc := ⟨.hbm, 519, rfl⟩
abbrev main_v433 : Ref sig .tc := ⟨.hbm, 520, rfl⟩
abbrev main_v434 : Ref sig .tc := ⟨.hbm, 521, rfl⟩
abbrev main_v435 : Ref sig .tc := ⟨.hbm, 522, rfl⟩
abbrev main_v436 : Ref sig .tc := ⟨.hbm, 523, rfl⟩
abbrev main_v437 : Ref sig .tc := ⟨.hbm, 524, rfl⟩
abbrev main_v438 : Ref sig .tc := ⟨.hbm, 525, rfl⟩
abbrev main_v439 : Ref sig .tc := ⟨.hbm, 526, rfl⟩
abbrev main_cst_74 : Ref sig .tc := ⟨.hbm, 527, rfl⟩
abbrev main_v440 : Ref sig .tc := ⟨.hbm, 528, rfl⟩
abbrev main_v441 : Ref sig .tc := ⟨.hbm, 529, rfl⟩
abbrev main_cst_75 : Ref sig .tc := ⟨.hbm, 530, rfl⟩
abbrev main_v442 : Ref sig .tc := ⟨.hbm, 531, rfl⟩
abbrev main_v443 : Ref sig .tc := ⟨.hbm, 532, rfl⟩
abbrev main_v444 : Ref sig .tc := ⟨.hbm, 533, rfl⟩
abbrev main_v445 : Ref sig .tc := ⟨.hbm, 534, rfl⟩
abbrev main_v446 : Ref sig .tc := ⟨.hbm, 535, rfl⟩
abbrev main_v447 : Ref sig .tc := ⟨.hbm, 536, rfl⟩
abbrev main_v448 : Ref sig .tc := ⟨.hbm, 537, rfl⟩
abbrev main_cst_76 : Ref sig .tc := ⟨.hbm, 538, rfl⟩
abbrev main_v449 : Ref sig .tc := ⟨.hbm, 539, rfl⟩
abbrev main_v450 : Ref sig .tc := ⟨.hbm, 540, rfl⟩
abbrev main_cst_77 : Ref sig .tc := ⟨.hbm, 541, rfl⟩
abbrev main_v451 : Ref sig .tc := ⟨.hbm, 542, rfl⟩
abbrev main_v452 : Ref sig .tc := ⟨.hbm, 543, rfl⟩
abbrev main_v453 : Ref sig .tc := ⟨.hbm, 544, rfl⟩
abbrev main_v454 : Ref sig .tc := ⟨.hbm, 545, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  slices_S6x8192_S1x8192_5_0 : S6x8192.Slices ![5, 0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x300_0_1 : S8192x1.BroadcastsInDim S8192x300 (![0, 1] : Fin 2 → Fin S8192x300.rank)
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  slices_S6x8192_S1x8192_4_0 : S6x8192.Slices ![4, 0] S1x8192
  slices_S6x8192x4_S1x8192x4_4_0_0 : S6x8192x4.Slices ![4, 0, 0] S1x8192x4
  shapeCasts_S1x8192x4_S8192x4 : S1x8192x4.ShapeCasts S8192x4
  bcast_S8192x4_S8192x4x1_0_1 : S8192x4.BroadcastsInDim S8192x4x1 (![0, 1] : Fin 2 → Fin S8192x4x1.rank)
  bcast_S_S8192x4 : S_.BroadcastsInDim S8192x4 (![] : Fin 0 → Fin S8192x4.rank)
  bcast_S8192x4x1_S8192x4x512_0_1_2 : S8192x4x1.BroadcastsInDim S8192x4x512 (![0, 1, 2] : Fin 3 → Fin S8192x4x512.rank)
  reducesTo_S8192x4x512_S8192x512_d1 : S8192x4x512.ReducesTo [1] S8192x512
  h_S_ : 0 < S_.numel
  bcast_S8192x512_S8192x1x512_0_2 : S8192x512.BroadcastsInDim S8192x1x512 (![0, 2] : Fin 2 → Fin S8192x1x512.rank)
  bcast_S8192x1x512_S8192x4x512_0_1_2 : S8192x1x512.BroadcastsInDim S8192x4x512 (![0, 1, 2] : Fin 3 → Fin S8192x4x512.rank)
  bcast_S512_S1x1x512_2 : S512.BroadcastsInDim S1x1x512 (![2] : Fin 1 → Fin S1x1x512.rank)
  bcast_S1x1x512_S8192x4x512_0_1_2 : S1x1x512.BroadcastsInDim S8192x4x512 (![0, 1, 2] : Fin 3 → Fin S8192x4x512.rank)
  bcast_S_S8192x4x512 : S_.BroadcastsInDim S8192x4x512 (![] : Fin 0 → Fin S8192x4x512.rank)
  slices_S6x8192_S1x8192_3_0 : S6x8192.Slices ![3, 0] S1x8192
  slices_S6x8192x4_S1x8192x4_3_0_0 : S6x8192x4.Slices ![3, 0, 0] S1x8192x4
  slices_S6x8192_S1x8192_2_0 : S6x8192.Slices ![2, 0] S1x8192
  slices_S6x8192x4_S1x8192x4_2_0_0 : S6x8192x4.Slices ![2, 0, 0] S1x8192x4
  slices_S6x8192_S1x8192_1_0 : S6x8192.Slices ![1, 0] S1x8192
  slices_S6x8192x4_S1x8192x4_1_0_0 : S6x8192x4.Slices ![1, 0, 0] S1x8192x4
  slices_S6x8192_S1x8192_0_0 : S6x8192.Slices ![0, 0] S1x8192
  slices_S6x8192x4_S1x8192x4_0_0_0 : S6x8192x4.Slices ![0, 0, 0] S1x8192x4
  gather_S50000x300_S8192x1_S8192x300_1_0_n_n_0_1_1300_wf : GatherDims.WF S50000x300 S8192x1 S8192x300 [1] [0] [] [0] [] 1 ![1, 300]
  dot_S8192x300_S300x512_S8192x512_1_0_0_1_n_n_wf : DotDims.WF S8192x300 S300x512 S8192x512 [1] [0] [0] [1] [] []
  dot_S8192x300_S300x1536_S8192x1536_1_0_0_1_n_n_wf : DotDims.WF S8192x300 S300x1536 S8192x1536 [1] [0] [0] [1] [] []
  dot_S8192x512_S512x1536_S8192x1536_1_0_0_1_n_n_wf : DotDims.WF S8192x512 S512x1536 S8192x1536 [1] [0] [0] [1] [] []
  gather_S8192x512_S8192x4x1_S8192x4x512_2_0_n_n_0_2_1512_wf : GatherDims.WF S8192x512 S8192x4x1 S8192x4x512 [2] [0] [] [0] [] 2 ![1, 512]
  dot_S8192x4x512_S512x512_S8192x4x512_2_0_01_1_n_n_wf : DotDims.WF S8192x4x512 S512x512 S8192x4x512 [2] [0] [0, 1] [1] [] []

variable [Facts₀]

def gather_S50000x300_S8192x1_S8192x300_1_0_n_n_0_1_1300 : GatherDims S50000x300 S8192x1 S8192x300 where
  offsetDims := [1]
  collapsedSliceDims := [0]
  operandBatchingDims := []
  startIndicesBatchingDims := []
  startIndexMap := [0]
  indexVectorDim := 1
  sliceSizes := ![1, 300]
  wf := gather_S50000x300_S8192x1_S8192x300_1_0_n_n_0_1_1300_wf
def dot_S8192x300_S300x512_S8192x512_1_0_0_1_n_n : DotDims S8192x300 S300x512 S8192x512 where
  lhsContracting := [1]
  rhsContracting := [0]
  lhsNonContracting := [0]
  rhsNonContracting := [1]
  lhsBatch := []
  rhsBatch := []
  wf := dot_S8192x300_S300x512_S8192x512_1_0_0_1_n_n_wf
def dot_S8192x300_S300x1536_S8192x1536_1_0_0_1_n_n : DotDims S8192x300 S300x1536 S8192x1536 where
  lhsContracting := [1]
  rhsContracting := [0]
  lhsNonContracting := [0]
  rhsNonContracting := [1]
  lhsBatch := []
  rhsBatch := []
  wf := dot_S8192x300_S300x1536_S8192x1536_1_0_0_1_n_n_wf
def dot_S8192x512_S512x1536_S8192x1536_1_0_0_1_n_n : DotDims S8192x512 S512x1536 S8192x1536 where
  lhsContracting := [1]
  rhsContracting := [0]
  lhsNonContracting := [0]
  rhsNonContracting := [1]
  lhsBatch := []
  rhsBatch := []
  wf := dot_S8192x512_S512x1536_S8192x1536_1_0_0_1_n_n_wf
def gather_S8192x512_S8192x4x1_S8192x4x512_2_0_n_n_0_2_1512 : GatherDims S8192x512 S8192x4x1 S8192x4x512 where
  offsetDims := [2]
  collapsedSliceDims := [0]
  operandBatchingDims := []
  startIndicesBatchingDims := []
  startIndexMap := [0]
  indexVectorDim := 2
  sliceSizes := ![1, 512]
  wf := gather_S8192x512_S8192x4x1_S8192x4x512_2_0_n_n_0_2_1512_wf
def dot_S8192x4x512_S512x512_S8192x4x512_2_0_01_1_n_n : DotDims S8192x4x512 S512x512 S8192x4x512 where
  lhsContracting := [2]
  rhsContracting := [0]
  lhsNonContracting := [0, 1]
  rhsNonContracting := [1]
  lhsBatch := []
  rhsBatch := []
  wf := dot_S8192x4x512_S512x512_S8192x4x512_2_0_01_1_n_n_wf

class Facts : Prop extends Facts₀ where

variable [Facts]
-- ==== Proof.KRun.lean ====
/-
  The idealized kernel's run with its result array named.

  The program is six kernel launches among stretches of host operations. From any launch memory every weakly fair
  execution terminates, nothing faulting; at the end every unscoped buffer of a core holds what the fold through the
  segments leaves in it (the host stretches applied in order, each launch's arrays at what its write-backs leave).
  Read at the result buffer this gives the result array as that fold's value; read at the eleven argument buffers it
  gives them unchanged.
-/
import proofs.«117485_j54365696033410_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every weakly fair execution of the program terminates with the result buffer at the value the fold through the
    twelve segments leaves there, and with the argument arrays as launched. -/
theorem run_value (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_v203_0) = W12 m ρ c (Proc.devRef .tc main_v203_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v203_0 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.RunValue

end
-- ==== Proof.RefTerms.lean ====
/-
  The reference program's arrays, level by level, as whole-array terms of its argument arrays.

  The reference is a Child-Sum Tree-LSTM unrolled over six levels, level 5 the leaves and level 0 the root. At each
  level it forms the node inputs `x` (an embedding lookup times the token mask); at the leaves the gate array is
  `x·W_iou + 0·U_iou + b_iou`; at an inner level it gathers the four child rows of the hidden and memory arrays of the
  level below, masks them, sums the masked hidden rows over the child axis, and forms one forget gate per child slot.
  The terms below are spelled with the operations and the shape records of the program's own run, so that each of the
  run's named intermediate arrays unfolds to one of them. One function of array VARIABLES describes an inner level;
  the twelve arrays `refH l`, `refC l` are explicit instances of it.
-/
import proofs.«117485_j54365696033410_2_alg».proof.Proof.Gen.ReferenceIdeal
import Idealize.ShloMosaic.PureOps.Ideal
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The weights as curried functions -/

section Weights
variable (V0 : Valuation τ sig (Elt Ideal))

/-- `W_f` : [300, 512]. -/
def wWf : Fin 300 → Fin 512 → EReal := fun e q => (V0 (Proc.devRef .tc main_arg8) : FVec Ideal S300x512 .f32) (ix2 e q)
/-- `W_iou` : [300, 1536]. -/
def wWiou : Fin 300 → Fin 1536 → EReal := fun e q => (V0 (Proc.devRef .tc main_arg5) : FVec Ideal S300x1536 .f32) (ix2 e q)
/-- `U_iou` : [512, 1536]. -/
def wUiou : Fin 512 → Fin 1536 → EReal := fun i q => (V0 (Proc.devRef .tc main_arg6) : FVec Ideal S512x1536 .f32) (ix2 i q)
/-- `b_iou` : [1536]. -/
def wBiou : Fin 1536 → EReal := fun q => (V0 (Proc.devRef .tc main_arg7) : FVec Ideal S1536 .f32) (ix1 q)
/-- `U_f` : [512, 512]. -/
def wUf : Fin 512 → Fin 512 → EReal := fun i q => (V0 (Proc.devRef .tc main_arg9) : FVec Ideal S512x512 .f32) (ix2 i q)
/-- `b_f` : [512]. -/
def wBf : Fin 512 → EReal := fun q => (V0 (Proc.devRef .tc main_arg10) : FVec Ideal S512 .f32) (ix1 q)

end Weights

/-! ## The parts of one level, over array variables -/

/-- The all-ones [8192, 512] array: the word of 1.0, broadcast. -/
def ones2 : FVec Ideal S8192x512 .f32 :=
  broadcastInDim S8192x512 ![] bcast_S_S8192x512 (constant (F := Ideal) S_ .f32 0x3F800000#32)
/-- The all-zeros [8192, 512] array: the word of 0.0, broadcast. -/
def zeros2 : FVec Ideal S8192x512 .f32 :=
  broadcastInDim S8192x512 ![] bcast_S_S8192x512 (constant (F := Ideal) S_ .f32 0x00000000#32)
/-- The all-ones [8192, 4, 512] array. -/
def ones3 : FVec Ideal S8192x4x512 .f32 :=
  broadcastInDim S8192x4x512 ![] bcast_S_S8192x4x512 (constant (F := Ideal) S_ .f32 0x3F800000#32)

/-- The logistic function as the program expands it, `1 / (1 + exp (-x))`, on an [8192, 512] array. -/
def sig2 (x : FVec Ideal S8192x512 .f32) : FVec Ideal S8192x512 .f32 :=
  Host.divf ones2 (addf ones2 (Host.exp (Host.negf x)))
/-- The same on an [8192, 4, 512] array. -/
def sig3 (x : FVec Ideal S8192x4x512 .f32) : FVec Ideal S8192x4x512 .f32 :=
  Host.divf ones3 (addf ones3 (Host.exp (Host.negf x)))

/-- The child mask [8192, 4] as an [8192, 4, 1] column. -/
def maskCol (M : FVec Ideal S8192x4 .f32) : FVec Ideal S8192x4x1 .f32 :=
  broadcastInDim S8192x4x1 ![0, 1] bcast_S8192x4_S8192x4x1_0_1 M
/-- The child mask spread along the feature axis: [8192, 4, 512]. -/
def mask3 (M : FVec Ideal S8192x4 .f32) : FVec Ideal S8192x4x512 .f32 :=
  broadcastInDim S8192x4x512 ![0, 1, 2] bcast_S8192x4x1_S8192x4x512_0_1_2 (maskCol M)

/-- The four child rows of `A` (the hidden or the memory array of the level below), gathered and masked. -/
def masked (A : FVec Ideal S8192x512 .f32) (IDX : IVec S8192x4x1 32) (M : FVec Ideal S8192x4 .f32) :
    FVec Ideal S8192x4x512 .f32 :=
  mulf (Host.gather gather_S8192x512_S8192x4x1_S8192x4x512_2_0_n_n_0_2_1512 A IDX) (mask3 M)

/-- The sum over the child axis, from the zero word. -/
def childSum (A : FVec Ideal S8192x4x512 .f32) : FVec Ideal S8192x512 .f32 :=
  Host.reduceAdd A (constant (F := Ideal) S_ .f32 0x00000000#32) reducesTo_S8192x4x512_S8192x512_d1 h_S_

/-- `b_iou` spread over the rows: [1536] → [1, 1536] → [8192, 1536]. -/
def biasIou (biou : FVec Ideal S1536 .f32) : FVec Ideal S8192x1536 .f32 :=
  broadcastInDim S8192x1536 ![0, 1] bcast_S1x1536_S8192x1536_0_1 (broadcastInDim S1x1536 ![1] bcast_S1536_S1x1536_1 biou)

/-- The gate array `(x·W_iou + h̃·U_iou) + b_iou` : [8192, 1536]. -/
def iouArr (X : FVec Ideal S8192x300 .f32) (Ht : FVec Ideal S8192x512 .f32)
    (Wiou : FVec Ideal S300x1536 .f32) (Uiou : FVec Ideal S512x1536 .f32) (biou : FVec Ideal S1536 .f32) :
    FVec Ideal S8192x1536 .f32 :=
  addf (addf (Host.dotGeneral dot_S8192x300_S300x1536_S8192x1536_1_0_0_1_n_n none X Wiou)
      (Host.dotGeneral dot_S8192x512_S512x1536_S8192x1536_1_0_0_1_n_n none Ht Uiou)) (biasIou biou)

/-- The input gate: the logistic of the gate array's columns 0 … 511. -/
def gateI (iou : FVec Ideal S8192x1536 .f32) : FVec Ideal S8192x512 .f32 :=
  sig2 (extractStridedSlice S8192x512 ![0, 0] iou slices_S8192x1536_S8192x512_0_0)
/-- The output gate: the logistic of columns 512 … 1023. -/
def gateO (iou : FVec Ideal S8192x1536 .f32) : FVec Ideal S8192x512 .f32 :=
  sig2 (extractStridedSlice S8192x512 ![0, 512] iou slices_S8192x1536_S8192x512_0_512)
/-- The update: the hyperbolic tangent of columns 1024 … 1535. -/
def gateU (iou : FVec Ideal S8192x1536 .f32) : FVec Ideal S8192x512 .f32 :=
  Host.tanh (extractStridedSlice S8192x512 ![0, 1024] iou slices_S8192x1536_S8192x512_0_1024)

/-- The new memory array `σ(i)·tanh(u) + fc`. -/
def cellC (iou : FVec Ideal S8192x1536 .f32) (fc : FVec Ideal S8192x512 .f32) : FVec Ideal S8192x512 .f32 :=
  addf (mulf (gateI iou) (gateU iou)) fc
/-- The new hidden array `σ(o)·tanh(c')`. -/
def cellH (iou : FVec Ideal S8192x1536 .f32) (c : FVec Ideal S8192x512 .f32) : FVec Ideal S8192x512 .f32 :=
  mulf (gateO iou) (Host.tanh c)

/-- `x·W_f` spread over the child axis: [8192, 512] → [8192, 1, 512] → [8192, 4, 512]. -/
def xWf3 (X : FVec Ideal S8192x300 .f32) (Wf : FVec Ideal S300x512 .f32) : FVec Ideal S8192x4x512 .f32 :=
  broadcastInDim S8192x4x512 ![0, 1, 2] bcast_S8192x1x512_S8192x4x512_0_1_2
    (broadcastInDim S8192x1x512 ![0, 2] bcast_S8192x512_S8192x1x512_0_2
      (Host.dotGeneral dot_S8192x300_S300x512_S8192x512_1_0_0_1_n_n none X Wf))
/-- `b_f` spread over nodes and child slots: [512] → [1, 1, 512] → [8192, 4, 512]. -/
def biasF3 (bf : FVec Ideal S512 .f32) : FVec Ideal S8192x4x512 .f32 :=
  broadcastInDim S8192x4x512 ![0, 1, 2] bcast_S1x1x512_S8192x4x512_0_1_2 (broadcastInDim S1x1x512 ![2] bcast_S512_S1x1x512_2 bf)

/-- The forget gates, one per child slot: `σ((x·W_f + h_k·U_f) + b_f)`. -/
def forget (X : FVec Ideal S8192x300 .f32) (hch : FVec Ideal S8192x4x512 .f32)
    (Wf : FVec Ideal S300x512 .f32) (Uf : FVec Ideal S512x512 .f32) (bf : FVec Ideal S512 .f32) : FVec Ideal S8192x4x512 .f32 :=
  sig3 (addf (addf (xWf3 X Wf) (Host.dotGeneral dot_S8192x4x512_S512x512_S8192x4x512_2_0_01_1_n_n none hch Uf)) (biasF3 bf))

/-! ## One inner level and the leaf level, over array variables -/

section Level
variable (X : FVec Ideal S8192x300 .f32) (Hp Cp : FVec Ideal S8192x512 .f32) (IDX : IVec S8192x4x1 32) (M : FVec Ideal S8192x4 .f32)
  (Wf : FVec Ideal S300x512 .f32) (Wiou : FVec Ideal S300x1536 .f32) (Uf : FVec Ideal S512x512 .f32) (Uiou : FVec Ideal S512x1536 .f32)
  (bf : FVec Ideal S512 .f32) (biou : FVec Ideal S1536 .f32)

/-- An inner level's gate array: the child sum of the masked hidden rows goes through `U_iou`. -/
def refLevelIou : FVec Ideal S8192x1536 .f32 := iouArr X (childSum (masked Hp IDX M)) Wiou Uiou biou
/-- An inner level's memory array. -/
def refLevelC : FVec Ideal S8192x512 .f32 :=
  cellC (refLevelIou X Hp IDX M Wiou Uiou biou) (childSum (mulf (forget X (masked Hp IDX M) Wf Uf bf) (masked Cp IDX M)))
/-- An inner level's hidden array. -/
def refLevelH : FVec Ideal S8192x512 .f32 :=
  cellH (refLevelIou X Hp IDX M Wiou Uiou biou) (refLevelC X Hp Cp IDX M Wf Wiou Uf Uiou bf biou)

/-- The leaf level's gate array: the zero array goes through `U_iou`. -/
def refLeafIou : FVec Ideal S8192x1536 .f32 := iouArr X zeros2 Wiou Uiou biou
/-- The leaf level's memory array (the forgotten memory is the zero array). -/
def refLeafC : FVec Ideal S8192x512 .f32 := cellC (refLeafIou X Wiou Uiou biou) zeros2
/-- The leaf level's hidden array. -/
def refLeafH : FVec Ideal S8192x512 .f32 := cellH (refLeafIou X Wiou Uiou biou) (refLeafC X Wiou Uiou biou)

end Level

/-! ## A level's inputs, cut out of the argument arrays -/

section Inputs
variable (V0 : Valuation τ sig (Elt Ideal))

/-- A vocabulary index below zero counts from the end of the 50000-row table. -/
def normVocab (a : IVec S8192 32) : IVec S8192 32 :=
  select (cmpi .slt a (broadcastInDim S8192 ![] bcast_S_S8192 (constantI S_ 32 0#32)))
    (addi a (broadcastInDim S8192 ![] bcast_S_S8192 (constantI S_ 32 50000#32))) a
/-- A child index below zero counts from the end of the 8192 rows. -/
def normChild (a : IVec S8192x4 32) : IVec S8192x4 32 :=
  select (cmpi .slt a (broadcastInDim S8192x4 ![] bcast_S_S8192x4 (constantI S_ 32 0#32)))
    (addi a (broadcastInDim S8192x4 ![] bcast_S_S8192x4 (constantI S_ 32 8192#32))) a

/-- A level's vocabulary indices: one row of `vocab_ix`. -/
def vocabAt (off : Fin S6x8192.rank → Nat) (hs : S6x8192.Slices off S1x8192) : IVec S8192 32 :=
  shapeCast S8192 (extractStridedSlice S1x8192 off (V0 (Proc.devRef .tc main_arg0)) hs) shapeCasts_S1x8192_S8192
/-- A level's token mask: one row of `token_mask`. -/
def tokenAt (off : Fin S6x8192.rank → Nat) (hs : S6x8192.Slices off S1x8192) : FVec Ideal S8192 .f32 :=
  shapeCast S8192 (extractStridedSlice S1x8192 off (V0 (Proc.devRef .tc main_arg2)) hs) shapeCasts_S1x8192_S8192
/-- A level's node inputs: the embedding rows at the vocabulary indices, times the token mask spread over the row. -/
def refXAt (off : Fin S6x8192.rank → Nat) (hs : S6x8192.Slices off S1x8192) : FVec Ideal S8192x300 .f32 :=
  mulf (Host.gather gather_S50000x300_S8192x1_S8192x300_1_0_n_n_0_1_1300 (V0 (Proc.devRef .tc main_arg4))
      (broadcastInDim S8192x1 ![0] bcast_S8192_S8192x1_0 (normVocab (vocabAt V0 off hs))))
    (broadcastInDim S8192x300 ![0, 1] bcast_S8192x1_S8192x300_0_1 (broadcastInDim S8192x1 ![0] bcast_S8192_S8192x1_0 (tokenAt V0 off hs)))

/-- A level's child indices as stored: one [8192, 4] plane of `child_idx`. -/
def childAt (off : Fin S6x8192x4.rank → Nat) (hs : S6x8192x4.Slices off S1x8192x4) : IVec S8192x4 32 :=
  shapeCast S8192x4 (extractStridedSlice S1x8192x4 off (V0 (Proc.devRef .tc main_arg1)) hs) shapeCasts_S1x8192x4_S8192x4
/-- A level's child indices as the two gathers take them: normalized, as an [8192, 4, 1] array. -/
def refIdxAt (off : Fin S6x8192x4.rank → Nat) (hs : S6x8192x4.Slices off S1x8192x4) : IVec S8192x4x1 32 :=
  broadcastInDim S8192x4x1 ![0, 1] bcast_S8192x4_S8192x4x1_0_1 (normChild (childAt V0 off hs))
/-- A level's child mask: one [8192, 4] plane of `child_mask`. -/
def refMAt (off : Fin S6x8192x4.rank → Nat) (hs : S6x8192x4.Slices off S1x8192x4) : FVec Ideal S8192x4 .f32 :=
  shapeCast S8192x4 (extractStridedSlice S1x8192x4 off (V0 (Proc.devRef .tc main_arg3)) hs) shapeCasts_S1x8192x4_S8192x4

/-! ## The six levels -/

def refX5 : FVec Ideal S8192x300 .f32 := refXAt V0 ![5, 0] slices_S6x8192_S1x8192_5_0
def refX4 : FVec Ideal S8192x300 .f32 := refXAt V0 ![4, 0] slices_S6x8192_S1x8192_4_0
def refX3 : FVec Ideal S8192x300 .f32 := refXAt V0 ![3, 0] slices_S6x8192_S1x8192_3_0
def refX2 : FVec Ideal S8192x300 .f32 := refXAt V0 ![2, 0] slices_S6x8192_S1x8192_2_0
def refX1 : FVec Ideal S8192x300 .f32 := refXAt V0 ![1, 0] slices_S6x8192_S1x8192_1_0
def refX0 : FVec Ideal S8192x300 .f32 := refXAt V0 ![0, 0] slices_S6x8192_S1x8192_0_0

def refIdx4 : IVec S8192x4x1 32 := refIdxAt V0 ![4, 0, 0] slices_S6x8192x4_S1x8192x4_4_0_0
def refIdx3 : IVec S8192x4x1 32 := refIdxAt V0 ![3, 0, 0] slices_S6x8192x4_S1x8192x4_3_0_0
def refIdx2 : IVec S8192x4x1 32 := refIdxAt V0 ![2, 0, 0] slices_S6x8192x4_S1x8192x4_2_0_0
def refIdx1 : IVec S8192x4x1 32 := refIdxAt V0 ![1, 0, 0] slices_S6x8192x4_S1x8192x4_1_0_0
def refIdx0 : IVec S8192x4x1 32 := refIdxAt V0 ![0, 0, 0] slices_S6x8192x4_S1x8192x4_0_0_0

def refM4 : FVec Ideal S8192x4 .f32 := refMAt V0 ![4, 0, 0] slices_S6x8192x4_S1x8192x4_4_0_0
def refM3 : FVec Ideal S8192x4 .f32 := refMAt V0 ![3, 0, 0] slices_S6x8192x4_S1x8192x4_3_0_0
def refM2 : FVec Ideal S8192x4 .f32 := refMAt V0 ![2, 0, 0] slices_S6x8192x4_S1x8192x4_2_0_0
def refM1 : FVec Ideal S8192x4 .f32 := refMAt V0 ![1, 0, 0] slices_S6x8192x4_S1x8192x4_1_0_0
def refM0 : FVec Ideal S8192x4 .f32 := refMAt V0 ![0, 0, 0] slices_S6x8192x4_S1x8192x4_0_0_0

/-- The weight arrays as the level functions take them. -/
abbrev aWf : FVec Ideal S300x512 .f32 := V0 (Proc.devRef .tc main_arg8)
abbrev aWiou : FVec Ideal S300x1536 .f32 := V0 (Proc.devRef .tc main_arg5)
abbrev aUf : FVec Ideal S512x512 .f32 := V0 (Proc.devRef .tc main_arg9)
abbrev aUiou : FVec Ideal S512x1536 .f32 := V0 (Proc.devRef .tc main_arg6)
abbrev aBf : FVec Ideal S512 .f32 := V0 (Proc.devRef .tc main_arg10)
abbrev aBiou : FVec Ideal S1536 .f32 := V0 (Proc.devRef .tc main_arg7)

/-- The memory and hidden arrays after the leaf level. -/
def refC5 : FVec Ideal S8192x512 .f32 := refLeafC (refX5 V0) (aWiou V0) (aUiou V0) (aBiou V0)
def refH5 : FVec Ideal S8192x512 .f32 := refLeafH (refX5 V0) (aWiou V0) (aUiou V0) (aBiou V0)
/-- … and after each inner level, from the level below. -/
def refC4 : FVec Ideal S8192x512 .f32 :=
  refLevelC (refX4 V0) (refH5 V0) (refC5 V0) (refIdx4 V0) (refM4 V0) (aWf V0) (aWiou V0) (aUf V0) (aUiou V0) (aBf V0) (aBiou V0)
def refH4 : FVec Ideal S8192x512 .f32 :=
  refLevelH (refX4 V0) (refH5 V0) (refC5 V0) (refIdx4 V0) (refM4 V0) (aWf V0) (aWiou V0) (aUf V0) (aUiou V0) (aBf V0) (aBiou V0)
def refC3 : FVec Ideal S8192x512 .f32 :=
  refLevelC (refX3 V0) (refH4 V0) (refC4 V0) (refIdx3 V0) (refM3 V0) (aWf V0) (aWiou V0) (aUf V0) (aUiou V0) (aBf V0) (aBiou V0)
def refH3 : FVec Ideal S8192x512 .f32 :=
  refLevelH (refX3 V0) (refH4 V0) (refC4 V0) (refIdx3 V0) (refM3 V0) (aWf V0) (aWiou V0) (aUf V0) (aUiou V0) (aBf V0) (aBiou V0)
def refC2 : FVec Ideal S8192x512 .f32 :=
  refLevelC (refX2 V0) (refH3 V0) (refC3 V0) (refIdx2 V0) (refM2 V0) (aWf V0) (aWiou V0) (aUf V0) (aUiou V0) (aBf V0) (aBiou V0)
def refH2 : FVec Ideal S8192x512 .f32 :=
  refLevelH (refX2 V0) (refH3 V0) (refC3 V0) (refIdx2 V0) (refM2 V0) (aWf V0) (aWiou V0) (aUf V0) (aUiou V0) (aBf V0) (aBiou V0)
def refC1 : FVec Ideal S8192x512 .f32 :=
  refLevelC (refX1 V0) (refH2 V0) (refC2 V0) (refIdx1 V0) (refM1 V0) (aWf V0) (aWiou V0) (aUf V0) (aUiou V0) (aBf V0) (aBiou V0)
def refH1 : FVec Ideal S8192x512 .f32 :=
  refLevelH (refX1 V0) (refH2 V0) (refC2 V0) (refIdx1 V0) (refM1 V0) (aWf V0) (aWiou V0) (aUf V0) (aUiou V0) (aBf V0) (aBiou V0)
def refC0 : FVec Ideal S8192x512 .f32 :=
  refLevelC (refX0 V0) (refH1 V0) (refC1 V0) (refIdx0 V0) (refM0 V0) (aWf V0) (aWiou V0) (aUf V0) (aUiou V0) (aBf V0) (aBiou V0)
def refH0 : FVec Ideal S8192x512 .f32 :=
  refLevelH (refX0 V0) (refH1 V0) (refC1 V0) (refIdx0 V0) (refM0 V0) (aWf V0) (aWiou V0) (aUf V0) (aUiou V0) (aBf V0) (aBiou V0)

end Inputs

end Cert.ReferenceIdeal.RefValue

end
-- ==== Proof.RefRoot.lean ====
/-
  The reference's run, level by level: each named intermediate array of the program's run is the corresponding
  whole-array term of RefTerms.lean, and the result buffer holds the hidden array after the root level.

  Every equation here is between a named array of the run and a term built from the SAME operations applied to the
  arrays named one level below; the arrays below are rewritten to their names first, so no equation compares two
  unfolded levels.
-/
import proofs.«117485_j54365696033410_2_alg».proof.Proof.Gen.ReferenceIdeal.Run
import proofs.«117485_j54365696033410_2_alg».proof.Proof.RefTerms

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Idealize.ShloMosaic.StableHlo Cert.ReferenceIdeal.Value

variable (V0 : Valuation τ sig (Elt Ideal))

/-! ## Level 5, the leaves -/

theorem vocab5_eq : res_main_v3 V0 = vocabAt V0 ![5, 0] slices_S6x8192_S1x8192_5_0 := rfl
theorem x5_eq : res_main_v15 V0 = refX5 V0 := by
  simp only [res_main_v15, vocab5_eq]
  rfl
theorem iou5_eq : res_main_v24 V0 = refLeafIou (refX5 V0) (aWiou V0) (aUiou V0) (aBiou V0) := by
  simp only [res_main_v24, x5_eq]
  rfl
theorem c5_eq : res_main_v36 V0 = refC5 V0 := by
  simp only [res_main_v36, iou5_eq]
  rfl

/-! ## Level 4 -/

theorem vocab4_eq : res_main_v46 V0 = vocabAt V0 ![4, 0] slices_S6x8192_S1x8192_4_0 := rfl
theorem x4_eq : res_main_v58 V0 = refX4 V0 := by
  simp only [res_main_v58, vocab4_eq]
  rfl
theorem maskCol4_eq : res_main_v62 V0 = maskCol (refM4 V0) := rfl
theorem child4_eq : res_main_v64 V0 = childAt V0 ![4, 0, 0] slices_S6x8192x4_S1x8192x4_4_0_0 := rfl
/-- The program forms the level's child indices a second time, for the memory rows: the same term. -/
theorem child4'_eq : res_main_v75 V0 = childAt V0 ![4, 0, 0] slices_S6x8192x4_S1x8192x4_4_0_0 := rfl
theorem child4_twice : res_main_v64 V0 = res_main_v75 V0 := rfl
/-- The masked child rows of the hidden array of level 5. -/
theorem hch4_eq : res_main_v73 V0 = masked (refH5 V0) (refIdx4 V0) (refM4 V0) := by
  simp only [res_main_v73, iou5_eq, c5_eq, child4_eq, maskCol4_eq]
  rfl
theorem iou4_eq : res_main_v106 V0 = refLevelIou (refX4 V0) (refH5 V0) (refIdx4 V0) (refM4 V0) (aWiou V0) (aUiou V0) (aBiou V0) := by
  simp only [res_main_v106, x4_eq, hch4_eq]
  rfl
theorem c4_eq : res_main_v118 V0 = refC4 V0 := by
  simp only [res_main_v118, iou4_eq, x4_eq, hch4_eq, c5_eq, child4'_eq, maskCol4_eq]
  rfl

/-! ## Level 3 -/

theorem vocab3_eq : res_main_v128 V0 = vocabAt V0 ![3, 0] slices_S6x8192_S1x8192_3_0 := rfl
theorem x3_eq : res_main_v140 V0 = refX3 V0 := by
  simp only [res_main_v140, vocab3_eq]
  rfl
theorem maskCol3_eq : res_main_v144 V0 = maskCol (refM3 V0) := rfl
theorem child3_eq : res_main_v146 V0 = childAt V0 ![3, 0, 0] slices_S6x8192x4_S1x8192x4_3_0_0 := rfl
/-- The program forms the level's child indices a second time, for the memory rows: the same term. -/
theorem child3'_eq : res_main_v157 V0 = childAt V0 ![3, 0, 0] slices_S6x8192x4_S1x8192x4_3_0_0 := rfl
theorem child3_twice : res_main_v146 V0 = res_main_v157 V0 := rfl
/-- The masked child rows of the hidden array of level 4. -/
theorem hch3_eq : res_main_v155 V0 = masked (refH4 V0) (refIdx3 V0) (refM3 V0) := by
  simp only [res_main_v155, iou4_eq, c4_eq, child3_eq, maskCol3_eq]
  rfl
theorem iou3_eq : res_main_v188 V0 = refLevelIou (refX3 V0) (refH4 V0) (refIdx3 V0) (refM3 V0) (aWiou V0) (aUiou V0) (aBiou V0) := by
  simp only [res_main_v188, x3_eq, hch3_eq]
  rfl
theorem c3_eq : res_main_v200 V0 = refC3 V0 := by
  simp only [res_main_v200, iou3_eq, x3_eq, hch3_eq, c4_eq, child3'_eq, maskCol3_eq]
  rfl

/-! ## Level 2 -/

theorem vocab2_eq : res_main_v210 V0 = vocabAt V0 ![2, 0] slices_S6x8192_S1x8192_2_0 := rfl
theorem x2_eq : res_main_v222 V0 = refX2 V0 := by
  simp only [res_main_v222, vocab2_eq]
  rfl
theorem maskCol2_eq : res_main_v226 V0 = maskCol (refM2 V0) := rfl
theorem child2_eq : res_main_v228 V0 = childAt V0 ![2, 0, 0] slices_S6x8192x4_S1x8192x4_2_0_0 := rfl
/-- The program forms the level's child indices a second time, for the memory rows: the same term. -/
theorem child2'_eq : res_main_v239 V0 = childAt V0 ![2, 0, 0] slices_S6x8192x4_S1x8192x4_2_0_0 := rfl
theorem child2_twice : res_main_v228 V0 = res_main_v239 V0 := rfl
/-- The masked child rows of the hidden array of level 3. -/
theorem hch2_eq : res_main_v237 V0 = masked (refH3 V0) (refIdx2 V0) (refM2 V0) := by
  simp only [res_main_v237, iou3_eq, c3_eq, child2_eq, maskCol2_eq]
  rfl
theorem iou2_eq : res_main_v270 V0 = refLevelIou (refX2 V0) (refH3 V0) (refIdx2 V0) (refM2 V0) (aWiou V0) (aUiou V0) (aBiou V0) := by
  simp only [res_main_v270, x2_eq, hch2_eq]
  rfl
theorem c2_eq : res_main_v282 V0 = refC2 V0 := by
  simp only [res_main_v282, iou2_eq, x2_eq, hch2_eq, c3_eq, child2'_eq, maskCol2_eq]
  rfl

/-! ## Level 1 -/

theorem vocab1_eq : res_main_v292 V0 = vocabAt V0 ![1, 0] slices_S6x8192_S1x8192_1_0 := rfl
theorem x1_eq : res_main_v304 V0 = refX1 V0 := by
  simp only [res_main_v304, vocab1_eq]
  rfl
theorem maskCol1_eq : res_main_v308 V0 = maskCol (refM1 V0) := rfl
theorem child1_eq : res_main_v310 V0 = childAt V0 ![1, 0, 0] slices_S6x8192x4_S1x8192x4_1_0_0 := rfl
/-- The program forms the level's child indices a second time, for the memory rows: the same term. -/
theorem child1'_eq : res_main_v321 V0 = childAt V0 ![1, 0, 0] slices_S6x8192x4_S1x8192x4_1_0_0 := rfl
theorem child1_twice : res_main_v310 V0 = res_main_v321 V0 := rfl
/-- The masked child rows of the hidden array of level 2. -/
theorem hch1_eq : res_main_v319 V0 = masked (refH2 V0) (refIdx1 V0) (refM1 V0) := by
  simp only [res_main_v319, iou2_eq, c2_eq, child1_eq, maskCol1_eq]
  rfl
theorem iou1_eq : res_main_v352 V0 = refLevelIou (refX1 V0) (refH2 V0) (refIdx1 V0) (refM1 V0) (aWiou V0) (aUiou V0) (aBiou V0) := by
  simp only [res_main_v352, x1_eq, hch1_eq]
  rfl
theorem c1_eq : res_main_v364 V0 = refC1 V0 := by
  simp only [res_main_v364, iou1_eq, x1_eq, hch1_eq, c2_eq, child1'_eq, maskCol1_eq]
  rfl

/-! ## Level 0, the root -/

theorem vocab0_eq : res_main_v374 V0 = vocabAt V0 ![0, 0] slices_S6x8192_S1x8192_0_0 := rfl
theorem x0_eq : res_main_v386 V0 = refX0 V0 := by
  simp only [res_main_v386, vocab0_eq]
  rfl
theorem maskCol0_eq : res_main_v390 V0 = maskCol (refM0 V0) := rfl
theorem child0_eq : res_main_v392 V0 = childAt V0 ![0, 0, 0] slices_S6x8192x4_S1x8192x4_0_0_0 := rfl
/-- The program forms the level's child indices a second time, for the memory rows: the same term. -/
theorem child0'_eq : res_main_v403 V0 = childAt V0 ![0, 0, 0] slices_S6x8192x4_S1x8192x4_0_0_0 := rfl
theorem child0_twice : res_main_v392 V0 = res_main_v403 V0 := rfl
/-- The masked child rows of the hidden array of level 1. -/
theorem hch0_eq : res_main_v401 V0 = masked (refH1 V0) (refIdx0 V0) (refM0 V0) := by
  simp only [res_main_v401, iou1_eq, c1_eq, child0_eq, maskCol0_eq]
  rfl
theorem iou0_eq : res_main_v434 V0 = refLevelIou (refX0 V0) (refH1 V0) (refIdx0 V0) (refM0 V0) (aWiou V0) (aUiou V0) (aBiou V0) := by
  simp only [res_main_v434, x0_eq, hch0_eq]
  rfl

/-- THE REFERENCE'S RESULT is the hidden array after the root level. -/
theorem ref_root : val9 V0 (Proc.devRef .tc main_v454) = refH0 V0 := by
  refine (val9_main_v454 V0).trans ?_
  simp only [iou0_eq, x0_eq, hch0_eq, c1_eq, child0'_eq, maskCol0_eq]
  rfl

end Cert.ReferenceIdeal.RefValue

end
-- ==== Proof.TreeCell.lean ====
/-
  One row of a Child-Sum Tree-LSTM cell, as a pure function on the extended reals.

  A node's row of the update reads: its input embedding `x` (300 entries), the hidden and memory rows of its four
  child slots `hc k`, `cc k` (512 entries each, already gathered), the slots' masks `mk k`, and the weights.
  With `h̃ = Σ_k hc k · mk k` the child sum,
    f_k = σ((x·W_f + b_f) + (hc k · mk k)·U_f)          (one forget gate per child slot)
    fc  = Σ_k f_k · (cc k · mk k)
    iou = (x·W_iou + b_iou) + h̃·U_iou                   (1536 entries: input, output and update gates)
    c'  = σ(iou[0:512]) · tanh(iou[1024:1536]) + fc
    h'  = σ(iou[512:1024]) · tanh(c')
  A leaf has no children: iou = x·W_iou + b_iou, c' = σ(i)·tanh(u), h' = σ(o)·tanh(c').
  Sums are finite sums over `Fin`; the grouping `(x·W + b) + h·U` is fixed here, and any other grouping of the same
  three terms is equal to it because addition on the extended reals is commutative and associative.
-/
import Idealize.ShloMosaic.PureOps.Ideal

noncomputable section

namespace TreeCell

open Idealize.ShloMosaic

/-- `Σ_e x e · W e q`: one entry of a row times a matrix. -/
def dotRow {K Q : Nat} (x : Fin K → EReal) (W : Fin K → Fin Q → EReal) (q : Fin Q) : EReal :=
  ∑ e : Fin K, x e * W e q

/-- The three gate blocks of the 1536-wide `iou` row. -/
def gI (j : Fin 512) : Fin 1536 := ⟨j.val, by omega⟩
def gO (j : Fin 512) : Fin 1536 := ⟨512 + j.val, by omega⟩
def gU (j : Fin 512) : Fin 1536 := ⟨1024 + j.val, by omega⟩

/-- Columns of the fused 2048-wide layout `[W_f | W_iou]`: the forget block first, the three gate blocks after it. -/
def colF (q : Fin 512) : Fin 2048 := ⟨q.val, by omega⟩
def colIou (q : Fin 1536) : Fin 2048 := ⟨512 + q.val, by omega⟩

section Leaf
variable (x : Fin 300 → EReal) (Wiou : Fin 300 → Fin 1536 → EReal) (biou : Fin 1536 → EReal)

def leafIou (q : Fin 1536) : EReal := dotRow x Wiou q + biou q
def leafC (j : Fin 512) : EReal :=
  Ideal.logistic (leafIou x Wiou biou (gI j)) * Ideal.tanh (leafIou x Wiou biou (gU j))
def leafH (j : Fin 512) : EReal :=
  Ideal.logistic (leafIou x Wiou biou (gO j)) * Ideal.tanh (leafC x Wiou biou j)
end Leaf

section Level
variable (x : Fin 300 → EReal) (hc cc : Fin 4 → Fin 512 → EReal) (mk : Fin 4 → EReal)
  (Wf : Fin 300 → Fin 512 → EReal) (Wiou : Fin 300 → Fin 1536 → EReal)
  (Uf : Fin 512 → Fin 512 → EReal) (Uiou : Fin 512 → Fin 1536 → EReal)
  (bf : Fin 512 → EReal) (biou : Fin 1536 → EReal)

/-- A child slot's masked hidden row. -/
def hk (k : Fin 4) (i : Fin 512) : EReal := hc k i * mk k
/-- A child slot's masked memory row. -/
def ck (k : Fin 4) (j : Fin 512) : EReal := cc k j * mk k
/-- The child sum. -/
def hsum (i : Fin 512) : EReal := ∑ k : Fin 4, hk hc mk k i
/-- Child slot `k`'s forget gate. -/
def fgate (k : Fin 4) (j : Fin 512) : EReal :=
  Ideal.logistic ((dotRow x Wf j + bf j) + dotRow (hk hc mk k) Uf j)
/-- The forgotten memory carried up from the children. -/
def fcsum (j : Fin 512) : EReal := ∑ k : Fin 4, fgate x hc mk Wf Uf bf k j * ck cc mk k j
def iou (q : Fin 1536) : EReal := (dotRow x Wiou q + biou q) + dotRow (hsum hc mk) Uiou q
def cNew (j : Fin 512) : EReal :=
  Ideal.logistic (iou x hc mk Wiou Uiou biou (gI j)) * Ideal.tanh (iou x hc mk Wiou Uiou biou (gU j))
    + fcsum x hc cc mk Wf Uf bf j
def hNew (j : Fin 512) : EReal :=
  Ideal.logistic (iou x hc mk Wiou Uiou biou (gO j)) * Ideal.tanh (cNew x hc cc mk Wf Wiou Uf Uiou bf biou j)
end Level

end TreeCell

end
-- ==== Proof.KTerms.lean ====
/-
  The host-side arrays of the kernel's program, as whole-array terms of its argument arrays.

  Around its six launches the program prepares, per level: the node inputs (an embedding lookup at the level's
  vocabulary indices, times the level's token mask spread over the row), the level's child indices normalized as the
  two gathers take them, the child rows of the previous launch's hidden and memory arrays gathered at them (through a
  narrower float format, which changes no value over the extended reals), and the level's child mask. Once, before
  the first launch, it lays the forget weights beside the gate weights as one 2048-wide array, the two biases as one
  2048-wide row, and the gate bias as a 1536-wide row. The terms are spelled with the program's own operations; the
  two layouts are read at an entry: the first 512 columns are the forget part, the other 1536 the gate part.
-/
import proofs.«117485_j54365696033410_2_alg».proof.Proof.Gen.KernelIdeal
import proofs.«117485_j54365696033410_2_alg».proof.Proof.TreeCell
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Terms

open Cert.KernelIdeal Cert.KernelIdeal.Gen Idealize.ShloMosaic Idealize.ShloMosaic.ValueIdx

/-- A vocabulary index below zero counts from the end of the 50000-row table. -/
def normVocab (a : IVec S8192 32) : IVec S8192 32 :=
  select (cmpi .slt a (broadcastInDim S8192 ![] bcast_S_S8192 (constantI S_ 32 0#32)))
    (addi a (broadcastInDim S8192 ![] bcast_S_S8192 (constantI S_ 32 50000#32))) a

/-- A child index below zero counts from the end of the 8192 rows. -/
def normChild (a : IVec S8192x4 32) : IVec S8192x4 32 :=
  select (cmpi .slt a (broadcastInDim S8192x4 ![] bcast_S_S8192x4 (constantI S_ 32 0#32)))
    (addi a (broadcastInDim S8192x4 ![] bcast_S_S8192x4 (constantI S_ 32 8192#32))) a

/-- One row of `vocab_ix`. -/
def vocabAt (A0 : IVec S6x8192 32) (off : Fin S6x8192.rank → Nat) (hs : S6x8192.Slices off S1x8192) : IVec S8192 32 :=
  shapeCast S8192 (extractStridedSlice S1x8192 off A0 hs) shapeCasts_S1x8192_S8192

/-- One row of `token_mask`. -/
def tokenAt (A2 : FVec Ideal S6x8192 .f32) (off : Fin S6x8192.rank → Nat) (hs : S6x8192.Slices off S1x8192) : FVec Ideal S8192 .f32 :=
  shapeCast S8192 (extractStridedSlice S1x8192 off A2 hs) shapeCasts_S1x8192_S8192

/-- A level's node inputs: the embedding rows at the vocabulary indices, times the token mask spread over the row. -/
def xAt (A0 : IVec S6x8192 32) (A2 : FVec Ideal S6x8192 .f32) (A4 : FVec Ideal S50000x300 .f32)
    (off : Fin S6x8192.rank → Nat) (hs : S6x8192.Slices off S1x8192) : FVec Ideal S8192x300 .f32 :=
  mulf (Host.gather gather_S50000x300_S8192x1_S8192x300_1_0_n_n_0_1_1300 A4
      (broadcastInDim S8192x1 ![0] bcast_S8192_S8192x1_0 (normVocab (vocabAt A0 off hs))))
    (broadcastInDim S8192x300 ![0, 1] bcast_S8192x1_S8192x300_0_1 (broadcastInDim S8192x1 ![0] bcast_S8192_S8192x1_0 (tokenAt A2 off hs)))

/-- One [8192, 4] plane of `child_idx`. -/
def childAt (A1 : IVec S6x8192x4 32) (off : Fin S6x8192x4.rank → Nat) (hs : S6x8192x4.Slices off S1x8192x4) : IVec S8192x4 32 :=
  shapeCast S8192x4 (extractStridedSlice S1x8192x4 off A1 hs) shapeCasts_S1x8192x4_S8192x4

/-- A level's child indices as the two gathers take them: normalized, as an [8192, 4, 1] array. -/
def idxAt (A1 : IVec S6x8192x4 32) (off : Fin S6x8192x4.rank → Nat) (hs : S6x8192x4.Slices off S1x8192x4) : IVec S8192x4x1 32 :=
  broadcastInDim S8192x4x1 ![0, 1] bcast_S8192x4_S8192x4x1_0_1 (normChild (childAt A1 off hs))

/-- One [8192, 4] plane of `child_mask`. -/
def maskAt (A3 : FVec Ideal S6x8192x4 .f32) (off : Fin S6x8192x4.rank → Nat) (hs : S6x8192x4.Slices off S1x8192x4) : FVec Ideal S8192x4 .f32 :=
  shapeCast S8192x4 (extractStridedSlice S1x8192x4 off A3 hs) shapeCasts_S1x8192x4_S8192x4

/-- The four child rows of the previous level's array `A`, gathered through the narrower format. -/
def childRows (A : FVec Ideal S8192x512 .f32) (IDX : IVec S8192x4x1 32) : FVec Ideal S8192x4x512 .bf16 :=
  Host.gather gather_S8192x512_S8192x4x1_S8192x4x512_2_0_n_n_0_2_1512 (truncf .bf16 A bitsLt_bf16_f32) IDX

/-- The forget weights beside the gate weights: [300, 512] and [300, 1536] as one [300, 2048] array. -/
def fusedW (A8 : FVec Ideal S300x512 .f32) (A5 : FVec Ideal S300x1536 .f32) : FVec Ideal S300x2048 .f32 :=
  concatenate S300x2048 1 [⟨S300x512, A8⟩, ⟨S300x1536, A5⟩] concatenates_S300x512_S300x1536_S300x2048_d1

/-- The forget bias before the gate bias, as one [1, 2048] row. -/
def fusedB (A10 : FVec Ideal S512 .f32) (A7 : FVec Ideal S1536 .f32) : FVec Ideal S1x2048 .f32 :=
  shapeCast S1x2048 (concatenate S2048 0 [⟨S512, A10⟩, ⟨S1536, A7⟩] concatenates_S512_S1536_S2048_d0) shapeCasts_S2048_S1x2048

/-- The gate bias as a [1, 1536] row. -/
def biasRow (A7 : FVec Ideal S1536 .f32) : FVec Ideal S1x1536 .f32 := shapeCast S1x1536 A7 shapeCasts_S1536_S1x1536

/-! ## The two layouts read at an entry -/

theorem fusedW_colF (A8 : FVec Ideal S300x512 .f32) (A5 : FVec Ideal S300x1536 .f32) (e : Fin 300) (q : Fin 512) :
    fusedW A8 A5 (ix2 e (TreeCell.colF q)) = A8 (ix2 e q) :=
  concatenate_pair_apply_left (t := S300x2048) (s₁ := S300x512) (s₂ := S300x1536) (1 : Fin 2) A8 A5
    concatenates_S300x512_S300x1536_S300x2048_d1 (ix2 e (TreeCell.colF q)) rfl (ix2 e q)
    (fun b => by match b with | ⟨0, _⟩ => rfl | ⟨1, _⟩ => rfl)

theorem fusedW_colIou (A8 : FVec Ideal S300x512 .f32) (A5 : FVec Ideal S300x1536 .f32) (e : Fin 300) (q : Fin 1536) :
    fusedW A8 A5 (ix2 e (TreeCell.colIou q)) = A5 (ix2 e q) :=
  concatenate_pair_apply_right (t := S300x2048) (s₁ := S300x512) (s₂ := S300x1536) (1 : Fin 2) A8 A5
    concatenates_S300x512_S300x1536_S300x2048_d1 (ix2 e (TreeCell.colIou q)) rfl rfl (ix2 e q)
    (fun b hb => by match b with | ⟨0, _⟩ => rfl | ⟨1, _⟩ => exact absurd rfl hb)
    (by show q.val + 512 = 512 + q.val; omega)

theorem fusedB_colF (A10 : FVec Ideal S512 .f32) (A7 : FVec Ideal S1536 .f32) (q : Fin 512) :
    fusedB A10 A7 (ix2 0 (TreeCell.colF q)) = A10 (ix1 q) := by
  unfold fusedB
  rw [shapeCast_a_1a_apply]
  exact concatenate_pair_apply_left (t := S2048) (s₁ := S512) (s₂ := S1536) (0 : Fin 1) A10 A7
    concatenates_S512_S1536_S2048_d0 (ix1 (TreeCell.colF q)) rfl (ix1 q)
    (fun b => by match b with | ⟨0, _⟩ => rfl)

theorem fusedB_colIou (A10 : FVec Ideal S512 .f32) (A7 : FVec Ideal S1536 .f32) (q : Fin 1536) :
    fusedB A10 A7 (ix2 0 (TreeCell.colIou q)) = A7 (ix1 q) := by
  unfold fusedB
  rw [shapeCast_a_1a_apply]
  exact concatenate_pair_apply_right (t := S2048) (s₁ := S512) (s₂ := S1536) (0 : Fin 1) A10 A7
    concatenates_S512_S1536_S2048_d0 (ix1 (TreeCell.colIou q)) rfl rfl (ix1 q)
    (fun b hb => by match b with | ⟨0, _⟩ => exact absurd rfl hb)
    (by show q.val + 512 = 512 + q.val; omega)

theorem biasRow_apply (A7 : FVec Ideal S1536 .f32) (q : Fin 1536) : biasRow A7 (ix2 0 q) = A7 (ix1 q) := by
  unfold biasRow
  rw [shapeCast_a_1a_apply]

end Cert.KernelIdeal.Terms

end
-- ==== Proof.BridgeTerms.lean ====
/-
  The two programs prepare each level's inputs by the same host operations.

  Level by level, the kernel's program and the reference form the node inputs, the normalized child indices and the
  child mask from the same argument arrays by the same operations, and gather the child rows of the level below with
  the same gather (the kernel's program through a narrower float format, which changes no value over the extended
  reals). The two programs name their shape records separately; the terms are the same.
-/
import proofs.«117485_j54365696033410_2_alg».proof.Proof.KTerms
import proofs.«117485_j54365696033410_2_alg».proof.Proof.RefTerms

noncomputable section

namespace Cert.Bridge.SameTerms

open Idealize.ShloMosaic Idealize.ShloMosaic.TcCoe Idealize.SL.Sem
open Cert.KernelIdeal.Terms Cert.ReferenceIdeal.RefValue

variable (V0 : Valuation Cert.ReferenceIdeal.τ Cert.ReferenceIdeal.sig (Elt Ideal))

/-- The reference's argument arrays, at the kernel program's array types. -/
abbrev a0 : IVec Cert.KernelIdeal.S6x8192 32 := V0 (Proc.devRef .tc Cert.ReferenceIdeal.main_arg0)
abbrev a1 : IVec Cert.KernelIdeal.S6x8192x4 32 := V0 (Proc.devRef .tc Cert.ReferenceIdeal.main_arg1)
abbrev a2 : FVec Ideal Cert.KernelIdeal.S6x8192 .f32 := V0 (Proc.devRef .tc Cert.ReferenceIdeal.main_arg2)
abbrev a3 : FVec Ideal Cert.KernelIdeal.S6x8192x4 .f32 := V0 (Proc.devRef .tc Cert.ReferenceIdeal.main_arg3)
abbrev a4 : FVec Ideal Cert.KernelIdeal.S50000x300 .f32 := V0 (Proc.devRef .tc Cert.ReferenceIdeal.main_arg4)

theorem x5 : xAt (a0 V0) (a2 V0) (a4 V0) ![5, 0] Cert.KernelIdeal.Gen.slices_S6x8192_S1x8192_5_0 = refX5 V0 := rfl
theorem x4 : xAt (a0 V0) (a2 V0) (a4 V0) ![4, 0] Cert.KernelIdeal.Gen.slices_S6x8192_S1x8192_4_0 = refX4 V0 := rfl
theorem x3 : xAt (a0 V0) (a2 V0) (a4 V0) ![3, 0] Cert.KernelIdeal.Gen.slices_S6x8192_S1x8192_3_0 = refX3 V0 := rfl
theorem x2 : xAt (a0 V0) (a2 V0) (a4 V0) ![2, 0] Cert.KernelIdeal.Gen.slices_S6x8192_S1x8192_2_0 = refX2 V0 := rfl
theorem x1 : xAt (a0 V0) (a2 V0) (a4 V0) ![1, 0] Cert.KernelIdeal.Gen.slices_S6x8192_S1x8192_1_0 = refX1 V0 := rfl
theorem x0 : xAt (a0 V0) (a2 V0) (a4 V0) ![0, 0] Cert.KernelIdeal.Gen.slices_S6x8192_S1x8192_0_0 = refX0 V0 := rfl

theorem rows4 (A : FVec Ideal Cert.KernelIdeal.S8192x512 .f32) :
    (childRows A (idxAt (a1 V0) ![4, 0, 0] Cert.KernelIdeal.Gen.slices_S6x8192x4_S1x8192x4_4_0_0) : Cert.KernelIdeal.S8192x4x512.Idx → EReal)
      = Host.gather Cert.ReferenceIdeal.gather_S8192x512_S8192x4x1_S8192x4x512_2_0_n_n_0_2_1512 (A : FVec Ideal Cert.ReferenceIdeal.S8192x512 .f32) (refIdx4 V0) := rfl
theorem mask4 : maskAt (a3 V0) ![4, 0, 0] Cert.KernelIdeal.Gen.slices_S6x8192x4_S1x8192x4_4_0_0 = refM4 V0 := rfl
theorem rows3 (A : FVec Ideal Cert.KernelIdeal.S8192x512 .f32) :
    (childRows A (idxAt (a1 V0) ![3, 0, 0] Cert.KernelIdeal.Gen.slices_S6x8192x4_S1x8192x4_3_0_0) : Cert.KernelIdeal.S8192x4x512.Idx → EReal)
      = Host.gather Cert.ReferenceIdeal.gather_S8192x512_S8192x4x1_S8192x4x512_2_0_n_n_0_2_1512 (A : FVec Ideal Cert.ReferenceIdeal.S8192x512 .f32) (refIdx3 V0) := rfl
theorem mask3 : maskAt (a3 V0) ![3, 0, 0] Cert.KernelIdeal.Gen.slices_S6x8192x4_S1x8192x4_3_0_0 = refM3 V0 := rfl
theorem rows2 (A : FVec Ideal Cert.KernelIdeal.S8192x512 .f32) :
    (childRows A (idxAt (a1 V0) ![2, 0, 0] Cert.KernelIdeal.Gen.slices_S6x8192x4_S1x8192x4_2_0_0) : Cert.KernelIdeal.S8192x4x512.Idx → EReal)
      = Host.gather Cert.ReferenceIdeal.gather_S8192x512_S8192x4x1_S8192x4x512_2_0_n_n_0_2_1512 (A : FVec Ideal Cert.ReferenceIdeal.S8192x512 .f32) (refIdx2 V0) := rfl
theorem mask2 : maskAt (a3 V0) ![2, 0, 0] Cert.KernelIdeal.Gen.slices_S6x8192x4_S1x8192x4_2_0_0 = refM2 V0 := rfl
theorem rows1 (A : FVec Ideal Cert.KernelIdeal.S8192x512 .f32) :
    (childRows A (idxAt (a1 V0) ![1, 0, 0] Cert.KernelIdeal.Gen.slices_S6x8192x4_S1x8192x4_1_0_0) : Cert.KernelIdeal.S8192x4x512.Idx → EReal)
      = Host.gather Cert.ReferenceIdeal.gather_S8192x512_S8192x4x1_S8192x4x512_2_0_n_n_0_2_1512 (A : FVec Ideal Cert.ReferenceIdeal.S8192x512 .f32) (refIdx1 V0) := rfl
theorem mask1 : maskAt (a3 V0) ![1, 0, 0] Cert.KernelIdeal.Gen.slices_S6x8192x4_S1x8192x4_1_0_0 = refM1 V0 := rfl
theorem rows0 (A : FVec Ideal Cert.KernelIdeal.S8192x512 .f32) :
    (childRows A (idxAt (a1 V0) ![0, 0, 0] Cert.KernelIdeal.Gen.slices_S6x8192x4_S1x8192x4_0_0_0) : Cert.KernelIdeal.S8192x4x512.Idx → EReal)
      = Host.gather Cert.ReferenceIdeal.gather_S8192x512_S8192x4x1_S8192x4x512_2_0_n_n_0_2_1512 (A : FVec Ideal Cert.ReferenceIdeal.S8192x512 .f32) (refIdx0 V0) := rfl
theorem mask0 : maskAt (a3 V0) ![0, 0, 0] Cert.KernelIdeal.Gen.slices_S6x8192x4_S1x8192x4_0_0_0 = refM0 V0 := rfl

end Cert.Bridge.SameTerms

end
-- ==== Proof.LibPlainDot.lean ====
/-
  The rows-times-columns matrix product `[M, K] × [K, N] → [M, N]` (the left operand contracted on its axis 1, the
  right one on its axis 0, no batch axis) read at an index, at the ideal instance where a float is an extended
  real: entry `(r, c)` is `∑ k, lhs (r, k) * rhs (k, c)`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Proof.PlainDot

/-- The product's dimension numbers; their conditions `wf` are decided on a program's literal shapes. -/
abbrev plainDot (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Index
variable {M K N : Nat} (wf : DotDims.WF ⟨2, ![M, K]⟩ ⟨2, ![K, N]⟩ ⟨2, ![M, N]⟩ [1] [0] [0] [1] [] [])

/-- The contraction index set is the one coordinate range `Fin K`. -/
abbrev contrEquiv : (plainDot M K N wf).contr.Idx ≃ Fin K := contrEquiv1 (plainDot M K N wf) K rfl rfl

/-- At result index `(r, c)` and contraction coordinate `k` the left operand is read at `(r, k)` … -/
theorem lhsIdx_eq (r : Fin M) (c : Fin N) (k : Fin K) :
    (plainDot M K N wf).lhsIdx (ix2 r c) ((contrEquiv wf).symm k) = ix2 r k := by
  funext a
  refine Fin.ext ?_
  match a with
  | ⟨0, _⟩ => rfl
  | ⟨1, _⟩ => rfl

/-- … and the right operand at `(k, c)`. -/
theorem rhsIdx_eq (r : Fin M) (c : Fin N) (k : Fin K) :
    (plainDot M K N wf).rhsIdx (ix2 r c) ((contrEquiv wf).symm k) = ix2 k c := by
  funext a
  refine Fin.ext ?_
  match a with
  | ⟨0, _⟩ => rfl
  | ⟨1, _⟩ => rfl

/-- THE CONTRACTION'S SUM over the contraction index set is the sum over `k : Fin K` of `lhs (r, k) * rhs (k, c)`. -/
theorem contr_sum (lhs : (⟨2, ![M, K]⟩ : Shape).Idx → EReal) (rhs : (⟨2, ![K, N]⟩ : Shape).Idx → EReal)
    (r : Fin M) (c : Fin N) :
    (∑ k : (plainDot M K N wf).contr.Idx,
        lhs ((plainDot M K N wf).lhsIdx (ix2 r c) k) * rhs ((plainDot M K N wf).rhsIdx (ix2 r c) k)) =
      ∑ k : Fin K, lhs (ix2 r k) * rhs (ix2 k c) := by
  rw [← Equiv.sum_comp (contrEquiv wf).symm]
  refine Finset.sum_congr rfl fun k _ => ?_
  rw [lhsIdx_eq, rhsIdx_eq]

end Index

section Apply
variable {M K N : Nat} {φ₁ φ₂ : FTy} (wf : DotDims.WF ⟨2, ![M, K]⟩ ⟨2, ![K, N]⟩ ⟨2, ![M, N]⟩ [1] [0] [0] [1] [] [])
  (prec : Option ContractPrecision) (lhs : FVec Ideal ⟨2, ![M, K]⟩ φ₁) (rhs : FVec Ideal ⟨2, ![K, N]⟩ φ₂)

/-- A matrix-unit product onto any accumulator, read at `(r, c)`: the accumulator there plus the sum. -/
theorem matmul_plain_apply (acc : FVec Ideal ⟨2, ![M, N]⟩ .f32) (r : Fin M) (c : Fin N) :
    FloatOps.matmul (plainDot M K N wf) prec lhs rhs acc (ix2 r c) = acc (ix2 r c) + ∑ k : Fin K, lhs (ix2 r k) * rhs (ix2 k c) := by
  rw [Ideal.matmul_apply, contr_sum]

/-- Onto the zero splat, read at `(r, c)`: the sum. -/
theorem matmul_zero_plain_apply (r : Fin M) (c : Fin N) :
    FloatOps.matmul (plainDot M K N wf) prec lhs rhs (constant ⟨2, ![M, N]⟩ .f32 0x00000000#32) (ix2 r c) =
      ∑ k : Fin K, lhs (ix2 r k) * rhs (ix2 k c) := by
  rw [Ideal.matmul_constant_zero_apply, contr_sum]

/-- The same two in the spelling a kernel body prints (`matmul d prec lhs rhs acc`). -/
theorem matmul_plain_apply' (acc : FVec Ideal ⟨2, ![M, N]⟩ .f32) (r : Fin M) (c : Fin N) :
    matmul (F := Ideal) (plainDot M K N wf) prec lhs rhs acc (ix2 r c) = acc (ix2 r c) + ∑ k : Fin K, lhs (ix2 r k) * rhs (ix2 k c) :=
  matmul_plain_apply wf prec lhs rhs acc r c
theorem matmul_zero_plain_apply' (r : Fin M) (c : Fin N) :
    matmul (F := Ideal) (plainDot M K N wf) prec lhs rhs (constant ⟨2, ![M, N]⟩ .f32 0x00000000#32) (ix2 r c) =
      ∑ k : Fin K, lhs (ix2 r k) * rhs (ix2 k c) :=
  matmul_zero_plain_apply wf prec lhs rhs r c

/-- The host's product at any schedule key, read at `(r, c)`: the sum. -/
theorem dotGeneralAt_plain_apply (sched : HostSchedule) (r : Fin M) (c : Fin N) :
    FloatOps.dotGeneral (plainDot M K N wf) prec sched lhs rhs (ix2 r c) = ∑ k : Fin K, lhs (ix2 r k) * rhs (ix2 k c) := by
  rw [Ideal.dotGeneral_apply, contr_sum]

/-- The host's product as a reference prints it, read at `(r, c)`: the sum. -/
theorem dotGeneral_plain_apply (r : Fin M) (c : Fin N) :
    Host.dotGeneral (F := Ideal) (plainDot M K N wf) prec lhs rhs (ix2 r c) = ∑ k : Fin K, lhs (ix2 r k) * rhs (ix2 k c) :=
  dotGeneralAt_plain_apply wf prec lhs rhs .single r c

end Apply

/-- A program's own record with the same lists is this one (the check that the lemmas rewrite a printed product). -/
example (d : DotDims ⟨2, ![7, 5]⟩ ⟨2, ![5, 3]⟩ ⟨2, ![7, 3]⟩)
    (hd : d = { lhsContracting := [1], rhsContracting := [0], lhsNonContracting := [0], rhsNonContracting := [1], lhsBatch := [], rhsBatch := [] })
    (l : FVec Ideal ⟨2, ![7, 5]⟩ .bf16) (rr : FVec Ideal ⟨2, ![5, 3]⟩ .bf16) (r : Fin 7) (c : Fin 3) :
    matmul (F := Ideal) d none l rr (constant ⟨2, ![7, 3]⟩ .f32 0x00000000#32) (ix2 r c) = ∑ k : Fin 5, l (ix2 r k) * rr (ix2 k c) := by
  subst hd
  rw [matmul_zero_plain_apply' (by decide)]

end Cert.Proof.PlainDot

end
-- ==== Proof.RefOps.lean ====
/-
  The parts of a level read at an index.

  Each whole-array part of a Tree-LSTM level, read at one node `n` (and child slot `k`, feature `j`): the word of 1.0
  is one and the word of 0.0 is zero; `1 / (1 + exp (-x))` is the logistic function; the child mask spread over the
  feature axis reads the mask at `(n, k)`; a sum over the child axis from the zero word is the sum over the four
  slots; a rows-times-columns product is the sum over the contracted axis, also for the [8192, 4, 512] × [512, 512]
  product that keeps the node and the slot; a bias spread over rows (and slots) reads the bias at the column; a slice
  of the gate array's columns reads the gate array at the shifted column.
-/
import proofs.«117485_j54365696033410_2_alg».proof.Proof.RefTerms
import proofs.«117485_j54365696033410_2_alg».proof.Proof.LibPlainDot
import proofs.«117485_j54365696033410_2_alg».proof.Proof.TreeCell
import Idealize.ShloMosaic.Lib.Pipeline.Value
import Idealize.ShloMosaic.Lib.IdealHost
import Idealize.ShloMosaic.PureOps.Ideal.Laws
import Idealize.ShloMosaic.PureOps.Reduce

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-! ## The two words, and the logistic function -/

theorem ones2_apply (i : S8192x512.Idx) : ones2 i = 1 :=
  (broadcastInDim_scalar_apply bcast_S_S8192x512 _ i).trans Ideal.ofBits_one_f32
theorem zeros2_apply (i : S8192x512.Idx) : zeros2 i = 0 :=
  (broadcastInDim_scalar_apply bcast_S_S8192x512 _ i).trans Ideal.ofBits_zero_f32
theorem ones3_apply (i : S8192x4x512.Idx) : ones3 i = 1 :=
  (broadcastInDim_scalar_apply bcast_S_S8192x4x512 _ i).trans Ideal.ofBits_one_f32

/-- `1 / (1 + exp (-x))` is the logistic function. -/
theorem sig2_apply (x : FVec Ideal S8192x512 .f32) (i : S8192x512.Idx) : sig2 x i = Ideal.logistic (x i) := by
  show Ideal.div (ones2 i) (ones2 i + Ideal.exp (-(x i))) = Ideal.logistic (x i)
  rw [ones2_apply]
  rfl
theorem sig3_apply (x : FVec Ideal S8192x4x512 .f32) (i : S8192x4x512.Idx) : sig3 x i = Ideal.logistic (x i) := by
  show Ideal.div (ones3 i) (ones3 i + Ideal.exp (-(x i))) = Ideal.logistic (x i)
  rw [ones3_apply]
  rfl

/-! ## The child mask spread over the feature axis, and the masked child rows -/

theorem mask3_apply (M : FVec Ideal S8192x4 .f32) (n : Fin 8192) (k : Fin 4) (i : Fin 512) :
    mask3 M (ix3 n k i) = M (ix2 n k) := by
  refine (broadcastInDim_apply _ bcast_S8192x4x1_S8192x4x512_0_1_2 (maskCol M) (ix3 n k i) (ix3 n k (0 : Fin 1)) fun a => ?_).trans
    (broadcastInDim_apply _ bcast_S8192x4_S8192x4x1_0_1 M (ix3 n k (0 : Fin 1)) (ix2 n k) fun a => ?_)
  · match a with
    | ⟨0, _⟩ => rfl
    | ⟨1, _⟩ => rfl
    | ⟨2, _⟩ => rfl
  · match a with
    | ⟨0, _⟩ => rfl
    | ⟨1, _⟩ => rfl

theorem masked_apply (A : FVec Ideal S8192x512 .f32) (IDX : IVec S8192x4x1 32) (M : FVec Ideal S8192x4 .f32)
    (n : Fin 8192) (k : Fin 4) (i : Fin 512) :
    masked A IDX M (ix3 n k i)
      = Host.gather gather_S8192x512_S8192x4x1_S8192x4x512_2_0_n_n_0_2_1512 A IDX (ix3 n k i) * M (ix2 n k) := by
  show Host.gather gather_S8192x512_S8192x4x1_S8192x4x512_2_0_n_n_0_2_1512 A IDX (ix3 n k i) * mask3 M (ix3 n k i) = _
  rw [mask3_apply]

/-! ## The sum over the child axis -/

/-- The kept-axes fact of the host reduction is the one of a vector reduction. -/
theorem reduces_child : S8192x4x512.Reduces [1] S8192x512 :=
  ⟨reducesTo_S8192x4x512_S8192x512_d1.1, Nat.succ_pos _, reducesTo_S8192x4x512_S8192x512_d1.2⟩

/-- Over node `n` and feature `j`, the source index with slot `k` on the dropped axis is `(n, k, j)`. -/
theorem lift_child (n : Fin 8192) (j : Fin 512) (k : Fin (S8192x4x512.size 1)) :
    reduces_child.lift (ix2 n j) k = ix3 n (k : Fin 4) j := by
  funext c
  apply Fin.ext
  match c with
  | ⟨0, _⟩ => rfl
  | ⟨1, _⟩ => rfl
  | ⟨2, _⟩ => rfl

theorem childSum_apply (A : FVec Ideal S8192x4x512 .f32) (n : Fin 8192) (j : Fin 512) :
    childSum A (ix2 n j) = ∑ k : Fin 4, A (ix3 n k j) := by
  unfold childSum
  rw [hostReduceAdd_apply, Ideal.hostReduceAdd_single reducesTo_S8192x4x512_S8192x512_d1 reduces_child]
  show Ideal.ofBits .f32 0x00000000#32 + _ = _
  rw [Ideal.ofBits_zero_f32, zero_add]
  exact Finset.sum_congr rfl fun k _ => congrArg A (lift_child n j k)

/-! ## The products -/

theorem dotWf_apply (X : FVec Ideal S8192x300 .f32) (Wf : FVec Ideal S300x512 .f32) (n : Fin 8192) (q : Fin 512) :
    Host.dotGeneral (F := Ideal) dot_S8192x300_S300x512_S8192x512_1_0_0_1_n_n none X Wf (ix2 n q)
      = ∑ e : Fin 300, X (ix2 n e) * Wf (ix2 e q) :=
  Cert.Proof.PlainDot.dotGeneral_plain_apply dot_S8192x300_S300x512_S8192x512_1_0_0_1_n_n_wf none X Wf n q

theorem dotWiou_apply (X : FVec Ideal S8192x300 .f32) (Wiou : FVec Ideal S300x1536 .f32) (n : Fin 8192) (q : Fin 1536) :
    Host.dotGeneral (F := Ideal) dot_S8192x300_S300x1536_S8192x1536_1_0_0_1_n_n none X Wiou (ix2 n q)
      = ∑ e : Fin 300, X (ix2 n e) * Wiou (ix2 e q) :=
  Cert.Proof.PlainDot.dotGeneral_plain_apply dot_S8192x300_S300x1536_S8192x1536_1_0_0_1_n_n_wf none X Wiou n q

theorem dotUiou_apply (Ht : FVec Ideal S8192x512 .f32) (Uiou : FVec Ideal S512x1536 .f32) (n : Fin 8192) (q : Fin 1536) :
    Host.dotGeneral (F := Ideal) dot_S8192x512_S512x1536_S8192x1536_1_0_0_1_n_n none Ht Uiou (ix2 n q)
      = ∑ i : Fin 512, Ht (ix2 n i) * Uiou (ix2 i q) :=
  Cert.Proof.PlainDot.dotGeneral_plain_apply dot_S8192x512_S512x1536_S8192x1536_1_0_0_1_n_n_wf none Ht Uiou n q

/-- The [8192, 4, 512] × [512, 512] product that contracts the feature axis and keeps node and slot. -/
abbrev dotUf := dot_S8192x4x512_S512x512_S8192x4x512_2_0_01_1_n_n

/-- Its contraction index set is the one coordinate range `Fin 512`. -/
abbrev contrUf : dotUf.contr.Idx ≃ Fin 512 := contrEquiv1 dotUf 512 rfl rfl

theorem dotUf_lhsIdx (n : Fin 8192) (k : Fin 4) (q : Fin 512) (i : Fin 512) :
    dotUf.lhsIdx (ix3 n k q) (contrUf.symm i) = ix3 n k i := by
  funext a
  refine Fin.ext ?_
  match a with
  | ⟨0, _⟩ => rfl
  | ⟨1, _⟩ => rfl
  | ⟨2, _⟩ => rfl

theorem dotUf_rhsIdx (n : Fin 8192) (k : Fin 4) (q : Fin 512) (i : Fin 512) :
    dotUf.rhsIdx (ix3 n k q) (contrUf.symm i) = ix2 i q := by
  funext a
  refine Fin.ext ?_
  match a with
  | ⟨0, _⟩ => rfl
  | ⟨1, _⟩ => rfl

theorem dotUf_apply (hch : FVec Ideal S8192x4x512 .f32) (Uf : FVec Ideal S512x512 .f32) (n : Fin 8192) (k : Fin 4) (q : Fin 512) :
    Host.dotGeneral (F := Ideal) dot_S8192x4x512_S512x512_S8192x4x512_2_0_01_1_n_n none hch Uf (ix3 n k q)
      = ∑ i : Fin 512, hch (ix3 n k i) * Uf (ix2 i q) := by
  show FloatOps.dotGeneral dotUf none .single hch Uf (ix3 n k q) = _
  rw [Ideal.dotGeneral_apply, ← Equiv.sum_comp contrUf.symm]
  refine Finset.sum_congr rfl fun i _ => ?_
  rw [dotUf_lhsIdx, dotUf_rhsIdx]

/-! ## The biases and `x·W_f` spread over rows and slots -/

theorem biasIou_apply (biou : FVec Ideal S1536 .f32) (n : Fin 8192) (q : Fin 1536) : biasIou biou (ix2 n q) = biou (ix1 q) := by
  refine (broadcastInDim_apply _ bcast_S1x1536_S8192x1536_0_1 _ (ix2 n q) (ix2 (0 : Fin 1) q) fun a => ?_).trans
    (broadcastInDim_apply _ bcast_S1536_S1x1536_1 biou (ix2 (0 : Fin 1) q) (ix1 q) fun a => ?_)
  · match a with
    | ⟨0, _⟩ => rfl
    | ⟨1, _⟩ => rfl
  · match a with
    | ⟨0, _⟩ => rfl

theorem biasF3_apply (bf : FVec Ideal S512 .f32) (n : Fin 8192) (k : Fin 4) (q : Fin 512) : biasF3 bf (ix3 n k q) = bf (ix1 q) := by
  refine (broadcastInDim_apply _ bcast_S1x1x512_S8192x4x512_0_1_2 _ (ix3 n k q) (ix3 (0 : Fin 1) (0 : Fin 1) q) fun a => ?_).trans
    (broadcastInDim_apply _ bcast_S512_S1x1x512_2 bf (ix3 (0 : Fin 1) (0 : Fin 1) q) (ix1 q) fun a => ?_)
  · match a with
    | ⟨0, _⟩ => rfl
    | ⟨1, _⟩ => rfl
    | ⟨2, _⟩ => rfl
  · match a with
    | ⟨0, _⟩ => rfl

theorem xWf3_apply (X : FVec Ideal S8192x300 .f32) (Wf : FVec Ideal S300x512 .f32) (n : Fin 8192) (k : Fin 4) (q : Fin 512) :
    xWf3 X Wf (ix3 n k q) = ∑ e : Fin 300, X (ix2 n e) * Wf (ix2 e q) := by
  refine ((broadcastInDim_apply _ bcast_S8192x1x512_S8192x4x512_0_1_2 _ (ix3 n k q) (ix3 n (0 : Fin 1) q) fun a => ?_).trans
    (broadcastInDim_apply _ bcast_S8192x512_S8192x1x512_0_2 _ (ix3 n (0 : Fin 1) q) (ix2 n q) fun a => ?_)).trans (dotWf_apply X Wf n q)
  · match a with
    | ⟨0, _⟩ => rfl
    | ⟨1, _⟩ => rfl
    | ⟨2, _⟩ => rfl
  · match a with
    | ⟨0, _⟩ => rfl
    | ⟨1, _⟩ => rfl

/-! ## The three column blocks of the gate array -/

theorem sliceI_apply (iou : FVec Ideal S8192x1536 .f32) (n : Fin 8192) (j : Fin 512) :
    extractStridedSlice S8192x512 ![0, 0] iou slices_S8192x1536_S8192x512_0_0 (ix2 n j) = iou (ix2 n (TreeCell.gI j)) :=
  extractStridedSlice_apply _ iou slices_S8192x1536_S8192x512_0_0 _ _ fun d => match d with
    | ⟨0, _⟩ => (Nat.zero_add _).symm
    | ⟨1, _⟩ => (Nat.zero_add _).symm
theorem sliceO_apply (iou : FVec Ideal S8192x1536 .f32) (n : Fin 8192) (j : Fin 512) :
    extractStridedSlice S8192x512 ![0, 512] iou slices_S8192x1536_S8192x512_0_512 (ix2 n j) = iou (ix2 n (TreeCell.gO j)) :=
  extractStridedSlice_apply _ iou slices_S8192x1536_S8192x512_0_512 _ _ fun d => match d with
    | ⟨0, _⟩ => (Nat.zero_add _).symm
    | ⟨1, _⟩ => rfl
theorem sliceU_apply (iou : FVec Ideal S8192x1536 .f32) (n : Fin 8192) (j : Fin 512) :
    extractStridedSlice S8192x512 ![0, 1024] iou slices_S8192x1536_S8192x512_0_1024 (ix2 n j) = iou (ix2 n (TreeCell.gU j)) :=
  extractStridedSlice_apply _ iou slices_S8192x1536_S8192x512_0_1024 _ _ fun d => match d with
    | ⟨0, _⟩ => (Nat.zero_add _).symm
    | ⟨1, _⟩ => rfl

theorem gateI_apply (iou : FVec Ideal S8192x1536 .f32) (n : Fin 8192) (j : Fin 512) :
    gateI iou (ix2 n j) = Ideal.logistic (iou (ix2 n (TreeCell.gI j))) := by
  unfold gateI; rw [sig2_apply, sliceI_apply]
theorem gateO_apply (iou : FVec Ideal S8192x1536 .f32) (n : Fin 8192) (j : Fin 512) :
    gateO iou (ix2 n j) = Ideal.logistic (iou (ix2 n (TreeCell.gO j))) := by
  unfold gateO; rw [sig2_apply, sliceO_apply]
theorem gateU_apply (iou : FVec Ideal S8192x1536 .f32) (n : Fin 8192) (j : Fin 512) :
    gateU iou (ix2 n j) = Ideal.tanh (iou (ix2 n (TreeCell.gU j))) := by
  show Ideal.tanh (extractStridedSlice S8192x512 ![0, 1024] iou slices_S8192x1536_S8192x512_0_1024 (ix2 n j)) = _
  rw [sliceU_apply]

theorem cellC_apply (iou : FVec Ideal S8192x1536 .f32) (fc : FVec Ideal S8192x512 .f32) (n : Fin 8192) (j : Fin 512) :
    cellC iou fc (ix2 n j)
      = Ideal.logistic (iou (ix2 n (TreeCell.gI j))) * Ideal.tanh (iou (ix2 n (TreeCell.gU j))) + fc (ix2 n j) := by
  show gateI iou (ix2 n j) * gateU iou (ix2 n j) + fc (ix2 n j) = _
  rw [gateI_apply, gateU_apply]
theorem cellH_apply (iou : FVec Ideal S8192x1536 .f32) (c : FVec Ideal S8192x512 .f32) (n : Fin 8192) (j : Fin 512) :
    cellH iou c (ix2 n j) = Ideal.logistic (iou (ix2 n (TreeCell.gO j))) * Ideal.tanh (c (ix2 n j)) := by
  show gateO iou (ix2 n j) * Ideal.tanh (c (ix2 n j)) = _
  rw [gateO_apply]

/-- The gate array at a node and a column: `(x·W_iou + h̃·U_iou) + b_iou`. -/
theorem iouArr_apply (X : FVec Ideal S8192x300 .f32) (Ht : FVec Ideal S8192x512 .f32)
    (Wiou : FVec Ideal S300x1536 .f32) (Uiou : FVec Ideal S512x1536 .f32) (biou : FVec Ideal S1536 .f32) (n : Fin 8192) (q : Fin 1536) :
    iouArr X Ht Wiou Uiou biou (ix2 n q)
      = (∑ e : Fin 300, X (ix2 n e) * Wiou (ix2 e q) + ∑ i : Fin 512, Ht (ix2 n i) * Uiou (ix2 i q)) + biou (ix1 q) := by
  show (Host.dotGeneral (F := Ideal) dot_S8192x300_S300x1536_S8192x1536_1_0_0_1_n_n none X Wiou (ix2 n q)
      + Host.dotGeneral (F := Ideal) dot_S8192x512_S512x1536_S8192x1536_1_0_0_1_n_n none Ht Uiou (ix2 n q)) + biasIou biou (ix2 n q) = _
  rw [dotWiou_apply, dotUiou_apply, biasIou_apply]

/-- A forget gate at a node, a slot and a feature: `σ((x·W_f + h_k·U_f) + b_f)`. -/
theorem forget_apply (X : FVec Ideal S8192x300 .f32) (hch : FVec Ideal S8192x4x512 .f32)
    (Wf : FVec Ideal S300x512 .f32) (Uf : FVec Ideal S512x512 .f32) (bf : FVec Ideal S512 .f32) (n : Fin 8192) (k : Fin 4) (j : Fin 512) :
    forget X hch Wf Uf bf (ix3 n k j)
      = Ideal.logistic ((∑ e : Fin 300, X (ix2 n e) * Wf (ix2 e j) + ∑ i : Fin 512, hch (ix3 n k i) * Uf (ix2 i j)) + bf (ix1 j)) := by
  unfold forget
  rw [sig3_apply]
  show Ideal.logistic ((xWf3 X Wf (ix3 n k j)
      + Host.dotGeneral (F := Ideal) dot_S8192x4x512_S512x512_S8192x4x512_2_0_01_1_n_n none hch Uf (ix3 n k j)) + biasF3 bf (ix3 n k j)) = _
  rw [xWf3_apply, dotUf_apply, biasF3_apply]

end Cert.ReferenceIdeal.RefValue

end
-- ==== Proof.RefLeaf.lean ====
/-
  The leaf level read at an index.

  A leaf has no children: the reference still adds `0·U_iou` to the gate array (a product with the zero array: every
  term is `0 * y = 0`, also at an infinite `y`) and adds the zero array as the forgotten memory. So at node `n` the
  gate array is `x·W_iou + b_iou`, the memory `σ(i)·tanh(u)` and the hidden value `σ(o)·tanh(c)`: the cell's leaf row.
-/
import proofs.«117485_j54365696033410_2_alg».proof.Proof.RefOps

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

section Leaf
variable (X : FVec Ideal S8192x300 .f32) (Wiou : FVec Ideal S300x1536 .f32) (Uiou : FVec Ideal S512x1536 .f32)
  (biou : FVec Ideal S1536 .f32) (n : Fin 8192)

theorem refLeafIou_apply (q : Fin 1536) :
    refLeafIou X Wiou Uiou biou (ix2 n q)
      = TreeCell.leafIou (fun e => X (ix2 n e)) (fun e q => Wiou (ix2 e q)) (fun q => biou (ix1 q)) q := by
  unfold refLeafIou
  rw [iouArr_apply]
  simp only [zeros2_apply, zero_mul, Finset.sum_const_zero, add_zero]
  rfl

theorem refLeafC_apply (j : Fin 512) :
    refLeafC X Wiou Uiou biou (ix2 n j)
      = TreeCell.leafC (fun e => X (ix2 n e)) (fun e q => Wiou (ix2 e q)) (fun q => biou (ix1 q)) j := by
  unfold refLeafC
  rw [cellC_apply, zeros2_apply, add_zero, refLeafIou_apply, refLeafIou_apply]
  rfl

theorem refLeafH_apply (j : Fin 512) :
    refLeafH X Wiou Uiou biou (ix2 n j)
      = TreeCell.leafH (fun e => X (ix2 n e)) (fun e q => Wiou (ix2 e q)) (fun q => biou (ix1 q)) j := by
  unfold refLeafH
  rw [cellH_apply, refLeafIou_apply, refLeafC_apply]
  rfl

end Leaf

/-- The memory after the leaf level, at node `n`: the cell's leaf memory of the node's input row. -/
theorem refC5_apply (V0 : Valuation τ sig (Elt Ideal)) (n : Fin 8192) (j : Fin 512) :
    refC5 V0 (ix2 n j) = TreeCell.leafC (fun e => refX5 V0 (ix2 n e)) (wWiou V0) (wBiou V0) j :=
  refLeafC_apply (refX5 V0) (aWiou V0) (aUiou V0) (aBiou V0) n j

/-- The hidden value after the leaf level, at node `n`: the cell's leaf hidden value of the node's input row. -/
theorem refH5_apply (V0 : Valuation τ sig (Elt Ideal)) (n : Fin 8192) (j : Fin 512) :
    refH5 V0 (ix2 n j) = TreeCell.leafH (fun e => refX5 V0 (ix2 n e)) (wWiou V0) (wBiou V0) j :=
  refLeafH_apply (refX5 V0) (aWiou V0) (aUiou V0) (aBiou V0) n j

end Cert.ReferenceIdeal.RefValue

end
-- ==== Proof.RefLevel.lean ====
/-
  An inner level read at an index.

  At node `n`, with the child rows of the hidden and memory arrays of the level below gathered (`hc k`, `cc k`) and the
  slots' masks `mk k`: the reference's gate array is `(x·W_iou + h̃·U_iou) + b_iou` and its forget gates are
  `σ((x·W_f + h_k·U_f) + b_f)`, where the cell groups `(x·W + b) + h·U`. The two groupings are equal because addition
  of extended reals is commutative and associative; nothing else separates the reference's level from the cell's row.
-/
import proofs.«117485_j54365696033410_2_alg».proof.Proof.RefOps

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

section Level
variable (X : FVec Ideal S8192x300 .f32) (Hp Cp : FVec Ideal S8192x512 .f32) (IDX : IVec S8192x4x1 32) (M : FVec Ideal S8192x4 .f32)
  (Wf : FVec Ideal S300x512 .f32) (Wiou : FVec Ideal S300x1536 .f32) (Uf : FVec Ideal S512x512 .f32) (Uiou : FVec Ideal S512x1536 .f32)
  (bf : FVec Ideal S512 .f32) (biou : FVec Ideal S1536 .f32) (n : Fin 8192)

/-- The gate array of an inner level at node `n`, column `q`. -/
theorem refLevelIou_apply (q : Fin 1536) :
    refLevelIou X Hp IDX M Wiou Uiou biou (ix2 n q)
      = TreeCell.iou (fun e => X (ix2 n e))
          (fun k i => Host.gather gather_S8192x512_S8192x4x1_S8192x4x512_2_0_n_n_0_2_1512 Hp IDX (ix3 n k i))
          (fun k => M (ix2 n k)) (fun e q => Wiou (ix2 e q)) (fun i q => Uiou (ix2 i q)) (fun q => biou (ix1 q)) q := by
  unfold refLevelIou
  rw [iouArr_apply]
  simp only [childSum_apply, masked_apply]
  exact add_right_comm _ _ _

/-- A forget gate of an inner level at node `n`, slot `k`, feature `j`. -/
theorem forget_masked_apply (k : Fin 4) (j : Fin 512) :
    forget X (masked Hp IDX M) Wf Uf bf (ix3 n k j)
      = TreeCell.fgate (fun e => X (ix2 n e))
          (fun k i => Host.gather gather_S8192x512_S8192x4x1_S8192x4x512_2_0_n_n_0_2_1512 Hp IDX (ix3 n k i))
          (fun k => M (ix2 n k)) (fun e q => Wf (ix2 e q)) (fun i q => Uf (ix2 i q)) (fun q => bf (ix1 q)) k j := by
  rw [forget_apply]
  simp only [masked_apply]
  exact congrArg Ideal.logistic (add_right_comm _ _ _)

/-- The memory array of an inner level at node `n`: the cell's new memory of the node's row. -/
theorem refLevelC_apply (j : Fin 512) :
    refLevelC X Hp Cp IDX M Wf Wiou Uf Uiou bf biou (ix2 n j)
      = TreeCell.cNew (fun e => X (ix2 n e))
          (fun k i => Host.gather gather_S8192x512_S8192x4x1_S8192x4x512_2_0_n_n_0_2_1512 Hp IDX (ix3 n k i))
          (fun k i => Host.gather gather_S8192x512_S8192x4x1_S8192x4x512_2_0_n_n_0_2_1512 Cp IDX (ix3 n k i))
          (fun k => M (ix2 n k)) (fun e q => Wf (ix2 e q)) (fun e q => Wiou (ix2 e q)) (fun i q => Uf (ix2 i q))
          (fun i q => Uiou (ix2 i q)) (fun q => bf (ix1 q)) (fun q => biou (ix1 q)) j := by
  unfold refLevelC
  rw [cellC_apply, childSum_apply, refLevelIou_apply, refLevelIou_apply]
  simp only [mulf_apply, forget_masked_apply, masked_apply]
  rfl

/-- The hidden array of an inner level at node `n`: the cell's new hidden value of the node's row. -/
theorem refLevelH_apply (j : Fin 512) :
    refLevelH X Hp Cp IDX M Wf Wiou Uf Uiou bf biou (ix2 n j)
      = TreeCell.hNew (fun e => X (ix2 n e))
          (fun k i => Host.gather gather_S8192x512_S8192x4x1_S8192x4x512_2_0_n_n_0_2_1512 Hp IDX (ix3 n k i))
          (fun k i => Host.gather gather_S8192x512_S8192x4x1_S8192x4x512_2_0_n_n_0_2_1512 Cp IDX (ix3 n k i))
          (fun k => M (ix2 n k)) (fun e q => Wf (ix2 e q)) (fun e q => Wiou (ix2 e q)) (fun i q => Uf (ix2 i q))
          (fun i q => Uiou (ix2 i q)) (fun q => bf (ix1 q)) (fun q => biou (ix1 q)) j := by
  unfold refLevelH
  rw [cellH_apply, refLevelIou_apply, refLevelC_apply]
  rfl

end Level

end Cert.ReferenceIdeal.RefValue

end
-- ==== Proof.RefLevels.lean ====
/-
  The five inner levels read at an index: the level function's reading instantiated at each level's own arrays, with
  the weights written as the curried functions of the argument arrays.
-/
import proofs.«117485_j54365696033410_2_alg».proof.Proof.RefLevel

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

variable (V0 : Valuation τ sig (Elt Ideal)) (n : Fin 8192) (j : Fin 512)

/-- The memory array after level 4, at node `n`: the cell's row over the gathered child rows of level 5. -/
theorem refC4_apply :
    refC4 V0 (ix2 n j)
      = TreeCell.cNew (fun e => refX4 V0 (ix2 n e))
          (fun k i => Host.gather gather_S8192x512_S8192x4x1_S8192x4x512_2_0_n_n_0_2_1512 (refH5 V0) (refIdx4 V0) (ix3 n k i))
          (fun k i => Host.gather gather_S8192x512_S8192x4x1_S8192x4x512_2_0_n_n_0_2_1512 (refC5 V0) (refIdx4 V0) (ix3 n k i))
          (fun k => refM4 V0 (ix2 n k)) (wWf V0) (wWiou V0) (wUf V0) (wUiou V0) (wBf V0) (wBiou V0) j :=
  refLevelC_apply (refX4 V0) (refH5 V0) (refC5 V0) (refIdx4 V0) (refM4 V0) (aWf V0) (aWiou V0) (aUf V0) (aUiou V0) (aBf V0) (aBiou V0) n j

/-- The hidden array after level 4, at node `n`: the cell's row over the gathered child rows of level 5. -/
theorem refH4_apply :
    refH4 V0 (ix2 n j)
      = TreeCell.hNew (fun e => refX4 V0 (ix2 n e))
          (fun k i => Host.gather gather_S8192x512_S8192x4x1_S8192x4x512_2_0_n_n_0_2_1512 (refH5 V0) (refIdx4 V0) (ix3 n k i))
          (fun k i => Host.gather gather_S8192x512_S8192x4x1_S8192x4x512_2_0_n_n_0_2_1512 (refC5 V0) (refIdx4 V0) (ix3 n k i))
          (fun k => refM4 V0 (ix2 n k)) (wWf V0) (wWiou V0) (wUf V0) (wUiou V0) (wBf V0) (wBiou V0) j :=
  refLevelH_apply (refX4 V0) (refH5 V0) (refC5 V0) (refIdx4 V0) (refM4 V0) (aWf V0) (aWiou V0) (aUf V0) (aUiou V0) (aBf V0) (aBiou V0) n j

/-- The memory array after level 3, at node `n`: the cell's row over the gathered child rows of level 4. -/
theorem refC3_apply :
    refC3 V0 (ix2 n j)
      = TreeCell.cNew (fun e => refX3 V0 (ix2 n e))
          (fun k i => Host.gather gather_S8192x512_S8192x4x1_S8192x4x512_2_0_n_n_0_2_1512 (refH4 V0) (refIdx3 V0) (ix3 n k i))
          (fun k i => Host.gather gather_S8192x512_S8192x4x1_S8192x4x512_2_0_n_n_0_2_1512 (refC4 V0) (refIdx3 V0) (ix3 n k i))
          (fun k => refM3 V0 (ix2 n k)) (wWf V0) (wWiou V0) (wUf V0) (wUiou V0) (wBf V0) (wBiou V0) j :=
  refLevelC_apply (refX3 V0) (refH4 V0) (refC4 V0) (refIdx3 V0) (refM3 V0) (aWf V0) (aWiou V0) (aUf V0) (aUiou V0) (aBf V0) (aBiou V0) n j

/-- The hidden array after level 3, at node `n`: the cell's row over the gathered child rows of level 4. -/
theorem refH3_apply :
    refH3 V0 (ix2 n j)
      = TreeCell.hNew (fun e => refX3 V0 (ix2 n e))
          (fun k i => Host.gather gather_S8192x512_S8192x4x1_S8192x4x512_2_0_n_n_0_2_1512 (refH4 V0) (refIdx3 V0) (ix3 n k i))
          (fun k i => Host.gather gather_S8192x512_S8192x4x1_S8192x4x512_2_0_n_n_0_2_1512 (refC4 V0) (refIdx3 V0) (ix3 n k i))
          (fun k => refM3 V0 (ix2 n k)) (wWf V0) (wWiou V0) (wUf V0) (wUiou V0) (wBf V0) (wBiou V0) j :=
  refLevelH_apply (refX3 V0) (refH4 V0) (refC4 V0) (refIdx3 V0) (refM3 V0) (aWf V0) (aWiou V0) (aUf V0) (aUiou V0) (aBf V0) (aBiou V0) n j

/-- The memory array after level 2, at node `n`: the cell's row over the gathered child rows of level 3. -/
theorem refC2_apply :
    refC2 V0 (ix2 n j)
      = TreeCell.cNew (fun e => refX2 V0 (ix2 n e))
          (fun k i => Host.gather gather_S8192x512_S8192x4x1_S8192x4x512_2_0_n_n_0_2_1512 (refH3 V0) (refIdx2 V0) (ix3 n k i))
          (fun k i => Host.gather gather_S8192x512_S8192x4x1_S8192x4x512_2_0_n_n_0_2_1512 (refC3 V0) (refIdx2 V0) (ix3 n k i))
          (fun k => refM2 V0 (ix2 n k)) (wWf V0) (wWiou V0) (wUf V0) (wUiou V0) (wBf V0) (wBiou V0) j :=
  refLevelC_apply (refX2 V0) (refH3 V0) (refC3 V0) (refIdx2 V0) (refM2 V0) (aWf V0) (aWiou V0) (aUf V0) (aUiou V0) (aBf V0) (aBiou V0) n j

/-- The hidden array after level 2, at node `n`: the cell's row over the gathered child rows of level 3. -/
theorem refH2_apply :
    refH2 V0 (ix2 n j)
      = TreeCell.hNew (fun e => refX2 V0 (ix2 n e))
          (fun k i => Host.gather gather_S8192x512_S8192x4x1_S8192x4x512_2_0_n_n_0_2_1512 (refH3 V0) (refIdx2 V0) (ix3 n k i))
          (fun k i => Host.gather gather_S8192x512_S8192x4x1_S8192x4x512_2_0_n_n_0_2_1512 (refC3 V0) (refIdx2 V0) (ix3 n k i))
          (fun k => refM2 V0 (ix2 n k)) (wWf V0) (wWiou V0) (wUf V0) (wUiou V0) (wBf V0) (wBiou V0) j :=
  refLevelH_apply (refX2 V0) (refH3 V0) (refC3 V0) (refIdx2 V0) (refM2 V0) (aWf V0) (aWiou V0) (aUf V0) (aUiou V0) (aBf V0) (aBiou V0) n j

/-- The memory array after level 1, at node `n`: the cell's row over the gathered child rows of level 2. -/
theorem refC1_apply :
    refC1 V0 (ix2 n j)
      = TreeCell.cNew (fun e => refX1 V0 (ix2 n e))
          (fun k i => Host.gather gather_S8192x512_S8192x4x1_S8192x4x512_2_0_n_n_0_2_1512 (refH2 V0) (refIdx1 V0) (ix3 n k i))
          (fun k i => Host.gather gather_S8192x512_S8192x4x1_S8192x4x512_2_0_n_n_0_2_1512 (refC2 V0) (refIdx1 V0) (ix3 n k i))
          (fun k => refM1 V0 (ix2 n k)) (wWf V0) (wWiou V0) (wUf V0) (wUiou V0) (wBf V0) (wBiou V0) j :=
  refLevelC_apply (refX1 V0) (refH2 V0) (refC2 V0) (refIdx1 V0) (refM1 V0) (aWf V0) (aWiou V0) (aUf V0) (aUiou V0) (aBf V0) (aBiou V0) n j

/-- The hidden array after level 1, at node `n`: the cell's row over the gathered child rows of level 2. -/
theorem refH1_apply :
    refH1 V0 (ix2 n j)
      = TreeCell.hNew (fun e => refX1 V0 (ix2 n e))
          (fun k i => Host.gather gather_S8192x512_S8192x4x1_S8192x4x512_2_0_n_n_0_2_1512 (refH2 V0) (refIdx1 V0) (ix3 n k i))
          (fun k i => Host.gather gather_S8192x512_S8192x4x1_S8192x4x512_2_0_n_n_0_2_1512 (refC2 V0) (refIdx1 V0) (ix3 n k i))
          (fun k => refM1 V0 (ix2 n k)) (wWf V0) (wWiou V0) (wUf V0) (wUiou V0) (wBf V0) (wBiou V0) j :=
  refLevelH_apply (refX1 V0) (refH2 V0) (refC2 V0) (refIdx1 V0) (refM1 V0) (aWf V0) (aWiou V0) (aUf V0) (aUiou V0) (aBf V0) (aBiou V0) n j

/-- The memory array after level 0, at node `n`: the cell's row over the gathered child rows of level 1. -/
theorem refC0_apply :
    refC0 V0 (ix2 n j)
      = TreeCell.cNew (fun e => refX0 V0 (ix2 n e))
          (fun k i => Host.gather gather_S8192x512_S8192x4x1_S8192x4x512_2_0_n_n_0_2_1512 (refH1 V0) (refIdx0 V0) (ix3 n k i))
          (fun k i => Host.gather gather_S8192x512_S8192x4x1_S8192x4x512_2_0_n_n_0_2_1512 (refC1 V0) (refIdx0 V0) (ix3 n k i))
          (fun k => refM0 V0 (ix2 n k)) (wWf V0) (wWiou V0) (wUf V0) (wUiou V0) (wBf V0) (wBiou V0) j :=
  refLevelC_apply (refX0 V0) (refH1 V0) (refC1 V0) (refIdx0 V0) (refM0 V0) (aWf V0) (aWiou V0) (aUf V0) (aUiou V0) (aBf V0) (aBiou V0) n j

/-- The hidden array after level 0, at node `n`: the cell's row over the gathered child rows of level 1. -/
theorem refH0_apply :
    refH0 V0 (ix2 n j)
      = TreeCell.hNew (fun e => refX0 V0 (ix2 n e))
          (fun k i => Host.gather gather_S8192x512_S8192x4x1_S8192x4x512_2_0_n_n_0_2_1512 (refH1 V0) (refIdx0 V0) (ix3 n k i))
          (fun k i => Host.gather gather_S8192x512_S8192x4x1_S8192x4x512_2_0_n_n_0_2_1512 (refC1 V0) (refIdx0 V0) (ix3 n k i))
          (fun k => refM0 V0 (ix2 n k)) (wWf V0) (wWiou V0) (wUf V0) (wUiou V0) (wBf V0) (wBiou V0) j :=
  refLevelH_apply (refX0 V0) (refH1 V0) (refC1 V0) (refIdx0 V0) (refM0 V0) (aWf V0) (aWiou V0) (aUf V0) (aUiou V0) (aBf V0) (aBiou V0) n j

end Cert.ReferenceIdeal.RefValue

end
-- ==== Proof.BodyLeaf.lean ====
import proofs.«117485_j54365696033410_2_alg».proof.Proof.Gen.KernelIdeal.Frame
import proofs.«117485_j54365696033410_2_alg».proof.Proof.TreeCell
import proofs.«117485_j54365696033410_2_alg».proof.Proof.LibPlainDot
import Idealize.ShloMosaic.Lib.ValueLayout

noncomputable section
namespace Cert.KernelIdeal.Body
open Idealize.ShloMosaic Idealize.ShloMosaic.ValueIdx Cert.KernelIdeal

/-! # The leaf cell's body, read at an index

The leaf kernel computes the 1536-wide row `iou = x·W_iou + b_iou` by one matrix product onto a zero accumulator plus
the bias row broadcast over the rows, cuts it at columns 0, 512 and 1024 into the input, output and update gates, and
stores `c = σ(i)·tanh(u)` and `h = σ(o)·tanh(c)`. -/

section Leaf
variable (v0 : Vec Ideal S256x300 .f32) (v3 : Vec Ideal S300x1536 .f32) (v6 : Vec Ideal S1x1536 .f32)

/-- The pre-activation row: entry `(p, q)` is `Σ_e x(p,e)·W(e,q) + b(q)`. -/
theorem k0_pay1_apply (p : Fin 256) (q : Fin 1536) :
    Gen.k0_pay1 (F := Ideal) v0 v3 v6 (ix2 p q)
      = TreeCell.leafIou (fun e => v0 (ix2 p e)) (fun e q => v3 (ix2 e q)) (fun q => v6 (ix2 (0 : Fin 1) q)) q := by
  unfold Gen.k0_pay1 TreeCell.leafIou TreeCell.dotRow
  refine (addf_apply _ _ _).trans (congrArg₂ (· + ·) ?_ ?_)
  · refine (Cert.Proof.PlainDot.matmul_zero_plain_apply' (M := 256) (K := 300) (N := 1536)
      Gen.dot_S256x300_S300x1536_S256x1536_1_0_0_1_n_n_wf none _ _ p q).trans ?_
    refine Finset.sum_congr rfl fun e _ => ?_
    show shapeCast S256x300 v0 _ (ix2 p e) * v3 (ix2 e q) = _
    rw [shapeCast_self]
  · refine (broadcastTo_1b_ab_apply _ _ p q).trans ?_
    exact congrFun (shapeCast_self v6 _) _

/-- The stored memory row `c = σ(iou[0:512]) · tanh(iou[1024:1536])`. -/
theorem k0_pay2_apply (p : Fin 256) (j : Fin 512) :
    Gen.k0_pay2 (F := Ideal) v0 v3 v6 (ix2 p j)
      = TreeCell.leafC (fun e => v0 (ix2 p e)) (fun e q => v3 (ix2 e q)) (fun q => v6 (ix2 (0 : Fin 1) q)) j := by
  unfold Gen.k0_pay2 TreeCell.leafC
  refine (mulf_apply _ _ _).trans (congrArg₂ (· * ·) ?_ ?_)
  · refine congrArg Ideal.logistic ?_
    refine (slice2_axis1_apply 0 _ _ p j (TreeCell.gI j) (Nat.zero_add _).symm).trans ?_
    exact k0_pay1_apply v0 v3 v6 p _
  · refine congrArg Ideal.tanh ?_
    refine (slice2_axis1_apply 1024 _ _ p j (TreeCell.gU j) rfl).trans ?_
    exact k0_pay1_apply v0 v3 v6 p _

/-- The stored hidden row `h = σ(iou[512:1024]) · tanh(c)`. -/
theorem k0_pay3_apply (p : Fin 256) (j : Fin 512) :
    Gen.k0_pay3 (F := Ideal) v0 v3 v6 (ix2 p j)
      = TreeCell.leafH (fun e => v0 (ix2 p e)) (fun e q => v3 (ix2 e q)) (fun q => v6 (ix2 (0 : Fin 1) q)) j := by
  unfold Gen.k0_pay3 TreeCell.leafH
  refine (mulf_apply _ _ _).trans (congrArg₂ (· * ·) ?_ ?_)
  · refine congrArg Ideal.logistic ?_
    refine (slice2_axis1_apply 512 _ _ p j (TreeCell.gO j) rfl).trans ?_
    exact k0_pay1_apply v0 v3 v6 p _
  · exact congrArg Ideal.tanh (k0_pay2_apply v0 v3 v6 p j)

end Leaf

section LeafOut
variable (x0 : Vec Ideal S256x300 .f32) (x1 : Vec Ideal S300x1536 .f32) (x2 : Vec Ideal S1x1536 .f32)

/-- The whole-block rectangles start at the origin. -/
theorem leaf_off2 : (![0, 0] : Fin 2 → Nat) = fun _ => 0 := by
  funext a
  match a with
  | ⟨0, _⟩ => rfl
  | ⟨1, _⟩ => rfl

/-- What the leaf body leaves in the hidden-state block, at `(p, j)`. -/
theorem out0_3_apply (p : Fin 256) (j : Fin 512) :
    Gen.out0_3 (F := Ideal) x0 x1 x2 (ix2 p j)
      = TreeCell.leafH (fun e => x0 (ix2 p e)) (fun e q => x1 (ix2 e q)) (fun q => x2 (ix2 0 q)) j := by
  unfold Gen.out0_3
  rw [View.canon_unit_zero leaf_off2]
  simp only [View.ld_unit_zero (S := S256x300) leaf_off2, View.ld_unit_zero (S := S300x1536) leaf_off2,
    View.ld_unit_zero (S := S1x1536) leaf_off2]
  exact k0_pay3_apply x0 x1 x2 p j

/-- What the leaf body leaves in the memory block, at `(p, j)`. -/
theorem out0_4_apply (p : Fin 256) (j : Fin 512) :
    Gen.out0_4 (F := Ideal) x0 x1 x2 (ix2 p j)
      = TreeCell.leafC (fun e => x0 (ix2 p e)) (fun e q => x1 (ix2 e q)) (fun q => x2 (ix2 0 q)) j := by
  unfold Gen.out0_4
  rw [View.canon_unit_zero leaf_off2]
  simp only [View.ld_unit_zero (S := S256x300) leaf_off2, View.ld_unit_zero (S := S300x1536) leaf_off2,
    View.ld_unit_zero (S := S1x1536) leaf_off2]
  exact k0_pay2_apply x0 x1 x2 p j

end LeafOut

end Cert.KernelIdeal.Body
end
-- ==== Proof.BodyLevelFused.lean ====
import proofs.«117485_j54365696033410_2_alg».proof.Proof.Gen.KernelIdeal.Skeleton
import proofs.«117485_j54365696033410_2_alg».proof.Proof.TreeCell
import proofs.«117485_j54365696033410_2_alg».proof.Proof.LibPlainDot
import Idealize.ShloMosaic.Lib.ValueLayout

noncomputable section
namespace Cert.KernelIdeal.Body
open Idealize.ShloMosaic Idealize.ShloMosaic.ValueIdx Cert.KernelIdeal

/-! # The level cell's body: the fused input product, read at an index

The level kernel multiplies the node's input rows by the fused weights `[W_f | W_iou]` (2048 columns) onto a zero
accumulator and adds the fused bias row; columns 0:512 are the forget pre-activation `x·W_f + b_f` shared by the four
child slots, columns 512:2048 the gate pre-activation `x·W_iou + b_iou`. -/

section Fused
variable (v0 : Vec Ideal S256x300 .f32) (v3 : Vec Ideal S300x2048 .f32) (v7 : Vec Ideal S1x2048 .f32)

/-- The fused row: entry `(p, q)` is `Σ_e x(p,e)·W(e,q) + b(q)`. -/
theorem k1_pay4_apply (p : Fin 256) (q : Fin 2048) :
    Gen.k1_pay4 (F := Ideal) v0 v3 v7 (ix2 p q)
      = (∑ e : Fin 300, v0 (ix2 p e) * v3 (ix2 e q)) + v7 (ix2 (0 : Fin 1) q) := by
  unfold Gen.k1_pay4
  refine (addf_apply _ _ _).trans (congrArg₂ (· + ·) ?_ ?_)
  · refine (Cert.Proof.PlainDot.matmul_zero_plain_apply' (M := 256) (K := 300) (N := 2048)
      Gen.dot_S256x300_S300x2048_S256x2048_1_0_0_1_n_n_wf none _ _ p q).trans ?_
    refine Finset.sum_congr rfl fun e _ => ?_
    show shapeCast S256x300 v0 _ (ix2 p e) * shapeCast S300x2048 v3 _ (ix2 e q) = _
    rw [shapeCast_self, shapeCast_self]
  · refine (broadcastTo_1b_ab_apply _ _ p q).trans ?_
    exact congrFun (shapeCast_self v7 _) _

/-- Columns 0:512 of the fused row: the forget pre-activation `x·W_f + b_f`. -/
theorem k1_pay5_apply (p : Fin 256) (j : Fin 512) :
    Gen.k1_pay5 (F := Ideal) v0 v3 v7 (ix2 p j)
      = TreeCell.dotRow (fun e => v0 (ix2 p e)) (fun e q => v3 (ix2 e (TreeCell.colF q))) j
          + v7 (ix2 (0 : Fin 1) (TreeCell.colF j)) := by
  unfold Gen.k1_pay5
  refine (slice2_axis1_apply 0 _ _ p j (TreeCell.colF j) (Nat.zero_add _).symm).trans ?_
  exact k1_pay4_apply v0 v3 v7 p _

/-- Columns 512:2048 of the fused row: the gate pre-activation `x·W_iou + b_iou`. -/
theorem k1_pay6_apply (p : Fin 256) (q : Fin 1536) :
    Gen.k1_pay6 (F := Ideal) v0 v3 v7 (ix2 p q)
      = TreeCell.dotRow (fun e => v0 (ix2 p e)) (fun e q => v3 (ix2 e (TreeCell.colIou q))) q
          + v7 (ix2 (0 : Fin 1) (TreeCell.colIou q)) := by
  unfold Gen.k1_pay6
  refine (slice2_axis1_apply 512 _ _ p q (TreeCell.colIou q) rfl).trans ?_
  exact k1_pay4_apply v0 v3 v7 p _

end Fused

end Cert.KernelIdeal.Body
end
-- ==== Proof.LibKeepdims.lean ====
import Idealize.ShloMosaic.Lib.ValueIdx
import Idealize.ShloMosaic.Lib.Pipeline.Value
import Idealize.ShloMosaic.PureOps.Ideal.Laws

/-!
# A row reduction that keeps its axis, read at an index

What `jnp.sum(v, axis=-1, keepdims=True)` and its use against a matrix become inside a kernel body, each read at an
index written by its coordinates:

* the lane sum of an [n, c] array into [n] at the ideal instance: entry `r` is `∑ k, src (r, k)`;
* a vector [a] recast as a column [a, 1]: entry `(p, 0)` is entry `p`;
* a column [a, 1] broadcast to [a, b]: entry `(p, q)` is entry `(p, 0)`;
* a matrix product contracting BOTH operands on their axis 1 ([m, k] times [n, k] transposed) into the zero
  accumulator at the ideal instance: entry `(r, c)` is `∑ k, lhs (r, k) * rhs (c, k)`, for a kernel's `tpu.matmul`
  and for the host's `dot_general`.

The layout lemmas do not depend on what the entries are.
-/

noncomputable section

namespace Cert.LibKeepdims

open Idealize.ShloMosaic Idealize.ShloMosaic.ValueIdx
open scoped BigOperators

section Layout
variable {α : Type}

/-- A vector recast as a column: the same numbers in the same order. -/
theorem columnOfVector_cast_at {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h (ix2 p z) (ix1 p) (by
    have hz : z.val = 0 := by omega
    rw [Shape.rowMajor_val_two, Shape.rowMajor_val_one]
    show p.val = p.val * 1 + z.val
    omega)

/-- A column broadcast along the rows' direction: every entry of row `p` is the column's entry `p`. -/
theorem broadcastTo_a1_ab_at {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The lane sum (a `vector.multi_reduction <add>` over axis 1 from the neutral word) at row `r`. -/
theorem laneSum_at {n c : ℕ} (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ k : Fin c, src (ix2 r k) := by
  refine (Ideal.multiReduction_add_single src acc h hφ hacc (ix1 r)).trans ?_
  refine Finset.sum_congr rfl fun k _ => congrArg src ?_
  funext d
  apply Fin.ext
  match d with
  | ⟨0, _⟩ => rfl
  | ⟨1, _⟩ => rfl

/-- The dimension numbers of a product contracting both operands on their axis 1 (`A · Bᵀ`); their conditions
    `wf` are decided on a program's literal shapes. -/
abbrev abtDot (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : ℕ} (wf : DotDims.WF ⟨2, ![M, K]⟩ ⟨2, ![N, K]⟩ ⟨2, ![M, N]⟩ [1] [1] [0] [0] [] [])

/-- At result index `(r, c)` and contraction coordinate `k` the left operand is read at `(r, k)` … -/
theorem abt_lhsIdx (r : Fin M) (c : Fin N) (k : Fin K) :
    (abtDot M K N wf).lhsIdx (ix2 r c) ((contrEquiv1 (abtDot M K N wf) K rfl rfl).symm k) = ix2 r k := by
  funext a
  refine Fin.ext ?_
  match a with
  | ⟨0, _⟩ => rfl
  | ⟨1, _⟩ => rfl

/-- … and the right operand at `(c, k)`. -/
theorem abt_rhsIdx (r : Fin M) (c : Fin N) (k : Fin K) :
    (abtDot M K N wf).rhsIdx (ix2 r c) ((contrEquiv1 (abtDot M K N wf) K rfl rfl).symm k) = ix2 c k := by
  funext a
  refine Fin.ext ?_
  match a with
  | ⟨0, _⟩ => rfl
  | ⟨1, _⟩ => rfl

/-- The contraction's sum over its index set is the sum over `k : Fin K` of `lhs (r, k) * rhs (c, k)`. -/
theorem abt_contr_sum (lhs : (⟨2, ![M, K]⟩ : Shape).Idx → EReal) (rhs : (⟨2, ![N, K]⟩ : Shape).Idx → EReal)
    (r : Fin M) (c : Fin N) :
    (∑ k : (abtDot M K N wf).contr.Idx,
        lhs ((abtDot M K N wf).lhsIdx (ix2 r c) k) * rhs ((abtDot M K N wf).rhsIdx (ix2 r c) k)) =
      ∑ k : Fin K, lhs (ix2 r k) * rhs (ix2 c k) := by
  rw [← Equiv.sum_comp (contrEquiv1 (abtDot M K N wf) K rfl rfl).symm]
  refine Finset.sum_congr rfl fun k _ => ?_
  rw [abt_lhsIdx, abt_rhsIdx]

/-- A kernel's `tpu.matmul` of this form into the zero splat, read at `(r, c)`. -/
theorem matmul_abt_zero_at {φ₁ φ₂ : FTy} (prec : Option ContractPrecision) (lhs : FVec Ideal ⟨2, ![M, K]⟩ φ₁)
    (rhs : FVec Ideal ⟨2, ![N, K]⟩ φ₂) (r : Fin M) (c : Fin N) :
    matmul (F := Ideal) (abtDot M K N wf) prec lhs rhs (constant ⟨2, ![M, N]⟩ .f32 0x00000000#32) (ix2 r c) =
      ∑ k : Fin K, lhs (ix2 r k) * rhs (ix2 c k) := by
  refine (Ideal.matmul_constant_zero_apply (abtDot M K N wf) prec lhs rhs (ix2 r c)).trans ?_
  exact abt_contr_sum wf lhs rhs r c

/-- The host's `dot_general` of this form, read at `(r, c)`. -/
theorem dotGeneral_abt_at {φ₁ φ₂ : FTy} (prec : Option ContractPrecision) (lhs : FVec Ideal ⟨2, ![M, K]⟩ φ₁)
    (rhs : FVec Ideal ⟨2, ![N, K]⟩ φ₂) (r : Fin M) (c : Fin N) :
    Host.dotGeneral (F := Ideal) (abtDot M K N wf) prec lhs rhs (ix2 r c) = ∑ k : Fin K, lhs (ix2 r k) * rhs (ix2 c k) := by
  refine (Ideal.dotGeneral_apply (abtDot M K N wf) prec .single lhs rhs (ix2 r c)).trans ?_
  exact abt_contr_sum wf lhs rhs r c

end Sums

end Cert.LibKeepdims

end
-- ==== Proof.BodyLevelSlots.lean ====
import proofs.«117485_j54365696033410_2_alg».proof.Proof.Gen.KernelIdeal.Skeleton
import proofs.«117485_j54365696033410_2_alg».proof.Proof.TreeCell
import proofs.«117485_j54365696033410_2_alg».proof.Proof.LibKeepdims
import Idealize.ShloMosaic.Lib.ValueLayout

noncomputable section
namespace Cert.KernelIdeal.Body
open Idealize.ShloMosaic Idealize.ShloMosaic.ValueIdx Cert.KernelIdeal

/-! # The level cell's body: a child slot and its mask, read at an index

Child slot `k` of a gathered `[256, 4, 512]` block is the slice at offset `[0, k, 0]` of size `[256, 1, 512]` recast to
`[256, 512]`; its mask is column `k` of the `[256, 4]` mask block, spread over the 512 lanes. The masked row is their
entrywise product. -/

section Slots
variable {α : Type}

/-- Child slot `k` of a block reads the block at `(p, k, i)`. -/
theorem slotRow_apply (X : S256x4x512.Idx → α) (k : Nat) (hk : k < 4)
    (hs : S256x4x512.Slices ![0, k, 0] S256x1x512) (hc : S256x1x512.ShapeCasts S256x512) (p : Fin 256) (i : Fin 512) :
    shapeCast S256x512 (extractStridedSlice S256x1x512 ![0, k, 0] X hs) hc (ix2 p i) = X (ix3 p (⟨k, hk⟩ : Fin 4) i) := by
  refine (shapeCast_apply _ hc (ix2 p i) (ix3 p (0 : Fin 1) i) ?_).trans ?_
  · rw [Shape.rowMajor_val_three, Shape.rowMajor_val_two]
    show (p.val * 1 + 0) * 512 + i.val = p.val * 512 + i.val
    omega
  · exact slice3_axis1_apply k X hs p (0 : Fin 1) i (⟨k, hk⟩ : Fin 4) rfl

/-- Column `k` of the mask block, as a `[256, 1]` column. -/
theorem maskCol_apply (M : S256x4.Idx → α) (k : Nat) (hk : k < 4) (hs : S256x4.Slices ![0, k] S256x1) (p : Fin 256) :
    extractStridedSlice S256x1 ![0, k] M hs (ix2 p (0 : Fin 1)) = M (ix2 p (⟨k, hk⟩ : Fin 4)) :=
  slice2_axis1_apply k M hs p (0 : Fin 1) (⟨k, hk⟩ : Fin 4) rfl

/-- A slot's masked row: the slot's entry times the mask column's entry for the row. -/
theorem slotTerm_apply (X : FVec Ideal S256x4x512 .bf16) (M1 : FVec Ideal S256x1 .f32) (k : Nat) (hk : k < 4)
    (hs : S256x4x512.Slices ![0, k, 0] S256x1x512) (hc : S256x1x512.ShapeCasts S256x512)
    (hlt : FTy.bits .bf16 < FTy.bits .f32) (hb : S256x1.Broadcasts S256x512) (m : EReal) (p : Fin 256) (i : Fin 512)
    (hM : M1 (ix2 p (0 : Fin 1)) = m) :
    mulf (extf .f32 (shapeCast S256x512 (extractStridedSlice S256x1x512 ![0, k, 0] X hs) hc) hlt)
        (broadcastTo S256x512 M1 hb) (ix2 p i) = X (ix3 p (⟨k, hk⟩ : Fin 4) i) * m := by
  refine (mulf_apply _ _ _).trans (congrArg₂ (· * ·) ?_ ?_)
  · exact slotRow_apply X k hk hs hc p i
  · exact (Cert.LibKeepdims.broadcastTo_a1_ab_at M1 hb p i).trans hM

end Slots

section SlotTerms
variable (v13 v15 : Vec Ideal S256x4x512 .bf16) (v17 : Vec Ideal S256x4 .f32) (v19 : Vec Ideal S512x512 .f32)
  (v14 : FVec Ideal S256x4x512 .bf16) (v18 : FVec Ideal S256x4 .f32)

/-- The recasts to the same shape and the narrowing of the weights change nothing. -/
theorem k1_pay7_eq : Gen.k1_pay7 (F := Ideal) v13 = v13 := shapeCast_self _ _
theorem k1_pay8_eq : Gen.k1_pay8 (F := Ideal) v15 = v15 := shapeCast_self _ _
theorem k1_pay9_eq : Gen.k1_pay9 (F := Ideal) v17 = v17 := shapeCast_self _ _
theorem k1_pay10_eq : Gen.k1_pay10 (F := Ideal) v19 = v19 := rfl

/-- The mask columns of the four slots. -/
theorem k1_pay12_apply (p : Fin 256) : Gen.k1_pay12 (F := Ideal) v17 (ix2 p (0 : Fin 1)) = v17 (ix2 p (0 : Fin 4)) := by
  unfold Gen.k1_pay12
  exact (maskCol_apply _ 0 (by omega) _ p).trans (congrFun (k1_pay9_eq v17) _)
theorem k1_pay17_apply (p : Fin 256) : Gen.k1_pay17 (F := Ideal) v18 (ix2 p (0 : Fin 1)) = v18 (ix2 p (1 : Fin 4)) := by
  unfold Gen.k1_pay17
  exact maskCol_apply _ 1 (by omega) _ p
theorem k1_pay19_apply (p : Fin 256) : Gen.k1_pay19 (F := Ideal) v18 (ix2 p (0 : Fin 1)) = v18 (ix2 p (2 : Fin 4)) := by
  unfold Gen.k1_pay19
  exact maskCol_apply _ 2 (by omega) _ p
theorem k1_pay21_apply (p : Fin 256) : Gen.k1_pay21 (F := Ideal) v18 (ix2 p (0 : Fin 1)) = v18 (ix2 p (3 : Fin 4)) := by
  unfold Gen.k1_pay21
  exact maskCol_apply _ 3 (by omega) _ p

/-- Slot 0's masked hidden row. -/
theorem k1_pay13_apply (p : Fin 256) (i : Fin 512) :
    Gen.k1_pay13 (F := Ideal) v13 v17 (ix2 p i)
      = TreeCell.hk (fun k i => v13 (ix3 p k i)) (fun k => v17 (ix2 p k)) 0 i := by
  unfold Gen.k1_pay13 TreeCell.hk
  refine (slotTerm_apply _ _ 0 (by omega) _ _ _ _ _ p i (k1_pay12_apply v17 p)).trans ?_
  exact congrArg₂ (· * ·) (congrFun (k1_pay7_eq v13) _) rfl

/-- Slot 0's masked memory row. -/
theorem k1_pay14_apply (p : Fin 256) (j : Fin 512) :
    Gen.k1_pay14 (F := Ideal) v15 v17 (ix2 p j)
      = TreeCell.ck (fun k i => v15 (ix3 p k i)) (fun k => v17 (ix2 p k)) 0 j := by
  unfold Gen.k1_pay14 TreeCell.ck
  refine (slotTerm_apply _ _ 0 (by omega) _ _ _ _ _ p j (k1_pay12_apply v17 p)).trans ?_
  exact congrArg₂ (· * ·) (congrFun (k1_pay8_eq v15) _) rfl

/-- Slots 1, 2, 3: masked hidden rows. -/
theorem k1_pay18_apply (p : Fin 256) (i : Fin 512) :
    Gen.k1_pay18 (F := Ideal) v14 v18 (ix2 p i)
      = TreeCell.hk (fun k i => v14 (ix3 p k i)) (fun k => v18 (ix2 p k)) 1 i := by
  unfold Gen.k1_pay18 TreeCell.hk
  exact slotTerm_apply _ _ 1 (by omega) _ _ _ _ _ p i (k1_pay17_apply v18 p)

theorem k1_pay20_apply (p : Fin 256) (i : Fin 512) :
    Gen.k1_pay20 (F := Ideal) v14 v18 (ix2 p i)
      = TreeCell.hk (fun k i => v14 (ix3 p k i)) (fun k => v18 (ix2 p k)) 2 i := by
  unfold Gen.k1_pay20 TreeCell.hk
  exact slotTerm_apply _ _ 2 (by omega) _ _ _ _ _ p i (k1_pay19_apply v18 p)

theorem k1_pay22_apply (p : Fin 256) (i : Fin 512) :
    Gen.k1_pay22 (F := Ideal) v14 v18 (ix2 p i)
      = TreeCell.hk (fun k i => v14 (ix3 p k i)) (fun k => v18 (ix2 p k)) 3 i := by
  unfold Gen.k1_pay22 TreeCell.hk
  exact slotTerm_apply _ _ 3 (by omega) _ _ _ _ _ p i (k1_pay21_apply v18 p)

end SlotTerms

end Cert.KernelIdeal.Body
end
-- ==== Proof.BodyLevelSums.lean ====
import proofs.«117485_j54365696033410_2_alg».proof.Proof.BodyLevelFused
import proofs.«117485_j54365696033410_2_alg».proof.Proof.BodyLevelSlots

noncomputable section
namespace Cert.KernelIdeal.Body
open Idealize.ShloMosaic Idealize.ShloMosaic.ValueIdx Cert.KernelIdeal

/-! # The level cell's body: the child sum, the forget gates and the forgotten memory, read at an index

The kernel unrolls the four child slots. The child sum is accumulated as `(((0 + h₀) + h₁) + h₂) + h₃`, the forgotten
memory as `(((0 + f₀·c₀) + f₁·c₁) + f₂·c₂) + f₃·c₃`, where `f_k = σ((x·W_f + b_f) + h_k·U_f)` with the slot's product onto a
zero accumulator; both are the sums over the four slots. -/

section Sums
variable (v0 : Vec Ideal S256x300 .f32) (v3 : Vec Ideal S300x2048 .f32) (v7 : Vec Ideal S1x2048 .f32)
  (v13 v15 : Vec Ideal S256x4x512 .bf16) (v17 : Vec Ideal S256x4 .f32) (v19 : Vec Ideal S512x512 .f32)

/-- The zero the accumulations start from. -/
theorem k1_pay11_apply (i : S256x512.Idx) : Gen.k1_pay11 (F := Ideal) i = 0 := by
  unfold Gen.k1_pay11
  exact Ideal.ofBits_zero_f32

/-- The child sum after slot 0: `0 + h₀`. -/
theorem k1_pay15_apply (p : Fin 256) (i : Fin 512) :
    Gen.k1_pay15 (F := Ideal) v13 v17 (ix2 p i)
      = TreeCell.hk (fun k i => v13 (ix3 p k i)) (fun k => v17 (ix2 p k)) 0 i := by
  unfold Gen.k1_pay15
  refine (addf_apply _ _ _).trans ?_
  refine (congrArg₂ (· + ·) Ideal.ofBits_zero_f32 (k1_pay13_apply v13 v17 p i)).trans ?_
  exact zero_add _

/-- The child sum after the four slots, from the sum after slot 0. -/
theorem k1_pay23_apply (v14 : FVec Ideal S256x4x512 .bf16) (v18 : FVec Ideal S256x4 .f32) (v34 : FVec Ideal S256x512 .f32)
    (p : Fin 256) (i : Fin 512) :
    Gen.k1_pay23 (F := Ideal) v14 v18 v34 (ix2 p i)
      = ((v34 (ix2 p i) + TreeCell.hk (fun k i => v14 (ix3 p k i)) (fun k => v18 (ix2 p k)) 1 i)
          + TreeCell.hk (fun k i => v14 (ix3 p k i)) (fun k => v18 (ix2 p k)) 2 i)
          + TreeCell.hk (fun k i => v14 (ix3 p k i)) (fun k => v18 (ix2 p k)) 3 i := by
  unfold Gen.k1_pay23
  refine (addf_apply _ _ _).trans (congrArg₂ (· + ·) ?_ (k1_pay22_apply v14 v18 p i))
  refine (addf_apply _ _ _).trans (congrArg₂ (· + ·) ?_ (k1_pay20_apply v14 v18 p i))
  exact (addf_apply _ _ _).trans (congrArg₂ (· + ·) rfl (k1_pay18_apply v14 v18 p i))

/-- THE CHILD SUM `h̃ = Σ_k h_k` as the body composes it. -/
theorem childSum_apply (p : Fin 256) (i : Fin 512) :
    Gen.k1_pay23 (F := Ideal) (Gen.k1_pay7 v13) (Gen.k1_pay9 v17) (Gen.k1_pay15 v13 v17) (ix2 p i)
      = TreeCell.hsum (fun k i => v13 (ix3 p k i)) (fun k => v17 (ix2 p k)) i := by
  rw [k1_pay23_apply, k1_pay15_apply, k1_pay7_eq, k1_pay9_eq]
  unfold TreeCell.hsum
  rw [Fin.sum_univ_four]

/-- A slot's forget gate: `σ(pre + h_k·U_f)`, the product onto a zero accumulator. -/
theorem slotForget_apply (v11 : FVec Ideal S256x512 .f32) (v20 : FVec Ideal S512x512 .bf16) (hv : FVec Ideal S256x512 .f32)
    (hrow : Fin 512 → EReal) (p : Fin 256) (j : Fin 512) (h : ∀ i, hv (ix2 p i) = hrow i) :
    logistic (addf v11 (matmul dot_S256x512_S512x512_S256x512_1_0_0_1_n_n none
        (truncf .bf16 hv Gen.bitsLt_bf16_f32) v20 (constant S256x512 .f32 0x00000000#32))) (ix2 p j)
      = Ideal.logistic (v11 (ix2 p j) + TreeCell.dotRow hrow (fun i q => v20 (ix2 i q)) j) := by
  refine congrArg Ideal.logistic ?_
  refine (addf_apply _ _ _).trans (congrArg₂ (· + ·) rfl ?_)
  refine (Cert.Proof.PlainDot.matmul_zero_plain_apply' (M := 256) (K := 512) (N := 512)
    Gen.dot_S256x512_S512x512_S256x512_1_0_0_1_n_n_wf none _ _ p j).trans ?_
  unfold TreeCell.dotRow
  exact Finset.sum_congr rfl fun i _ => congrArg₂ (· * ·) (h i) rfl

/-- Slot 0's forget gate. -/
theorem k1_pay16_apply (p : Fin 256) (j : Fin 512) :
    Gen.k1_pay16 (F := Ideal) v0 v3 v7 v13 v17 v19 (ix2 p j)
      = TreeCell.fgate (fun e => v0 (ix2 p e)) (fun k i => v13 (ix3 p k i)) (fun k => v17 (ix2 p k))
          (fun e q => v3 (ix2 e (TreeCell.colF q))) (fun i q => v19 (ix2 i q))
          (fun q => v7 (ix2 (0 : Fin 1) (TreeCell.colF q))) 0 j := by
  unfold Gen.k1_pay16 TreeCell.fgate
  refine (slotForget_apply _ _ _ _ p j (k1_pay13_apply v13 v17 p)).trans ?_
  rw [k1_pay5_apply, k1_pay10_eq]

/-- The forgotten memory after the four slots, from its parts after slot 0. -/
theorem k1_pay24_apply (v11 : FVec Ideal S256x512 .f32) (v14 v16 : FVec Ideal S256x4x512 .bf16) (v18 : FVec Ideal S256x4 .f32)
    (v20 : FVec Ideal S512x512 .bf16) (v22 v33 v38 : FVec Ideal S256x512 .f32) (p : Fin 256) (j : Fin 512) :
    Gen.k1_pay24 (F := Ideal) v11 v14 v16 v18 v20 v22 v33 v38 (ix2 p j)
      = (((v22 (ix2 p j) + v38 (ix2 p j) * v33 (ix2 p j))
          + Ideal.logistic (v11 (ix2 p j) + TreeCell.dotRow (TreeCell.hk (fun k i => v14 (ix3 p k i)) (fun k => v18 (ix2 p k)) 1)
                (fun i q => v20 (ix2 i q)) j)
              * TreeCell.ck (fun k i => v16 (ix3 p k i)) (fun k => v18 (ix2 p k)) 1 j)
          + Ideal.logistic (v11 (ix2 p j) + TreeCell.dotRow (TreeCell.hk (fun k i => v14 (ix3 p k i)) (fun k => v18 (ix2 p k)) 2)
                (fun i q => v20 (ix2 i q)) j)
              * TreeCell.ck (fun k i => v16 (ix3 p k i)) (fun k => v18 (ix2 p k)) 2 j)
          + Ideal.logistic (v11 (ix2 p j) + TreeCell.dotRow (TreeCell.hk (fun k i => v14 (ix3 p k i)) (fun k => v18 (ix2 p k)) 3)
                (fun i q => v20 (ix2 i q)) j)
              * TreeCell.ck (fun k i => v16 (ix3 p k i)) (fun k => v18 (ix2 p k)) 3 j := by
  unfold Gen.k1_pay24 TreeCell.ck
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · exact (addf_apply _ _ _).trans (congrArg₂ (· + ·) rfl (mulf_apply _ _ _))
      · refine (mulf_apply _ _ _).trans (congrArg₂ (· * ·) ?_ ?_)
        · exact slotForget_apply _ _ _ _ p j (k1_pay18_apply v14 v18 p)
        · exact slotTerm_apply _ _ 1 (by omega) _ _ _ _ _ p j (k1_pay17_apply v18 p)
    · refine (mulf_apply _ _ _).trans (congrArg₂ (· * ·) ?_ ?_)
      · exact slotForget_apply _ _ _ _ p j (k1_pay20_apply v14 v18 p)
      · exact slotTerm_apply _ _ 2 (by omega) _ _ _ _ _ p j (k1_pay19_apply v18 p)
  · refine (mulf_apply _ _ _).trans (congrArg₂ (· * ·) ?_ ?_)
    · exact slotForget_apply _ _ _ _ p j (k1_pay22_apply v14 v18 p)
    · exact slotTerm_apply _ _ 3 (by omega) _ _ _ _ _ p j (k1_pay21_apply v18 p)

/-- THE FORGOTTEN MEMORY `Σ_k f_k · c_k` as the body composes it. -/
theorem forgotten_apply (p : Fin 256) (j : Fin 512) :
    Gen.k1_pay24 (F := Ideal) (Gen.k1_pay5 v0 v3 v7) (Gen.k1_pay7 v13) (Gen.k1_pay8 v15) (Gen.k1_pay9 v17) (Gen.k1_pay10 v19)
        (Gen.k1_pay11 (F := Ideal)) (Gen.k1_pay14 v15 v17) (Gen.k1_pay16 v0 v3 v7 v13 v17 v19) (ix2 p j)
      = TreeCell.fcsum (fun e => v0 (ix2 p e)) (fun k i => v13 (ix3 p k i)) (fun k i => v15 (ix3 p k i)) (fun k => v17 (ix2 p k))
          (fun e q => v3 (ix2 e (TreeCell.colF q))) (fun i q => v19 (ix2 i q))
          (fun q => v7 (ix2 (0 : Fin 1) (TreeCell.colF q))) j := by
  rw [k1_pay24_apply, k1_pay11_apply, k1_pay14_apply, k1_pay16_apply, k1_pay5_apply, k1_pay7_eq, k1_pay8_eq, k1_pay9_eq,
    k1_pay10_eq, zero_add]
  unfold TreeCell.fcsum TreeCell.fgate
  rw [Fin.sum_univ_four]

end Sums

end Cert.KernelIdeal.Body
end
-- ==== Proof.BodyLevelOut.lean ====
import proofs.«117485_j54365696033410_2_alg».proof.Proof.Gen.KernelIdeal.Frame
import proofs.«117485_j54365696033410_2_alg».proof.Proof.BodyLevelSums

noncomputable section
namespace Cert.KernelIdeal.Body
open Idealize.ShloMosaic Idealize.ShloMosaic.ValueIdx Cert.KernelIdeal

/-! # The level cell's body: the gates and the two stored rows, read at an index

The gate row is `iou = (x·W_iou + b_iou) + h̃·U_iou` (the child sum's product onto a zero accumulator, added to the gate
part of the fused row); it is cut at columns 0, 512 and 1024 into the input, output and update gates;
`c' = σ(i)·tanh(u) + Σ_k f_k·c_k` and `h' = σ(o)·tanh(c')` are stored. -/

section Gates
variable (v12 : FVec Ideal S256x1536 .f32) (v88 v94 : FVec Ideal S256x512 .f32) (v95 : Vec Ideal S512x1536 .f32)

/-- The gate row from its input part and the child sum. -/
theorem k1_pay1_apply (p : Fin 256) (q : Fin 1536) :
    Gen.k1_pay1 (F := Ideal) v12 v88 v95 (ix2 p q)
      = v12 (ix2 p q) + TreeCell.dotRow (fun i => v88 (ix2 p i)) (fun i q => v95 (ix2 i q)) q := by
  unfold Gen.k1_pay1 TreeCell.dotRow
  refine (addf_apply _ _ _).trans (congrArg₂ (· + ·) rfl ?_)
  exact Cert.Proof.PlainDot.matmul_zero_plain_apply' (M := 256) (K := 512) (N := 1536)
    Gen.dot_S256x512_S512x1536_S256x1536_1_0_0_1_n_n_wf none _ _ p q

/-- The new memory row, from the gate row `g` and the forgotten memory `fc` at the entry. -/
theorem k1_pay2_apply (g : Fin 1536 → EReal) (fc : EReal) (p : Fin 256) (j : Fin 512)
    (hg : ∀ q, Gen.k1_pay1 (F := Ideal) v12 v88 v95 (ix2 p q) = g q) (hfc : v94 (ix2 p j) = fc) :
    Gen.k1_pay2 (F := Ideal) v12 v88 v94 v95 (ix2 p j)
      = Ideal.logistic (g (TreeCell.gI j)) * Ideal.tanh (g (TreeCell.gU j)) + fc := by
  unfold Gen.k1_pay2
  refine (addf_apply _ _ _).trans (congrArg₂ (· + ·) ?_ hfc)
  refine (mulf_apply _ _ _).trans (congrArg₂ (· * ·) ?_ ?_)
  · refine congrArg Ideal.logistic ?_
    exact (slice2_axis1_apply 0 _ _ p j (TreeCell.gI j) (Nat.zero_add _).symm).trans (hg _)
  · refine congrArg Ideal.tanh ?_
    exact (slice2_axis1_apply 1024 _ _ p j (TreeCell.gU j) rfl).trans (hg _)

/-- The new hidden row, from the gate row and the new memory at the entry. -/
theorem k1_pay3_apply (g : Fin 1536 → EReal) (c' : EReal) (p : Fin 256) (j : Fin 512)
    (hg : ∀ q, Gen.k1_pay1 (F := Ideal) v12 v88 v95 (ix2 p q) = g q)
    (hc : Gen.k1_pay2 (F := Ideal) v12 v88 v94 v95 (ix2 p j) = c') :
    Gen.k1_pay3 (F := Ideal) v12 v88 v94 v95 (ix2 p j) = Ideal.logistic (g (TreeCell.gO j)) * Ideal.tanh c' := by
  unfold Gen.k1_pay3
  refine (mulf_apply _ _ _).trans (congrArg₂ (· * ·) ?_ (congrArg Ideal.tanh hc))
  refine congrArg Ideal.logistic ?_
  exact (slice2_axis1_apply 512 _ _ p j (TreeCell.gO j) rfl).trans (hg _)

end Gates

section LevelOut
variable (x0 : Vec Ideal S256x300 .f32) (x1 x2 : Vec Ideal S256x4x512 .bf16) (x3 : Vec Ideal S256x4 .f32)
  (x4 : Vec Ideal S300x2048 .f32) (x5 : Vec Ideal S512x512 .f32) (x6 : Vec Ideal S1x2048 .f32) (x7 : Vec Ideal S512x1536 .f32)

/-- THE GATE ROW `iou` as the body composes it. -/
theorem gateRow_apply (p : Fin 256) (q : Fin 1536) :
    Gen.k1_pay1 (F := Ideal) (Gen.k1_pay6 x0 x4 x6) (Gen.k1_pay23 (Gen.k1_pay7 x1) (Gen.k1_pay9 x3) (Gen.k1_pay15 x1 x3)) x7 (ix2 p q)
      = TreeCell.iou (fun e => x0 (ix2 p e)) (fun k i => x1 (ix3 p k i)) (fun k => x3 (ix2 p k))
          (fun e q => x4 (ix2 e (TreeCell.colIou q))) (fun i q => x7 (ix2 i q))
          (fun q => x6 (ix2 (0 : Fin 1) (TreeCell.colIou q))) q := by
  rw [k1_pay1_apply, k1_pay6_apply]
  unfold TreeCell.iou
  refine congrArg₂ (· + ·) rfl ?_
  unfold TreeCell.dotRow
  exact Finset.sum_congr rfl fun i _ => congrArg₂ (· * ·) (childSum_apply x1 x3 p i) rfl

/-- The whole-block rectangles start at the origin. -/
theorem level_off2 : (![0, 0] : Fin 2 → Nat) = fun _ => 0 := by
  funext a
  match a with
  | ⟨0, _⟩ => rfl
  | ⟨1, _⟩ => rfl
theorem level_off3 : (![0, 0, 0] : Fin 3 → Nat) = fun _ => 0 := by
  funext a
  match a with
  | ⟨0, _⟩ => rfl
  | ⟨1, _⟩ => rfl
  | ⟨2, _⟩ => rfl

/-- The new memory row as the body composes it from the blocks. -/
theorem cNew_apply (p : Fin 256) (j : Fin 512) :
    Gen.k1_pay2 (F := Ideal) (Gen.k1_pay6 x0 x4 x6) (Gen.k1_pay23 (Gen.k1_pay7 x1) (Gen.k1_pay9 x3) (Gen.k1_pay15 x1 x3))
        (Gen.k1_pay24 (Gen.k1_pay5 x0 x4 x6) (Gen.k1_pay7 x1) (Gen.k1_pay8 x2) (Gen.k1_pay9 x3) (Gen.k1_pay10 x5)
          (Gen.k1_pay11 (F := Ideal)) (Gen.k1_pay14 x2 x3) (Gen.k1_pay16 x0 x4 x6 x1 x3 x5)) x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j := by
  unfold TreeCell.cNew
  exact k1_pay2_apply _ _ _ _ _ _ p j (gateRow_apply x0 x1 x3 x4 x6 x7 p) (forgotten_apply x0 x4 x6 x1 x2 x3 x5 p j)

/-- The new hidden row as the body composes it from the blocks. -/
theorem hNew_apply (p : Fin 256) (j : Fin 512) :
    Gen.k1_pay3 (F := Ideal) (Gen.k1_pay6 x0 x4 x6) (Gen.k1_pay23 (Gen.k1_pay7 x1) (Gen.k1_pay9 x3) (Gen.k1_pay15 x1 x3))
        (Gen.k1_pay24 (Gen.k1_pay5 x0 x4 x6) (Gen.k1_pay7 x1) (Gen.k1_pay8 x2) (Gen.k1_pay9 x3) (Gen.k1_pay10 x5)
          (Gen.k1_pay11 (F := Ideal)) (Gen.k1_pay14 x2 x3) (Gen.k1_pay16 x0 x4 x6 x1 x3 x5)) x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j := by
  unfold TreeCell.hNew
  exact k1_pay3_apply _ _ _ _ _ _ p j (gateRow_apply x0 x1 x3 x4 x6 x7 p) (cNew_apply x0 x1 x2 x3 x4 x5 x6 x7 p j)

/-- What the level body leaves in the hidden-state block, at `(p, j)`. -/
theorem out1_8_apply (p : Fin 256) (j : Fin 512) :
    Gen.out1_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j := by
  unfold Gen.out1_8
  rw [View.canon_unit_zero level_off2]
  simp only [View.ld_unit_zero (S := S256x300) level_off2, View.ld_unit_zero (S := S300x2048) level_off2,
    View.ld_unit_zero (S := S1x2048) level_off2, View.ld_unit_zero (S := S256x4x512) level_off3,
    View.ld_unit_zero (S := S256x4) level_off2, View.ld_unit_zero (S := S512x512) level_off2,
    View.ld_unit_zero (S := S512x1536) level_off2]
  exact hNew_apply x0 x1 x2 x3 x4 x5 x6 x7 p j

/-- What the level body leaves in the memory block, at `(p, j)`. -/
theorem out1_9_apply (p : Fin 256) (j : Fin 512) :
    Gen.out1_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j := by
  unfold Gen.out1_9
  rw [View.canon_unit_zero level_off2]
  simp only [View.ld_unit_zero (S := S256x300) level_off2, View.ld_unit_zero (S := S300x2048) level_off2,
    View.ld_unit_zero (S := S1x2048) level_off2, View.ld_unit_zero (S := S256x4x512) level_off3,
    View.ld_unit_zero (S := S256x4) level_off2, View.ld_unit_zero (S := S512x512) level_off2,
    View.ld_unit_zero (S := S512x1536) level_off2]
  exact cNew_apply x0 x1 x2 x3 x4 x5 x6 x7 p j

end LevelOut

end Cert.KernelIdeal.Body
end
-- ==== Proof.BodyLevelRegions.lean ====
import proofs.«117485_j54365696033410_2_alg».proof.Proof.BodyLevelOut

noncomputable section
namespace Cert.KernelIdeal.Body
open Idealize.ShloMosaic Idealize.ShloMosaic.ValueIdx Cert.KernelIdeal

/-! # The level cell's body in regions 2 to 5

The five level kernels are one function printed five times over the same constants: each region's stored blocks are
region 1's, term for term. -/

/-- Region 2's body is region 1's. -/
theorem out2_8_eq : @Gen.out2_8 Ideal _ = @Gen.out1_8 Ideal _ := rfl
theorem out2_9_eq : @Gen.out2_9 Ideal _ = @Gen.out1_9 Ideal _ := rfl

/-- What region 2's body leaves in the hidden-state block, at `(p, j)`. -/
theorem out2_8_apply (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512) :
    Gen.out2_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j :=
  (congrArg (fun f => f x0 x1 x2 x3 x4 x5 x6 x7 (ix2 p j)) out2_8_eq).trans (out1_8_apply x0 x1 x2 x3 x4 x5 x6 x7 p j)

/-- What region 2's body leaves in the memory block, at `(p, j)`. -/
theorem out2_9_apply (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512) :
    Gen.out2_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j :=
  (congrArg (fun f => f x0 x1 x2 x3 x4 x5 x6 x7 (ix2 p j)) out2_9_eq).trans (out1_9_apply x0 x1 x2 x3 x4 x5 x6 x7 p j)

/-- Region 3's body is region 1's. -/
theorem out3_8_eq : @Gen.out3_8 Ideal _ = @Gen.out1_8 Ideal _ := rfl
theorem out3_9_eq : @Gen.out3_9 Ideal _ = @Gen.out1_9 Ideal _ := rfl

/-- What region 3's body leaves in the hidden-state block, at `(p, j)`. -/
theorem out3_8_apply (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512) :
    Gen.out3_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j :=
  (congrArg (fun f => f x0 x1 x2 x3 x4 x5 x6 x7 (ix2 p j)) out3_8_eq).trans (out1_8_apply x0 x1 x2 x3 x4 x5 x6 x7 p j)

/-- What region 3's body leaves in the memory block, at `(p, j)`. -/
theorem out3_9_apply (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512) :
    Gen.out3_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j :=
  (congrArg (fun f => f x0 x1 x2 x3 x4 x5 x6 x7 (ix2 p j)) out3_9_eq).trans (out1_9_apply x0 x1 x2 x3 x4 x5 x6 x7 p j)

/-- Region 4's body is region 1's. -/
theorem out4_8_eq : @Gen.out4_8 Ideal _ = @Gen.out1_8 Ideal _ := rfl
theorem out4_9_eq : @Gen.out4_9 Ideal _ = @Gen.out1_9 Ideal _ := rfl

/-- What region 4's body leaves in the hidden-state block, at `(p, j)`. -/
theorem out4_8_apply (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512) :
    Gen.out4_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j :=
  (congrArg (fun f => f x0 x1 x2 x3 x4 x5 x6 x7 (ix2 p j)) out4_8_eq).trans (out1_8_apply x0 x1 x2 x3 x4 x5 x6 x7 p j)

/-- What region 4's body leaves in the memory block, at `(p, j)`. -/
theorem out4_9_apply (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512) :
    Gen.out4_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j :=
  (congrArg (fun f => f x0 x1 x2 x3 x4 x5 x6 x7 (ix2 p j)) out4_9_eq).trans (out1_9_apply x0 x1 x2 x3 x4 x5 x6 x7 p j)

/-- Region 5's body is region 1's. -/
theorem out5_8_eq : @Gen.out5_8 Ideal _ = @Gen.out1_8 Ideal _ := rfl
theorem out5_9_eq : @Gen.out5_9 Ideal _ = @Gen.out1_9 Ideal _ := rfl

/-- What region 5's body leaves in the hidden-state block, at `(p, j)`. -/
theorem out5_8_apply (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512) :
    Gen.out5_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j :=
  (congrArg (fun f => f x0 x1 x2 x3 x4 x5 x6 x7 (ix2 p j)) out5_8_eq).trans (out1_8_apply x0 x1 x2 x3 x4 x5 x6 x7 p j)

/-- What region 5's body leaves in the memory block, at `(p, j)`. -/
theorem out5_9_apply (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512) :
    Gen.out5_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j :=
  (congrArg (fun f => f x0 x1 x2 x3 x4 x5 x6 x7 (ix2 p j)) out5_9_eq).trans (out1_9_apply x0 x1 x2 x3 x4 x5 x6 x7 p j)

end Cert.KernelIdeal.Body
end
-- ==== Proof.KKeep.lean ====
/-
  Which buffers each stretch of host operations writes, and that every other buffer keeps its contents through it.

  The program's twelve segments alternate stretches of host operations and kernel launches. A stretch writes only the
  buffers its own operations define (single assignment), so a buffer defined elsewhere — an argument, a weight layout
  built once before the first launch, an earlier launch's result — is the same before and after it.
-/
import proofs.«117485_j54365696033410_2_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers stretch 0's operations define. -/
abbrev hostW0 : List (Ref sig .tc) := [main_v0, main_v1, main_v2, main_v3, main_v4, main_v5, main_c, main_v6, main_v7, main_c_0, main_v8, main_v9, main_v10, main_v11, main_v12, main_v13, main_v14, main_v15, main_v16, main_v17]

theorem hostOps0_writes : (hostOps0 : List (HloOp τ sig (Elt F))).Forall fun op => op.writes ⊆ (hostW0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer stretch 0 does not define keeps its contents through it. -/
theorem keep1 (c : Dev nD) (b : Ref sig .tc) (h : b ∉ hostW0) :
    W1 m ρ c (Proc.devRef .tc b) = W0 m ρ c (Proc.devRef .tc b) :=
  StableHlo.after_of_writes_sub hostOps0 _ hostOps0_writes h

/-- The buffers stretch 1's operations define. -/
abbrev hostW1 : List (Ref sig .tc) := [main_v19, main_v20, main_c_1, main_v21, main_v22, main_c_2, main_v23, main_v24, main_v25, main_v26, main_v27, main_v28, main_v29, main_v30, main_v31, main_v32, main_v33, main_v34, main_v35, main_v36, main_c_3, main_v37, main_v38, main_c_4, main_v39, main_v40, main_v41, main_v42, main_v43, main_v44, main_v45, main_c_5, main_v46, main_v47, main_c_6, main_v48, main_v49, main_v50, main_v51, main_v52, main_v53, main_v54]

theorem hostOps1_writes : (hostOps1 : List (HloOp τ sig (Elt F))).Forall fun op => op.writes ⊆ (hostW1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer stretch 1 does not define keeps its contents through it. -/
theorem keep3 (c : Dev nD) (b : Ref sig .tc) (h : b ∉ hostW1) :
    W3 m ρ c (Proc.devRef .tc b) = W2 m ρ c (Proc.devRef .tc b) :=
  StableHlo.after_of_writes_sub hostOps1 _ hostOps1_writes h

/-- The buffers stretch 2's operations define. -/
abbrev hostW2 : List (Ref sig .tc) := [main_v56, main_v57, main_c_7, main_v58, main_v59, main_c_8, main_v60, main_v61, main_v62, main_v63, main_v64, main_v65, main_v66, main_v67, main_v68, main_v69, main_v70, main_v71, main_v72, main_v73, main_c_9, main_v74, main_v75, main_c_10, main_v76, main_v77, main_v78, main_v79, main_v80, main_v81, main_v82, main_c_11, main_v83, main_v84, main_c_12, main_v85, main_v86, main_v87, main_v88, main_v89, main_v90, main_v91]

theorem hostOps2_writes : (hostOps2 : List (HloOp τ sig (Elt F))).Forall fun op => op.writes ⊆ (hostW2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer stretch 2 does not define keeps its contents through it. -/
theorem keep5 (c : Dev nD) (b : Ref sig .tc) (h : b ∉ hostW2) :
    W5 m ρ c (Proc.devRef .tc b) = W4 m ρ c (Proc.devRef .tc b) :=
  StableHlo.after_of_writes_sub hostOps2 _ hostOps2_writes h

/-- The buffers stretch 3's operations define. -/
abbrev hostW3 : List (Ref sig .tc) := [main_v93, main_v94, main_c_13, main_v95, main_v96, main_c_14, main_v97, main_v98, main_v99, main_v100, main_v101, main_v102, main_v103, main_v104, main_v105, main_v106, main_v107, main_v108, main_v109, main_v110, main_c_15, main_v111, main_v112, main_c_16, main_v113, main_v114, main_v115, main_v116, main_v117, main_v118, main_v119, main_c_17, main_v120, main_v121, main_c_18, main_v122, main_v123, main_v124, main_v125, main_v126, main_v127, main_v128]

theorem hostOps3_writes : (hostOps3 : List (HloOp τ sig (Elt F))).Forall fun op => op.writes ⊆ (hostW3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer stretch 3 does not define keeps its contents through it. -/
theorem keep7 (c : Dev nD) (b : Ref sig .tc) (h : b ∉ hostW3) :
    W7 m ρ c (Proc.devRef .tc b) = W6 m ρ c (Proc.devRef .tc b) :=
  StableHlo.after_of_writes_sub hostOps3 _ hostOps3_writes h

/-- The buffers stretch 4's operations define. -/
abbrev hostW4 : List (Ref sig .tc) := [main_v130, main_v131, main_c_19, main_v132, main_v133, main_c_20, main_v134, main_v135, main_v136, main_v137, main_v138, main_v139, main_v140, main_v141, main_v142, main_v143, main_v144, main_v145, main_v146, main_v147, main_c_21, main_v148, main_v149, main_c_22, main_v150, main_v151, main_v152, main_v153, main_v154, main_v155, main_v156, main_c_23, main_v157, main_v158, main_c_24, main_v159, main_v160, main_v161, main_v162, main_v163, main_v164, main_v165]

theorem hostOps4_writes : (hostOps4 : List (HloOp τ sig (Elt F))).Forall fun op => op.writes ⊆ (hostW4.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer stretch 4 does not define keeps its contents through it. -/
theorem keep9 (c : Dev nD) (b : Ref sig .tc) (h : b ∉ hostW4) :
    W9 m ρ c (Proc.devRef .tc b) = W8 m ρ c (Proc.devRef .tc b) :=
  StableHlo.after_of_writes_sub hostOps4 _ hostOps4_writes h

/-- The buffers stretch 5's operations define. -/
abbrev hostW5 : List (Ref sig .tc) := [main_v167, main_v168, main_c_25, main_v169, main_v170, main_c_26, main_v171, main_v172, main_v173, main_v174, main_v175, main_v176, main_v177, main_v178, main_v179, main_v180, main_v181, main_v182, main_v183, main_v184, main_c_27, main_v185, main_v186, main_c_28, main_v187, main_v188, main_v189, main_v190, main_v191, main_v192, main_v193, main_c_29, main_v194, main_v195, main_c_30, main_v196, main_v197, main_v198, main_v199, main_v200, main_v201, main_v202]

theorem hostOps5_writes : (hostOps5 : List (HloOp τ sig (Elt F))).Forall fun op => op.writes ⊆ (hostW5.map (Proc.devRef (τ := τ) .tc)).toFinset := by
  simp only [hostOps5, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer stretch 5 does not define keeps its contents through it. -/
theorem keep11 (c : Dev nD) (b : Ref sig .tc) (h : b ∉ hostW5) :
    W11 m ρ c (Proc.devRef .tc b) = W10 m ρ c (Proc.devRef .tc b) :=
  StableHlo.after_of_writes_sub hostOps5 _ hostOps5_writes h

end Cert.KernelIdeal.Keep

end
-- ==== Proof.KChain.lean ====
/-
  The argument arrays and the weight layouts at every segment boundary.

  No host operation and no launch writes an argument array, so at every boundary of the twelve segments each argument
  array holds its launch contents. The two fused layouts are built once, by the first stretch; after it no stretch
  writes them, and the level launches only read them (an input array is left as entered), so at every later boundary
  they hold what the first stretch built. One step per boundary: a stretch that does not define the buffer, a launch
  the buffer is not an array of, or a launch that only reads it.
-/
import proofs.«117485_j54365696033410_2_alg».proof.Proof.Gen.KernelIdeal.Frame
import proofs.«117485_j54365696033410_2_alg».proof.Proof.KKeep

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The five arrays only host operations read: vocabulary indices, child indices, the two masks, the embedding table -/

theorem a0_0 (c : Dev nD) : W0 m ρ c (Proc.devRef .tc main_arg0) = m ((c : Thread nD τ).loc main_arg0) := rfl
theorem a0_1 (c : Dev nD) : W1 m ρ c (Proc.devRef .tc main_arg0) = m ((c : Thread nD τ).loc main_arg0) := (keep1 m ρ c main_arg0 (by decide)).trans (a0_0 m ρ c)
theorem a0_2 (c : Dev nD) : W2 m ρ c (Proc.devRef .tc main_arg0) = m ((c : Thread nD τ).loc main_arg0) := (W2_of_ne m ρ c main_arg0 (by decide)).trans (a0_1 m ρ c)
theorem a0_3 (c : Dev nD) : W3 m ρ c (Proc.devRef .tc main_arg0) = m ((c : Thread nD τ).loc main_arg0) := (keep3 m ρ c main_arg0 (by decide)).trans (a0_2 m ρ c)
theorem a0_4 (c : Dev nD) : W4 m ρ c (Proc.devRef .tc main_arg0) = m ((c : Thread nD τ).loc main_arg0) := (W4_of_ne m ρ c main_arg0 (by decide)).trans (a0_3 m ρ c)
theorem a0_5 (c : Dev nD) : W5 m ρ c (Proc.devRef .tc main_arg0) = m ((c : Thread nD τ).loc main_arg0) := (keep5 m ρ c main_arg0 (by decide)).trans (a0_4 m ρ c)
theorem a0_6 (c : Dev nD) : W6 m ρ c (Proc.devRef .tc main_arg0) = m ((c : Thread nD τ).loc main_arg0) := (W6_of_ne m ρ c main_arg0 (by decide)).trans (a0_5 m ρ c)
theorem a0_7 (c : Dev nD) : W7 m ρ c (Proc.devRef .tc main_arg0) = m ((c : Thread nD τ).loc main_arg0) := (keep7 m ρ c main_arg0 (by decide)).trans (a0_6 m ρ c)
theorem a0_8 (c : Dev nD) : W8 m ρ c (Proc.devRef .tc main_arg0) = m ((c : Thread nD τ).loc main_arg0) := (W8_of_ne m ρ c main_arg0 (by decide)).trans (a0_7 m ρ c)
theorem a0_9 (c : Dev nD) : W9 m ρ c (Proc.devRef .tc main_arg0) = m ((c : Thread nD τ).loc main_arg0) := (keep9 m ρ c main_arg0 (by decide)).trans (a0_8 m ρ c)
theorem a0_10 (c : Dev nD) : W10 m ρ c (Proc.devRef .tc main_arg0) = m ((c : Thread nD τ).loc main_arg0) := (W10_of_ne m ρ c main_arg0 (by decide)).trans (a0_9 m ρ c)
theorem a0_11 (c : Dev nD) : W11 m ρ c (Proc.devRef .tc main_arg0) = m ((c : Thread nD τ).loc main_arg0) := (keep11 m ρ c main_arg0 (by decide)).trans (a0_10 m ρ c)

theorem a1_0 (c : Dev nD) : W0 m ρ c (Proc.devRef .tc main_arg1) = m ((c : Thread nD τ).loc main_arg1) := rfl
theorem a1_1 (c : Dev nD) : W1 m ρ c (Proc.devRef .tc main_arg1) = m ((c : Thread nD τ).loc main_arg1) := (keep1 m ρ c main_arg1 (by decide)).trans (a1_0 m ρ c)
theorem a1_2 (c : Dev nD) : W2 m ρ c (Proc.devRef .tc main_arg1) = m ((c : Thread nD τ).loc main_arg1) := (W2_of_ne m ρ c main_arg1 (by decide)).trans (a1_1 m ρ c)
theorem a1_3 (c : Dev nD) : W3 m ρ c (Proc.devRef .tc main_arg1) = m ((c : Thread nD τ).loc main_arg1) := (keep3 m ρ c main_arg1 (by decide)).trans (a1_2 m ρ c)
theorem a1_4 (c : Dev nD) : W4 m ρ c (Proc.devRef .tc main_arg1) = m ((c : Thread nD τ).loc main_arg1) := (W4_of_ne m ρ c main_arg1 (by decide)).trans (a1_3 m ρ c)
theorem a1_5 (c : Dev nD) : W5 m ρ c (Proc.devRef .tc main_arg1) = m ((c : Thread nD τ).loc main_arg1) := (keep5 m ρ c main_arg1 (by decide)).trans (a1_4 m ρ c)
theorem a1_6 (c : Dev nD) : W6 m ρ c (Proc.devRef .tc main_arg1) = m ((c : Thread nD τ).loc main_arg1) := (W6_of_ne m ρ c main_arg1 (by decide)).trans (a1_5 m ρ c)
theorem a1_7 (c : Dev nD) : W7 m ρ c (Proc.devRef .tc main_arg1) = m ((c : Thread nD τ).loc main_arg1) := (keep7 m ρ c main_arg1 (by decide)).trans (a1_6 m ρ c)
theorem a1_8 (c : Dev nD) : W8 m ρ c (Proc.devRef .tc main_arg1) = m ((c : Thread nD τ).loc main_arg1) := (W8_of_ne m ρ c main_arg1 (by decide)).trans (a1_7 m ρ c)
theorem a1_9 (c : Dev nD) : W9 m ρ c (Proc.devRef .tc main_arg1) = m ((c : Thread nD τ).loc main_arg1) := (keep9 m ρ c main_arg1 (by decide)).trans (a1_8 m ρ c)
theorem a1_10 (c : Dev nD) : W10 m ρ c (Proc.devRef .tc main_arg1) = m ((c : Thread nD τ).loc main_arg1) := (W10_of_ne m ρ c main_arg1 (by decide)).trans (a1_9 m ρ c)
theorem a1_11 (c : Dev nD) : W11 m ρ c (Proc.devRef .tc main_arg1) = m ((c : Thread nD τ).loc main_arg1) := (keep11 m ρ c main_arg1 (by decide)).trans (a1_10 m ρ c)

theorem a2_0 (c : Dev nD) : W0 m ρ c (Proc.devRef .tc main_arg2) = m ((c : Thread nD τ).loc main_arg2) := rfl
theorem a2_1 (c : Dev nD) : W1 m ρ c (Proc.devRef .tc main_arg2) = m ((c : Thread nD τ).loc main_arg2) := (keep1 m ρ c main_arg2 (by decide)).trans (a2_0 m ρ c)
theorem a2_2 (c : Dev nD) : W2 m ρ c (Proc.devRef .tc main_arg2) = m ((c : Thread nD τ).loc main_arg2) := (W2_of_ne m ρ c main_arg2 (by decide)).trans (a2_1 m ρ c)
theorem a2_3 (c : Dev nD) : W3 m ρ c (Proc.devRef .tc main_arg2) = m ((c : Thread nD τ).loc main_arg2) := (keep3 m ρ c main_arg2 (by decide)).trans (a2_2 m ρ c)
theorem a2_4 (c : Dev nD) : W4 m ρ c (Proc.devRef .tc main_arg2) = m ((c : Thread nD τ).loc main_arg2) := (W4_of_ne m ρ c main_arg2 (by decide)).trans (a2_3 m ρ c)
theorem a2_5 (c : Dev nD) : W5 m ρ c (Proc.devRef .tc main_arg2) = m ((c : Thread nD τ).loc main_arg2) := (keep5 m ρ c main_arg2 (by decide)).trans (a2_4 m ρ c)
theorem a2_6 (c : Dev nD) : W6 m ρ c (Proc.devRef .tc main_arg2) = m ((c : Thread nD τ).loc main_arg2) := (W6_of_ne m ρ c main_arg2 (by decide)).trans (a2_5 m ρ c)
theorem a2_7 (c : Dev nD) : W7 m ρ c (Proc.devRef .tc main_arg2) = m ((c : Thread nD τ).loc main_arg2) := (keep7 m ρ c main_arg2 (by decide)).trans (a2_6 m ρ c)
theorem a2_8 (c : Dev nD) : W8 m ρ c (Proc.devRef .tc main_arg2) = m ((c : Thread nD τ).loc main_arg2) := (W8_of_ne m ρ c main_arg2 (by decide)).trans (a2_7 m ρ c)
theorem a2_9 (c : Dev nD) : W9 m ρ c (Proc.devRef .tc main_arg2) = m ((c : Thread nD τ).loc main_arg2) := (keep9 m ρ c main_arg2 (by decide)).trans (a2_8 m ρ c)
theorem a2_10 (c : Dev nD) : W10 m ρ c (Proc.devRef .tc main_arg2) = m ((c : Thread nD τ).loc main_arg2) := (W10_of_ne m ρ c main_arg2 (by decide)).trans (a2_9 m ρ c)
theorem a2_11 (c : Dev nD) : W11 m ρ c (Proc.devRef .tc main_arg2) = m ((c : Thread nD τ).loc main_arg2) := (keep11 m ρ c main_arg2 (by decide)).trans (a2_10 m ρ c)

theorem a3_0 (c : Dev nD) : W0 m ρ c (Proc.devRef .tc main_arg3) = m ((c : Thread nD τ).loc main_arg3) := rfl
theorem a3_1 (c : Dev nD) : W1 m ρ c (Proc.devRef .tc main_arg3) = m ((c : Thread nD τ).loc main_arg3) := (keep1 m ρ c main_arg3 (by decide)).trans (a3_0 m ρ c)
theorem a3_2 (c : Dev nD) : W2 m ρ c (Proc.devRef .tc main_arg3) = m ((c : Thread nD τ).loc main_arg3) := (W2_of_ne m ρ c main_arg3 (by decide)).trans (a3_1 m ρ c)
theorem a3_3 (c : Dev nD) : W3 m ρ c (Proc.devRef .tc main_arg3) = m ((c : Thread nD τ).loc main_arg3) := (keep3 m ρ c main_arg3 (by decide)).trans (a3_2 m ρ c)
theorem a3_4 (c : Dev nD) : W4 m ρ c (Proc.devRef .tc main_arg3) = m ((c : Thread nD τ).loc main_arg3) := (W4_of_ne m ρ c main_arg3 (by decide)).trans (a3_3 m ρ c)
theorem a3_5 (c : Dev nD) : W5 m ρ c (Proc.devRef .tc main_arg3) = m ((c : Thread nD τ).loc main_arg3) := (keep5 m ρ c main_arg3 (by decide)).trans (a3_4 m ρ c)
theorem a3_6 (c : Dev nD) : W6 m ρ c (Proc.devRef .tc main_arg3) = m ((c : Thread nD τ).loc main_arg3) := (W6_of_ne m ρ c main_arg3 (by decide)).trans (a3_5 m ρ c)
theorem a3_7 (c : Dev nD) : W7 m ρ c (Proc.devRef .tc main_arg3) = m ((c : Thread nD τ).loc main_arg3) := (keep7 m ρ c main_arg3 (by decide)).trans (a3_6 m ρ c)
theorem a3_8 (c : Dev nD) : W8 m ρ c (Proc.devRef .tc main_arg3) = m ((c : Thread nD τ).loc main_arg3) := (W8_of_ne m ρ c main_arg3 (by decide)).trans (a3_7 m ρ c)
theorem a3_9 (c : Dev nD) : W9 m ρ c (Proc.devRef .tc main_arg3) = m ((c : Thread nD τ).loc main_arg3) := (keep9 m ρ c main_arg3 (by decide)).trans (a3_8 m ρ c)
theorem a3_10 (c : Dev nD) : W10 m ρ c (Proc.devRef .tc main_arg3) = m ((c : Thread nD τ).loc main_arg3) := (W10_of_ne m ρ c main_arg3 (by decide)).trans (a3_9 m ρ c)
theorem a3_11 (c : Dev nD) : W11 m ρ c (Proc.devRef .tc main_arg3) = m ((c : Thread nD τ).loc main_arg3) := (keep11 m ρ c main_arg3 (by decide)).trans (a3_10 m ρ c)

theorem a4_0 (c : Dev nD) : W0 m ρ c (Proc.devRef .tc main_arg4) = m ((c : Thread nD τ).loc main_arg4) := rfl
theorem a4_1 (c : Dev nD) : W1 m ρ c (Proc.devRef .tc main_arg4) = m ((c : Thread nD τ).loc main_arg4) := (keep1 m ρ c main_arg4 (by decide)).trans (a4_0 m ρ c)
theorem a4_2 (c : Dev nD) : W2 m ρ c (Proc.devRef .tc main_arg4) = m ((c : Thread nD τ).loc main_arg4) := (W2_of_ne m ρ c main_arg4 (by decide)).trans (a4_1 m ρ c)
theorem a4_3 (c : Dev nD) : W3 m ρ c (Proc.devRef .tc main_arg4) = m ((c : Thread nD τ).loc main_arg4) := (keep3 m ρ c main_arg4 (by decide)).trans (a4_2 m ρ c)
theorem a4_4 (c : Dev nD) : W4 m ρ c (Proc.devRef .tc main_arg4) = m ((c : Thread nD τ).loc main_arg4) := (W4_of_ne m ρ c main_arg4 (by decide)).trans (a4_3 m ρ c)
theorem a4_5 (c : Dev nD) : W5 m ρ c (Proc.devRef .tc main_arg4) = m ((c : Thread nD τ).loc main_arg4) := (keep5 m ρ c main_arg4 (by decide)).trans (a4_4 m ρ c)
theorem a4_6 (c : Dev nD) : W6 m ρ c (Proc.devRef .tc main_arg4) = m ((c : Thread nD τ).loc main_arg4) := (W6_of_ne m ρ c main_arg4 (by decide)).trans (a4_5 m ρ c)
theorem a4_7 (c : Dev nD) : W7 m ρ c (Proc.devRef .tc main_arg4) = m ((c : Thread nD τ).loc main_arg4) := (keep7 m ρ c main_arg4 (by decide)).trans (a4_6 m ρ c)
theorem a4_8 (c : Dev nD) : W8 m ρ c (Proc.devRef .tc main_arg4) = m ((c : Thread nD τ).loc main_arg4) := (W8_of_ne m ρ c main_arg4 (by decide)).trans (a4_7 m ρ c)
theorem a4_9 (c : Dev nD) : W9 m ρ c (Proc.devRef .tc main_arg4) = m ((c : Thread nD τ).loc main_arg4) := (keep9 m ρ c main_arg4 (by decide)).trans (a4_8 m ρ c)
theorem a4_10 (c : Dev nD) : W10 m ρ c (Proc.devRef .tc main_arg4) = m ((c : Thread nD τ).loc main_arg4) := (W10_of_ne m ρ c main_arg4 (by decide)).trans (a4_9 m ρ c)
theorem a4_11 (c : Dev nD) : W11 m ρ c (Proc.devRef .tc main_arg4) = m ((c : Thread nD τ).loc main_arg4) := (keep11 m ρ c main_arg4 (by decide)).trans (a4_10 m ρ c)

/-! ## The gate weights, which the leaf launch reads -/

theorem a5_1 (c : Dev nD) : W1 m ρ c (Proc.devRef .tc main_arg5) = m ((c : Thread nD τ).loc main_arg5) := keep1 m ρ c main_arg5 (by decide)
theorem a7_0 (c : Dev nD) : W0 m ρ c (Proc.devRef .tc main_arg7) = m ((c : Thread nD τ).loc main_arg7) := rfl
theorem a8_0 (c : Dev nD) : W0 m ρ c (Proc.devRef .tc main_arg8) = m ((c : Thread nD τ).loc main_arg8) := rfl
theorem a10_0 (c : Dev nD) : W0 m ρ c (Proc.devRef .tc main_arg10) = m ((c : Thread nD τ).loc main_arg10) := rfl
theorem a5_0 (c : Dev nD) : W0 m ρ c (Proc.devRef .tc main_arg5) = m ((c : Thread nD τ).loc main_arg5) := rfl

/-! ## What the level launches read beside the node arrays: U_f, U_iou, and the two fused layouts -/

theorem u6_1 (c : Dev nD) : W1 m ρ c (Proc.devRef .tc main_arg6) = m ((c : Thread nD τ).loc main_arg6) := keep1 m ρ c main_arg6 (by decide)
theorem u6_2 (c : Dev nD) : W2 m ρ c (Proc.devRef .tc main_arg6) = m ((c : Thread nD τ).loc main_arg6) := (W2_of_ne m ρ c main_arg6 (by decide)).trans (u6_1 m ρ c)
theorem u6_3 (c : Dev nD) : W3 m ρ c (Proc.devRef .tc main_arg6) = m ((c : Thread nD τ).loc main_arg6) := (keep3 m ρ c main_arg6 (by decide)).trans (u6_2 m ρ c)
theorem u6_4 (c : Dev nD) : W4 m ρ c (Proc.devRef .tc main_arg6) = m ((c : Thread nD τ).loc main_arg6) := ((W4_arr m ρ c 7).trans (((dat1 (V3 m ρ) c).arrAt_in 7 rfl _).trans (A_eq1 (V3 m ρ) c 7))).trans (u6_3 m ρ c)
theorem u6_5 (c : Dev nD) : W5 m ρ c (Proc.devRef .tc main_arg6) = m ((c : Thread nD τ).loc main_arg6) := (keep5 m ρ c main_arg6 (by decide)).trans (u6_4 m ρ c)
theorem u6_6 (c : Dev nD) : W6 m ρ c (Proc.devRef .tc main_arg6) = m ((c : Thread nD τ).loc main_arg6) := ((W6_arr m ρ c 7).trans (((dat2 (V5 m ρ) c).arrAt_in 7 rfl _).trans (A_eq2 (V5 m ρ) c 7))).trans (u6_5 m ρ c)
theorem u6_7 (c : Dev nD) : W7 m ρ c (Proc.devRef .tc main_arg6) = m ((c : Thread nD τ).loc main_arg6) := (keep7 m ρ c main_arg6 (by decide)).trans (u6_6 m ρ c)
theorem u6_8 (c : Dev nD) : W8 m ρ c (Proc.devRef .tc main_arg6) = m ((c : Thread nD τ).loc main_arg6) := ((W8_arr m ρ c 7).trans (((dat3 (V7 m ρ) c).arrAt_in 7 rfl _).trans (A_eq3 (V7 m ρ) c 7))).trans (u6_7 m ρ c)
theorem u6_9 (c : Dev nD) : W9 m ρ c (Proc.devRef .tc main_arg6) = m ((c : Thread nD τ).loc main_arg6) := (keep9 m ρ c main_arg6 (by decide)).trans (u6_8 m ρ c)
theorem u6_10 (c : Dev nD) : W10 m ρ c (Proc.devRef .tc main_arg6) = m ((c : Thread nD τ).loc main_arg6) := ((W10_arr m ρ c 7).trans (((dat4 (V9 m ρ) c).arrAt_in 7 rfl _).trans (A_eq4 (V9 m ρ) c 7))).trans (u6_9 m ρ c)
theorem u6_11 (c : Dev nD) : W11 m ρ c (Proc.devRef .tc main_arg6) = m ((c : Thread nD τ).loc main_arg6) := (keep11 m ρ c main_arg6 (by decide)).trans (u6_10 m ρ c)

theorem u9_1 (c : Dev nD) : W1 m ρ c (Proc.devRef .tc main_arg9) = m ((c : Thread nD τ).loc main_arg9) := keep1 m ρ c main_arg9 (by decide)
theorem u9_2 (c : Dev nD) : W2 m ρ c (Proc.devRef .tc main_arg9) = m ((c : Thread nD τ).loc main_arg9) := (W2_of_ne m ρ c main_arg9 (by decide)).trans (u9_1 m ρ c)
theorem u9_3 (c : Dev nD) : W3 m ρ c (Proc.devRef .tc main_arg9) = m ((c : Thread nD τ).loc main_arg9) := (keep3 m ρ c main_arg9 (by decide)).trans (u9_2 m ρ c)
theorem u9_4 (c : Dev nD) : W4 m ρ c (Proc.devRef .tc main_arg9) = m ((c : Thread nD τ).loc main_arg9) := ((W4_arr m ρ c 5).trans (((dat1 (V3 m ρ) c).arrAt_in 5 rfl _).trans (A_eq1 (V3 m ρ) c 5))).trans (u9_3 m ρ c)
theorem u9_5 (c : Dev nD) : W5 m ρ c (Proc.devRef .tc main_arg9) = m ((c : Thread nD τ).loc main_arg9) := (keep5 m ρ c main_arg9 (by decide)).trans (u9_4 m ρ c)
theorem u9_6 (c : Dev nD) : W6 m ρ c (Proc.devRef .tc main_arg9) = m ((c : Thread nD τ).loc main_arg9) := ((W6_arr m ρ c 5).trans (((dat2 (V5 m ρ) c).arrAt_in 5 rfl _).trans (A_eq2 (V5 m ρ) c 5))).trans (u9_5 m ρ c)
theorem u9_7 (c : Dev nD) : W7 m ρ c (Proc.devRef .tc main_arg9) = m ((c : Thread nD τ).loc main_arg9) := (keep7 m ρ c main_arg9 (by decide)).trans (u9_6 m ρ c)
theorem u9_8 (c : Dev nD) : W8 m ρ c (Proc.devRef .tc main_arg9) = m ((c : Thread nD τ).loc main_arg9) := ((W8_arr m ρ c 5).trans (((dat3 (V7 m ρ) c).arrAt_in 5 rfl _).trans (A_eq3 (V7 m ρ) c 5))).trans (u9_7 m ρ c)
theorem u9_9 (c : Dev nD) : W9 m ρ c (Proc.devRef .tc main_arg9) = m ((c : Thread nD τ).loc main_arg9) := (keep9 m ρ c main_arg9 (by decide)).trans (u9_8 m ρ c)
theorem u9_10 (c : Dev nD) : W10 m ρ c (Proc.devRef .tc main_arg9) = m ((c : Thread nD τ).loc main_arg9) := ((W10_arr m ρ c 5).trans (((dat4 (V9 m ρ) c).arrAt_in 5 rfl _).trans (A_eq4 (V9 m ρ) c 5))).trans (u9_9 m ρ c)
theorem u9_11 (c : Dev nD) : W11 m ρ c (Proc.devRef .tc main_arg9) = m ((c : Thread nD τ).loc main_arg9) := (keep11 m ρ c main_arg9 (by decide)).trans (u9_10 m ρ c)

theorem v1_1 (c : Dev nD) : W1 m ρ c (Proc.devRef .tc main_v1) = W1 m ρ c (Proc.devRef .tc main_v1) := rfl
theorem v1_2 (c : Dev nD) : W2 m ρ c (Proc.devRef .tc main_v1) = W1 m ρ c (Proc.devRef .tc main_v1) := (W2_of_ne m ρ c main_v1 (by decide)).trans (v1_1 m ρ c)
theorem v1_3 (c : Dev nD) : W3 m ρ c (Proc.devRef .tc main_v1) = W1 m ρ c (Proc.devRef .tc main_v1) := (keep3 m ρ c main_v1 (by decide)).trans (v1_2 m ρ c)
theorem v1_4 (c : Dev nD) : W4 m ρ c (Proc.devRef .tc main_v1) = W1 m ρ c (Proc.devRef .tc main_v1) := ((W4_arr m ρ c 4).trans (((dat1 (V3 m ρ) c).arrAt_in 4 rfl _).trans (A_eq1 (V3 m ρ) c 4))).trans (v1_3 m ρ c)
theorem v1_5 (c : Dev nD) : W5 m ρ c (Proc.devRef .tc main_v1) = W1 m ρ c (Proc.devRef .tc main_v1) := (keep5 m ρ c main_v1 (by decide)).trans (v1_4 m ρ c)
theorem v1_6 (c : Dev nD) : W6 m ρ c (Proc.devRef .tc main_v1) = W1 m ρ c (Proc.devRef .tc main_v1) := ((W6_arr m ρ c 4).trans (((dat2 (V5 m ρ) c).arrAt_in 4 rfl _).trans (A_eq2 (V5 m ρ) c 4))).trans (v1_5 m ρ c)
theorem v1_7 (c : Dev nD) : W7 m ρ c (Proc.devRef .tc main_v1) = W1 m ρ c (Proc.devRef .tc main_v1) := (keep7 m ρ c main_v1 (by decide)).trans (v1_6 m ρ c)
theorem v1_8 (c : Dev nD) : W8 m ρ c (Proc.devRef .tc main_v1) = W1 m ρ c (Proc.devRef .tc main_v1) := ((W8_arr m ρ c 4).trans (((dat3 (V7 m ρ) c).arrAt_in 4 rfl _).trans (A_eq3 (V7 m ρ) c 4))).trans (v1_7 m ρ c)
theorem v1_9 (c : Dev nD) : W9 m ρ c (Proc.devRef .tc main_v1) = W1 m ρ c (Proc.devRef .tc main_v1) := (keep9 m ρ c main_v1 (by decide)).trans (v1_8 m ρ c)
theorem v1_10 (c : Dev nD) : W10 m ρ c (Proc.devRef .tc main_v1) = W1 m ρ c (Proc.devRef .tc main_v1) := ((W10_arr m ρ c 4).trans (((dat4 (V9 m ρ) c).arrAt_in 4 rfl _).trans (A_eq4 (V9 m ρ) c 4))).trans (v1_9 m ρ c)
theorem v1_11 (c : Dev nD) : W11 m ρ c (Proc.devRef .tc main_v1) = W1 m ρ c (Proc.devRef .tc main_v1) := (keep11 m ρ c main_v1 (by decide)).trans (v1_10 m ρ c)

theorem v3_1 (c : Dev nD) : W1 m ρ c (Proc.devRef .tc main_v3) = W1 m ρ c (Proc.devRef .tc main_v3) := rfl
theorem v3_2 (c : Dev nD) : W2 m ρ c (Proc.devRef .tc main_v3) = W1 m ρ c (Proc.devRef .tc main_v3) := (W2_of_ne m ρ c main_v3 (by decide)).trans (v3_1 m ρ c)
theorem v3_3 (c : Dev nD) : W3 m ρ c (Proc.devRef .tc main_v3) = W1 m ρ c (Proc.devRef .tc main_v3) := (keep3 m ρ c main_v3 (by decide)).trans (v3_2 m ρ c)
theorem v3_4 (c : Dev nD) : W4 m ρ c (Proc.devRef .tc main_v3) = W1 m ρ c (Proc.devRef .tc main_v3) := ((W4_arr m ρ c 6).trans (((dat1 (V3 m ρ) c).arrAt_in 6 rfl _).trans (A_eq1 (V3 m ρ) c 6))).trans (v3_3 m ρ c)
theorem v3_5 (c : Dev nD) : W5 m ρ c (Proc.devRef .tc main_v3) = W1 m ρ c (Proc.devRef .tc main_v3) := (keep5 m ρ c main_v3 (by decide)).trans (v3_4 m ρ c)
theorem v3_6 (c : Dev nD) : W6 m ρ c (Proc.devRef .tc main_v3) = W1 m ρ c (Proc.devRef .tc main_v3) := ((W6_arr m ρ c 6).trans (((dat2 (V5 m ρ) c).arrAt_in 6 rfl _).trans (A_eq2 (V5 m ρ) c 6))).trans (v3_5 m ρ c)
theorem v3_7 (c : Dev nD) : W7 m ρ c (Proc.devRef .tc main_v3) = W1 m ρ c (Proc.devRef .tc main_v3) := (keep7 m ρ c main_v3 (by decide)).trans (v3_6 m ρ c)
theorem v3_8 (c : Dev nD) : W8 m ρ c (Proc.devRef .tc main_v3) = W1 m ρ c (Proc.devRef .tc main_v3) := ((W8_arr m ρ c 6).trans (((dat3 (V7 m ρ) c).arrAt_in 6 rfl _).trans (A_eq3 (V7 m ρ) c 6))).trans (v3_7 m ρ c)
theorem v3_9 (c : Dev nD) : W9 m ρ c (Proc.devRef .tc main_v3) = W1 m ρ c (Proc.devRef .tc main_v3) := (keep9 m ρ c main_v3 (by decide)).trans (v3_8 m ρ c)
theorem v3_10 (c : Dev nD) : W10 m ρ c (Proc.devRef .tc main_v3) = W1 m ρ c (Proc.devRef .tc main_v3) := ((W10_arr m ρ c 6).trans (((dat4 (V9 m ρ) c).arrAt_in 6 rfl _).trans (A_eq4 (V9 m ρ) c 6))).trans (v3_9 m ρ c)
theorem v3_11 (c : Dev nD) : W11 m ρ c (Proc.devRef .tc main_v3) = W1 m ρ c (Proc.devRef .tc main_v3) := (keep11 m ρ c main_v3 (by decide)).trans (v3_10 m ρ c)

end Cert.KernelIdeal.Chain

end
-- ==== Proof.KEntry0.lean ====
/-
  What the first stretch of host operations leaves in the buffers the leaf launch and the later launches read: the leaves'
  node inputs, the gate bias as a row, and the two fused layouts — each the term of the launch contents that the stretch's
  operations compose.
-/
import proofs.«117485_j54365696033410_2_alg».proof.Proof.Gen.KernelIdeal.Frame
import proofs.«117485_j54365696033410_2_alg».proof.Proof.KTerms
import Idealize.ShloMosaic.Lib.StableHlo.Run

set_option maxRecDepth 16384

noncomputable section

namespace Cert.KernelIdeal.Entry0

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

theorem x (c : Dev nD) : (W1 m ρ c (Proc.devRef .tc main_v17) : FVec Ideal S8192x300 .f32)
    = xAt (W0 m ρ c (Proc.devRef .tc main_arg0)) (W0 m ρ c (Proc.devRef .tc main_arg2)) (W0 m ρ c (Proc.devRef .tc main_arg4)) ![5, 0] slices_S6x8192_S1x8192_5_0 := by
  show StableHlo.after hostOps0 (W0 m ρ c) (Proc.devRef .tc main_v17) = _
  after_results_simp
  rfl

theorem biasRow (c : Dev nD) : (W1 m ρ c (Proc.devRef .tc main_v0) : FVec Ideal S1x1536 .f32)
    = Terms.biasRow (W0 m ρ c (Proc.devRef .tc main_arg7)) := by
  show StableHlo.after hostOps0 (W0 m ρ c) (Proc.devRef .tc main_v0) = _
  after_results_simp
  rfl

theorem fusedW (c : Dev nD) : (W1 m ρ c (Proc.devRef .tc main_v1) : FVec Ideal S300x2048 .f32)
    = Terms.fusedW (W0 m ρ c (Proc.devRef .tc main_arg8)) (W0 m ρ c (Proc.devRef .tc main_arg5)) := by
  show StableHlo.after hostOps0 (W0 m ρ c) (Proc.devRef .tc main_v1) = _
  after_results_simp
  rfl

theorem fusedB (c : Dev nD) : (W1 m ρ c (Proc.devRef .tc main_v3) : FVec Ideal S1x2048 .f32)
    = Terms.fusedB (W0 m ρ c (Proc.devRef .tc main_arg10)) (W0 m ρ c (Proc.devRef .tc main_arg7)) := by
  show StableHlo.after hostOps0 (W0 m ρ c) (Proc.devRef .tc main_v3) = _
  after_results_simp
  rfl

end Cert.KernelIdeal.Entry0

end
-- ==== Proof.Region0.lean ====
/-
  The leaf launch, from blocks to whole arrays.

  The launch walks 32 grid points; point t stages rows 256·t … 256·t + 255 of the leaves' input rows and the whole of the
  gate weights and of the bias row, and writes back rows 256·t … 256·t + 255 of the hidden and memory arrays. A leaf's row
  depends only on its own input row, so what point t writes back is rows 256·t … of ONE function of the whole arrays, and
  the 32 row blocks tile the 8192 rows.
-/
import proofs.«117485_j54365696033410_2_alg».proof.Proof.Gen.KernelIdeal.Frame
import proofs.«117485_j54365696033410_2_alg».proof.Proof.TreeCell
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row 256·t + p of the node arrays: row p of point t's block. -/
def row (t : Fin cfg0.N) (p : Fin 256) : Fin 8192 := ⟨256 * t.val + p.val, by have h1 : t.val < 32 := t.isLt; have h2 : p.val < 256 := p.isLt; omega⟩

/-- The hidden array the launch leaves: at (n, j) the leaf cell's hidden row of node n's input row. -/
def GH (c : Dev nD) : S8192x512.Idx → EReal := fun i =>
  TreeCell.leafH (fun e => (V c main_v17 : S8192x300.Idx → EReal) (ix2 (i 0) e))
    (fun e q => (V c main_arg5 : S300x1536.Idx → EReal) (ix2 e q))
    (fun q => (V c main_v0 : S1x1536.Idx → EReal) (ix2 0 q)) (i 1)

/-- The memory array the launch leaves. -/
def GC (c : Dev nD) : S8192x512.Idx → EReal := fun i =>
  TreeCell.leafC (fun e => (V c main_v17 : S8192x300.Idx → EReal) (ix2 (i 0) e))
    (fun e q => (V c main_arg5 : S300x1536.Idx → EReal) (ix2 e q))
    (fun q => (V c main_v0 : S1x1536.Idx → EReal) (ix2 0 q)) (i 1)

/-- The index maps over the grid: the input rows' and the results' blocks move with the grid coordinate along the
    rows, the weights and the bias row stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem read0 (c : Dev nD) (t : Fin cfg0.N) (p : Fin 256) (e : Fin 300) :
    iblk0 V c 0 t (ix2 p e) = (V c main_v17 : S8192x300.Idx → EReal) (ix2 (row t p) e) := by
  obtain ⟨h0, h1, -⟩ := idx_facts t
  show (V c main_v17 : S8192x300.Idx → EReal) (((cfg0.win 0).blk t).view.emb (ix2 p e)) = _
  refine congrArg (V c main_v17 : S8192x300.Idx → EReal) (funext fun a => Fin.ext ?_)
  match a with
  | ⟨0, _⟩ => show win0_0.index t (0 : Fin 2) * 256 + 1 * p.val = 256 * t.val + p.val; omega
  | ⟨1, _⟩ => show win0_0.index t (1 : Fin 2) * 300 + 1 * e.val = e.val; omega

theorem read1 (c : Dev nD) (t : Fin cfg0.N) (e : Fin 300) (q : Fin 1536) :
    iblk0 V c 1 t (ix2 e q) = (V c main_arg5 : S300x1536.Idx → EReal) (ix2 e q) := by
  obtain ⟨-, -, h0, h1, -⟩ := idx_facts t
  show (V c main_arg5 : S300x1536.Idx → EReal) (((cfg0.win 1).blk t).view.emb (ix2 e q)) = _
  refine congrArg (V c main_arg5 : S300x1536.Idx → EReal) (funext fun a => Fin.ext ?_)
  match a with
  | ⟨0, _⟩ => show win0_1.index t (0 : Fin 2) * 300 + 1 * e.val = e.val; omega
  | ⟨1, _⟩ => show win0_1.index t (1 : Fin 2) * 1536 + 1 * q.val = q.val; omega

theorem read2 (c : Dev nD) (t : Fin cfg0.N) (z : Fin 1) (q : Fin 1536) :
    iblk0 V c 2 t (ix2 z q) = (V c main_v0 : S1x1536.Idx → EReal) (ix2 z q) := by
  obtain ⟨-, -, -, -, h0, h1, -⟩ := idx_facts t
  show (V c main_v0 : S1x1536.Idx → EReal) (((cfg0.win 2).blk t).view.emb (ix2 z q)) = _
  refine congrArg (V c main_v0 : S1x1536.Idx → EReal) (funext fun a => Fin.ext ?_)
  match a with
  | ⟨0, _⟩ => show win0_2.index t (0 : Fin 2) * 1 + 1 * z.val = z.val; omega
  | ⟨1, _⟩ => show win0_2.index t (1 : Fin 2) * 1536 + 1 * q.val = q.val; omega

theorem emb3 (t : Fin cfg0.N) (p : Fin 256) (q : Fin 512) :
    ((cfg0.win 3).blk t).view.emb (ix2 p q) = (ix2 (row t p) q : S8192x512.Idx) := by
  obtain ⟨-, -, -, -, -, -, h0, h1, -⟩ := idx_facts t
  funext a; apply Fin.ext
  match a with
  | ⟨0, _⟩ => show win0_3.index t (0 : Fin 2) * 256 + 1 * p.val = 256 * t.val + p.val; omega
  | ⟨1, _⟩ => show win0_3.index t (1 : Fin 2) * 512 + 1 * q.val = q.val; omega

theorem emb4 (t : Fin cfg0.N) (p : Fin 256) (q : Fin 512) :
    ((cfg0.win 4).blk t).view.emb (ix2 p q) = (ix2 (row t p) q : S8192x512.Idx) := by
  obtain ⟨-, -, -, -, -, -, -, -, h0, h1⟩ := idx_facts t
  funext a; apply Fin.ext
  match a with
  | ⟨0, _⟩ => show win0_4.index t (0 : Fin 2) * 256 + 1 * p.val = 256 * t.val + p.val; omega
  | ⟨1, _⟩ => show win0_4.index t (1 : Fin 2) * 512 + 1 * q.val = q.val; omega

/-- The body's hidden block at an entry is the leaf cell's hidden row of the block's row (the body's arithmetic,
    proved apart), as a hypothesis here. -/
abbrev BodyH : Prop := ∀ (x0 : Vec Ideal S256x300 .f32) (x1 : Vec Ideal S300x1536 .f32) (x2 : Vec Ideal S1x1536 .f32) (p : Fin 256) (j : Fin 512),
    out0_3 (F := Ideal) x0 x1 x2 (ix2 p j) = TreeCell.leafH (fun e => x0 (ix2 p e)) (fun e q => x1 (ix2 e q)) (fun q => x2 (ix2 0 q)) j

abbrev BodyC : Prop := ∀ (x0 : Vec Ideal S256x300 .f32) (x1 : Vec Ideal S300x1536 .f32) (x2 : Vec Ideal S1x1536 .f32) (p : Fin 256) (j : Fin 512),
    out0_4 (F := Ideal) x0 x1 x2 (ix2 p j) = TreeCell.leafC (fun e => x0 (ix2 p e)) (fun e q => x1 (ix2 e q)) (fun q => x2 (ix2 0 q)) j

theorem flushed3_eq (hb : BodyH) (c : Dev nD) (t : Fin cfg0.N) :
    (dat0 V c).flushed 3 t = ((cfg0.win 3).blk t).view.read (Elt Ideal) (GH V c) := by
  show (cfg0.win 3).cut (grid0.coords t) ((dat0 V c).after 3 t) = _
  rw [after0_3]
  funext y
  obtain ⟨p, q, rfl⟩ : ∃ (p : Fin 256) (q : Fin 512), y = ix2 p q := ⟨y 0, y 1, eq_ix2 y⟩
  show out0_3 (F := Ideal) (iblk0 V c 0 t) (iblk0 V c 1 t) (iblk0 V c 2 t) (ix2 p q) = GH V c (((cfg0.win 3).blk t).view.emb (ix2 p q))
  rw [hb, emb3]
  simp only [read0 V c t, read1 V c t, read2 V c t]
  rfl

theorem flushed4_eq (hb : BodyC) (c : Dev nD) (t : Fin cfg0.N) :
    (dat0 V c).flushed 4 t = ((cfg0.win 4).blk t).view.read (Elt Ideal) (GC V c) := by
  show (cfg0.win 4).cut (grid0.coords t) ((dat0 V c).after 4 t) = _
  rw [after0_4]
  funext y
  obtain ⟨p, q, rfl⟩ : ∃ (p : Fin 256) (q : Fin 512), y = ix2 p q := ⟨y 0, y 1, eq_ix2 y⟩
  show out0_4 (F := Ideal) (iblk0 V c 0 t) (iblk0 V c 1 t) (iblk0 V c 2 t) (ix2 p q) = GC V c (((cfg0.win 4).blk t).view.emb (ix2 p q))
  rw [hb, emb4]
  simp only [read0 V c t, read1 V c t, read2 V c t]
  rfl

theorem mem_blk3 (t : Fin cfg0.N) (i : S8192x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v18_0).slice (win0_3.rect t)).set ↔ _
  rw [View.set_slice_whole, Rect.mem_set_unit]
  exact Iff.rfl

theorem mem_blk4 (t : Fin cfg0.N) (i : S8192x512.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v18_1).slice (win0_4.rect t)).set ↔ _
  rw [View.set_slice_whole, Rect.mem_set_unit]
  exact Iff.rfl

/-- Row n lies in the block of point n / 256. -/
theorem cover3 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  refine ⟨⟨(i 0).val / 256, by show (i 0).val / 256 < 32; omega⟩, flush0_3 _, ?_⟩
  rw [mem_blk3]
  obtain ⟨-, -, -, -, -, -, h0, h1, -⟩ := idx_facts ⟨(i 0).val / 256, by show (i 0).val / 256 < 32; omega⟩
  intro a
  match a with
  | ⟨0, _⟩ => show win0_3.index _ (0 : Fin 2) * 256 ≤ (i 0).val ∧ (i 0).val < win0_3.index _ (0 : Fin 2) * 256 + 256; rw [h0]; show (i 0).val / 256 * 256 ≤ (i 0).val ∧ (i 0).val < (i 0).val / 256 * 256 + 256; omega
  | ⟨1, _⟩ => show win0_3.index _ (1 : Fin 2) * 512 ≤ (i 1).val ∧ (i 1).val < win0_3.index _ (1 : Fin 2) * 512 + 512; rw [h1]; omega

theorem cover4 (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  refine ⟨⟨(i 0).val / 256, by show (i 0).val / 256 < 32; omega⟩, flush0_4 _, ?_⟩
  rw [mem_blk4]
  obtain ⟨-, -, -, -, -, -, -, -, h0, h1⟩ := idx_facts ⟨(i 0).val / 256, by show (i 0).val / 256 < 32; omega⟩
  intro a
  match a with
  | ⟨0, _⟩ => show win0_4.index _ (0 : Fin 2) * 256 ≤ (i 0).val ∧ (i 0).val < win0_4.index _ (0 : Fin 2) * 256 + 256; rw [h0]; show (i 0).val / 256 * 256 ≤ (i 0).val ∧ (i 0).val < (i 0).val / 256 * 256 + 256; omega
  | ⟨1, _⟩ => show win0_4.index _ (1 : Fin 2) * 512 ≤ (i 1).val ∧ (i 1).val < win0_4.index _ (1 : Fin 2) * 512 + 512; rw [h1]; omega

theorem finalH (hb : BodyH) (c : Dev nD) : (dat0 V c).arrAt 3 cfg0.N = GH V c :=
  (dat0 V c).arrAt_eq_of_cover 3 (GH V c) (fun t _ => flushed3_eq V hb c t) cover3

theorem finalC (hb : BodyC) (c : Dev nD) : (dat0 V c).arrAt 4 cfg0.N = GC V c :=
  (dat0 V c).arrAt_eq_of_cover 4 (GC V c) (fun t _ => flushed4_eq V hb c t) cover4

end Cert.KernelIdeal.Region0

end
-- ==== Proof.KLaunch0.lean ====
/-
  The leaf launch's two result arrays as the leaf cell's row functions of the argument arrays: the node inputs are level 5's
  (the embedding rows at the level's vocabulary indices times its token mask), the weights the gate weights, the bias the
  gate bias.
-/
import proofs.«117485_j54365696033410_2_alg».proof.Proof.Gen.KernelIdeal.Frame
import proofs.«117485_j54365696033410_2_alg».proof.Proof.TreeCell
import proofs.«117485_j54365696033410_2_alg».proof.Proof.KTerms
import proofs.«117485_j54365696033410_2_alg».proof.Proof.KChain
import proofs.«117485_j54365696033410_2_alg».proof.Proof.KEntry0
import proofs.«117485_j54365696033410_2_alg».proof.Proof.Region0

set_option maxRecDepth 16384

noncomputable section

namespace Cert.KernelIdeal.Launch0

open Cert.KernelIdeal Cert.KernelIdeal.Gen Cert.KernelIdeal.Terms
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays at a core, at their array types. -/
abbrev A0 (c : Dev nD) : IVec S6x8192 32 := m ((c : Thread nD τ).loc main_arg0)
abbrev A1 (c : Dev nD) : IVec S6x8192x4 32 := m ((c : Thread nD τ).loc main_arg1)
abbrev A2 (c : Dev nD) : FVec Ideal S6x8192 .f32 := m ((c : Thread nD τ).loc main_arg2)
abbrev A3 (c : Dev nD) : FVec Ideal S6x8192x4 .f32 := m ((c : Thread nD τ).loc main_arg3)
abbrev A4 (c : Dev nD) : FVec Ideal S50000x300 .f32 := m ((c : Thread nD τ).loc main_arg4)
abbrev A5 (c : Dev nD) : FVec Ideal S300x1536 .f32 := m ((c : Thread nD τ).loc main_arg5)
abbrev A6 (c : Dev nD) : FVec Ideal S512x1536 .f32 := m ((c : Thread nD τ).loc main_arg6)
abbrev A7 (c : Dev nD) : FVec Ideal S1536 .f32 := m ((c : Thread nD τ).loc main_arg7)
abbrev A8 (c : Dev nD) : FVec Ideal S300x512 .f32 := m ((c : Thread nD τ).loc main_arg8)
abbrev A9 (c : Dev nD) : FVec Ideal S512x512 .f32 := m ((c : Thread nD τ).loc main_arg9)
abbrev A10 (c : Dev nD) : FVec Ideal S512 .f32 := m ((c : Thread nD τ).loc main_arg10)

theorem x_eq (c : Dev nD) : (V1 m ρ c main_v17 : S8192x300.Idx → EReal) = xAt (A0 m c) (A2 m c) (A4 m c) ![5, 0] slices_S6x8192_S1x8192_5_0 := by
  show W1 m ρ c (Proc.devRef .tc main_v17) = _
  rw [Entry0.x, Chain.a0_0, Chain.a2_0, Chain.a4_0]

theorem w_eq (c : Dev nD) : (V1 m ρ c main_arg5 : S300x1536.Idx → EReal) = A5 m c := by
  show W1 m ρ c (Proc.devRef .tc main_arg5) = _
  rw [Chain.a5_1]

theorem b_eq (c : Dev nD) (q : Fin 1536) : (V1 m ρ c main_v0 : S1x1536.Idx → EReal) (ix2 0 q) = A7 m c (ix1 q) := by
  show W1 m ρ c (Proc.devRef .tc main_v0) (ix2 0 q) = _
  rw [Entry0.biasRow, Chain.a7_0, biasRow_apply]

theorem b_fun (c : Dev nD) : (fun q : Fin 1536 => (V1 m ρ c main_v0 : S1x1536.Idx → EReal) (ix2 0 q)) = fun q => A7 m c (ix1 q) :=
  funext fun q => b_eq m ρ c q

/-- The hidden array after the leaf launch, at an entry. -/
theorem hidden (hb : Region0.BodyH) (c : Dev nD) (n : Fin 8192) (j : Fin 512) :
    (W2 m ρ c (Proc.devRef .tc main_v18_0) : S8192x512.Idx → EReal) (ix2 n j) =
      TreeCell.leafH (fun e => xAt (A0 m c) (A2 m c) (A4 m c) ![5, 0] slices_S6x8192_S1x8192_5_0 (ix2 n e))
        (fun e q => A5 m c (ix2 e q)) (fun q => A7 m c (ix1 q)) j := by
  rw [show W2 m ρ c (Proc.devRef .tc main_v18_0) = (dat0 (V1 m ρ) c).arrAt 3 cfg0.N from W2_arr m ρ c 3,
    Region0.finalH (V1 m ρ) hb c]
  show TreeCell.leafH (fun e => (V1 m ρ c main_v17 : S8192x300.Idx → EReal) (ix2 n e))
    (fun e q => (V1 m ρ c main_arg5 : S300x1536.Idx → EReal) (ix2 e q))
    (fun q => (V1 m ρ c main_v0 : S1x1536.Idx → EReal) (ix2 0 q)) j = _
  rw [x_eq, w_eq, b_fun]

/-- The memory array after the leaf launch, at an entry. -/
theorem memory (hb : Region0.BodyC) (c : Dev nD) (n : Fin 8192) (j : Fin 512) :
    (W2 m ρ c (Proc.devRef .tc main_v18_1) : S8192x512.Idx → EReal) (ix2 n j) =
      TreeCell.leafC (fun e => xAt (A0 m c) (A2 m c) (A4 m c) ![5, 0] slices_S6x8192_S1x8192_5_0 (ix2 n e))
        (fun e q => A5 m c (ix2 e q)) (fun q => A7 m c (ix1 q)) j := by
  rw [show W2 m ρ c (Proc.devRef .tc main_v18_1) = (dat0 (V1 m ρ) c).arrAt 4 cfg0.N from W2_arr m ρ c 4,
    Region0.finalC (V1 m ρ) hb c]
  show TreeCell.leafC (fun e => (V1 m ρ c main_v17 : S8192x300.Idx → EReal) (ix2 n e))
    (fun e q => (V1 m ρ c main_arg5 : S300x1536.Idx → EReal) (ix2 e q))
    (fun q => (V1 m ρ c main_v0 : S1x1536.Idx → EReal) (ix2 0 q)) j = _
  rw [x_eq, w_eq, b_fun]

end Cert.KernelIdeal.Launch0

end
-- ==== Proof.KEntry1.lean ====
/-
  What the stretch of host operations before launch 1 leaves in the four node arrays that launch reads: level 4's node
  inputs, the child rows of the previous launch's hidden and memory arrays gathered at level 4's child indices, and level
  4's child mask — each the term, of the contents at the stretch's start, that the stretch's operations compose.
-/
import proofs.«117485_j54365696033410_2_alg».proof.Proof.Gen.KernelIdeal.Frame
import proofs.«117485_j54365696033410_2_alg».proof.Proof.KTerms
import Idealize.ShloMosaic.Lib.StableHlo.Run

set_option maxRecDepth 16384

noncomputable section

namespace Cert.KernelIdeal.Entry1

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

theorem x (c : Dev nD) : (W3 m ρ c (Proc.devRef .tc main_v32) : FVec Ideal S8192x300 .f32)
    = xAt (W2 m ρ c (Proc.devRef .tc main_arg0)) (W2 m ρ c (Proc.devRef .tc main_arg2)) (W2 m ρ c (Proc.devRef .tc main_arg4)) ![4, 0] slices_S6x8192_S1x8192_4_0 := by
  show StableHlo.after hostOps1 (W2 m ρ c) (Proc.devRef .tc main_v32) = _
  after_results_simp
  rfl

theorem hrows (c : Dev nD) : (W3 m ρ c (Proc.devRef .tc main_v43) : FVec Ideal S8192x4x512 .bf16)
    = childRows (W2 m ρ c (Proc.devRef .tc main_v18_0)) (idxAt (W2 m ρ c (Proc.devRef .tc main_arg1)) ![4, 0, 0] slices_S6x8192x4_S1x8192x4_4_0_0) := by
  show StableHlo.after hostOps1 (W2 m ρ c) (Proc.devRef .tc main_v43) = _
  after_results_simp
  rfl

theorem crows (c : Dev nD) : (W3 m ρ c (Proc.devRef .tc main_v52) : FVec Ideal S8192x4x512 .bf16)
    = childRows (W2 m ρ c (Proc.devRef .tc main_v18_1)) (idxAt (W2 m ρ c (Proc.devRef .tc main_arg1)) ![4, 0, 0] slices_S6x8192x4_S1x8192x4_4_0_0) := by
  show StableHlo.after hostOps1 (W2 m ρ c) (Proc.devRef .tc main_v52) = _
  after_results_simp
  rfl

theorem mask (c : Dev nD) : (W3 m ρ c (Proc.devRef .tc main_v54) : FVec Ideal S8192x4 .f32)
    = maskAt (W2 m ρ c (Proc.devRef .tc main_arg3)) ![4, 0, 0] slices_S6x8192x4_S1x8192x4_4_0_0 := by
  show StableHlo.after hostOps1 (W2 m ρ c) (Proc.devRef .tc main_v54) = _
  after_results_simp
  rfl

end Cert.KernelIdeal.Entry1

end
-- ==== Proof.Region1.lean ====
/-
  Launch 1 of the level cell, from blocks to whole arrays.

  The launch walks 32 grid points; point t stages rows 256·t … 256·t + 255 of the node arrays (the input rows, the
  gathered child rows, the child masks) and the whole of each weight array, and writes back rows 256·t … 256·t + 255 of
  the two result arrays. A Tree-LSTM row depends only on its own node's rows, so what point t writes back is rows
  256·t … of ONE function of the whole arrays: at (n, j) the cell's row function of node n's rows. The 32 row blocks
  tile the 8192 rows, so after the launch each result array is that function everywhere.
-/
import proofs.«117485_j54365696033410_2_alg».proof.Proof.Gen.KernelIdeal.Frame
import proofs.«117485_j54365696033410_2_alg».proof.Proof.TreeCell
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row 256·t + p of the node arrays: row p of point t's block. -/
def row (t : Fin cfg1.N) (p : Fin 256) : Fin 8192 := ⟨256 * t.val + p.val, by have h1 : t.val < 32 := t.isLt; have h2 : p.val < 256 := p.isLt; omega⟩

/-- The hidden array the launch leaves: at (n, j) the cell's hidden row of node n's rows of the entry arrays. -/
def GH (c : Dev nD) : S8192x512.Idx → EReal := fun i =>
  TreeCell.hNew (fun e => (V c main_v32 : S8192x300.Idx → EReal) (ix2 (i 0) e))
    (fun k q => (V c main_v43 : S8192x4x512.Idx → EReal) (ix3 (i 0) k q))
    (fun k q => (V c main_v52 : S8192x4x512.Idx → EReal) (ix3 (i 0) k q))
    (fun k => (V c main_v54 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The memory array the launch leaves. -/
def GC (c : Dev nD) : S8192x512.Idx → EReal := fun i =>
  TreeCell.cNew (fun e => (V c main_v32 : S8192x300.Idx → EReal) (ix2 (i 0) e))
    (fun k q => (V c main_v43 : S8192x4x512.Idx → EReal) (ix3 (i 0) k q))
    (fun k q => (V c main_v52 : S8192x4x512.Idx → EReal) (ix3 (i 0) k q))
    (fun k => (V c main_v54 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The index maps over the grid: the node arrays' blocks move with the grid coordinate along the rows, the weight
    arrays stay put. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-! ## Each input block, read where it lies in its array -/

theorem read0 (c : Dev nD) (t : Fin cfg1.N) (p : Fin 256) (e : Fin 300) :
    iblk1 V c 0 t (ix2 p e) = (V c main_v32 : S8192x300.Idx → EReal) (ix2 (row t p) e) := by
  obtain ⟨h0, h1, -⟩ := idx_facts t
  show (V c main_v32 : S8192x300.Idx → EReal) (((cfg1.win 0).blk t).view.emb (ix2 p e)) = _
  refine congrArg (V c main_v32 : S8192x300.Idx → EReal) (funext fun a => Fin.ext ?_)
  match a with
  | ⟨0, _⟩ => show win1_0.index t (0 : Fin 2) * 256 + 1 * p.val = 256 * t.val + p.val; omega
  | ⟨1, _⟩ => show win1_0.index t (1 : Fin 2) * 300 + 1 * e.val = e.val; omega

theorem read1 (c : Dev nD) (t : Fin cfg1.N) (p : Fin 256) (k : Fin 4) (q : Fin 512) :
    iblk1 V c 1 t (ix3 p k q) = (V c main_v43 : S8192x4x512.Idx → EReal) (ix3 (row t p) k q) := by
  obtain ⟨-, -, h0, h1, h2, -⟩ := idx_facts t
  show (V c main_v43 : S8192x4x512.Idx → EReal) (((cfg1.win 1).blk t).view.emb (ix3 p k q)) = _
  refine congrArg (V c main_v43 : S8192x4x512.Idx → EReal) (funext fun a => Fin.ext ?_)
  match a with
  | ⟨0, _⟩ => show win1_1.index t (0 : Fin 3) * 256 + 1 * p.val = 256 * t.val + p.val; omega
  | ⟨1, _⟩ => show win1_1.index t (1 : Fin 3) * 4 + 1 * k.val = k.val; omega
  | ⟨2, _⟩ => show win1_1.index t (2 : Fin 3) * 512 + 1 * q.val = q.val; omega

theorem read2 (c : Dev nD) (t : Fin cfg1.N) (p : Fin 256) (k : Fin 4) (q : Fin 512) :
    iblk1 V c 2 t (ix3 p k q) = (V c main_v52 : S8192x4x512.Idx → EReal) (ix3 (row t p) k q) := by
  obtain ⟨-, -, -, -, -, h0, h1, h2, -⟩ := idx_facts t
  show (V c main_v52 : S8192x4x512.Idx → EReal) (((cfg1.win 2).blk t).view.emb (ix3 p k q)) = _
  refine congrArg (V c main_v52 : S8192x4x512.Idx → EReal) (funext fun a => Fin.ext ?_)
  match a with
  | ⟨0, _⟩ => show win1_2.index t (0 : Fin 3) * 256 + 1 * p.val = 256 * t.val + p.val; omega
  | ⟨1, _⟩ => show win1_2.index t (1 : Fin 3) * 4 + 1 * k.val = k.val; omega
  | ⟨2, _⟩ => show win1_2.index t (2 : Fin 3) * 512 + 1 * q.val = q.val; omega

theorem read3 (c : Dev nD) (t : Fin cfg1.N) (p : Fin 256) (k : Fin 4) :
    iblk1 V c 3 t (ix2 p k) = (V c main_v54 : S8192x4.Idx → EReal) (ix2 (row t p) k) := by
  obtain ⟨-, -, -, -, -, -, -, -, h0, h1, -⟩ := idx_facts t
  show (V c main_v54 : S8192x4.Idx → EReal) (((cfg1.win 3).blk t).view.emb (ix2 p k)) = _
  refine congrArg (V c main_v54 : S8192x4.Idx → EReal) (funext fun a => Fin.ext ?_)
  match a with
  | ⟨0, _⟩ => show win1_3.index t (0 : Fin 2) * 256 + 1 * p.val = 256 * t.val + p.val; omega
  | ⟨1, _⟩ => show win1_3.index t (1 : Fin 2) * 4 + 1 * k.val = k.val; omega

theorem read4 (c : Dev nD) (t : Fin cfg1.N) (e : Fin 300) (q : Fin 2048) :
    iblk1 V c 4 t (ix2 e q) = (V c main_v1 : S300x2048.Idx → EReal) (ix2 e q) := by
  obtain ⟨-, -, -, -, -, -, -, -, -, -, h0, h1, -⟩ := idx_facts t
  show (V c main_v1 : S300x2048.Idx → EReal) (((cfg1.win 4).blk t).view.emb (ix2 e q)) = _
  refine congrArg (V c main_v1 : S300x2048.Idx → EReal) (funext fun a => Fin.ext ?_)
  match a with
  | ⟨0, _⟩ => show win1_4.index t (0 : Fin 2) * 300 + 1 * e.val = e.val; omega
  | ⟨1, _⟩ => show win1_4.index t (1 : Fin 2) * 2048 + 1 * q.val = q.val; omega

theorem read5 (c : Dev nD) (t : Fin cfg1.N) (a' : Fin 512) (q : Fin 512) :
    iblk1 V c 5 t (ix2 a' q) = (V c main_arg9 : S512x512.Idx → EReal) (ix2 a' q) := by
  obtain ⟨-, -, -, -, -, -, -, -, -, -, -, -, h0, h1, -⟩ := idx_facts t
  show (V c main_arg9 : S512x512.Idx → EReal) (((cfg1.win 5).blk t).view.emb (ix2 a' q)) = _
  refine congrArg (V c main_arg9 : S512x512.Idx → EReal) (funext fun a => Fin.ext ?_)
  match a with
  | ⟨0, _⟩ => show win1_5.index t (0 : Fin 2) * 512 + 1 * a'.val = a'.val; omega
  | ⟨1, _⟩ => show win1_5.index t (1 : Fin 2) * 512 + 1 * q.val = q.val; omega

theorem read6 (c : Dev nD) (t : Fin cfg1.N) (z : Fin 1) (q : Fin 2048) :
    iblk1 V c 6 t (ix2 z q) = (V c main_v3 : S1x2048.Idx → EReal) (ix2 z q) := by
  obtain ⟨-, -, -, -, -, -, -, -, -, -, -, -, -, -, h0, h1, -⟩ := idx_facts t
  show (V c main_v3 : S1x2048.Idx → EReal) (((cfg1.win 6).blk t).view.emb (ix2 z q)) = _
  refine congrArg (V c main_v3 : S1x2048.Idx → EReal) (funext fun a => Fin.ext ?_)
  match a with
  | ⟨0, _⟩ => show win1_6.index t (0 : Fin 2) * 1 + 1 * z.val = z.val; omega
  | ⟨1, _⟩ => show win1_6.index t (1 : Fin 2) * 2048 + 1 * q.val = q.val; omega

theorem read7 (c : Dev nD) (t : Fin cfg1.N) (a' : Fin 512) (q : Fin 1536) :
    iblk1 V c 7 t (ix2 a' q) = (V c main_arg6 : S512x1536.Idx → EReal) (ix2 a' q) := by
  obtain ⟨-, -, -, -, -, -, -, -, -, -, -, -, -, -, -, -, h0, h1, -⟩ := idx_facts t
  show (V c main_arg6 : S512x1536.Idx → EReal) (((cfg1.win 7).blk t).view.emb (ix2 a' q)) = _
  refine congrArg (V c main_arg6 : S512x1536.Idx → EReal) (funext fun a => Fin.ext ?_)
  match a with
  | ⟨0, _⟩ => show win1_7.index t (0 : Fin 2) * 512 + 1 * a'.val = a'.val; omega
  | ⟨1, _⟩ => show win1_7.index t (1 : Fin 2) * 1536 + 1 * q.val = q.val; omega

/-- Where row p, column q of point t's hidden block lies in the hidden array. -/
theorem emb8 (t : Fin cfg1.N) (p : Fin 256) (q : Fin 512) :
    ((cfg1.win 8).blk t).view.emb (ix2 p q) = (ix2 (row t p) q : S8192x512.Idx) := by
  obtain ⟨-, -, -, -, -, -, -, -, -, -, -, -, -, -, -, -, -, -, h0, h1, -⟩ := idx_facts t
  funext a; apply Fin.ext
  match a with
  | ⟨0, _⟩ => show win1_8.index t (0 : Fin 2) * 256 + 1 * p.val = 256 * t.val + p.val; omega
  | ⟨1, _⟩ => show win1_8.index t (1 : Fin 2) * 512 + 1 * q.val = q.val; omega

theorem emb9 (t : Fin cfg1.N) (p : Fin 256) (q : Fin 512) :
    ((cfg1.win 9).blk t).view.emb (ix2 p q) = (ix2 (row t p) q : S8192x512.Idx) := by
  obtain ⟨-, -, -, -, -, -, -, -, -, -, -, -, -, -, -, -, -, -, -, -, h0, h1⟩ := idx_facts t
  funext a; apply Fin.ext
  match a with
  | ⟨0, _⟩ => show win1_9.index t (0 : Fin 2) * 256 + 1 * p.val = 256 * t.val + p.val; omega
  | ⟨1, _⟩ => show win1_9.index t (1 : Fin 2) * 512 + 1 * q.val = q.val; omega

/-! ## What a point writes back -/

/-- The body's hidden block at an entry is the cell's hidden row of the block's rows (the body's arithmetic, proved
    apart), as a hypothesis here. -/
abbrev BodyH : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out1_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

abbrev BodyC : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out1_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

/-- What point t writes back to the hidden array is block t of `GH`. -/
theorem flushed8_eq (hb : BodyH) (c : Dev nD) (t : Fin cfg1.N) :
    (dat1 V c).flushed 8 t = ((cfg1.win 8).blk t).view.read (Elt Ideal) (GH V c) := by
  show (cfg1.win 8).cut (grid1.coords t) ((dat1 V c).after 8 t) = _
  rw [after1_8]
  funext y
  obtain ⟨p, q, rfl⟩ : ∃ (p : Fin 256) (q : Fin 512), y = ix2 p q := ⟨y 0, y 1, eq_ix2 y⟩
  show out1_8 (F := Ideal) (iblk1 V c 0 t) (iblk1 V c 1 t) (iblk1 V c 2 t) (iblk1 V c 3 t) (iblk1 V c 4 t) (iblk1 V c 5 t) (iblk1 V c 6 t) (iblk1 V c 7 t) (ix2 p q)
    = GH V c (((cfg1.win 8).blk t).view.emb (ix2 p q))
  rw [hb, emb8]
  simp only [read0 V c t, read1 V c t, read2 V c t, read3 V c t, read4 V c t, read5 V c t, read6 V c t, read7 V c t]
  rfl

theorem flushed9_eq (hb : BodyC) (c : Dev nD) (t : Fin cfg1.N) :
    (dat1 V c).flushed 9 t = ((cfg1.win 9).blk t).view.read (Elt Ideal) (GC V c) := by
  show (cfg1.win 9).cut (grid1.coords t) ((dat1 V c).after 9 t) = _
  rw [after1_9]
  funext y
  obtain ⟨p, q, rfl⟩ : ∃ (p : Fin 256) (q : Fin 512), y = ix2 p q := ⟨y 0, y 1, eq_ix2 y⟩
  show out1_9 (F := Ideal) (iblk1 V c 0 t) (iblk1 V c 1 t) (iblk1 V c 2 t) (iblk1 V c 3 t) (iblk1 V c 4 t) (iblk1 V c 5 t) (iblk1 V c 6 t) (iblk1 V c 7 t) (ix2 p q)
    = GC V c (((cfg1.win 9).blk t).view.emb (ix2 p q))
  rw [hb, emb9]
  simp only [read0 V c t, read1 V c t, read2 V c t, read3 V c t, read4 V c t, read5 V c t, read6 V c t, read7 V c t]
  rfl

/-! ## The row blocks tile the rows -/

theorem mem_blk8 (t : Fin cfg1.N) (i : S8192x512.Idx) :
    i ∈ ((cfg1.win 8).blk t).view.set ↔ ∀ a : Fin 2, win1_8.index t a * S256x512.size a ≤ (i a).val ∧ (i a).val < win1_8.index t a * S256x512.size a + S256x512.size a := by
  show i ∈ ((View.whole main_v55_0).slice (win1_8.rect t)).set ↔ _
  rw [View.set_slice_whole, Rect.mem_set_unit]
  exact Iff.rfl

theorem mem_blk9 (t : Fin cfg1.N) (i : S8192x512.Idx) :
    i ∈ ((cfg1.win 9).blk t).view.set ↔ ∀ a : Fin 2, win1_9.index t a * S256x512.size a ≤ (i a).val ∧ (i a).val < win1_9.index t a * S256x512.size a + S256x512.size a := by
  show i ∈ ((View.whole main_v55_1).slice (win1_9.rect t)).set ↔ _
  rw [View.set_slice_whole, Rect.mem_set_unit]
  exact Iff.rfl

/-- Row n lies in the block of point n / 256. -/
theorem cover8 (i : S8192x512.Idx) : ∃ t : Fin cfg1.N, (cfg1.win 8).flush t = true ∧ i ∈ ((cfg1.win 8).blk t).view.set := by
  have hi0 : (i 0).val < 8192 := (i 0).isLt
  have hi1 : (i 1).val < 512 := (i 1).isLt
  refine ⟨⟨(i 0).val / 256, by show (i 0).val / 256 < 32; omega⟩, flush1_8 _, ?_⟩
  rw [mem_blk8]
  obtain ⟨-, -, -, -, -, -, -, -, -, -, -, -, -, -, -, -, -, -, h0, h1, -⟩ := idx_facts ⟨(i 0).val / 256, by show (i 0).val / 256 < 32; omega⟩
  intro a
  match a with
  | ⟨0, _⟩ => show win1_8.index _ (0 : Fin 2) * 256 ≤ (i 0).val ∧ (i 0).val < win1_8.index _ (0 : Fin 2) * 256 + 256; rw [h0]; show (i 0).val / 256 * 256 ≤ (i 0).val ∧ (i 0).val < (i 0).val / 256 * 256 + 256; omega
  | ⟨1, _⟩ => show win1_8.index _ (1 : Fin 2) * 512 ≤ (i 1).val ∧ (i 1).val < win1_8.index _ (1 : Fin 2) * 512 + 512; rw [h1]; omega

theorem cover9 (i : S8192x512.Idx) : ∃ t : Fin cfg1.N, (cfg1.win 9).flush t = true ∧ i ∈ ((cfg1.win 9).blk t).view.set := by
  have hi0 : (i 0).val < 8192 := (i 0).isLt
  have hi1 : (i 1).val < 512 := (i 1).isLt
  refine ⟨⟨(i 0).val / 256, by show (i 0).val / 256 < 32; omega⟩, flush1_9 _, ?_⟩
  rw [mem_blk9]
  obtain ⟨-, -, -, -, -, -, -, -, -, -, -, -, -, -, -, -, -, -, -, -, h0, h1⟩ := idx_facts ⟨(i 0).val / 256, by show (i 0).val / 256 < 32; omega⟩
  intro a
  match a with
  | ⟨0, _⟩ => show win1_9.index _ (0 : Fin 2) * 256 ≤ (i 0).val ∧ (i 0).val < win1_9.index _ (0 : Fin 2) * 256 + 256; rw [h0]; show (i 0).val / 256 * 256 ≤ (i 0).val ∧ (i 0).val < (i 0).val / 256 * 256 + 256; omega
  | ⟨1, _⟩ => show win1_9.index _ (1 : Fin 2) * 512 ≤ (i 1).val ∧ (i 1).val < win1_9.index _ (1 : Fin 2) * 512 + 512; rw [h1]; omega

/-! ## The two result arrays after the launch -/

theorem finalH (hb : BodyH) (c : Dev nD) : (dat1 V c).arrAt 8 cfg1.N = GH V c :=
  (dat1 V c).arrAt_eq_of_cover 8 (GH V c) (fun t _ => flushed8_eq V hb c t) cover8

theorem finalC (hb : BodyC) (c : Dev nD) : (dat1 V c).arrAt 9 cfg1.N = GC V c :=
  (dat1 V c).arrAt_eq_of_cover 9 (GC V c) (fun t _ => flushed9_eq V hb c t) cover9

end Cert.KernelIdeal.Region1

end
-- ==== Proof.KLaunch1.lean ====
/-
  Launch 1's two result arrays as the cell's row functions of the argument arrays and of the previous launch's results: the
  node inputs are level 4's, the child rows those of the previous launch's hidden and memory arrays gathered at level 4's
  child indices, the mask level 4's; the fused layouts read back as the forget and gate weights and biases.
-/
import proofs.«117485_j54365696033410_2_alg».proof.Proof.Gen.KernelIdeal.Frame
import proofs.«117485_j54365696033410_2_alg».proof.Proof.TreeCell
import proofs.«117485_j54365696033410_2_alg».proof.Proof.KTerms
import proofs.«117485_j54365696033410_2_alg».proof.Proof.KChain
import proofs.«117485_j54365696033410_2_alg».proof.Proof.KEntry0
import proofs.«117485_j54365696033410_2_alg».proof.Proof.KEntry1
import proofs.«117485_j54365696033410_2_alg».proof.Proof.Region1

set_option maxRecDepth 16384

noncomputable section

namespace Cert.KernelIdeal.Launch1

open Cert.KernelIdeal Cert.KernelIdeal.Gen Cert.KernelIdeal.Terms
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays at a core, at their array types. -/
abbrev A0 (c : Dev nD) : IVec S6x8192 32 := m ((c : Thread nD τ).loc main_arg0)
abbrev A1 (c : Dev nD) : IVec S6x8192x4 32 := m ((c : Thread nD τ).loc main_arg1)
abbrev A2 (c : Dev nD) : FVec Ideal S6x8192 .f32 := m ((c : Thread nD τ).loc main_arg2)
abbrev A3 (c : Dev nD) : FVec Ideal S6x8192x4 .f32 := m ((c : Thread nD τ).loc main_arg3)
abbrev A4 (c : Dev nD) : FVec Ideal S50000x300 .f32 := m ((c : Thread nD τ).loc main_arg4)
abbrev A5 (c : Dev nD) : FVec Ideal S300x1536 .f32 := m ((c : Thread nD τ).loc main_arg5)
abbrev A6 (c : Dev nD) : FVec Ideal S512x1536 .f32 := m ((c : Thread nD τ).loc main_arg6)
abbrev A7 (c : Dev nD) : FVec Ideal S1536 .f32 := m ((c : Thread nD τ).loc main_arg7)
abbrev A8 (c : Dev nD) : FVec Ideal S300x512 .f32 := m ((c : Thread nD τ).loc main_arg8)
abbrev A9 (c : Dev nD) : FVec Ideal S512x512 .f32 := m ((c : Thread nD τ).loc main_arg9)
abbrev A10 (c : Dev nD) : FVec Ideal S512 .f32 := m ((c : Thread nD τ).loc main_arg10)

theorem x_eq (c : Dev nD) : (V3 m ρ c main_v32 : S8192x300.Idx → EReal) = xAt (A0 m c) (A2 m c) (A4 m c) ![4, 0] slices_S6x8192_S1x8192_4_0 := by
  show W3 m ρ c (Proc.devRef .tc main_v32) = _
  rw [Entry1.x, Chain.a0_2, Chain.a2_2, Chain.a4_2]

theorem h_eq (c : Dev nD) : (V3 m ρ c main_v43 : S8192x4x512.Idx → EReal)
    = childRows (W2 m ρ c (Proc.devRef .tc main_v18_0)) (idxAt (A1 m c) ![4, 0, 0] slices_S6x8192x4_S1x8192x4_4_0_0) := by
  show W3 m ρ c (Proc.devRef .tc main_v43) = _
  rw [Entry1.hrows, Chain.a1_2]

theorem c_eq (c : Dev nD) : (V3 m ρ c main_v52 : S8192x4x512.Idx → EReal)
    = childRows (W2 m ρ c (Proc.devRef .tc main_v18_1)) (idxAt (A1 m c) ![4, 0, 0] slices_S6x8192x4_S1x8192x4_4_0_0) := by
  show W3 m ρ c (Proc.devRef .tc main_v52) = _
  rw [Entry1.crows, Chain.a1_2]

theorem m_eq (c : Dev nD) : (V3 m ρ c main_v54 : S8192x4.Idx → EReal) = maskAt (A3 m c) ![4, 0, 0] slices_S6x8192x4_S1x8192x4_4_0_0 := by
  show W3 m ρ c (Proc.devRef .tc main_v54) = _
  rw [Entry1.mask, Chain.a3_2]

theorem wF_eq (c : Dev nD) (e : Fin 300) (q : Fin 512) : (V3 m ρ c main_v1 : S300x2048.Idx → EReal) (ix2 e (TreeCell.colF q)) = A8 m c (ix2 e q) := by
  show W3 m ρ c (Proc.devRef .tc main_v1) (ix2 e (TreeCell.colF q)) = _
  rw [Chain.v1_3, Entry0.fusedW, Chain.a8_0, Chain.a5_0, fusedW_colF]

theorem wIou_eq (c : Dev nD) (e : Fin 300) (q : Fin 1536) : (V3 m ρ c main_v1 : S300x2048.Idx → EReal) (ix2 e (TreeCell.colIou q)) = A5 m c (ix2 e q) := by
  show W3 m ρ c (Proc.devRef .tc main_v1) (ix2 e (TreeCell.colIou q)) = _
  rw [Chain.v1_3, Entry0.fusedW, Chain.a8_0, Chain.a5_0, fusedW_colIou]

theorem bF_eq (c : Dev nD) (q : Fin 512) : (V3 m ρ c main_v3 : S1x2048.Idx → EReal) (ix2 0 (TreeCell.colF q)) = A10 m c (ix1 q) := by
  show W3 m ρ c (Proc.devRef .tc main_v3) (ix2 0 (TreeCell.colF q)) = _
  rw [Chain.v3_3, Entry0.fusedB, Chain.a10_0, Chain.a7_0, fusedB_colF]

theorem bIou_eq (c : Dev nD) (q : Fin 1536) : (V3 m ρ c main_v3 : S1x2048.Idx → EReal) (ix2 0 (TreeCell.colIou q)) = A7 m c (ix1 q) := by
  show W3 m ρ c (Proc.devRef .tc main_v3) (ix2 0 (TreeCell.colIou q)) = _
  rw [Chain.v3_3, Entry0.fusedB, Chain.a10_0, Chain.a7_0, fusedB_colIou]

theorem uf_eq (c : Dev nD) : (V3 m ρ c main_arg9 : S512x512.Idx → EReal) = A9 m c := by
  show W3 m ρ c (Proc.devRef .tc main_arg9) = _
  rw [Chain.u9_3]

theorem uiou_eq (c : Dev nD) : (V3 m ρ c main_arg6 : S512x1536.Idx → EReal) = A6 m c := by
  show W3 m ρ c (Proc.devRef .tc main_arg6) = _
  rw [Chain.u6_3]

theorem wF_fun (c : Dev nD) : (fun (e : Fin 300) (q : Fin 512) => (V3 m ρ c main_v1 : S300x2048.Idx → EReal) (ix2 e (TreeCell.colF q))) = fun e q => A8 m c (ix2 e q) :=
  funext fun e => funext fun q => wF_eq m ρ c e q
theorem wIou_fun (c : Dev nD) : (fun (e : Fin 300) (q : Fin 1536) => (V3 m ρ c main_v1 : S300x2048.Idx → EReal) (ix2 e (TreeCell.colIou q))) = fun e q => A5 m c (ix2 e q) :=
  funext fun e => funext fun q => wIou_eq m ρ c e q
theorem bF_fun (c : Dev nD) : (fun q : Fin 512 => (V3 m ρ c main_v3 : S1x2048.Idx → EReal) (ix2 0 (TreeCell.colF q))) = fun q => A10 m c (ix1 q) :=
  funext fun q => bF_eq m ρ c q
theorem bIou_fun (c : Dev nD) : (fun q : Fin 1536 => (V3 m ρ c main_v3 : S1x2048.Idx → EReal) (ix2 0 (TreeCell.colIou q))) = fun q => A7 m c (ix1 q) :=
  funext fun q => bIou_eq m ρ c q

/-- The hidden array after launch 1, at an entry. -/
theorem hidden (hb : Region1.BodyH) (c : Dev nD) (n : Fin 8192) (j : Fin 512) :
    (W4 m ρ c (Proc.devRef .tc main_v55_0) : S8192x512.Idx → EReal) (ix2 n j) =
      TreeCell.hNew (fun e => xAt (A0 m c) (A2 m c) (A4 m c) ![4, 0] slices_S6x8192_S1x8192_4_0 (ix2 n e))
        (fun k q => (childRows (W2 m ρ c (Proc.devRef .tc main_v18_0)) (idxAt (A1 m c) ![4, 0, 0] slices_S6x8192x4_S1x8192x4_4_0_0) : S8192x4x512.Idx → EReal) (ix3 n k q))
        (fun k q => (childRows (W2 m ρ c (Proc.devRef .tc main_v18_1)) (idxAt (A1 m c) ![4, 0, 0] slices_S6x8192x4_S1x8192x4_4_0_0) : S8192x4x512.Idx → EReal) (ix3 n k q))
        (fun k => maskAt (A3 m c) ![4, 0, 0] slices_S6x8192x4_S1x8192x4_4_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W4 m ρ c (Proc.devRef .tc main_v55_0) = (dat1 (V3 m ρ) c).arrAt 8 cfg1.N from W4_arr m ρ c 8,
    Region1.finalH (V3 m ρ) hb c]
  show TreeCell.hNew (fun e => (V3 m ρ c main_v32 : S8192x300.Idx → EReal) (ix2 n e))
    (fun k q => (V3 m ρ c main_v43 : S8192x4x512.Idx → EReal) (ix3 n k q))
    (fun k q => (V3 m ρ c main_v52 : S8192x4x512.Idx → EReal) (ix3 n k q))
    (fun k => (V3 m ρ c main_v54 : S8192x4.Idx → EReal) (ix2 n k))
    (fun e q => (V3 m ρ c main_v1 : S300x2048.Idx → EReal) (ix2 e (TreeCell.colF q)))
    (fun e q => (V3 m ρ c main_v1 : S300x2048.Idx → EReal) (ix2 e (TreeCell.colIou q)))
    (fun a q => (V3 m ρ c main_arg9 : S512x512.Idx → EReal) (ix2 a q))
    (fun a q => (V3 m ρ c main_arg6 : S512x1536.Idx → EReal) (ix2 a q))
    (fun q => (V3 m ρ c main_v3 : S1x2048.Idx → EReal) (ix2 0 (TreeCell.colF q)))
    (fun q => (V3 m ρ c main_v3 : S1x2048.Idx → EReal) (ix2 0 (TreeCell.colIou q))) j = _
  rw [x_eq, h_eq, c_eq, m_eq, wF_fun, wIou_fun, uf_eq, uiou_eq, bF_fun, bIou_fun]

/-- The memory array after launch 1, at an entry. -/
theorem memory (hb : Region1.BodyC) (c : Dev nD) (n : Fin 8192) (j : Fin 512) :
    (W4 m ρ c (Proc.devRef .tc main_v55_1) : S8192x512.Idx → EReal) (ix2 n j) =
      TreeCell.cNew (fun e => xAt (A0 m c) (A2 m c) (A4 m c) ![4, 0] slices_S6x8192_S1x8192_4_0 (ix2 n e))
        (fun k q => (childRows (W2 m ρ c (Proc.devRef .tc main_v18_0)) (idxAt (A1 m c) ![4, 0, 0] slices_S6x8192x4_S1x8192x4_4_0_0) : S8192x4x512.Idx → EReal) (ix3 n k q))
        (fun k q => (childRows (W2 m ρ c (Proc.devRef .tc main_v18_1)) (idxAt (A1 m c) ![4, 0, 0] slices_S6x8192x4_S1x8192x4_4_0_0) : S8192x4x512.Idx → EReal) (ix3 n k q))
        (fun k => maskAt (A3 m c) ![4, 0, 0] slices_S6x8192x4_S1x8192x4_4_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W4 m ρ c (Proc.devRef .tc main_v55_1) = (dat1 (V3 m ρ) c).arrAt 9 cfg1.N from W4_arr m ρ c 9,
    Region1.finalC (V3 m ρ) hb c]
  show TreeCell.cNew (fun e => (V3 m ρ c main_v32 : S8192x300.Idx → EReal) (ix2 n e))
    (fun k q => (V3 m ρ c main_v43 : S8192x4x512.Idx → EReal) (ix3 n k q))
    (fun k q => (V3 m ρ c main_v52 : S8192x4x512.Idx → EReal) (ix3 n k q))
    (fun k => (V3 m ρ c main_v54 : S8192x4.Idx → EReal) (ix2 n k))
    (fun e q => (V3 m ρ c main_v1 : S300x2048.Idx → EReal) (ix2 e (TreeCell.colF q)))
    (fun e q => (V3 m ρ c main_v1 : S300x2048.Idx → EReal) (ix2 e (TreeCell.colIou q)))
    (fun a q => (V3 m ρ c main_arg9 : S512x512.Idx → EReal) (ix2 a q))
    (fun a q => (V3 m ρ c main_arg6 : S512x1536.Idx → EReal) (ix2 a q))
    (fun q => (V3 m ρ c main_v3 : S1x2048.Idx → EReal) (ix2 0 (TreeCell.colF q)))
    (fun q => (V3 m ρ c main_v3 : S1x2048.Idx → EReal) (ix2 0 (TreeCell.colIou q))) j = _
  rw [x_eq, h_eq, c_eq, m_eq, wF_fun, wIou_fun, uf_eq, uiou_eq, bF_fun, bIou_fun]

end Cert.KernelIdeal.Launch1

end
-- ==== Proof.KEntry2.lean ====
/-
  What the stretch of host operations before launch 2 leaves in the four node arrays that launch reads: level 3's node
  inputs, the child rows of the previous launch's hidden and memory arrays gathered at level 3's child indices, and level
  3's child mask — each the term, of the contents at the stretch's start, that the stretch's operations compose.
-/
import proofs.«117485_j54365696033410_2_alg».proof.Proof.Gen.KernelIdeal.Frame
import proofs.«117485_j54365696033410_2_alg».proof.Proof.KTerms
import Idealize.ShloMosaic.Lib.StableHlo.Run

set_option maxRecDepth 16384

noncomputable section

namespace Cert.KernelIdeal.Entry2

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

theorem x (c : Dev nD) : (W5 m ρ c (Proc.devRef .tc main_v69) : FVec Ideal S8192x300 .f32)
    = xAt (W4 m ρ c (Proc.devRef .tc main_arg0)) (W4 m ρ c (Proc.devRef .tc main_arg2)) (W4 m ρ c (Proc.devRef .tc main_arg4)) ![3, 0] slices_S6x8192_S1x8192_3_0 := by
  show StableHlo.after hostOps2 (W4 m ρ c) (Proc.devRef .tc main_v69) = _
  after_results_simp
  rfl

theorem hrows (c : Dev nD) : (W5 m ρ c (Proc.devRef .tc main_v80) : FVec Ideal S8192x4x512 .bf16)
    = childRows (W4 m ρ c (Proc.devRef .tc main_v55_0)) (idxAt (W4 m ρ c (Proc.devRef .tc main_arg1)) ![3, 0, 0] slices_S6x8192x4_S1x8192x4_3_0_0) := by
  show StableHlo.after hostOps2 (W4 m ρ c) (Proc.devRef .tc main_v80) = _
  after_results_simp
  rfl

theorem crows (c : Dev nD) : (W5 m ρ c (Proc.devRef .tc main_v89) : FVec Ideal S8192x4x512 .bf16)
    = childRows (W4 m ρ c (Proc.devRef .tc main_v55_1)) (idxAt (W4 m ρ c (Proc.devRef .tc main_arg1)) ![3, 0, 0] slices_S6x8192x4_S1x8192x4_3_0_0) := by
  show StableHlo.after hostOps2 (W4 m ρ c) (Proc.devRef .tc main_v89) = _
  after_results_simp
  rfl

theorem mask (c : Dev nD) : (W5 m ρ c (Proc.devRef .tc main_v91) : FVec Ideal S8192x4 .f32)
    = maskAt (W4 m ρ c (Proc.devRef .tc main_arg3)) ![3, 0, 0] slices_S6x8192x4_S1x8192x4_3_0_0 := by
  show StableHlo.after hostOps2 (W4 m ρ c) (Proc.devRef .tc main_v91) = _
  after_results_simp
  rfl

end Cert.KernelIdeal.Entry2

end
-- ==== Proof.Region2.lean ====
/-
  Launch 2 of the level cell, from blocks to whole arrays.

  The launch walks 32 grid points; point t stages rows 256·t … 256·t + 255 of the node arrays (the input rows, the
  gathered child rows, the child masks) and the whole of each weight array, and writes back rows 256·t … 256·t + 255 of
  the two result arrays. A Tree-LSTM row depends only on its own node's rows, so what point t writes back is rows
  256·t … of ONE function of the whole arrays: at (n, j) the cell's row function of node n's rows. The 32 row blocks
  tile the 8192 rows, so after the launch each result array is that function everywhere.
-/
import proofs.«117485_j54365696033410_2_alg».proof.Proof.Gen.KernelIdeal.Frame
import proofs.«117485_j54365696033410_2_alg».proof.Proof.TreeCell
import Idealize.ShloMosaic.Lib.ValueIdx
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row 256·t + p of the node arrays: row p of point t's block. -/
def row (t : Fin cfg2.N) (p : Fin 256) : Fin 8192 := ⟨256 * t.val + p.val, by have h1 : t.val < 32 := t.isLt; have h2 : p.val < 256 := p.isLt; omega⟩

/-- The hidden array the launch leaves: at (n, j) the cell's hidden row of node n's rows of the entry arrays. -/
def GH (c : Dev nD) : S8192x512.Idx → EReal := fun i =>
  TreeCell.hNew (fun e => (V c main_v69 : S8192x300.Idx → EReal) (ix2 (i 0) e))
    (fun k q => (V c main_v80 : S8192x4x512.Idx → EReal) (ix3 (i 0) k q))
    (fun k q => (V c main_v89 : S8192x4x512.Idx → EReal) (ix3 (i 0) k q))
    (fun k => (V c main_v91 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The memory array the launch leaves. -/
def GC (c : Dev nD) : S8192x512.Idx → EReal := fun i =>
  TreeCell.cNew (fun e => (V c main_v69 : S8192x300.Idx → EReal) (ix2 (i 0) e))
    (fun k q => (V c main_v80 : S8192x4x512.Idx → EReal) (ix3 (i 0) k q))
    (fun k q => (V c main_v89 : S8192x4x512.Idx → EReal) (ix3 (i 0) k q))
    (fun k => (V c main_v91 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The index maps over the grid: the node arrays' blocks move with the grid coordinate along the rows, the weight
    arrays stay put. -/
theorem idx_facts : ∀ t : Fin cfg2.N,
    win2_0.index t (0 : Fin 2) = t.val ∧ win2_0.index t (1 : Fin 2) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-! ## Each input block, read where it lies in its array -/

theorem read0 (c : Dev nD) (t : Fin cfg2.N) (p : Fin 256) (e : Fin 300) :
    iblk2 V c 0 t (ix2 p e) = (V c main_v69 : S8192x300.Idx → EReal) (ix2 (row t p) e) := by
  obtain ⟨h0, h1, -⟩ := idx_facts t
  show (V c main_v69 : S8192x300.Idx → EReal) (((cfg2.win 0).blk t).view.emb (ix2 p e)) = _
  refine congrArg (V c main_v69 : S8192x300.Idx → EReal) (funext fun a => Fin.ext ?_)
  match a with
  | ⟨0, _⟩ => show win2_0.index t (0 : Fin 2) * 256 + 1 * p.val = 256 * t.val + p.val; omega
  | ⟨1, _⟩ => show win2_0.index t (1 : Fin 2) * 300 + 1 * e.val = e.val; omega

theorem read1 (c : Dev nD) (t : Fin cfg2.N) (p : Fin 256) (k : Fin 4) (q : Fin 512) :
    iblk2 V c 1 t (ix3 p k q) = (V c main_v80 : S8192x4x512.Idx → EReal) (ix3 (row t p) k q) := by
  obtain ⟨-, -, h0, h1, h2, -⟩ := idx_facts t
  show (V c main_v80 : S8192x4x512.Idx → EReal) (((cfg2.win 1).blk t).view.emb (ix3 p k q)) = _
  refine congrArg (V c main_v80 : S8192x4x512.Idx → EReal) (funext fun a => Fin.ext ?_)
  match a with
  | ⟨0, _⟩ => show win2_1.index t (0 : Fin 3) * 256 + 1 * p.val = 256 * t.val + p.val; omega
  | ⟨1, _⟩ => show win2_1.index t (1 : Fin 3) * 4 + 1 * k.val = k.val; omega
  | ⟨2, _⟩ => show win2_1.index t (2 : Fin 3) * 512 + 1 * q.val = q.val; omega

theorem read2 (c : Dev nD) (t : Fin cfg2.N) (p : Fin 256) (k : Fin 4) (q : Fin 512) :
    iblk2 V c 2 t (ix3 p k q) = (V c main_v89 : S8192x4x512.Idx → EReal) (ix3 (row t p) k q) := by
  obtain ⟨-, -, -, -, -, h0, h1, h2, -⟩ := idx_facts t
  show (V c main_v89 : S8192x4x512.Idx → EReal) (((cfg2.win 2).blk t).view.emb (ix3 p k q)) = _
  refine congrArg (V c main_v89 : S8192x4x512.Idx → EReal) (funext fun a => Fin.ext ?_)
  match a with
  | ⟨0, _⟩ => show win2_2.index t (0 : Fin 3) * 256 + 1 * p.val = 256 * t.val + p.val; omega
  | ⟨1, _⟩ => show win2_2.index t (1 : Fin 3) * 4 + 1 * k.val = k.val; omega
  | ⟨2, _⟩ => show win2_2.index t (2 : Fin 3) * 512 + 1 * q.val = q.val; omega

theorem read3 (c : Dev nD) (t : Fin cfg2.N) (p : Fin 256) (k : Fin 4) :
    iblk2 V c 3 t (ix2 p k) = (V c main_v91 : S8192x4.Idx → EReal) (ix2 (row t p) k) := by
  obtain ⟨-, -, -, -, -, -, -, -, h0, h1, -⟩ := idx_facts t
  show (V c main_v91 : S8192x4.Idx → EReal) (((cfg2.win 3).blk t).view.emb (ix2 p k)) = _
  refine congrArg (V c main_v91 : S8192x4.Idx → EReal) (funext fun a => Fin.ext ?_)
  match a with
  | ⟨0, _⟩ => show win2_3.index t (0 : Fin 2) * 256 + 1 * p.val = 256 * t.val + p.val; omega
  | ⟨1, _⟩ => show win2_3.index t (1 : Fin 2) * 4 + 1 * k.val = k.val; omega

theorem read4 (c : Dev nD) (t : Fin cfg2.N) (e : Fin 300) (q : Fin 2048) :
    iblk2 V c 4 t (ix2 e q) = (V c main_v1 : S300x2048.Idx → EReal) (ix2 e q) := by
  obtain ⟨-, -, -, -, -, -, -, -, -, -, h0, h1, -⟩ := idx_facts t
  show (V c main_v1 : S300x2048.Idx → EReal) (((cfg2.win 4).blk t).view.emb (ix2 e q)) = _
  refine congrArg (V c main_v1 : S300x2048.Idx → EReal) (funext fun a => Fin.ext ?_)
  match a with
  | ⟨0, _⟩ => show win2_4.index t (0 : Fin 2) * 300 + 1 * e.val = e.val; omega
  | ⟨1, _⟩ => show win2_4.index t (1 : Fin 2) * 2048 + 1 * q.val = q.val; omega

theorem read5 (c : Dev nD) (t : Fin cfg2.N) (a' : Fin 512) (q : Fin 512) :
    iblk2 V c 5 t (ix2 a' q) = (V c main_arg9 : S512x512.Idx → EReal) (ix2 a' q) := by
  obtain ⟨-, -, -, -, -, -, -, -, -, -, -, -, h0, h1, -⟩ := idx_facts t
  show (V c main_arg9 : S512x512.Idx → EReal) (((cfg2.win 5).blk t).view.emb (ix2 a' q)) = _
  refine congrArg (V c main_arg9 : S512x512.Idx → EReal) (funext fun a => Fin.ext ?_)
  match a with
  | ⟨0, _⟩ => show win2_5.index t (0 : Fin 2) * 512 + 1 * a'.val = a'.val; omega
  | ⟨1, _⟩ => show win2_5.index t (1 : Fin 2) * 512 + 1 * q.val = q.val; omega

theorem read6 (c : Dev nD) (t : Fin cfg2.N) (z : Fin 1) (q : Fin 2048) :
    iblk2 V c 6 t (ix2 z q) = (V c main_v3 : S1x2048.Idx → EReal) (ix2 z q) := by
  obtain ⟨-, -, -, -, -, -, -, -, -, -, -, -, -, -, h0, h1, -⟩ := idx_facts t
  show (V c main_v3 : S1x2048.Idx → EReal) (((cfg2.win 6).blk t).view.emb (ix2 z q)) = _
  refine congrArg (V c main_v3 : S1x2048.Idx → EReal) (funext fun a => Fin.ext ?_)
  match a with
  | ⟨0, _⟩ => show win2_6.index t (0 : Fin 2) * 1 + 1 * z.val = z.val; omega
  | ⟨1, _⟩ => show win2_6.index t (1 : Fin 2) * 2048 + 1 * q.val = q.val; omega

theorem read7 (c : Dev nD) (t : Fin cfg2.N) (a' : Fin 512) (q : Fin 1536) :
    iblk2 V c 7 t (ix2 a' q) = (V c main_arg6 : S512x1536.Idx → EReal) (ix2 a' q) := by
  obtain ⟨-, -, -, -, -, -, -, -, -, -, -, -, -, -, -, -, h0, h1, -⟩ := idx_facts t
  show (V c main_arg6 : S512x1536.Idx → EReal) (((cfg2.win 7).blk t).view.emb (ix2 a' q)) = _
  refine congrArg (V c main_arg6 : S512x1536.Idx → EReal) (funext fun a => Fin.ext ?_)
  match a with
  | ⟨0, _⟩ => show win2_7.index t (0 : Fin 2) * 512 + 1 * a'.val = a'.val; omega
  | ⟨1, _⟩ => show win2_7.index t (1 : Fin 2) * 1536 + 1 * q.val = q.val; omega

/-- Where row p, column q of point t's hidden block lies in the hidden array. -/
theorem emb8 (t : Fin cfg2.N) (p : Fin 256) (q : Fin 512) :
    ((cfg2.win 8).blk t).view.emb (ix2 p q) = (ix2 (row t p) q : S8192x512.Idx) := by
  obtain ⟨-, -, -, -, -, -, -, -, -, -, -, -, -, -, -, -, -, -, h0, h1, -⟩ := idx_facts t
  funext a; apply Fin.ext
  match a with
  | ⟨0, _⟩ => show win2_8.index t (0 : Fin 2) * 256 + 1 * p.val = 256 * t.val + p.val; omega
  | ⟨1, _⟩ => show win2_8.index t (1 : Fin 2) * 512 + 1 * q.val = q.val; omega

theorem emb9 (t : Fin cfg2.N) (p : Fin 256) (q : Fin 512) :
    ((cfg2.win 9).blk t).view.emb (ix2 p q) = (ix2 (row t p) q : S8192x512.Idx) := by
  obtain ⟨-, -, -, -, -, -, -, -, -, -, -, -, -, -, -, -, -, -, -, -, h0, h1⟩ := idx_facts t
  funext a; apply Fin.ext
  match a with
  | ⟨0, _⟩ => show win2_9.index t (0 : Fin 2) * 256 + 1 * p.val = 256 * t.val + p.val; omega
  | ⟨1, _⟩ => show win2_9.index t (1 : Fin 2) * 512 + 1 * q.val = q.val; omega

/-! ## What a point writes back -/

/-- The body's hidden block at an entry is the cell's hidden row of the block's rows (the body's arithmetic, proved
    apart), as a hypothesis here. -/
abbrev BodyH : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out2_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

abbrev BodyC : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out2_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

/-- What point t writes back to the hidden array is block t of `GH`. -/
theorem flushed8_eq (hb : BodyH) (c : Dev nD) (t : Fin cfg2.N) :
    (dat2 V c).flushed 8 t = ((cfg2.win 8).blk t).view.read (Elt Ideal) (GH V c) := by
  show (cfg2.win 8).cut (grid2.coords t) ((dat2 V c).after 8 t) = _
  rw [after2_8]
  funext y
  obtain ⟨p, q, rfl⟩ : ∃ (p : Fin 256) (q : Fin 512), y = ix2 p q := ⟨y 0, y 1, eq_ix2 y⟩
  show out2_8 (F := Ideal) (iblk2 V c 0 t) (iblk2 V c 1 t) (iblk2 V c 2 t) (iblk2 V c 3 t) (iblk2 V c 4 t) (iblk2 V c 5 t) (iblk2 V c 6 t) (iblk2 V c 7 t) (ix2 p q)
    = GH V c (((cfg2.win 8).blk t).view.emb (ix2 p q))
  rw [hb, emb8]
  simp only [read0 V c t, read1 V c t, read2 V c t, read3 V c t, read4 V c t, read5 V c t, read6 V c t, read7 V c t]
  rfl

theorem flushed9_eq (hb : BodyC) (c : Dev nD) (t : Fin cfg2.N) :
    (dat2 V c).flushed 9 t = ((cfg2.win 9).blk t).view.read (Elt Ideal) (GC V c) := by
  show (cfg2.win 9).cut (grid2.coords t) ((dat2 V c).after 9 t) = _
  rw [after2_9]
  funext y
  obtain ⟨p, q, rfl⟩ : ∃ (p : Fin 256) (q : Fin 512), y = ix2 p q := ⟨y 0, y 1, eq_ix2 y⟩
  show out2_9 (F := Ideal) (iblk2 V c 0 t) (iblk2 V c 1 t) (iblk2 V c 2 t) (iblk2 V c 3 t) (iblk2 V c 4 t) (iblk2 V c 5 t) (iblk2 V c 6 t) (iblk2 V c 7 t) (ix2 p q)
    = GC V c (((cfg2.win 9).blk t).view.emb (ix2 p q))
  rw [hb, emb9]
  simp only [read0 V c t, read1 V c t, read2 V c t, read3 V c t, read4 V c t, read5 V c t, read6 V c t, read7 V c t]
  rfl

/-! ## The row blocks tile the rows -/

theorem mem_blk8 (t : Fin cfg2.N) (i : S8192x512.Idx) :
    i ∈ ((cfg2.win 8).blk t).view.set ↔ ∀ a : Fin 2, win2_8.index t a * S256x512.size a ≤ (i a).val ∧ (i a).val < win2_8.index t a * S256x512.size a + S256x512.size a := by
  show i ∈ ((View.whole main_v92_0).slice (win2_8.rect t)).set ↔ _
  rw [View.set_slice_whole, Rect.mem_set_unit]
  exact Iff.rfl

theorem mem_blk9 (t : Fin cfg2.N) (i : S8192x512.Idx) :
    i ∈ ((cfg2.win 9).blk t).view.set ↔ ∀ a : Fin 2, win2_9.index t a * S256x512.size a ≤ (i a).val ∧ (i a).val < win2_9.index t a * S256x512.size a + S256x512.size a := by
  show i ∈ ((View.whole main_v92_1).slice (win2_9.rect t)).set ↔ _
  rw [View.set_slice_whole, Rect.mem_set_unit]
  exact Iff.rfl

/-- Row n lies in the block of point n / 256. -/
theorem cover8 (i : S8192x512.Idx) : ∃ t : Fin cfg2.N, (cfg2.win 8).flush t = true ∧ i ∈ ((cfg2.win 8).blk t).view.set := by
  have hi0 : (i 0).val < 8192 := (i 0).isLt
  have hi1 : (i 1).val < 512 := (i 1).isLt
  refine ⟨⟨(i 0).val / 256, by show (i 0).val / 256 < 32; omega⟩, flush2_8 _, ?_⟩
  rw [mem_blk8]
  obtain ⟨-, -, -, -, -, -, -, -, -, -, -, -, -, -, -, -, -, -, h0, h1, -⟩ := idx_facts ⟨(i 0).val / 256, by show (i 0).val / 256 < 32; omega⟩
  intro a
  match a with
  | ⟨0, _⟩ => show win2_8.index _ (0 : Fin 2) * 256 ≤ (i 0).val ∧ (i 0).val < win2_8.index _ (0 : Fin 2) * 256 + 256; rw [h0]; show (i 0).val / 256 * 256 ≤ (i 0).val ∧ (i 0).val < (i 0).val / 256 * 256 + 256; omega
  | ⟨1, _⟩ => show win2_8.index _ (1 : Fin 2) * 512 ≤ (i 1).val ∧ (i 1).val < win2_8.index _ (1 : Fin 2) * 512 + 512; rw [h1]; omega

theorem cover9 (i : S8192x512.Idx) : ∃ t : Fin cfg2.N, (cfg2.win 9).flush t = true ∧ i ∈ ((cfg2.win 9).blk t).view.set := by
  have hi0 : (i 0).val < 8192 := (i 0).isLt
  have hi1 : (i 1).val < 512 := (i 1).isLt
  refine ⟨⟨(i 0).val / 256, by show (i 0).val / 256 < 32; omega⟩, flush2_9 _, ?_⟩
  rw [mem_blk9]
  obtain ⟨-, -, -, -, -, -, -, -, -, -, -, -, -, -, -, -, -, -, -, -, h0, h1⟩ := idx_facts ⟨(i 0).val / 256, by show (i 0).val / 256 < 32; omega⟩
  intro a
  match a with
  | ⟨0, _⟩ => show win2_9.index _ (0 : Fin 2) * 256 ≤ (i 0).val ∧ (i 0).val < win2_9.index _ (0 : Fin 2) * 256 + 256; rw [h0]; show (i 0).val / 256 * 256 ≤ (i 0).val ∧ (i 0).val < (i 0).val / 256 * 256 + 256; omega
  | ⟨1, _⟩ => show win2_9.index _ (1 : Fin 2) * 512 ≤ (i 1).val ∧ (i 1).val < win2_9.index _ (1 : Fin 2) * 512 + 512; rw [h1]; omega

/-! ## The two result arrays after the launch -/

theorem finalH (hb : BodyH) (c : Dev nD) : (dat2 V c).arrAt 8 cfg2.N = GH V c :=
  (dat2 V c).arrAt_eq_of_cover 8 (GH V c) (fun t _ => flushed8_eq V hb c t) cover8

theorem finalC (hb : BodyC) (c : Dev nD) : (dat2 V c).arrAt 9 cfg2.N = GC V c :=
  (dat2 V c).arrAt_eq_of_cover 9 (GC V c) (fun t _ => flushed9_eq V hb c t) cover9

end Cert.KernelIdeal.Region2

end
-- ==== Proof.KLaunch2.lean ====
/-
  Launch 2's two result arrays as the cell's row functions of the argument arrays and of the previous launch's results: the
  node inputs are level 3's, the child rows those of the previous launch's hidden and memory arrays gathered at level 3's
  child indices, the mask level 3's; the fused layouts read back as the forget and gate weights and biases.
-/
import proofs.«117485_j54365696033410_2_alg».proof.Proof.Gen.KernelIdeal.Frame
import proofs.«117485_j54365696033410_2_alg».proof.Proof.TreeCell
import proofs.«117485_j54365696033410_2_alg».proof.Proof.KTerms
import proofs.«117485_j54365696033410_2_alg».proof.Proof.KChain
import proofs.«117485_j54365696033410_2_alg».proof.Proof.KEntry0
import proofs.«117485_j54365696033410_2_alg».proof.Proof.KEntry2
import proofs.«117485_j54365696033410_2_alg».proof.Proof.Region2

set_option maxRecDepth 16384

noncomputable section

namespace Cert.KernelIdeal.Launch2

open Cert.KernelIdeal Cert.KernelIdeal.Gen Cert.KernelIdeal.Terms
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays at a core, at their array types. -/
abbrev A0 (c : Dev nD) : IVec S6x8192 32 := m ((c : Thread nD τ).loc main_arg0)
abbrev A1 (c : Dev nD) : IVec S6x8192x4 32 := m ((c : Thread nD τ).loc main_arg1)
abbrev A2 (c : Dev nD) : FVec Ideal S6x8192 .f32 := m ((c : Thread nD τ).loc main_arg2)
abbrev A3 (c : Dev nD) : FVec Ideal S6x8192x4 .f32 := m ((c : Thread nD τ).loc main_arg3)
abbrev A4 (c : Dev nD) : FVec Ideal S50000x300 .f32 := m ((c : Thread nD τ).loc main_arg4)
abbrev A5 (c : Dev nD) : FVec Ideal S300x1536 .f32 := m ((c : Thread nD τ).loc main_arg5)
abbrev A6 (c : Dev nD) : FVec Ideal S512x1536 .f32 := m ((c : Thread nD τ).loc main_arg6)
abbrev A7 (c : Dev nD) : FVec Ideal S1536 .f32 := m ((c : Thread nD τ).loc main_arg7)
abbrev A8 (c : Dev nD) : FVec Ideal S300x512 .f32 := m ((c : Thread nD τ).loc main_arg8)
abbrev A9 (c : Dev nD) : FVec Ideal S512x512 .f32 := m ((c : Thread nD τ).loc main_arg9)
abbrev A10 (c : Dev nD) : FVec Ideal S512 .f32 := m ((c : Thread nD τ).loc main_arg10)

theorem x_eq (c : Dev nD) : (V5 m ρ c main_v69 : S8192x300.Idx → EReal) = xAt (A0 m c) (A2 m c) (A4 m c) ![3, 0] slices_S6x8192_S1x8192_3_0 := by
  show W5 m ρ c (Proc.devRef .tc main_v69) = _
  rw [Entry2.x, Chain.a0_4, Chain.a2_4, Chain.a4_4]

theorem h_eq (c : Dev nD) : (V5 m ρ c main_v80 : S8192x4x512.Idx → EReal)
    = childRows (W4 m ρ c (Proc.devRef .tc main_v55_0)) (idxAt (A1 m c) ![3, 0, 0] slices_S6x8192x4_S1x8192x4_3_0_0) := by
  show W5 m ρ c (Proc.devRef .tc main_v80) = _
  rw [Entry2.hrows, Chain.a1_4]

theorem c_eq (c : Dev nD) : (V5 m ρ c main_v89 : S8192x4x512.Idx → EReal)
    = childRows (W4 m ρ c (Proc.devRef .tc main_v55_1)) (idxAt (A1 m c) ![3, 0, 0] slices_S6x8192x4_S1x8192x4_3_0_0) := by
  show W5 m ρ c (Proc.devRef .tc main_v89) = _
  rw [Entry2.crows, Chain.a1_4]

theorem m_eq (c : Dev nD) : (V5 m ρ c main_v91 : S8192x4.Idx → EReal) = maskAt (A3 m c) ![3, 0, 0] slices_S6x8192x4_S1x8192x4_3_0_0 := by
  show W5 m ρ c (Proc.devRef .tc main_v91) = _
  rw [Entry2.mask, Chain.a3_4]

theorem wF_eq (c : Dev nD) (e : Fin 300) (q : Fin 512) : (V5 m ρ c main_v1 : S300x2048.Idx → EReal) (ix2 e (TreeCell.colF q)) = A8 m c (ix2 e q) := by
  show W5 m ρ c (Proc.devRef .tc main_v1) (ix2 e (TreeCell.colF q)) = _
  rw [Chain.v1_5, Entry0.fusedW, Chain.a8_0, Chain.a5_0, fusedW_colF]

theorem wIou_eq (c : Dev nD) (e : Fin 300) (q : Fin 1536) : (V5 m ρ c main_v1 : S300x2048.Idx → EReal) (ix2 e (TreeCell.colIou q)) = A5 m c (ix2 e q) := by
  show W5 m ρ c (Proc.devRef .tc main_v1) (ix2 e (TreeCell.colIou q)) = _
  rw [Chain.v1_5, Entry0.fusedW, Chain.a8_0, Chain.a5_0, fusedW_colIou]

theorem bF_eq (c : Dev nD) (q : Fin 512) : (V5 m ρ c main_v3 : S1x2048.Idx → EReal) (ix2 0 (TreeCell.colF q)) = A10 m c (ix1 q) := by
  show W5 m ρ c (Proc.devRef .tc main_v3) (ix2 0 (TreeCell.colF q)) = _
  rw [Chain.v3_5, Entry0.fusedB, Chain.a10_0, Chain.a7_0, fusedB_colF]

theorem bIou_eq (c : Dev nD) (q : Fin 1536) : (V5 m ρ c main_v3 : S1x2048.Idx → EReal) (ix2 0 (TreeCell.colIou q)) = A7 m c (ix1 q) := by
  show W5 m ρ c (Proc.devRef .tc main_v3) (ix2 0 (TreeCell.colIou q)) = _
  rw [Chain.v3_5, Entry0.fusedB, Chain.a10_0, Chain.a7_0, fusedB_colIou]

theorem uf_eq (c : Dev nD) : (V5 m ρ c main_arg9 : S512x512.Idx → EReal) = A9 m c := by
  show W5 m ρ c (Proc.devRef .tc main_arg9) = _
  rw [Chain.u9_5]

theorem uiou_eq (c : Dev nD) : (V5 m ρ c main_arg6 : S512x1536.Idx → EReal) = A6 m c := by
  show W5 m ρ c (Proc.devRef .tc main_arg6) = _
  rw [Chain.u6_5]

theorem wF_fun (c : Dev nD) : (fun (e : Fin 300) (q : Fin 512) => (V5 m ρ c main_v1 : S300x2048.Idx → EReal) (ix2 e (TreeCell.colF q))) = fun e q => A8 m c (ix2 e q) :=
  funext fun e => funext fun q => wF_eq m ρ c e q
theorem wIou_fun (c : Dev nD) : (fun (e : Fin 300) (q : Fin 1536) => (V5 m ρ c main_v1 : S300x2048.Idx → EReal) (ix2 e (TreeCell.colIou q))) = fun e q => A5 m c (ix2 e q) :=
  funext fun e => funext fun q => wIou_eq m ρ c e q
theorem bF_fun (c : Dev nD) : (fun q : Fin 512 => (V5 m ρ c main_v3 : S1x2048.Idx → EReal) (ix2 0 (TreeCell.colF q))) = fun q => A10 m c (ix1 q) :=
  funext fun q => bF_eq m ρ c q
theorem bIou_fun (c : Dev nD) : (fun q : Fin 1536 => (V5 m ρ c main_v3 : S1x2048.Idx → EReal) (ix2 0 (TreeCell.colIou q))) = fun q => A7 m c (ix1 q) :=
  funext fun q => bIou_eq m ρ c q

/-- The hidden array after launch 2, at an entry. -/
theorem hidden (hb : Region2.BodyH) (c : Dev nD) (n : Fin 8192) (j : Fin 512) :
    (W6 m ρ c (Proc.devRef .tc main_v92_0) : S8192x512.Idx → EReal) (ix2 n j) =
      TreeCell.hNew (fun e => xAt (A0 m c) (A2 m c) (A4 m c) ![3, 0] slices_S6x8192_S1x8192_3_0 (ix2 n e))
        (fun k q => (childRows (W4 m ρ c (Proc.devRef .tc main_v55_0)) (idxAt (A1 m c) ![3, 0, 0] slices_S6x8192x4_S1x8192x4_3_0_0) : S8192x4x512.Idx → EReal) (ix3 n k q))
        (fun k q => (childRows (W4 m ρ c (Proc.devRef .tc main_v55_1)) (idxAt (A1 m c) ![3, 0, 0] slices_S6x8192x4_S1x8192x4_3_0_0) : S8192x4x512.Idx → EReal) (ix3 n k q))
        (fun k => maskAt (A3 m c) ![3, 0, 0] slices_S6x8192x4_S1x8192x4_3_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W6 m ρ c (Proc.devRef .tc main_v92_0) = (dat2 (V5 m ρ) c).arrAt 8 cfg2.N from W6_arr m ρ c 8,
    Region2.finalH (V5 m ρ) hb c]
  show TreeCell.hNew (fun e => (V5 m ρ c main_v69 : S8192x300.Idx → EReal) (ix2 n e))
    (fun k q => (V5 m ρ c main_v80 : S8192x4x512.Idx → EReal) (ix3 n k q))
    (fun k q => (V5 m ρ c main_v89 : S8192x4x512.Idx → EReal) (ix3 n k q))
    (fun k => (V5 m ρ c main_v91 : S8192x4.Idx → EReal) (ix2 n k))
    (fun e q => (V5 m ρ c main_v1 : S300x2048.Idx → EReal) (ix2 e (TreeCell.colF q)))
    (fun e q => (V5 m ρ c main_v1 : S300x2048.Idx → EReal) (ix2 e (TreeCell.colIou q)))
    (fun a q => (V5 m ρ c main_arg9 : S512x512.Idx → EReal) (ix2 a q))
    (fun a q => (V5 m ρ c main_arg6 : S512x1536.Idx → EReal) (ix2 a q))
    (fun q => (V5 m ρ c main_v3 : S1x2048.Idx → EReal) (ix2 0 (TreeCell.colF q)))
    (fun q => (V5 m ρ c main_v3 : S1x2048.Idx → EReal) (ix2 0 (TreeCell.colIou q))) j = _
  rw [x_eq, h_eq, c_eq, m_eq, wF_fun, wIou_fun, uf_eq, uiou_eq, bF_fun, bIou_fun]

/-- The memory array after launch 2, at an entry. -/
theorem memory (hb : Region2.BodyC) (c : Dev nD) (n : Fin 8192) (j : Fin 512) :
    (W6 m ρ c (Proc.devRef .tc main_v92_1) : S8192x512.Idx → EReal) (ix2 n j) =
      TreeCell.cNew (fun e => xAt (A0 m c) (A2 m c) (A4 m c) ![3, 0] slices_S6x8192_S1x8192_3_0 (ix2 n e))
        (fun k q => (childRows (W4 m ρ c (Proc.devRef .tc main_v55_0)) (idxAt (A1 m c) ![3, 0, 0] slices_S6x8192x4_S1x8192x4_3_0_0) : S8192x4x512.Idx → EReal) (ix3 n k q))
        (fun k q => (childRows (W4 m ρ c (Proc.devRef .tc main_v55_1)) (idxAt (A1 m c) ![3, 0, 0] slices_S6x8192x4_S1x8192x4_3_0_0) : S8192x4x512.Idx → EReal) (ix3 n k q))
        (fun k => maskAt (A3 m c) ![3, 0, 0] slices_S6x8192x4_S1x8192x4_3_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W6 m ρ c (Proc.devRef .tc main_v92_1) = (dat2 (V5 m ρ) c).arrAt 9 cfg2.N from W6_arr m ρ c 9,
    Region2.finalC (V5 m ρ) hb c]
  show TreeCell.cNew (fun e => (V5 m ρ c main_v69 : S8192x300.Idx → EReal) (ix2 n e))
    (fun k q => (V5 m ρ c main_v80 : S8192x4x512.Idx → EReal) (ix3 n k q))
    (fun k q => (V5 m ρ c main_v89 : S8192x4x512.Idx → EReal) (ix3 n k q))
    (fun k => (V5 m ρ c main_v91 : S8192x4.Idx → EReal) (ix2 n k))
    (fun e q => (V5 m ρ c main_v1 : S300x2048.Idx → EReal) (ix2 e (TreeCell.colF q)))
    (fun e q => (V5 m ρ c main_v1 : S300x2048.Idx → EReal) (ix2 e (TreeCell.colIou q)))
    (fun a q => (V5 m ρ c main_arg9 : S512x512.Idx → EReal) (ix2 a q))
    (fun a q => (V5 m ρ c main_arg6 : S512x1536.Idx → EReal) (ix2 a q))
    (fun q => (V5 m ρ c main_v3 : S1x2048.Idx → EReal) (ix2 0 (TreeCell.colF q)))
    (fun q => (V5 m ρ c main_v3 : S1x2048.Idx → EReal) (ix2 0 (TreeCell.colIou q))) j = _
  rw [x_eq, h_eq, c_eq, m_eq, wF_fun, wIou_fun, uf_eq, uiou_eq, bF_fun, bIou_fun]

end Cert.KernelIdeal.Launch2

end
-- ==== Proof.KEntry3.lean ====
/-
  What the stretch of host operations before launch 3 leaves in the four node arrays that launch reads: level 2's node
  inputs, the child rows of the previous launch's hidden and memory arrays gathered at level 2's child indices, and level
  2's child mask — each the term, of the contents at the stretch's start, that the stretch's operations compose.
-/
import proofs.«117485_j54365696033410_2_alg».proof.Proof.Gen.KernelIdeal.Frame
import proofs.«117485_j54365696033410_2_alg».proof.Proof.KTerms
import Idealize.ShloMosaic.Lib.StableHlo.Run

set_option maxRecDepth 16384

noncomputable section

namespace Cert.KernelIdeal.Entry3

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

theorem x (c : Dev nD) : (W7 m ρ c (Proc.devRef .tc main_v106) : FVec Ideal S8192x300 .f32)
    = xAt (W6 m ρ c (Proc.devRef .tc main_arg0)) (W6 m ρ c (Proc.devRef .tc main_arg2)) (W6 m ρ c (Proc.devRef .tc main_arg4)) ![2, 0] slices_S6x8192_S1x8192_2_0 := by
  show StableHlo.after hostOps3 (W6 m ρ c) (Proc.devRef .tc main_v106) = _
  after_results_simp
  rfl

theorem hrows (c : Dev nD) : (W7 m ρ c (Proc.devRef .tc main_v117) : FVec Ideal S8192x4x512 .bf16)
    = childRows (W6 m ρ c (Proc.devRef .tc main_v92_0)) (idxAt (W6 m ρ c (Proc.devRef .tc main_arg1)) ![2, 0, 0] slices_S6x8192x4_S1x8192x4_2_0_0) := by
  show StableHlo.after hostOps3 (W6 m ρ c) (Proc.devRef .tc main_v117) = _
  after_results_simp
  rfl

theorem crows (c : Dev nD) : (W7 m ρ c (Proc.devRef .tc main_v126) : FVec Ideal S8192x4x512 .bf16)
    = childRows (W6 m ρ c (Proc.devRef .tc main_v92_1)) (idxAt (W6 m ρ c (Proc.devRef .tc main_arg1)) ![2, 0, 0] slices_S6x8192x4_S1x8192x4_2_0_0) := by
  show StableHlo.after hostOps3 (W6 m ρ c) (Proc.devRef .tc main_v126) = _
  after_results_simp
  rfl

theorem mask (c : Dev nD) : (W7 m ρ c (Proc.devRef .tc main_v128) : FVec Ideal S8192x4 .f32)
    = maskAt (W6 m ρ c (Proc.devRef .tc main_arg3)) ![2, 0, 0] slices_S6x8192x4_S1x8192x4_2_0_0 := by
  show StableHlo.after hostOps3 (W6 m ρ c) (Proc.devRef .tc main_v128) = _
  after_results_simp
  rfl

end Cert.KernelIdeal.Entry3

end
-- ==== Proof.Region3.lean ====
/-
  Launch 3 of the level cell, from blocks to whole arrays.

  The launch walks 32 grid points; point t stages rows 256·t … 256·t + 255 of the node arrays (the input rows, the
  gathered child rows, the child masks) and the whole of each weight array, and writes back rows 256·t … 256·t + 255 of
  the two result arrays. A Tree-LSTM row depends only on its own node's rows, so what point t writes back is rows
  256·t … of ONE function of the whole arrays: at (n, j) the cell's row function of node n's rows. The 32 row blocks
  tile the 8192 rows, so after the launch each result array is that function everywhere.
-/
import proofs.«117485_j54365696033410_2_alg».proof.Proof.Gen.KernelIdeal.Frame
import proofs.«117485_j54365696033410_2_alg».proof.Proof.TreeCell
import Idealize.ShloMosaic.Lib.ValueIdx
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row 256·t + p of the node arrays: row p of point t's block. -/
def row (t : Fin cfg3.N) (p : Fin 256) : Fin 8192 := ⟨256 * t.val + p.val, by have h1 : t.val < 32 := t.isLt; have h2 : p.val < 256 := p.isLt; omega⟩

/-- The hidden array the launch leaves: at (n, j) the cell's hidden row of node n's rows of the entry arrays. -/
def GH (c : Dev nD) : S8192x512.Idx → EReal := fun i =>
  TreeCell.hNew (fun e => (V c main_v106 : S8192x300.Idx → EReal) (ix2 (i 0) e))
    (fun k q => (V c main_v117 : S8192x4x512.Idx → EReal) (ix3 (i 0) k q))
    (fun k q => (V c main_v126 : S8192x4x512.Idx → EReal) (ix3 (i 0) k q))
    (fun k => (V c main_v128 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The memory array the launch leaves. -/
def GC (c : Dev nD) : S8192x512.Idx → EReal := fun i =>
  TreeCell.cNew (fun e => (V c main_v106 : S8192x300.Idx → EReal) (ix2 (i 0) e))
    (fun k q => (V c main_v117 : S8192x4x512.Idx → EReal) (ix3 (i 0) k q))
    (fun k q => (V c main_v126 : S8192x4x512.Idx → EReal) (ix3 (i 0) k q))
    (fun k => (V c main_v128 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The index maps over the grid: the node arrays' blocks move with the grid coordinate along the rows, the weight
    arrays stay put. -/
theorem idx_facts : ∀ t : Fin cfg3.N,
    win3_0.index t (0 : Fin 2) = t.val ∧ win3_0.index t (1 : Fin 2) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

/-! ## Each input block, read where it lies in its array -/

theorem read0 (c : Dev nD) (t : Fin cfg3.N) (p : Fin 256) (e : Fin 300) :
    iblk3 V c 0 t (ix2 p e) = (V c main_v106 : S8192x300.Idx → EReal) (ix2 (row t p) e) := by
  obtain ⟨h0, h1, -⟩ := idx_facts t
  show (V c main_v106 : S8192x300.Idx → EReal) (((cfg3.win 0).blk t).view.emb (ix2 p e)) = _
  refine congrArg (V c main_v106 : S8192x300.Idx → EReal) (funext fun a => Fin.ext ?_)
  match a with
  | ⟨0, _⟩ => show win3_0.index t (0 : Fin 2) * 256 + 1 * p.val = 256 * t.val + p.val; omega
  | ⟨1, _⟩ => show win3_0.index t (1 : Fin 2) * 300 + 1 * e.val = e.val; omega

theorem read1 (c : Dev nD) (t : Fin cfg3.N) (p : Fin 256) (k : Fin 4) (q : Fin 512) :
    iblk3 V c 1 t (ix3 p k q) = (V c main_v117 : S8192x4x512.Idx → EReal) (ix3 (row t p) k q) := by
  obtain ⟨-, -, h0, h1, h2, -⟩ := idx_facts t
  show (V c main_v117 : S8192x4x512.Idx → EReal) (((cfg3.win 1).blk t).view.emb (ix3 p k q)) = _
  refine congrArg (V c main_v117 : S8192x4x512.Idx → EReal) (funext fun a => Fin.ext ?_)
  match a with
  | ⟨0, _⟩ => show win3_1.index t (0 : Fin 3) * 256 + 1 * p.val = 256 * t.val + p.val; omega
  | ⟨1, _⟩ => show win3_1.index t (1 : Fin 3) * 4 + 1 * k.val = k.val; omega
  | ⟨2, _⟩ => show win3_1.index t (2 : Fin 3) * 512 + 1 * q.val = q.val; omega

theorem read2 (c : Dev nD) (t : Fin cfg3.N) (p : Fin 256) (k : Fin 4) (q : Fin 512) :
    iblk3 V c 2 t (ix3 p k q) = (V c main_v126 : S8192x4x512.Idx → EReal) (ix3 (row t p) k q) := by
  obtain ⟨-, -, -, -, -, h0, h1, h2, -⟩ := idx_facts t
  show (V c main_v126 : S8192x4x512.Idx → EReal) (((cfg3.win 2).blk t).view.emb (ix3 p k q)) = _
  refine congrArg (V c main_v126 : S8192x4x512.Idx → EReal) (funext fun a => Fin.ext ?_)
  match a with
  | ⟨0, _⟩ => show win3_2.index t (0 : Fin 3) * 256 + 1 * p.val = 256 * t.val + p.val; omega
  | ⟨1, _⟩ => show win3_2.index t (1 : Fin 3) * 4 + 1 * k.val = k.val; omega
  | ⟨2, _⟩ => show win3_2.index t (2 : Fin 3) * 512 + 1 * q.val = q.val; omega

theorem read3 (c : Dev nD) (t : Fin cfg3.N) (p : Fin 256) (k : Fin 4) :
    iblk3 V c 3 t (ix2 p k) = (V c main_v128 : S8192x4.Idx → EReal) (ix2 (row t p) k) := by
  obtain ⟨-, -, -, -, -, -, -, -, h0, h1, -⟩ := idx_facts t
  show (V c main_v128 : S8192x4.Idx → EReal) (((cfg3.win 3).blk t).view.emb (ix2 p k)) = _
  refine congrArg (V c main_v128 : S8192x4.Idx → EReal) (funext fun a => Fin.ext ?_)
  match a with
  | ⟨0, _⟩ => show win3_3.index t (0 : Fin 2) * 256 + 1 * p.val = 256 * t.val + p.val; omega
  | ⟨1, _⟩ => show win3_3.index t (1 : Fin 2) * 4 + 1 * k.val = k.val; omega

theorem read4 (c : Dev nD) (t : Fin cfg3.N) (e : Fin 300) (q : Fin 2048) :
    iblk3 V c 4 t (ix2 e q) = (V c main_v1 : S300x2048.Idx → EReal) (ix2 e q) := by
  obtain ⟨-, -, -, -, -, -, -, -, -, -, h0, h1, -⟩ := idx_facts t
  show (V c main_v1 : S300x2048.Idx → EReal) (((cfg3.win 4).blk t).view.emb (ix2 e q)) = _
  refine congrArg (V c main_v1 : S300x2048.Idx → EReal) (funext fun a => Fin.ext ?_)
  match a with
  | ⟨0, _⟩ => show win3_4.index t (0 : Fin 2) * 300 + 1 * e.val = e.val; omega
  | ⟨1, _⟩ => show win3_4.index t (1 : Fin 2) * 2048 + 1 * q.val = q.val; omega

theorem read5 (c : Dev nD) (t : Fin cfg3.N) (a' : Fin 512) (q : Fin 512) :
    iblk3 V c 5 t (ix2 a' q) = (V c main_arg9 : S512x512.Idx → EReal) (ix2 a' q) := by
  obtain ⟨-, -, -, -, -, -, -, -, -, -, -, -, h0, h1, -⟩ := idx_facts t
  show (V c main_arg9 : S512x512.Idx → EReal) (((cfg3.win 5).blk t).view.emb (ix2 a' q)) = _
  refine congrArg (V c main_arg9 : S512x512.Idx → EReal) (funext fun a => Fin.ext ?_)
  match a with
  | ⟨0, _⟩ => show win3_5.index t (0 : Fin 2) * 512 + 1 * a'.val = a'.val; omega
  | ⟨1, _⟩ => show win3_5.index t (1 : Fin 2) * 512 + 1 * q.val = q.val; omega

theorem read6 (c : Dev nD) (t : Fin cfg3.N) (z : Fin 1) (q : Fin 2048) :
    iblk3 V c 6 t (ix2 z q) = (V c main_v3 : S1x2048.Idx → EReal) (ix2 z q) := by
  obtain ⟨-, -, -, -, -, -, -, -, -, -, -, -, -, -, h0, h1, -⟩ := idx_facts t
  show (V c main_v3 : S1x2048.Idx → EReal) (((cfg3.win 6).blk t).view.emb (ix2 z q)) = _
  refine congrArg (V c main_v3 : S1x2048.Idx → EReal) (funext fun a => Fin.ext ?_)
  match a with
  | ⟨0, _⟩ => show win3_6.index t (0 : Fin 2) * 1 + 1 * z.val = z.val; omega
  | ⟨1, _⟩ => show win3_6.index t (1 : Fin 2) * 2048 + 1 * q.val = q.val; omega

theorem read7 (c : Dev nD) (t : Fin cfg3.N) (a' : Fin 512) (q : Fin 1536) :
    iblk3 V c 7 t (ix2 a' q) = (V c main_arg6 : S512x1536.Idx → EReal) (ix2 a' q) := by
  obtain ⟨-, -, -, -, -, -, -, -, -, -, -, -, -, -, -, -, h0, h1, -⟩ := idx_facts t
  show (V c main_arg6 : S512x1536.Idx → EReal) (((cfg3.win 7).blk t).view.emb (ix2 a' q)) = _
  refine congrArg (V c main_arg6 : S512x1536.Idx → EReal) (funext fun a => Fin.ext ?_)
  match a with
  | ⟨0, _⟩ => show win3_7.index t (0 : Fin 2) * 512 + 1 * a'.val = a'.val; omega
  | ⟨1, _⟩ => show win3_7.index t (1 : Fin 2) * 1536 + 1 * q.val = q.val; omega

/-- Where row p, column q of point t's hidden block lies in the hidden array. -/
theorem emb8 (t : Fin cfg3.N) (p : Fin 256) (q : Fin 512) :
    ((cfg3.win 8).blk t).view.emb (ix2 p q) = (ix2 (row t p) q : S8192x512.Idx) := by
  obtain ⟨-, -, -, -, -, -, -, -, -, -, -, -, -, -, -, -, -, -, h0, h1, -⟩ := idx_facts t
  funext a; apply Fin.ext
  match a with
  | ⟨0, _⟩ => show win3_8.index t (0 : Fin 2) * 256 + 1 * p.val = 256 * t.val + p.val; omega
  | ⟨1, _⟩ => show win3_8.index t (1 : Fin 2) * 512 + 1 * q.val = q.val; omega

theorem emb9 (t : Fin cfg3.N) (p : Fin 256) (q : Fin 512) :
    ((cfg3.win 9).blk t).view.emb (ix2 p q) = (ix2 (row t p) q : S8192x512.Idx) := by
  obtain ⟨-, -, -, -, -, -, -, -, -, -, -, -, -, -, -, -, -, -, -, -, h0, h1⟩ := idx_facts t
  funext a; apply Fin.ext
  match a with
  | ⟨0, _⟩ => show win3_9.index t (0 : Fin 2) * 256 + 1 * p.val = 256 * t.val + p.val; omega
  | ⟨1, _⟩ => show win3_9.index t (1 : Fin 2) * 512 + 1 * q.val = q.val; omega

/-! ## What a point writes back -/

/-- The body's hidden block at an entry is the cell's hidden row of the block's rows (the body's arithmetic, proved
    apart), as a hypothesis here. -/
abbrev BodyH : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out3_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

abbrev BodyC : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out3_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

/-- What point t writes back to the hidden array is block t of `GH`. -/
theorem flushed8_eq (hb : BodyH) (c : Dev nD) (t : Fin cfg3.N) :
    (dat3 V c).flushed 8 t = ((cfg3.win 8).blk t).view.read (Elt Ideal) (GH V c) := by
  show (cfg3.win 8).cut (grid3.coords t) ((dat3 V c).after 8 t) = _
  rw [after3_8]
  funext y
  obtain ⟨p, q, rfl⟩ : ∃ (p : Fin 256) (q : Fin 512), y = ix2 p q := ⟨y 0, y 1, eq_ix2 y⟩
  show out3_8 (F := Ideal) (iblk3 V c 0 t) (iblk3 V c 1 t) (iblk3 V c 2 t) (iblk3 V c 3 t) (iblk3 V c 4 t) (iblk3 V c 5 t) (iblk3 V c 6 t) (iblk3 V c 7 t) (ix2 p q)
    = GH V c (((cfg3.win 8).blk t).view.emb (ix2 p q))
  rw [hb, emb8]
  simp only [read0 V c t, read1 V c t, read2 V c t, read3 V c t, read4 V c t, read5 V c t, read6 V c t, read7 V c t]
  rfl

theorem flushed9_eq (hb : BodyC) (c : Dev nD) (t : Fin cfg3.N) :
    (dat3 V c).flushed 9 t = ((cfg3.win 9).blk t).view.read (Elt Ideal) (GC V c) := by
  show (cfg3.win 9).cut (grid3.coords t) ((dat3 V c).after 9 t) = _
  rw [after3_9]
  funext y
  obtain ⟨p, q, rfl⟩ : ∃ (p : Fin 256) (q : Fin 512), y = ix2 p q := ⟨y 0, y 1, eq_ix2 y⟩
  show out3_9 (F := Ideal) (iblk3 V c 0 t) (iblk3 V c 1 t) (iblk3 V c 2 t) (iblk3 V c 3 t) (iblk3 V c 4 t) (iblk3 V c 5 t) (iblk3 V c 6 t) (iblk3 V c 7 t) (ix2 p q)
    = GC V c (((cfg3.win 9).blk t).view.emb (ix2 p q))
  rw [hb, emb9]
  simp only [read0 V c t, read1 V c t, read2 V c t, read3 V c t, read4 V c t, read5 V c t, read6 V c t, read7 V c t]
  rfl

/-! ## The row blocks tile the rows -/

theorem mem_blk8 (t : Fin cfg3.N) (i : S8192x512.Idx) :
    i ∈ ((cfg3.win 8).blk t).view.set ↔ ∀ a : Fin 2, win3_8.index t a * S256x512.size a ≤ (i a).val ∧ (i a).val < win3_8.index t a * S256x512.size a + S256x512.size a := by
  show i ∈ ((View.whole main_v129_0).slice (win3_8.rect t)).set ↔ _
  rw [View.set_slice_whole, Rect.mem_set_unit]
  exact Iff.rfl

theorem mem_blk9 (t : Fin cfg3.N) (i : S8192x512.Idx) :
    i ∈ ((cfg3.win 9).blk t).view.set ↔ ∀ a : Fin 2, win3_9.index t a * S256x512.size a ≤ (i a).val ∧ (i a).val < win3_9.index t a * S256x512.size a + S256x512.size a := by
  show i ∈ ((View.whole main_v129_1).slice (win3_9.rect t)).set ↔ _
  rw [View.set_slice_whole, Rect.mem_set_unit]
  exact Iff.rfl

/-- Row n lies in the block of point n / 256. -/
theorem cover8 (i : S8192x512.Idx) : ∃ t : Fin cfg3.N, (cfg3.win 8).flush t = true ∧ i ∈ ((cfg3.win 8).blk t).view.set := by
  have hi0 : (i 0).val < 8192 := (i 0).isLt
  have hi1 : (i 1).val < 512 := (i 1).isLt
  refine ⟨⟨(i 0).val / 256, by show (i 0).val / 256 < 32; omega⟩, flush3_8 _, ?_⟩
  rw [mem_blk8]
  obtain ⟨-, -, -, -, -, -, -, -, -, -, -, -, -, -, -, -, -, -, h0, h1, -⟩ := idx_facts ⟨(i 0).val / 256, by show (i 0).val / 256 < 32; omega⟩
  intro a
  match a with
  | ⟨0, _⟩ => show win3_8.index _ (0 : Fin 2) * 256 ≤ (i 0).val ∧ (i 0).val < win3_8.index _ (0 : Fin 2) * 256 + 256; rw [h0]; show (i 0).val / 256 * 256 ≤ (i 0).val ∧ (i 0).val < (i 0).val / 256 * 256 + 256; omega
  | ⟨1, _⟩ => show win3_8.index _ (1 : Fin 2) * 512 ≤ (i 1).val ∧ (i 1).val < win3_8.index _ (1 : Fin 2) * 512 + 512; rw [h1]; omega

theorem cover9 (i : S8192x512.Idx) : ∃ t : Fin cfg3.N, (cfg3.win 9).flush t = true ∧ i ∈ ((cfg3.win 9).blk t).view.set := by
  have hi0 : (i 0).val < 8192 := (i 0).isLt
  have hi1 : (i 1).val < 512 := (i 1).isLt
  refine ⟨⟨(i 0).val / 256, by show (i 0).val / 256 < 32; omega⟩, flush3_9 _, ?_⟩
  rw [mem_blk9]
  obtain ⟨-, -, -, -, -, -, -, -, -, -, -, -, -, -, -, -, -, -, -, -, h0, h1⟩ := idx_facts ⟨(i 0).val / 256, by show (i 0).val / 256 < 32; omega⟩
  intro a
  match a with
  | ⟨0, _⟩ => show win3_9.index _ (0 : Fin 2) * 256 ≤ (i 0).val ∧ (i 0).val < win3_9.index _ (0 : Fin 2) * 256 + 256; rw [h0]; show (i 0).val / 256 * 256 ≤ (i 0).val ∧ (i 0).val < (i 0).val / 256 * 256 + 256; omega
  | ⟨1, _⟩ => show win3_9.index _ (1 : Fin 2) * 512 ≤ (i 1).val ∧ (i 1).val < win3_9.index _ (1 : Fin 2) * 512 + 512; rw [h1]; omega

/-! ## The two result arrays after the launch -/

theorem finalH (hb : BodyH) (c : Dev nD) : (dat3 V c).arrAt 8 cfg3.N = GH V c :=
  (dat3 V c).arrAt_eq_of_cover 8 (GH V c) (fun t _ => flushed8_eq V hb c t) cover8

theorem finalC (hb : BodyC) (c : Dev nD) : (dat3 V c).arrAt 9 cfg3.N = GC V c :=
  (dat3 V c).arrAt_eq_of_cover 9 (GC V c) (fun t _ => flushed9_eq V hb c t) cover9

end Cert.KernelIdeal.Region3

end
-- ==== Proof.KLaunch3.lean ====
/-
  Launch 3's two result arrays as the cell's row functions of the argument arrays and of the previous launch's results: the
  node inputs are level 2's, the child rows those of the previous launch's hidden and memory arrays gathered at level 2's
  child indices, the mask level 2's; the fused layouts read back as the forget and gate weights and biases.
-/
import proofs.«117485_j54365696033410_2_alg».proof.Proof.Gen.KernelIdeal.Frame
import proofs.«117485_j54365696033410_2_alg».proof.Proof.TreeCell
import proofs.«117485_j54365696033410_2_alg».proof.Proof.KTerms
import proofs.«117485_j54365696033410_2_alg».proof.Proof.KChain
import proofs.«117485_j54365696033410_2_alg».proof.Proof.KEntry0
import proofs.«117485_j54365696033410_2_alg».proof.Proof.KEntry3
import proofs.«117485_j54365696033410_2_alg».proof.Proof.Region3

set_option maxRecDepth 16384

noncomputable section

namespace Cert.KernelIdeal.Launch3

open Cert.KernelIdeal Cert.KernelIdeal.Gen Cert.KernelIdeal.Terms
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays at a core, at their array types. -/
abbrev A0 (c : Dev nD) : IVec S6x8192 32 := m ((c : Thread nD τ).loc main_arg0)
abbrev A1 (c : Dev nD) : IVec S6x8192x4 32 := m ((c : Thread nD τ).loc main_arg1)
abbrev A2 (c : Dev nD) : FVec Ideal S6x8192 .f32 := m ((c : Thread nD τ).loc main_arg2)
abbrev A3 (c : Dev nD) : FVec Ideal S6x8192x4 .f32 := m ((c : Thread nD τ).loc main_arg3)
abbrev A4 (c : Dev nD) : FVec Ideal S50000x300 .f32 := m ((c : Thread nD τ).loc main_arg4)
abbrev A5 (c : Dev nD) : FVec Ideal S300x1536 .f32 := m ((c : Thread nD τ).loc main_arg5)
abbrev A6 (c : Dev nD) : FVec Ideal S512x1536 .f32 := m ((c : Thread nD τ).loc main_arg6)
abbrev A7 (c : Dev nD) : FVec Ideal S1536 .f32 := m ((c : Thread nD τ).loc main_arg7)
abbrev A8 (c : Dev nD) : FVec Ideal S300x512 .f32 := m ((c : Thread nD τ).loc main_arg8)
abbrev A9 (c : Dev nD) : FVec Ideal S512x512 .f32 := m ((c : Thread nD τ).loc main_arg9)
abbrev A10 (c : Dev nD) : FVec Ideal S512 .f32 := m ((c : Thread nD τ).loc main_arg10)

theorem x_eq (c : Dev nD) : (V7 m ρ c main_v106 : S8192x300.Idx → EReal) = xAt (A0 m c) (A2 m c) (A4 m c) ![2, 0] slices_S6x8192_S1x8192_2_0 := by
  show W7 m ρ c (Proc.devRef .tc main_v106) = _
  rw [Entry3.x, Chain.a0_6, Chain.a2_6, Chain.a4_6]

theorem h_eq (c : Dev nD) : (V7 m ρ c main_v117 : S8192x4x512.Idx → EReal)
    = childRows (W6 m ρ c (Proc.devRef .tc main_v92_0)) (idxAt (A1 m c) ![2, 0, 0] slices_S6x8192x4_S1x8192x4_2_0_0) := by
  show W7 m ρ c (Proc.devRef .tc main_v117) = _
  rw [Entry3.hrows, Chain.a1_6]

theorem c_eq (c : Dev nD) : (V7 m ρ c main_v126 : S8192x4x512.Idx → EReal)
    = childRows (W6 m ρ c (Proc.devRef .tc main_v92_1)) (idxAt (A1 m c) ![2, 0, 0] slices_S6x8192x4_S1x8192x4_2_0_0) := by
  show W7 m ρ c (Proc.devRef .tc main_v126) = _
  rw [Entry3.crows, Chain.a1_6]

theorem m_eq (c : Dev nD) : (V7 m ρ c main_v128 : S8192x4.Idx → EReal) = maskAt (A3 m c) ![2, 0, 0] slices_S6x8192x4_S1x8192x4_2_0_0 := by
  show W7 m ρ c (Proc.devRef .tc main_v128) = _
  rw [Entry3.mask, Chain.a3_6]

theorem wF_eq (c : Dev nD) (e : Fin 300) (q : Fin 512) : (V7 m ρ c main_v1 : S300x2048.Idx → EReal) (ix2 e (TreeCell.colF q)) = A8 m c (ix2 e q) := by
  show W7 m ρ c (Proc.devRef .tc main_v1) (ix2 e (TreeCell.colF q)) = _
  rw [Chain.v1_7, Entry0.fusedW, Chain.a8_0, Chain.a5_0, fusedW_colF]

theorem wIou_eq (c : Dev nD) (e : Fin 300) (q : Fin 1536) : (V7 m ρ c main_v1 : S300x2048.Idx → EReal) (ix2 e (TreeCell.colIou q)) = A5 m c (ix2 e q) := by
  show W7 m ρ c (Proc.devRef .tc main_v1) (ix2 e (TreeCell.colIou q)) = _
  rw [Chain.v1_7, Entry0.fusedW, Chain.a8_0, Chain.a5_0, fusedW_colIou]

theorem bF_eq (c : Dev nD) (q : Fin 512) : (V7 m ρ c main_v3 : S1x2048.Idx → EReal) (ix2 0 (TreeCell.colF q)) = A10 m c (ix1 q) := by
  show W7 m ρ c (Proc.devRef .tc main_v3) (ix2 0 (TreeCell.colF q)) = _
  rw [Chain.v3_7, Entry0.fusedB, Chain.a10_0, Chain.a7_0, fusedB_colF]

theorem bIou_eq (c : Dev nD) (q : Fin 1536) : (V7 m ρ c main_v3 : S1x2048.Idx → EReal) (ix2 0 (TreeCell.colIou q)) = A7 m c (ix1 q) := by
  show W7 m ρ c (Proc.devRef .tc main_v3) (ix2 0 (TreeCell.colIou q)) = _
  rw [Chain.v3_7, Entry0.fusedB, Chain.a10_0, Chain.a7_0, fusedB_colIou]

theorem uf_eq (c : Dev nD) : (V7 m ρ c main_arg9 : S512x512.Idx → EReal) = A9 m c := by
  show W7 m ρ c (Proc.devRef .tc main_arg9) = _
  rw [Chain.u9_7]

theorem uiou_eq (c : Dev nD) : (V7 m ρ c main_arg6 : S512x1536.Idx → EReal) = A6 m c := by
  show W7 m ρ c (Proc.devRef .tc main_arg6) = _
  rw [Chain.u6_7]

theorem wF_fun (c : Dev nD) : (fun (e : Fin 300) (q : Fin 512) => (V7 m ρ c main_v1 : S300x2048.Idx → EReal) (ix2 e (TreeCell.colF q))) = fun e q => A8 m c (ix2 e q) :=
  funext fun e => funext fun q => wF_eq m ρ c e q
theorem wIou_fun (c : Dev nD) : (fun (e : Fin 300) (q : Fin 1536) => (V7 m ρ c main_v1 : S300x2048.Idx → EReal) (ix2 e (TreeCell.colIou q))) = fun e q => A5 m c (ix2 e q) :=
  funext fun e => funext fun q => wIou_eq m ρ c e q
theorem bF_fun (c : Dev nD) : (fun q : Fin 512 => (V7 m ρ c main_v3 : S1x2048.Idx → EReal) (ix2 0 (TreeCell.colF q))) = fun q => A10 m c (ix1 q) :=
  funext fun q => bF_eq m ρ c q
theorem bIou_fun (c : Dev nD) : (fun q : Fin 1536 => (V7 m ρ c main_v3 : S1x2048.Idx → EReal) (ix2 0 (TreeCell.colIou q))) = fun q => A7 m c (ix1 q) :=
  funext fun q => bIou_eq m ρ c q

/-- The hidden array after launch 3, at an entry. -/
theorem hidden (hb : Region3.BodyH) (c : Dev nD) (n : Fin 8192) (j : Fin 512) :
    (W8 m ρ c (Proc.devRef .tc main_v129_0) : S8192x512.Idx → EReal) (ix2 n j) =
      TreeCell.hNew (fun e => xAt (A0 m c) (A2 m c) (A4 m c) ![2, 0] slices_S6x8192_S1x8192_2_0 (ix2 n e))
        (fun k q => (childRows (W6 m ρ c (Proc.devRef .tc main_v92_0)) (idxAt (A1 m c) ![2, 0, 0] slices_S6x8192x4_S1x8192x4_2_0_0) : S8192x4x512.Idx → EReal) (ix3 n k q))
        (fun k q => (childRows (W6 m ρ c (Proc.devRef .tc main_v92_1)) (idxAt (A1 m c) ![2, 0, 0] slices_S6x8192x4_S1x8192x4_2_0_0) : S8192x4x512.Idx → EReal) (ix3 n k q))
        (fun k => maskAt (A3 m c) ![2, 0, 0] slices_S6x8192x4_S1x8192x4_2_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W8 m ρ c (Proc.devRef .tc main_v129_0) = (dat3 (V7 m ρ) c).arrAt 8 cfg3.N from W8_arr m ρ c 8,
    Region3.finalH (V7 m ρ) hb c]
  show TreeCell.hNew (fun e => (V7 m ρ c main_v106 : S8192x300.Idx → EReal) (ix2 n e))
    (fun k q => (V7 m ρ c main_v117 : S8192x4x512.Idx → EReal) (ix3 n k q))
    (fun k q => (V7 m ρ c main_v126 : S8192x4x512.Idx → EReal) (ix3 n k q))
    (fun k => (V7 m ρ c main_v128 : S8192x4.Idx → EReal) (ix2 n k))
    (fun e q => (V7 m ρ c main_v1 : S300x2048.Idx → EReal) (ix2 e (TreeCell.colF q)))
    (fun e q => (V7 m ρ c main_v1 : S300x2048.Idx → EReal) (ix2 e (TreeCell.colIou q)))
    (fun a q => (V7 m ρ c main_arg9 : S512x512.Idx → EReal) (ix2 a q))
    (fun a q => (V7 m ρ c main_arg6 : S512x1536.Idx → EReal) (ix2 a q))
    (fun q => (V7 m ρ c main_v3 : S1x2048.Idx → EReal) (ix2 0 (TreeCell.colF q)))
    (fun q => (V7 m ρ c main_v3 : S1x2048.Idx → EReal) (ix2 0 (TreeCell.colIou q))) j = _
  rw [x_eq, h_eq, c_eq, m_eq, wF_fun, wIou_fun, uf_eq, uiou_eq, bF_fun, bIou_fun]

/-- The memory array after launch 3, at an entry. -/
theorem memory (hb : Region3.BodyC) (c : Dev nD) (n : Fin 8192) (j : Fin 512) :
    (W8 m ρ c (Proc.devRef .tc main_v129_1) : S8192x512.Idx → EReal) (ix2 n j) =
      TreeCell.cNew (fun e => xAt (A0 m c) (A2 m c) (A4 m c) ![2, 0] slices_S6x8192_S1x8192_2_0 (ix2 n e))
        (fun k q => (childRows (W6 m ρ c (Proc.devRef .tc main_v92_0)) (idxAt (A1 m c) ![2, 0, 0] slices_S6x8192x4_S1x8192x4_2_0_0) : S8192x4x512.Idx → EReal) (ix3 n k q))
        (fun k q => (childRows (W6 m ρ c (Proc.devRef .tc main_v92_1)) (idxAt (A1 m c) ![2, 0, 0] slices_S6x8192x4_S1x8192x4_2_0_0) : S8192x4x512.Idx → EReal) (ix3 n k q))
        (fun k => maskAt (A3 m c) ![2, 0, 0] slices_S6x8192x4_S1x8192x4_2_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W8 m ρ c (Proc.devRef .tc main_v129_1) = (dat3 (V7 m ρ) c).arrAt 9 cfg3.N from W8_arr m ρ c 9,
    Region3.finalC (V7 m ρ) hb c]
  show TreeCell.cNew (fun e => (V7 m ρ c main_v106 : S8192x300.Idx → EReal) (ix2 n e))
    (fun k q => (V7 m ρ c main_v117 : S8192x4x512.Idx → EReal) (ix3 n k q))
    (fun k q => (V7 m ρ c main_v126 : S8192x4x512.Idx → EReal) (ix3 n k q))
    (fun k => (V7 m ρ c main_v128 : S8192x4.Idx → EReal) (ix2 n k))
    (fun e q => (V7 m ρ c main_v1 : S300x2048.Idx → EReal) (ix2 e (TreeCell.colF q)))
    (fun e q => (V7 m ρ c main_v1 : S300x2048.Idx → EReal) (ix2 e (TreeCell.colIou q)))
    (fun a q => (V7 m ρ c main_arg9 : S512x512.Idx → EReal) (ix2 a q))
    (fun a q => (V7 m ρ c main_arg6 : S512x1536.Idx → EReal) (ix2 a q))
    (fun q => (V7 m ρ c main_v3 : S1x2048.Idx → EReal) (ix2 0 (TreeCell.colF q)))
    (fun q => (V7 m ρ c main_v3 : S1x2048.Idx → EReal) (ix2 0 (TreeCell.colIou q))) j = _
  rw [x_eq, h_eq, c_eq, m_eq, wF_fun, wIou_fun, uf_eq, uiou_eq, bF_fun, bIou_fun]

end Cert.KernelIdeal.Launch3

end
-- ==== Proof.KEntry4.lean ====
/-
  What the stretch of host operations before launch 4 leaves in the four node arrays that launch reads: level 1's node
  inputs, the child rows of the previous launch's hidden and memory arrays gathered at level 1's child indices, and level
  1's child mask — each the term, of the contents at the stretch's start, that the stretch's operations compose.
-/
import proofs.«117485_j54365696033410_2_alg».proof.Proof.Gen.KernelIdeal.Frame
import proofs.«117485_j54365696033410_2_alg».proof.Proof.KTerms
import Idealize.ShloMosaic.Lib.StableHlo.Run

set_option maxRecDepth 16384

noncomputable section

namespace Cert.KernelIdeal.Entry4

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

theorem x (c : Dev nD) : (W9 m ρ c (Proc.devRef .tc main_v143) : FVec Ideal S8192x300 .f32)
    = xAt (W8 m ρ c (Proc.devRef .tc main_arg0)) (W8 m ρ c (Proc.devRef .tc main_arg2)) (W8 m ρ c (Proc.devRef .tc main_arg4)) ![1, 0] slices_S6x8192_S1x8192_1_0 := by
  show StableHlo.after hostOps4 (W8 m ρ c) (Proc.devRef .tc main_v143) = _
  after_results_simp
  rfl

theorem hrows (c : Dev nD) : (W9 m ρ c (Proc.devRef .tc main_v154) : FVec Ideal S8192x4x512 .bf16)
    = childRows (W8 m ρ c (Proc.devRef .tc main_v129_0)) (idxAt (W8 m ρ c (Proc.devRef .tc main_arg1)) ![1, 0, 0] slices_S6x8192x4_S1x8192x4_1_0_0) := by
  show StableHlo.after hostOps4 (W8 m ρ c) (Proc.devRef .tc main_v154) = _
  after_results_simp
  rfl

theorem crows (c : Dev nD) : (W9 m ρ c (Proc.devRef .tc main_v163) : FVec Ideal S8192x4x512 .bf16)
    = childRows (W8 m ρ c (Proc.devRef .tc main_v129_1)) (idxAt (W8 m ρ c (Proc.devRef .tc main_arg1)) ![1, 0, 0] slices_S6x8192x4_S1x8192x4_1_0_0) := by
  show StableHlo.after hostOps4 (W8 m ρ c) (Proc.devRef .tc main_v163) = _
  after_results_simp
  rfl

theorem mask (c : Dev nD) : (W9 m ρ c (Proc.devRef .tc main_v165) : FVec Ideal S8192x4 .f32)
    = maskAt (W8 m ρ c (Proc.devRef .tc main_arg3)) ![1, 0, 0] slices_S6x8192x4_S1x8192x4_1_0_0 := by
  show StableHlo.after hostOps4 (W8 m ρ c) (Proc.devRef .tc main_v165) = _
  after_results_simp
  rfl

end Cert.KernelIdeal.Entry4

end
-- ==== Proof.Region4.lean ====
/-
  Launch 4 of the level cell, from blocks to whole arrays.

  The launch walks 32 grid points; point t stages rows 256·t … 256·t + 255 of the node arrays (the input rows, the
  gathered child rows, the child masks) and the whole of each weight array, and writes back rows 256·t … 256·t + 255 of
  the two result arrays. A Tree-LSTM row depends only on its own node's rows, so what point t writes back is rows
  256·t … of ONE function of the whole arrays: at (n, j) the cell's row function of node n's rows. The 32 row blocks
  tile the 8192 rows, so after the launch each result array is that function everywhere.
-/
import proofs.«117485_j54365696033410_2_alg».proof.Proof.Gen.KernelIdeal.Frame
import proofs.«117485_j54365696033410_2_alg».proof.Proof.TreeCell
import Idealize.ShloMosaic.Lib.ValueIdx
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row 256·t + p of the node arrays: row p of point t's block. -/
def row (t : Fin cfg4.N) (p : Fin 256) : Fin 8192 := ⟨256 * t.val + p.val, by have h1 : t.val < 32 := t.isLt; have h2 : p.val < 256 := p.isLt; omega⟩

/-- The hidden array the launch leaves: at (n, j) the cell's hidden row of node n's rows of the entry arrays. -/
def GH (c : Dev nD) : S8192x512.Idx → EReal := fun i =>
  TreeCell.hNew (fun e => (V c main_v143 : S8192x300.Idx → EReal) (ix2 (i 0) e))
    (fun k q => (V c main_v154 : S8192x4x512.Idx → EReal) (ix3 (i 0) k q))
    (fun k q => (V c main_v163 : S8192x4x512.Idx → EReal) (ix3 (i 0) k q))
    (fun k => (V c main_v165 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The memory array the launch leaves. -/
def GC (c : Dev nD) : S8192x512.Idx → EReal := fun i =>
  TreeCell.cNew (fun e => (V c main_v143 : S8192x300.Idx → EReal) (ix2 (i 0) e))
    (fun k q => (V c main_v154 : S8192x4x512.Idx → EReal) (ix3 (i 0) k q))
    (fun k q => (V c main_v163 : S8192x4x512.Idx → EReal) (ix3 (i 0) k q))
    (fun k => (V c main_v165 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The index maps over the grid: the node arrays' blocks move with the grid coordinate along the rows, the weight
    arrays stay put. -/
theorem idx_facts : ∀ t : Fin cfg4.N,
    win4_0.index t (0 : Fin 2) = t.val ∧ win4_0.index t (1 : Fin 2) = 0
    ∧ win4_1.index t (0 : Fin 3) = t.val ∧ win4_1.index t (1 : Fin 3) = 0 ∧ win4_1.index t (2 : Fin 3) = 0
    ∧ win4_2.index t (0 : Fin 3) = t.val ∧ win4_2.index t (1 : Fin 3) = 0 ∧ win4_2.index t (2 : Fin 3) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0 :=
  (by decide +kernel : ∀ t : Fin grid4.N, _)

/-! ## Each input block, read where it lies in its array -/

theorem read0 (c : Dev nD) (t : Fin cfg4.N) (p : Fin 256) (e : Fin 300) :
    iblk4 V c 0 t (ix2 p e) = (V c main_v143 : S8192x300.Idx → EReal) (ix2 (row t p) e) := by
  obtain ⟨h0, h1, -⟩ := idx_facts t
  show (V c main_v143 : S8192x300.Idx → EReal) (((cfg4.win 0).blk t).view.emb (ix2 p e)) = _
  refine congrArg (V c main_v143 : S8192x300.Idx → EReal) (funext fun a => Fin.ext ?_)
  match a with
  | ⟨0, _⟩ => show win4_0.index t (0 : Fin 2) * 256 + 1 * p.val = 256 * t.val + p.val; omega
  | ⟨1, _⟩ => show win4_0.index t (1 : Fin 2) * 300 + 1 * e.val = e.val; omega

theorem read1 (c : Dev nD) (t : Fin cfg4.N) (p : Fin 256) (k : Fin 4) (q : Fin 512) :
    iblk4 V c 1 t (ix3 p k q) = (V c main_v154 : S8192x4x512.Idx → EReal) (ix3 (row t p) k q) := by
  obtain ⟨-, -, h0, h1, h2, -⟩ := idx_facts t
  show (V c main_v154 : S8192x4x512.Idx → EReal) (((cfg4.win 1).blk t).view.emb (ix3 p k q)) = _
  refine congrArg (V c main_v154 : S8192x4x512.Idx → EReal) (funext fun a => Fin.ext ?_)
  match a with
  | ⟨0, _⟩ => show win4_1.index t (0 : Fin 3) * 256 + 1 * p.val = 256 * t.val + p.val; omega
  | ⟨1, _⟩ => show win4_1.index t (1 : Fin 3) * 4 + 1 * k.val = k.val; omega
  | ⟨2, _⟩ => show win4_1.index t (2 : Fin 3) * 512 + 1 * q.val = q.val; omega

theorem read2 (c : Dev nD) (t : Fin cfg4.N) (p : Fin 256) (k : Fin 4) (q : Fin 512) :
    iblk4 V c 2 t (ix3 p k q) = (V c main_v163 : S8192x4x512.Idx → EReal) (ix3 (row t p) k q) := by
  obtain ⟨-, -, -, -, -, h0, h1, h2, -⟩ := idx_facts t
  show (V c main_v163 : S8192x4x512.Idx → EReal) (((cfg4.win 2).blk t).view.emb (ix3 p k q)) = _
  refine congrArg (V c main_v163 : S8192x4x512.Idx → EReal) (funext fun a => Fin.ext ?_)
  match a with
  | ⟨0, _⟩ => show win4_2.index t (0 : Fin 3) * 256 + 1 * p.val = 256 * t.val + p.val; omega
  | ⟨1, _⟩ => show win4_2.index t (1 : Fin 3) * 4 + 1 * k.val = k.val; omega
  | ⟨2, _⟩ => show win4_2.index t (2 : Fin 3) * 512 + 1 * q.val = q.val; omega

theorem read3 (c : Dev nD) (t : Fin cfg4.N) (p : Fin 256) (k : Fin 4) :
    iblk4 V c 3 t (ix2 p k) = (V c main_v165 : S8192x4.Idx → EReal) (ix2 (row t p) k) := by
  obtain ⟨-, -, -, -, -, -, -, -, h0, h1, -⟩ := idx_facts t
  show (V c main_v165 : S8192x4.Idx → EReal) (((cfg4.win 3).blk t).view.emb (ix2 p k)) = _
  refine congrArg (V c main_v165 : S8192x4.Idx → EReal) (funext fun a => Fin.ext ?_)
  match a with
  | ⟨0, _⟩ => show win4_3.index t (0 : Fin 2) * 256 + 1 * p.val = 256 * t.val + p.val; omega
  | ⟨1, _⟩ => show win4_3.index t (1 : Fin 2) * 4 + 1 * k.val = k.val; omega

theorem read4 (c : Dev nD) (t : Fin cfg4.N) (e : Fin 300) (q : Fin 2048) :
    iblk4 V c 4 t (ix2 e q) = (V c main_v1 : S300x2048.Idx → EReal) (ix2 e q) := by
  obtain ⟨-, -, -, -, -, -, -, -, -, -, h0, h1, -⟩ := idx_facts t
  show (V c main_v1 : S300x2048.Idx → EReal) (((cfg4.win 4).blk t).view.emb (ix2 e q)) = _
  refine congrArg (V c main_v1 : S300x2048.Idx → EReal) (funext fun a => Fin.ext ?_)
  match a with
  | ⟨0, _⟩ => show win4_4.index t (0 : Fin 2) * 300 + 1 * e.val = e.val; omega
  | ⟨1, _⟩ => show win4_4.index t (1 : Fin 2) * 2048 + 1 * q.val = q.val; omega

theorem read5 (c : Dev nD) (t : Fin cfg4.N) (a' : Fin 512) (q : Fin 512) :
    iblk4 V c 5 t (ix2 a' q) = (V c main_arg9 : S512x512.Idx → EReal) (ix2 a' q) := by
  obtain ⟨-, -, -, -, -, -, -, -, -, -, -, -, h0, h1, -⟩ := idx_facts t
  show (V c main_arg9 : S512x512.Idx → EReal) (((cfg4.win 5).blk t).view.emb (ix2 a' q)) = _
  refine congrArg (V c main_arg9 : S512x512.Idx → EReal) (funext fun a => Fin.ext ?_)
  match a with
  | ⟨0, _⟩ => show win4_5.index t (0 : Fin 2) * 512 + 1 * a'.val = a'.val; omega
  | ⟨1, _⟩ => show win4_5.index t (1 : Fin 2) * 512 + 1 * q.val = q.val; omega

theorem read6 (c : Dev nD) (t : Fin cfg4.N) (z : Fin 1) (q : Fin 2048) :
    iblk4 V c 6 t (ix2 z q) = (V c main_v3 : S1x2048.Idx → EReal) (ix2 z q) := by
  obtain ⟨-, -, -, -, -, -, -, -, -, -, -, -, -, -, h0, h1, -⟩ := idx_facts t
  show (V c main_v3 : S1x2048.Idx → EReal) (((cfg4.win 6).blk t).view.emb (ix2 z q)) = _
  refine congrArg (V c main_v3 : S1x2048.Idx → EReal) (funext fun a => Fin.ext ?_)
  match a with
  | ⟨0, _⟩ => show win4_6.index t (0 : Fin 2) * 1 + 1 * z.val = z.val; omega
  | ⟨1, _⟩ => show win4_6.index t (1 : Fin 2) * 2048 + 1 * q.val = q.val; omega

theorem read7 (c : Dev nD) (t : Fin cfg4.N) (a' : Fin 512) (q : Fin 1536) :
    iblk4 V c 7 t (ix2 a' q) = (V c main_arg6 : S512x1536.Idx → EReal) (ix2 a' q) := by
  obtain ⟨-, -, -, -, -, -, -, -, -, -, -, -, -, -, -, -, h0, h1, -⟩ := idx_facts t
  show (V c main_arg6 : S512x1536.Idx → EReal) (((cfg4.win 7).blk t).view.emb (ix2 a' q)) = _
  refine congrArg (V c main_arg6 : S512x1536.Idx → EReal) (funext fun a => Fin.ext ?_)
  match a with
  | ⟨0, _⟩ => show win4_7.index t (0 : Fin 2) * 512 + 1 * a'.val = a'.val; omega
  | ⟨1, _⟩ => show win4_7.index t (1 : Fin 2) * 1536 + 1 * q.val = q.val; omega

/-- Where row p, column q of point t's hidden block lies in the hidden array. -/
theorem emb8 (t : Fin cfg4.N) (p : Fin 256) (q : Fin 512) :
    ((cfg4.win 8).blk t).view.emb (ix2 p q) = (ix2 (row t p) q : S8192x512.Idx) := by
  obtain ⟨-, -, -, -, -, -, -, -, -, -, -, -, -, -, -, -, -, -, h0, h1, -⟩ := idx_facts t
  funext a; apply Fin.ext
  match a with
  | ⟨0, _⟩ => show win4_8.index t (0 : Fin 2) * 256 + 1 * p.val = 256 * t.val + p.val; omega
  | ⟨1, _⟩ => show win4_8.index t (1 : Fin 2) * 512 + 1 * q.val = q.val; omega

theorem emb9 (t : Fin cfg4.N) (p : Fin 256) (q : Fin 512) :
    ((cfg4.win 9).blk t).view.emb (ix2 p q) = (ix2 (row t p) q : S8192x512.Idx) := by
  obtain ⟨-, -, -, -, -, -, -, -, -, -, -, -, -, -, -, -, -, -, -, -, h0, h1⟩ := idx_facts t
  funext a; apply Fin.ext
  match a with
  | ⟨0, _⟩ => show win4_9.index t (0 : Fin 2) * 256 + 1 * p.val = 256 * t.val + p.val; omega
  | ⟨1, _⟩ => show win4_9.index t (1 : Fin 2) * 512 + 1 * q.val = q.val; omega

/-! ## What a point writes back -/

/-- The body's hidden block at an entry is the cell's hidden row of the block's rows (the body's arithmetic, proved
    apart), as a hypothesis here. -/
abbrev BodyH : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out4_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

abbrev BodyC : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out4_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

/-- What point t writes back to the hidden array is block t of `GH`. -/
theorem flushed8_eq (hb : BodyH) (c : Dev nD) (t : Fin cfg4.N) :
    (dat4 V c).flushed 8 t = ((cfg4.win 8).blk t).view.read (Elt Ideal) (GH V c) := by
  show (cfg4.win 8).cut (grid4.coords t) ((dat4 V c).after 8 t) = _
  rw [after4_8]
  funext y
  obtain ⟨p, q, rfl⟩ : ∃ (p : Fin 256) (q : Fin 512), y = ix2 p q := ⟨y 0, y 1, eq_ix2 y⟩
  show out4_8 (F := Ideal) (iblk4 V c 0 t) (iblk4 V c 1 t) (iblk4 V c 2 t) (iblk4 V c 3 t) (iblk4 V c 4 t) (iblk4 V c 5 t) (iblk4 V c 6 t) (iblk4 V c 7 t) (ix2 p q)
    = GH V c (((cfg4.win 8).blk t).view.emb (ix2 p q))
  rw [hb, emb8]
  simp only [read0 V c t, read1 V c t, read2 V c t, read3 V c t, read4 V c t, read5 V c t, read6 V c t, read7 V c t]
  rfl

theorem flushed9_eq (hb : BodyC) (c : Dev nD) (t : Fin cfg4.N) :
    (dat4 V c).flushed 9 t = ((cfg4.win 9).blk t).view.read (Elt Ideal) (GC V c) := by
  show (cfg4.win 9).cut (grid4.coords t) ((dat4 V c).after 9 t) = _
  rw [after4_9]
  funext y
  obtain ⟨p, q, rfl⟩ : ∃ (p : Fin 256) (q : Fin 512), y = ix2 p q := ⟨y 0, y 1, eq_ix2 y⟩
  show out4_9 (F := Ideal) (iblk4 V c 0 t) (iblk4 V c 1 t) (iblk4 V c 2 t) (iblk4 V c 3 t) (iblk4 V c 4 t) (iblk4 V c 5 t) (iblk4 V c 6 t) (iblk4 V c 7 t) (ix2 p q)
    = GC V c (((cfg4.win 9).blk t).view.emb (ix2 p q))
  rw [hb, emb9]
  simp only [read0 V c t, read1 V c t, read2 V c t, read3 V c t, read4 V c t, read5 V c t, read6 V c t, read7 V c t]
  rfl

/-! ## The row blocks tile the rows -/

theorem mem_blk8 (t : Fin cfg4.N) (i : S8192x512.Idx) :
    i ∈ ((cfg4.win 8).blk t).view.set ↔ ∀ a : Fin 2, win4_8.index t a * S256x512.size a ≤ (i a).val ∧ (i a).val < win4_8.index t a * S256x512.size a + S256x512.size a := by
  show i ∈ ((View.whole main_v166_0).slice (win4_8.rect t)).set ↔ _
  rw [View.set_slice_whole, Rect.mem_set_unit]
  exact Iff.rfl

theorem mem_blk9 (t : Fin cfg4.N) (i : S8192x512.Idx) :
    i ∈ ((cfg4.win 9).blk t).view.set ↔ ∀ a : Fin 2, win4_9.index t a * S256x512.size a ≤ (i a).val ∧ (i a).val < win4_9.index t a * S256x512.size a + S256x512.size a := by
  show i ∈ ((View.whole main_v166_1).slice (win4_9.rect t)).set ↔ _
  rw [View.set_slice_whole, Rect.mem_set_unit]
  exact Iff.rfl

/-- Row n lies in the block of point n / 256. -/
theorem cover8 (i : S8192x512.Idx) : ∃ t : Fin cfg4.N, (cfg4.win 8).flush t = true ∧ i ∈ ((cfg4.win 8).blk t).view.set := by
  have hi0 : (i 0).val < 8192 := (i 0).isLt
  have hi1 : (i 1).val < 512 := (i 1).isLt
  refine ⟨⟨(i 0).val / 256, by show (i 0).val / 256 < 32; omega⟩, flush4_8 _, ?_⟩
  rw [mem_blk8]
  obtain ⟨-, -, -, -, -, -, -, -, -, -, -, -, -, -, -, -, -, -, h0, h1, -⟩ := idx_facts ⟨(i 0).val / 256, by show (i 0).val / 256 < 32; omega⟩
  intro a
  match a with
  | ⟨0, _⟩ => show win4_8.index _ (0 : Fin 2) * 256 ≤ (i 0).val ∧ (i 0).val < win4_8.index _ (0 : Fin 2) * 256 + 256; rw [h0]; show (i 0).val / 256 * 256 ≤ (i 0).val ∧ (i 0).val < (i 0).val / 256 * 256 + 256; omega
  | ⟨1, _⟩ => show win4_8.index _ (1 : Fin 2) * 512 ≤ (i 1).val ∧ (i 1).val < win4_8.index _ (1 : Fin 2) * 512 + 512; rw [h1]; omega

theorem cover9 (i : S8192x512.Idx) : ∃ t : Fin cfg4.N, (cfg4.win 9).flush t = true ∧ i ∈ ((cfg4.win 9).blk t).view.set := by
  have hi0 : (i 0).val < 8192 := (i 0).isLt
  have hi1 : (i 1).val < 512 := (i 1).isLt
  refine ⟨⟨(i 0).val / 256, by show (i 0).val / 256 < 32; omega⟩, flush4_9 _, ?_⟩
  rw [mem_blk9]
  obtain ⟨-, -, -, -, -, -, -, -, -, -, -, -, -, -, -, -, -, -, -, -, h0, h1⟩ := idx_facts ⟨(i 0).val / 256, by show (i 0).val / 256 < 32; omega⟩
  intro a
  match a with
  | ⟨0, _⟩ => show win4_9.index _ (0 : Fin 2) * 256 ≤ (i 0).val ∧ (i 0).val < win4_9.index _ (0 : Fin 2) * 256 + 256; rw [h0]; show (i 0).val / 256 * 256 ≤ (i 0).val ∧ (i 0).val < (i 0).val / 256 * 256 + 256; omega
  | ⟨1, _⟩ => show win4_9.index _ (1 : Fin 2) * 512 ≤ (i 1).val ∧ (i 1).val < win4_9.index _ (1 : Fin 2) * 512 + 512; rw [h1]; omega

/-! ## The two result arrays after the launch -/

theorem finalH (hb : BodyH) (c : Dev nD) : (dat4 V c).arrAt 8 cfg4.N = GH V c :=
  (dat4 V c).arrAt_eq_of_cover 8 (GH V c) (fun t _ => flushed8_eq V hb c t) cover8

theorem finalC (hb : BodyC) (c : Dev nD) : (dat4 V c).arrAt 9 cfg4.N = GC V c :=
  (dat4 V c).arrAt_eq_of_cover 9 (GC V c) (fun t _ => flushed9_eq V hb c t) cover9

end Cert.KernelIdeal.Region4

end
-- ==== Proof.KLaunch4.lean ====
/-
  Launch 4's two result arrays as the cell's row functions of the argument arrays and of the previous launch's results: the
  node inputs are level 1's, the child rows those of the previous launch's hidden and memory arrays gathered at level 1's
  child indices, the mask level 1's; the fused layouts read back as the forget and gate weights and biases.
-/
import proofs.«117485_j54365696033410_2_alg».proof.Proof.Gen.KernelIdeal.Frame
import proofs.«117485_j54365696033410_2_alg».proof.Proof.TreeCell
import proofs.«117485_j54365696033410_2_alg».proof.Proof.KTerms
import proofs.«117485_j54365696033410_2_alg».proof.Proof.KChain
import proofs.«117485_j54365696033410_2_alg».proof.Proof.KEntry0
import proofs.«117485_j54365696033410_2_alg».proof.Proof.KEntry4
import proofs.«117485_j54365696033410_2_alg».proof.Proof.Region4

set_option maxRecDepth 16384

noncomputable section

namespace Cert.KernelIdeal.Launch4

open Cert.KernelIdeal Cert.KernelIdeal.Gen Cert.KernelIdeal.Terms
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays at a core, at their array types. -/
abbrev A0 (c : Dev nD) : IVec S6x8192 32 := m ((c : Thread nD τ).loc main_arg0)
abbrev A1 (c : Dev nD) : IVec S6x8192x4 32 := m ((c : Thread nD τ).loc main_arg1)
abbrev A2 (c : Dev nD) : FVec Ideal S6x8192 .f32 := m ((c : Thread nD τ).loc main_arg2)
abbrev A3 (c : Dev nD) : FVec Ideal S6x8192x4 .f32 := m ((c : Thread nD τ).loc main_arg3)
abbrev A4 (c : Dev nD) : FVec Ideal S50000x300 .f32 := m ((c : Thread nD τ).loc main_arg4)
abbrev A5 (c : Dev nD) : FVec Ideal S300x1536 .f32 := m ((c : Thread nD τ).loc main_arg5)
abbrev A6 (c : Dev nD) : FVec Ideal S512x1536 .f32 := m ((c : Thread nD τ).loc main_arg6)
abbrev A7 (c : Dev nD) : FVec Ideal S1536 .f32 := m ((c : Thread nD τ).loc main_arg7)
abbrev A8 (c : Dev nD) : FVec Ideal S300x512 .f32 := m ((c : Thread nD τ).loc main_arg8)
abbrev A9 (c : Dev nD) : FVec Ideal S512x512 .f32 := m ((c : Thread nD τ).loc main_arg9)
abbrev A10 (c : Dev nD) : FVec Ideal S512 .f32 := m ((c : Thread nD τ).loc main_arg10)

theorem x_eq (c : Dev nD) : (V9 m ρ c main_v143 : S8192x300.Idx → EReal) = xAt (A0 m c) (A2 m c) (A4 m c) ![1, 0] slices_S6x8192_S1x8192_1_0 := by
  show W9 m ρ c (Proc.devRef .tc main_v143) = _
  rw [Entry4.x, Chain.a0_8, Chain.a2_8, Chain.a4_8]

theorem h_eq (c : Dev nD) : (V9 m ρ c main_v154 : S8192x4x512.Idx → EReal)
    = childRows (W8 m ρ c (Proc.devRef .tc main_v129_0)) (idxAt (A1 m c) ![1, 0, 0] slices_S6x8192x4_S1x8192x4_1_0_0) := by
  show W9 m ρ c (Proc.devRef .tc main_v154) = _
  rw [Entry4.hrows, Chain.a1_8]

theorem c_eq (c : Dev nD) : (V9 m ρ c main_v163 : S8192x4x512.Idx → EReal)
    = childRows (W8 m ρ c (Proc.devRef .tc main_v129_1)) (idxAt (A1 m c) ![1, 0, 0] slices_S6x8192x4_S1x8192x4_1_0_0) := by
  show W9 m ρ c (Proc.devRef .tc main_v163) = _
  rw [Entry4.crows, Chain.a1_8]

theorem m_eq (c : Dev nD) : (V9 m ρ c main_v165 : S8192x4.Idx → EReal) = maskAt (A3 m c) ![1, 0, 0] slices_S6x8192x4_S1x8192x4_1_0_0 := by
  show W9 m ρ c (Proc.devRef .tc main_v165) = _
  rw [Entry4.mask, Chain.a3_8]

theorem wF_eq (c : Dev nD) (e : Fin 300) (q : Fin 512) : (V9 m ρ c main_v1 : S300x2048.Idx → EReal) (ix2 e (TreeCell.colF q)) = A8 m c (ix2 e q) := by
  show W9 m ρ c (Proc.devRef .tc main_v1) (ix2 e (TreeCell.colF q)) = _
  rw [Chain.v1_9, Entry0.fusedW, Chain.a8_0, Chain.a5_0, fusedW_colF]

theorem wIou_eq (c : Dev nD) (e : Fin 300) (q : Fin 1536) : (V9 m ρ c main_v1 : S300x2048.Idx → EReal) (ix2 e (TreeCell.colIou q)) = A5 m c (ix2 e q) := by
  show W9 m ρ c (Proc.devRef .tc main_v1) (ix2 e (TreeCell.colIou q)) = _
  rw [Chain.v1_9, Entry0.fusedW, Chain.a8_0, Chain.a5_0, fusedW_colIou]

theorem bF_eq (c : Dev nD) (q : Fin 512) : (V9 m ρ c main_v3 : S1x2048.Idx → EReal) (ix2 0 (TreeCell.colF q)) = A10 m c (ix1 q) := by
  show W9 m ρ c (Proc.devRef .tc main_v3) (ix2 0 (TreeCell.colF q)) = _
  rw [Chain.v3_9, Entry0.fusedB, Chain.a10_0, Chain.a7_0, fusedB_colF]

theorem bIou_eq (c : Dev nD) (q : Fin 1536) : (V9 m ρ c main_v3 : S1x2048.Idx → EReal) (ix2 0 (TreeCell.colIou q)) = A7 m c (ix1 q) := by
  show W9 m ρ c (Proc.devRef .tc main_v3) (ix2 0 (TreeCell.colIou q)) = _
  rw [Chain.v3_9, Entry0.fusedB, Chain.a10_0, Chain.a7_0, fusedB_colIou]

theorem uf_eq (c : Dev nD) : (V9 m ρ c main_arg9 : S512x512.Idx → EReal) = A9 m c := by
  show W9 m ρ c (Proc.devRef .tc main_arg9) = _
  rw [Chain.u9_9]

theorem uiou_eq (c : Dev nD) : (V9 m ρ c main_arg6 : S512x1536.Idx → EReal) = A6 m c := by
  show W9 m ρ c (Proc.devRef .tc main_arg6) = _
  rw [Chain.u6_9]

theorem wF_fun (c : Dev nD) : (fun (e : Fin 300) (q : Fin 512) => (V9 m ρ c main_v1 : S300x2048.Idx → EReal) (ix2 e (TreeCell.colF q))) = fun e q => A8 m c (ix2 e q) :=
  funext fun e => funext fun q => wF_eq m ρ c e q
theorem wIou_fun (c : Dev nD) : (fun (e : Fin 300) (q : Fin 1536) => (V9 m ρ c main_v1 : S300x2048.Idx → EReal) (ix2 e (TreeCell.colIou q))) = fun e q => A5 m c (ix2 e q) :=
  funext fun e => funext fun q => wIou_eq m ρ c e q
theorem bF_fun (c : Dev nD) : (fun q : Fin 512 => (V9 m ρ c main_v3 : S1x2048.Idx → EReal) (ix2 0 (TreeCell.colF q))) = fun q => A10 m c (ix1 q) :=
  funext fun q => bF_eq m ρ c q
theorem bIou_fun (c : Dev nD) : (fun q : Fin 1536 => (V9 m ρ c main_v3 : S1x2048.Idx → EReal) (ix2 0 (TreeCell.colIou q))) = fun q => A7 m c (ix1 q) :=
  funext fun q => bIou_eq m ρ c q

/-- The hidden array after launch 4, at an entry. -/
theorem hidden (hb : Region4.BodyH) (c : Dev nD) (n : Fin 8192) (j : Fin 512) :
    (W10 m ρ c (Proc.devRef .tc main_v166_0) : S8192x512.Idx → EReal) (ix2 n j) =
      TreeCell.hNew (fun e => xAt (A0 m c) (A2 m c) (A4 m c) ![1, 0] slices_S6x8192_S1x8192_1_0 (ix2 n e))
        (fun k q => (childRows (W8 m ρ c (Proc.devRef .tc main_v129_0)) (idxAt (A1 m c) ![1, 0, 0] slices_S6x8192x4_S1x8192x4_1_0_0) : S8192x4x512.Idx → EReal) (ix3 n k q))
        (fun k q => (childRows (W8 m ρ c (Proc.devRef .tc main_v129_1)) (idxAt (A1 m c) ![1, 0, 0] slices_S6x8192x4_S1x8192x4_1_0_0) : S8192x4x512.Idx → EReal) (ix3 n k q))
        (fun k => maskAt (A3 m c) ![1, 0, 0] slices_S6x8192x4_S1x8192x4_1_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W10 m ρ c (Proc.devRef .tc main_v166_0) = (dat4 (V9 m ρ) c).arrAt 8 cfg4.N from W10_arr m ρ c 8,
    Region4.finalH (V9 m ρ) hb c]
  show TreeCell.hNew (fun e => (V9 m ρ c main_v143 : S8192x300.Idx → EReal) (ix2 n e))
    (fun k q => (V9 m ρ c main_v154 : S8192x4x512.Idx → EReal) (ix3 n k q))
    (fun k q => (V9 m ρ c main_v163 : S8192x4x512.Idx → EReal) (ix3 n k q))
    (fun k => (V9 m ρ c main_v165 : S8192x4.Idx → EReal) (ix2 n k))
    (fun e q => (V9 m ρ c main_v1 : S300x2048.Idx → EReal) (ix2 e (TreeCell.colF q)))
    (fun e q => (V9 m ρ c main_v1 : S300x2048.Idx → EReal) (ix2 e (TreeCell.colIou q)))
    (fun a q => (V9 m ρ c main_arg9 : S512x512.Idx → EReal) (ix2 a q))
    (fun a q => (V9 m ρ c main_arg6 : S512x1536.Idx → EReal) (ix2 a q))
    (fun q => (V9 m ρ c main_v3 : S1x2048.Idx → EReal) (ix2 0 (TreeCell.colF q)))
    (fun q => (V9 m ρ c main_v3 : S1x2048.Idx → EReal) (ix2 0 (TreeCell.colIou q))) j = _
  rw [x_eq, h_eq, c_eq, m_eq, wF_fun, wIou_fun, uf_eq, uiou_eq, bF_fun, bIou_fun]

/-- The memory array after launch 4, at an entry. -/
theorem memory (hb : Region4.BodyC) (c : Dev nD) (n : Fin 8192) (j : Fin 512) :
    (W10 m ρ c (Proc.devRef .tc main_v166_1) : S8192x512.Idx → EReal) (ix2 n j) =
      TreeCell.cNew (fun e => xAt (A0 m c) (A2 m c) (A4 m c) ![1, 0] slices_S6x8192_S1x8192_1_0 (ix2 n e))
        (fun k q => (childRows (W8 m ρ c (Proc.devRef .tc main_v129_0)) (idxAt (A1 m c) ![1, 0, 0] slices_S6x8192x4_S1x8192x4_1_0_0) : S8192x4x512.Idx → EReal) (ix3 n k q))
        (fun k q => (childRows (W8 m ρ c (Proc.devRef .tc main_v129_1)) (idxAt (A1 m c) ![1, 0, 0] slices_S6x8192x4_S1x8192x4_1_0_0) : S8192x4x512.Idx → EReal) (ix3 n k q))
        (fun k => maskAt (A3 m c) ![1, 0, 0] slices_S6x8192x4_S1x8192x4_1_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W10 m ρ c (Proc.devRef .tc main_v166_1) = (dat4 (V9 m ρ) c).arrAt 9 cfg4.N from W10_arr m ρ c 9,
    Region4.finalC (V9 m ρ) hb c]
  show TreeCell.cNew (fun e => (V9 m ρ c main_v143 : S8192x300.Idx → EReal) (ix2 n e))
    (fun k q => (V9 m ρ c main_v154 : S8192x4x512.Idx → EReal) (ix3 n k q))
    (fun k q => (V9 m ρ c main_v163 : S8192x4x512.Idx → EReal) (ix3 n k q))
    (fun k => (V9 m ρ c main_v165 : S8192x4.Idx → EReal) (ix2 n k))
    (fun e q => (V9 m ρ c main_v1 : S300x2048.Idx → EReal) (ix2 e (TreeCell.colF q)))
    (fun e q => (V9 m ρ c main_v1 : S300x2048.Idx → EReal) (ix2 e (TreeCell.colIou q)))
    (fun a q => (V9 m ρ c main_arg9 : S512x512.Idx → EReal) (ix2 a q))
    (fun a q => (V9 m ρ c main_arg6 : S512x1536.Idx → EReal) (ix2 a q))
    (fun q => (V9 m ρ c main_v3 : S1x2048.Idx → EReal) (ix2 0 (TreeCell.colF q)))
    (fun q => (V9 m ρ c main_v3 : S1x2048.Idx → EReal) (ix2 0 (TreeCell.colIou q))) j = _
  rw [x_eq, h_eq, c_eq, m_eq, wF_fun, wIou_fun, uf_eq, uiou_eq, bF_fun, bIou_fun]

end Cert.KernelIdeal.Launch4

end
-- ==== Proof.KEntry5.lean ====
/-
  What the stretch of host operations before launch 5 leaves in the four node arrays that launch reads: level 0's node
  inputs, the child rows of the previous launch's hidden and memory arrays gathered at level 0's child indices, and level
  0's child mask — each the term, of the contents at the stretch's start, that the stretch's operations compose.
-/
import proofs.«117485_j54365696033410_2_alg».proof.Proof.Gen.KernelIdeal.Frame
import proofs.«117485_j54365696033410_2_alg».proof.Proof.KTerms
import Idealize.ShloMosaic.Lib.StableHlo.Run

set_option maxRecDepth 16384

noncomputable section

namespace Cert.KernelIdeal.Entry5

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

theorem x (c : Dev nD) : (W11 m ρ c (Proc.devRef .tc main_v180) : FVec Ideal S8192x300 .f32)
    = xAt (W10 m ρ c (Proc.devRef .tc main_arg0)) (W10 m ρ c (Proc.devRef .tc main_arg2)) (W10 m ρ c (Proc.devRef .tc main_arg4)) ![0, 0] slices_S6x8192_S1x8192_0_0 := by
  show StableHlo.after hostOps5 (W10 m ρ c) (Proc.devRef .tc main_v180) = _
  after_results_simp
  rfl

theorem hrows (c : Dev nD) : (W11 m ρ c (Proc.devRef .tc main_v191) : FVec Ideal S8192x4x512 .bf16)
    = childRows (W10 m ρ c (Proc.devRef .tc main_v166_0)) (idxAt (W10 m ρ c (Proc.devRef .tc main_arg1)) ![0, 0, 0] slices_S6x8192x4_S1x8192x4_0_0_0) := by
  show StableHlo.after hostOps5 (W10 m ρ c) (Proc.devRef .tc main_v191) = _
  after_results_simp
  rfl

theorem crows (c : Dev nD) : (W11 m ρ c (Proc.devRef .tc main_v200) : FVec Ideal S8192x4x512 .bf16)
    = childRows (W10 m ρ c (Proc.devRef .tc main_v166_1)) (idxAt (W10 m ρ c (Proc.devRef .tc main_arg1)) ![0, 0, 0] slices_S6x8192x4_S1x8192x4_0_0_0) := by
  show StableHlo.after hostOps5 (W10 m ρ c) (Proc.devRef .tc main_v200) = _
  after_results_simp
  rfl

theorem mask (c : Dev nD) : (W11 m ρ c (Proc.devRef .tc main_v202) : FVec Ideal S8192x4 .f32)
    = maskAt (W10 m ρ c (Proc.devRef .tc main_arg3)) ![0, 0, 0] slices_S6x8192x4_S1x8192x4_0_0_0 := by
  show StableHlo.after hostOps5 (W10 m ρ c) (Proc.devRef .tc main_v202) = _
  after_results_simp
  rfl

end Cert.KernelIdeal.Entry5

end
-- ==== Proof.Region5.lean ====
/-
  Launch 5 of the level cell, from blocks to whole arrays.

  The launch walks 32 grid points; point t stages rows 256·t … 256·t + 255 of the node arrays (the input rows, the
  gathered child rows, the child masks) and the whole of each weight array, and writes back rows 256·t … 256·t + 255 of
  the two result arrays. A Tree-LSTM row depends only on its own node's rows, so what point t writes back is rows
  256·t … of ONE function of the whole arrays: at (n, j) the cell's row function of node n's rows. The 32 row blocks
  tile the 8192 rows, so after the launch each result array is that function everywhere.
-/
import proofs.«117485_j54365696033410_2_alg».proof.Proof.Gen.KernelIdeal.Frame
import proofs.«117485_j54365696033410_2_alg».proof.Proof.TreeCell
import Idealize.ShloMosaic.Lib.ValueIdx
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row 256·t + p of the node arrays: row p of point t's block. -/
def row (t : Fin cfg5.N) (p : Fin 256) : Fin 8192 := ⟨256 * t.val + p.val, by have h1 : t.val < 32 := t.isLt; have h2 : p.val < 256 := p.isLt; omega⟩

/-- The hidden array the launch leaves: at (n, j) the cell's hidden row of node n's rows of the entry arrays. -/
def GH (c : Dev nD) : S8192x512.Idx → EReal := fun i =>
  TreeCell.hNew (fun e => (V c main_v180 : S8192x300.Idx → EReal) (ix2 (i 0) e))
    (fun k q => (V c main_v191 : S8192x4x512.Idx → EReal) (ix3 (i 0) k q))
    (fun k q => (V c main_v200 : S8192x4x512.Idx → EReal) (ix3 (i 0) k q))
    (fun k => (V c main_v202 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The memory array the launch leaves. -/
def GC (c : Dev nD) : S8192x512.Idx → EReal := fun i =>
  TreeCell.cNew (fun e => (V c main_v180 : S8192x300.Idx → EReal) (ix2 (i 0) e))
    (fun k q => (V c main_v191 : S8192x4x512.Idx → EReal) (ix3 (i 0) k q))
    (fun k q => (V c main_v200 : S8192x4x512.Idx → EReal) (ix3 (i 0) k q))
    (fun k => (V c main_v202 : S8192x4.Idx → EReal) (ix2 (i 0) k))
    (fun e q => (V c main_v1 : S300x2048.Idx → EReal) (ix2 e (TreeCell.colF q)))
    (fun e q => (V c main_v1 : S300x2048.Idx → EReal) (ix2 e (TreeCell.colIou q)))
    (fun a q => (V c main_arg9 : S512x512.Idx → EReal) (ix2 a q))
    (fun a q => (V c main_arg6 : S512x1536.Idx → EReal) (ix2 a q))
    (fun q => (V c main_v3 : S1x2048.Idx → EReal) (ix2 0 (TreeCell.colF q)))
    (fun q => (V c main_v3 : S1x2048.Idx → EReal) (ix2 0 (TreeCell.colIou q))) (i 1)

/-- The index maps over the grid: the node arrays' blocks move with the grid coordinate along the rows, the weight
    arrays stay put. -/
theorem idx_facts : ∀ t : Fin cfg5.N,
    win5_0.index t (0 : Fin 2) = t.val ∧ win5_0.index t (1 : Fin 2) = 0
    ∧ win5_1.index t (0 : Fin 3) = t.val ∧ win5_1.index t (1 : Fin 3) = 0 ∧ win5_1.index t (2 : Fin 3) = 0
    ∧ win5_2.index t (0 : Fin 3) = t.val ∧ win5_2.index t (1 : Fin 3) = 0 ∧ win5_2.index t (2 : Fin 3) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0 :=
  (by decide +kernel : ∀ t : Fin grid5.N, _)

/-! ## Each input block, read where it lies in its array -/

theorem read0 (c : Dev nD) (t : Fin cfg5.N) (p : Fin 256) (e : Fin 300) :
    iblk5 V c 0 t (ix2 p e) = (V c main_v180 : S8192x300.Idx → EReal) (ix2 (row t p) e) := by
  obtain ⟨h0, h1, -⟩ := idx_facts t
  show (V c main_v180 : S8192x300.Idx → EReal) (((cfg5.win 0).blk t).view.emb (ix2 p e)) = _
  refine congrArg (V c main_v180 : S8192x300.Idx → EReal) (funext fun a => Fin.ext ?_)
  match a with
  | ⟨0, _⟩ => show win5_0.index t (0 : Fin 2) * 256 + 1 * p.val = 256 * t.val + p.val; omega
  | ⟨1, _⟩ => show win5_0.index t (1 : Fin 2) * 300 + 1 * e.val = e.val; omega

theorem read1 (c : Dev nD) (t : Fin cfg5.N) (p : Fin 256) (k : Fin 4) (q : Fin 512) :
    iblk5 V c 1 t (ix3 p k q) = (V c main_v191 : S8192x4x512.Idx → EReal) (ix3 (row t p) k q) := by
  obtain ⟨-, -, h0, h1, h2, -⟩ := idx_facts t
  show (V c main_v191 : S8192x4x512.Idx → EReal) (((cfg5.win 1).blk t).view.emb (ix3 p k q)) = _
  refine congrArg (V c main_v191 : S8192x4x512.Idx → EReal) (funext fun a => Fin.ext ?_)
  match a with
  | ⟨0, _⟩ => show win5_1.index t (0 : Fin 3) * 256 + 1 * p.val = 256 * t.val + p.val; omega
  | ⟨1, _⟩ => show win5_1.index t (1 : Fin 3) * 4 + 1 * k.val = k.val; omega
  | ⟨2, _⟩ => show win5_1.index t (2 : Fin 3) * 512 + 1 * q.val = q.val; omega

theorem read2 (c : Dev nD) (t : Fin cfg5.N) (p : Fin 256) (k : Fin 4) (q : Fin 512) :
    iblk5 V c 2 t (ix3 p k q) = (V c main_v200 : S8192x4x512.Idx → EReal) (ix3 (row t p) k q) := by
  obtain ⟨-, -, -, -, -, h0, h1, h2, -⟩ := idx_facts t
  show (V c main_v200 : S8192x4x512.Idx → EReal) (((cfg5.win 2).blk t).view.emb (ix3 p k q)) = _
  refine congrArg (V c main_v200 : S8192x4x512.Idx → EReal) (funext fun a => Fin.ext ?_)
  match a with
  | ⟨0, _⟩ => show win5_2.index t (0 : Fin 3) * 256 + 1 * p.val = 256 * t.val + p.val; omega
  | ⟨1, _⟩ => show win5_2.index t (1 : Fin 3) * 4 + 1 * k.val = k.val; omega
  | ⟨2, _⟩ => show win5_2.index t (2 : Fin 3) * 512 + 1 * q.val = q.val; omega

theorem read3 (c : Dev nD) (t : Fin cfg5.N) (p : Fin 256) (k : Fin 4) :
    iblk5 V c 3 t (ix2 p k) = (V c main_v202 : S8192x4.Idx → EReal) (ix2 (row t p) k) := by
  obtain ⟨-, -, -, -, -, -, -, -, h0, h1, -⟩ := idx_facts t
  show (V c main_v202 : S8192x4.Idx → EReal) (((cfg5.win 3).blk t).view.emb (ix2 p k)) = _
  refine congrArg (V c main_v202 : S8192x4.Idx → EReal) (funext fun a => Fin.ext ?_)
  match a with
  | ⟨0, _⟩ => show win5_3.index t (0 : Fin 2) * 256 + 1 * p.val = 256 * t.val + p.val; omega
  | ⟨1, _⟩ => show win5_3.index t (1 : Fin 2) * 4 + 1 * k.val = k.val; omega

theorem read4 (c : Dev nD) (t : Fin cfg5.N) (e : Fin 300) (q : Fin 2048) :
    iblk5 V c 4 t (ix2 e q) = (V c main_v1 : S300x2048.Idx → EReal) (ix2 e q) := by
  obtain ⟨-, -, -, -, -, -, -, -, -, -, h0, h1, -⟩ := idx_facts t
  show (V c main_v1 : S300x2048.Idx → EReal) (((cfg5.win 4).blk t).view.emb (ix2 e q)) = _
  refine congrArg (V c main_v1 : S300x2048.Idx → EReal) (funext fun a => Fin.ext ?_)
  match a with
  | ⟨0, _⟩ => show win5_4.index t (0 : Fin 2) * 300 + 1 * e.val = e.val; omega
  | ⟨1, _⟩ => show win5_4.index t (1 : Fin 2) * 2048 + 1 * q.val = q.val; omega

theorem read5 (c : Dev nD) (t : Fin cfg5.N) (a' : Fin 512) (q : Fin 512) :
    iblk5 V c 5 t (ix2 a' q) = (V c main_arg9 : S512x512.Idx → EReal) (ix2 a' q) := by
  obtain ⟨-, -, -, -, -, -, -, -, -, -, -, -, h0, h1, -⟩ := idx_facts t
  show (V c main_arg9 : S512x512.Idx → EReal) (((cfg5.win 5).blk t).view.emb (ix2 a' q)) = _
  refine congrArg (V c main_arg9 : S512x512.Idx → EReal) (funext fun a => Fin.ext ?_)
  match a with
  | ⟨0, _⟩ => show win5_5.index t (0 : Fin 2) * 512 + 1 * a'.val = a'.val; omega
  | ⟨1, _⟩ => show win5_5.index t (1 : Fin 2) * 512 + 1 * q.val = q.val; omega

theorem read6 (c : Dev nD) (t : Fin cfg5.N) (z : Fin 1) (q : Fin 2048) :
    iblk5 V c 6 t (ix2 z q) = (V c main_v3 : S1x2048.Idx → EReal) (ix2 z q) := by
  obtain ⟨-, -, -, -, -, -, -, -, -, -, -, -, -, -, h0, h1, -⟩ := idx_facts t
  show (V c main_v3 : S1x2048.Idx → EReal) (((cfg5.win 6).blk t).view.emb (ix2 z q)) = _
  refine congrArg (V c main_v3 : S1x2048.Idx → EReal) (funext fun a => Fin.ext ?_)
  match a with
  | ⟨0, _⟩ => show win5_6.index t (0 : Fin 2) * 1 + 1 * z.val = z.val; omega
  | ⟨1, _⟩ => show win5_6.index t (1 : Fin 2) * 2048 + 1 * q.val = q.val; omega

theorem read7 (c : Dev nD) (t : Fin cfg5.N) (a' : Fin 512) (q : Fin 1536) :
    iblk5 V c 7 t (ix2 a' q) = (V c main_arg6 : S512x1536.Idx → EReal) (ix2 a' q) := by
  obtain ⟨-, -, -, -, -, -, -, -, -, -, -, -, -, -, -, -, h0, h1, -⟩ := idx_facts t
  show (V c main_arg6 : S512x1536.Idx → EReal) (((cfg5.win 7).blk t).view.emb (ix2 a' q)) = _
  refine congrArg (V c main_arg6 : S512x1536.Idx → EReal) (funext fun a => Fin.ext ?_)
  match a with
  | ⟨0, _⟩ => show win5_7.index t (0 : Fin 2) * 512 + 1 * a'.val = a'.val; omega
  | ⟨1, _⟩ => show win5_7.index t (1 : Fin 2) * 1536 + 1 * q.val = q.val; omega

/-- Where row p, column q of point t's hidden block lies in the hidden array. -/
theorem emb8 (t : Fin cfg5.N) (p : Fin 256) (q : Fin 512) :
    ((cfg5.win 8).blk t).view.emb (ix2 p q) = (ix2 (row t p) q : S8192x512.Idx) := by
  obtain ⟨-, -, -, -, -, -, -, -, -, -, -, -, -, -, -, -, -, -, h0, h1, -⟩ := idx_facts t
  funext a; apply Fin.ext
  match a with
  | ⟨0, _⟩ => show win5_8.index t (0 : Fin 2) * 256 + 1 * p.val = 256 * t.val + p.val; omega
  | ⟨1, _⟩ => show win5_8.index t (1 : Fin 2) * 512 + 1 * q.val = q.val; omega

theorem emb9 (t : Fin cfg5.N) (p : Fin 256) (q : Fin 512) :
    ((cfg5.win 9).blk t).view.emb (ix2 p q) = (ix2 (row t p) q : S8192x512.Idx) := by
  obtain ⟨-, -, -, -, -, -, -, -, -, -, -, -, -, -, -, -, -, -, -, -, h0, h1⟩ := idx_facts t
  funext a; apply Fin.ext
  match a with
  | ⟨0, _⟩ => show win5_9.index t (0 : Fin 2) * 256 + 1 * p.val = 256 * t.val + p.val; omega
  | ⟨1, _⟩ => show win5_9.index t (1 : Fin 2) * 512 + 1 * q.val = q.val; omega

/-! ## What a point writes back -/

/-- The body's hidden block at an entry is the cell's hidden row of the block's rows (the body's arithmetic, proved
    apart), as a hypothesis here. -/
abbrev BodyH : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out5_8 (F := Ideal) x0 x1 x2 x3 x4 x5 x6 x7 (ix2 p j)
      = TreeCell.hNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

abbrev BodyC : Prop := ∀ (x0 : Vec Ideal S256x300 .f32) (x1 x2 : Vec Ideal S256x4x512 .bf16) (x3 : Vec Ideal S256x4 .f32)
    (x4 : Vec Ideal S300x2048 .f32) (x5 : Vec Ideal S512x512 .f32) (x6 : Vec Ideal S1x2048 .f32) (x7 : Vec Ideal S512x1536 .f32)
    (p : Fin 256) (j : Fin 512),
    out5_9 (F := Ideal) x0 x1 x2 x3 x4 x5 x6 x7 (ix2 p j)
      = TreeCell.cNew (fun e => x0 (ix2 p e)) (fun k i => x1 (ix3 p k i)) (fun k i => x2 (ix3 p k i)) (fun k => x3 (ix2 p k))
          (fun e q => x4 (ix2 e (TreeCell.colF q))) (fun e q => x4 (ix2 e (TreeCell.colIou q)))
          (fun i q => x5 (ix2 i q)) (fun i q => x7 (ix2 i q))
          (fun q => x6 (ix2 0 (TreeCell.colF q))) (fun q => x6 (ix2 0 (TreeCell.colIou q))) j

/-- What point t writes back to the hidden array is block t of `GH`. -/
theorem flushed8_eq (hb : BodyH) (c : Dev nD) (t : Fin cfg5.N) :
    (dat5 V c).flushed 8 t = ((cfg5.win 8).blk t).view.read (Elt Ideal) (GH V c) := by
  show (cfg5.win 8).cut (grid5.coords t) ((dat5 V c).after 8 t) = _
  rw [after5_8]
  funext y
  obtain ⟨p, q, rfl⟩ : ∃ (p : Fin 256) (q : Fin 512), y = ix2 p q := ⟨y 0, y 1, eq_ix2 y⟩
  show out5_8 (F := Ideal) (iblk5 V c 0 t) (iblk5 V c 1 t) (iblk5 V c 2 t) (iblk5 V c 3 t) (iblk5 V c 4 t) (iblk5 V c 5 t) (iblk5 V c 6 t) (iblk5 V c 7 t) (ix2 p q)
    = GH V c (((cfg5.win 8).blk t).view.emb (ix2 p q))
  rw [hb, emb8]
  simp only [read0 V c t, read1 V c t, read2 V c t, read3 V c t, read4 V c t, read5 V c t, read6 V c t, read7 V c t]
  rfl

theorem flushed9_eq (hb : BodyC) (c : Dev nD) (t : Fin cfg5.N) :
    (dat5 V c).flushed 9 t = ((cfg5.win 9).blk t).view.read (Elt Ideal) (GC V c) := by
  show (cfg5.win 9).cut (grid5.coords t) ((dat5 V c).after 9 t) = _
  rw [after5_9]
  funext y
  obtain ⟨p, q, rfl⟩ : ∃ (p : Fin 256) (q : Fin 512), y = ix2 p q := ⟨y 0, y 1, eq_ix2 y⟩
  show out5_9 (F := Ideal) (iblk5 V c 0 t) (iblk5 V c 1 t) (iblk5 V c 2 t) (iblk5 V c 3 t) (iblk5 V c 4 t) (iblk5 V c 5 t) (iblk5 V c 6 t) (iblk5 V c 7 t) (ix2 p q)
    = GC V c (((cfg5.win 9).blk t).view.emb (ix2 p q))
  rw [hb, emb9]
  simp only [read0 V c t, read1 V c t, read2 V c t, read3 V c t, read4 V c t, read5 V c t, read6 V c t, read7 V c t]
  rfl

/-! ## The row blocks tile the rows -/

theorem mem_blk8 (t : Fin cfg5.N) (i : S8192x512.Idx) :
    i ∈ ((cfg5.win 8).blk t).view.set ↔ ∀ a : Fin 2, win5_8.index t a * S256x512.size a ≤ (i a).val ∧ (i a).val < win5_8.index t a * S256x512.size a + S256x512.size a := by
  show i ∈ ((View.whole main_v203_0).slice (win5_8.rect t)).set ↔ _
  rw [View.set_slice_whole, Rect.mem_set_unit]
  exact Iff.rfl

theorem mem_blk9 (t : Fin cfg5.N) (i : S8192x512.Idx) :
    i ∈ ((cfg5.win 9).blk t).view.set ↔ ∀ a : Fin 2, win5_9.index t a * S256x512.size a ≤ (i a).val ∧ (i a).val < win5_9.index t a * S256x512.size a + S256x512.size a := by
  show i ∈ ((View.whole main_v203_1).slice (win5_9.rect t)).set ↔ _
  rw [View.set_slice_whole, Rect.mem_set_unit]
  exact Iff.rfl

/-- Row n lies in the block of point n / 256. -/
theorem cover8 (i : S8192x512.Idx) : ∃ t : Fin cfg5.N, (cfg5.win 8).flush t = true ∧ i ∈ ((cfg5.win 8).blk t).view.set := by
  have hi0 : (i 0).val < 8192 := (i 0).isLt
  have hi1 : (i 1).val < 512 := (i 1).isLt
  refine ⟨⟨(i 0).val / 256, by show (i 0).val / 256 < 32; omega⟩, flush5_8 _, ?_⟩
  rw [mem_blk8]
  obtain ⟨-, -, -, -, -, -, -, -, -, -, -, -, -, -, -, -, -, -, h0, h1, -⟩ := idx_facts ⟨(i 0).val / 256, by show (i 0).val / 256 < 32; omega⟩
  intro a
  match a with
  | ⟨0, _⟩ => show win5_8.index _ (0 : Fin 2) * 256 ≤ (i 0).val ∧ (i 0).val < win5_8.index _ (0 : Fin 2) * 256 + 256; rw [h0]; show (i 0).val / 256 * 256 ≤ (i 0).val ∧ (i 0).val < (i 0).val / 256 * 256 + 256; omega
  | ⟨1, _⟩ => show win5_8.index _ (1 : Fin 2) * 512 ≤ (i 1).val ∧ (i 1).val < win5_8.index _ (1 : Fin 2) * 512 + 512; rw [h1]; omega

theorem cover9 (i : S8192x512.Idx) : ∃ t : Fin cfg5.N, (cfg5.win 9).flush t = true ∧ i ∈ ((cfg5.win 9).blk t).view.set := by
  have hi0 : (i 0).val < 8192 := (i 0).isLt
  have hi1 : (i 1).val < 512 := (i 1).isLt
  refine ⟨⟨(i 0).val / 256, by show (i 0).val / 256 < 32; omega⟩, flush5_9 _, ?_⟩
  rw [mem_blk9]
  obtain ⟨-, -, -, -, -, -, -, -, -, -, -, -, -, -, -, -, -, -, -, -, h0, h1⟩ := idx_facts ⟨(i 0).val / 256, by show (i 0).val / 256 < 32; omega⟩
  intro a
  match a with
  | ⟨0, _⟩ => show win5_9.index _ (0 : Fin 2) * 256 ≤ (i 0).val ∧ (i 0).val < win5_9.index _ (0 : Fin 2) * 256 + 256; rw [h0]; show (i 0).val / 256 * 256 ≤ (i 0).val ∧ (i 0).val < (i 0).val / 256 * 256 + 256; omega
  | ⟨1, _⟩ => show win5_9.index _ (1 : Fin 2) * 512 ≤ (i 1).val ∧ (i 1).val < win5_9.index _ (1 : Fin 2) * 512 + 512; rw [h1]; omega

/-! ## The two result arrays after the launch -/

theorem finalH (hb : BodyH) (c : Dev nD) : (dat5 V c).arrAt 8 cfg5.N = GH V c :=
  (dat5 V c).arrAt_eq_of_cover 8 (GH V c) (fun t _ => flushed8_eq V hb c t) cover8

theorem finalC (hb : BodyC) (c : Dev nD) : (dat5 V c).arrAt 9 cfg5.N = GC V c :=
  (dat5 V c).arrAt_eq_of_cover 9 (GC V c) (fun t _ => flushed9_eq V hb c t) cover9

end Cert.KernelIdeal.Region5

end
-- ==== Proof.KLaunch5.lean ====
/-
  Launch 5's two result arrays as the cell's row functions of the argument arrays and of the previous launch's results: the
  node inputs are level 0's, the child rows those of the previous launch's hidden and memory arrays gathered at level 0's
  child indices, the mask level 0's; the fused layouts read back as the forget and gate weights and biases.
-/
import proofs.«117485_j54365696033410_2_alg».proof.Proof.Gen.KernelIdeal.Frame
import proofs.«117485_j54365696033410_2_alg».proof.Proof.TreeCell
import proofs.«117485_j54365696033410_2_alg».proof.Proof.KTerms
import proofs.«117485_j54365696033410_2_alg».proof.Proof.KChain
import proofs.«117485_j54365696033410_2_alg».proof.Proof.KEntry0
import proofs.«117485_j54365696033410_2_alg».proof.Proof.KEntry5
import proofs.«117485_j54365696033410_2_alg».proof.Proof.Region5

set_option maxRecDepth 16384

noncomputable section

namespace Cert.KernelIdeal.Launch5

open Cert.KernelIdeal Cert.KernelIdeal.Gen Cert.KernelIdeal.Terms
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays at a core, at their array types. -/
abbrev A0 (c : Dev nD) : IVec S6x8192 32 := m ((c : Thread nD τ).loc main_arg0)
abbrev A1 (c : Dev nD) : IVec S6x8192x4 32 := m ((c : Thread nD τ).loc main_arg1)
abbrev A2 (c : Dev nD) : FVec Ideal S6x8192 .f32 := m ((c : Thread nD τ).loc main_arg2)
abbrev A3 (c : Dev nD) : FVec Ideal S6x8192x4 .f32 := m ((c : Thread nD τ).loc main_arg3)
abbrev A4 (c : Dev nD) : FVec Ideal S50000x300 .f32 := m ((c : Thread nD τ).loc main_arg4)
abbrev A5 (c : Dev nD) : FVec Ideal S300x1536 .f32 := m ((c : Thread nD τ).loc main_arg5)
abbrev A6 (c : Dev nD) : FVec Ideal S512x1536 .f32 := m ((c : Thread nD τ).loc main_arg6)
abbrev A7 (c : Dev nD) : FVec Ideal S1536 .f32 := m ((c : Thread nD τ).loc main_arg7)
abbrev A8 (c : Dev nD) : FVec Ideal S300x512 .f32 := m ((c : Thread nD τ).loc main_arg8)
abbrev A9 (c : Dev nD) : FVec Ideal S512x512 .f32 := m ((c : Thread nD τ).loc main_arg9)
abbrev A10 (c : Dev nD) : FVec Ideal S512 .f32 := m ((c : Thread nD τ).loc main_arg10)

theorem x_eq (c : Dev nD) : (V11 m ρ c main_v180 : S8192x300.Idx → EReal) = xAt (A0 m c) (A2 m c) (A4 m c) ![0, 0] slices_S6x8192_S1x8192_0_0 := by
  show W11 m ρ c (Proc.devRef .tc main_v180) = _
  rw [Entry5.x, Chain.a0_10, Chain.a2_10, Chain.a4_10]

theorem h_eq (c : Dev nD) : (V11 m ρ c main_v191 : S8192x4x512.Idx → EReal)
    = childRows (W10 m ρ c (Proc.devRef .tc main_v166_0)) (idxAt (A1 m c) ![0, 0, 0] slices_S6x8192x4_S1x8192x4_0_0_0) := by
  show W11 m ρ c (Proc.devRef .tc main_v191) = _
  rw [Entry5.hrows, Chain.a1_10]

theorem c_eq (c : Dev nD) : (V11 m ρ c main_v200 : S8192x4x512.Idx → EReal)
    = childRows (W10 m ρ c (Proc.devRef .tc main_v166_1)) (idxAt (A1 m c) ![0, 0, 0] slices_S6x8192x4_S1x8192x4_0_0_0) := by
  show W11 m ρ c (Proc.devRef .tc main_v200) = _
  rw [Entry5.crows, Chain.a1_10]

theorem m_eq (c : Dev nD) : (V11 m ρ c main_v202 : S8192x4.Idx → EReal) = maskAt (A3 m c) ![0, 0, 0] slices_S6x8192x4_S1x8192x4_0_0_0 := by
  show W11 m ρ c (Proc.devRef .tc main_v202) = _
  rw [Entry5.mask, Chain.a3_10]

theorem wF_eq (c : Dev nD) (e : Fin 300) (q : Fin 512) : (V11 m ρ c main_v1 : S300x2048.Idx → EReal) (ix2 e (TreeCell.colF q)) = A8 m c (ix2 e q) := by
  show W11 m ρ c (Proc.devRef .tc main_v1) (ix2 e (TreeCell.colF q)) = _
  rw [Chain.v1_11, Entry0.fusedW, Chain.a8_0, Chain.a5_0, fusedW_colF]

theorem wIou_eq (c : Dev nD) (e : Fin 300) (q : Fin 1536) : (V11 m ρ c main_v1 : S300x2048.Idx → EReal) (ix2 e (TreeCell.colIou q)) = A5 m c (ix2 e q) := by
  show W11 m ρ c (Proc.devRef .tc main_v1) (ix2 e (TreeCell.colIou q)) = _
  rw [Chain.v1_11, Entry0.fusedW, Chain.a8_0, Chain.a5_0, fusedW_colIou]

theorem bF_eq (c : Dev nD) (q : Fin 512) : (V11 m ρ c main_v3 : S1x2048.Idx → EReal) (ix2 0 (TreeCell.colF q)) = A10 m c (ix1 q) := by
  show W11 m ρ c (Proc.devRef .tc main_v3) (ix2 0 (TreeCell.colF q)) = _
  rw [Chain.v3_11, Entry0.fusedB, Chain.a10_0, Chain.a7_0, fusedB_colF]

theorem bIou_eq (c : Dev nD) (q : Fin 1536) : (V11 m ρ c main_v3 : S1x2048.Idx → EReal) (ix2 0 (TreeCell.colIou q)) = A7 m c (ix1 q) := by
  show W11 m ρ c (Proc.devRef .tc main_v3) (ix2 0 (TreeCell.colIou q)) = _
  rw [Chain.v3_11, Entry0.fusedB, Chain.a10_0, Chain.a7_0, fusedB_colIou]

theorem uf_eq (c : Dev nD) : (V11 m ρ c main_arg9 : S512x512.Idx → EReal) = A9 m c := by
  show W11 m ρ c (Proc.devRef .tc main_arg9) = _
  rw [Chain.u9_11]

theorem uiou_eq (c : Dev nD) : (V11 m ρ c main_arg6 : S512x1536.Idx → EReal) = A6 m c := by
  show W11 m ρ c (Proc.devRef .tc main_arg6) = _
  rw [Chain.u6_11]

theorem wF_fun (c : Dev nD) : (fun (e : Fin 300) (q : Fin 512) => (V11 m ρ c main_v1 : S300x2048.Idx → EReal) (ix2 e (TreeCell.colF q))) = fun e q => A8 m c (ix2 e q) :=
  funext fun e => funext fun q => wF_eq m ρ c e q
theorem wIou_fun (c : Dev nD) : (fun (e : Fin 300) (q : Fin 1536) => (V11 m ρ c main_v1 : S300x2048.Idx → EReal) (ix2 e (TreeCell.colIou q))) = fun e q => A5 m c (ix2 e q) :=
  funext fun e => funext fun q => wIou_eq m ρ c e q
theorem bF_fun (c : Dev nD) : (fun q : Fin 512 => (V11 m ρ c main_v3 : S1x2048.Idx → EReal) (ix2 0 (TreeCell.colF q))) = fun q => A10 m c (ix1 q) :=
  funext fun q => bF_eq m ρ c q
theorem bIou_fun (c : Dev nD) : (fun q : Fin 1536 => (V11 m ρ c main_v3 : S1x2048.Idx → EReal) (ix2 0 (TreeCell.colIou q))) = fun q => A7 m c (ix1 q) :=
  funext fun q => bIou_eq m ρ c q

/-- The hidden array after launch 5, at an entry. -/
theorem hidden (hb : Region5.BodyH) (c : Dev nD) (n : Fin 8192) (j : Fin 512) :
    (W12 m ρ c (Proc.devRef .tc main_v203_0) : S8192x512.Idx → EReal) (ix2 n j) =
      TreeCell.hNew (fun e => xAt (A0 m c) (A2 m c) (A4 m c) ![0, 0] slices_S6x8192_S1x8192_0_0 (ix2 n e))
        (fun k q => (childRows (W10 m ρ c (Proc.devRef .tc main_v166_0)) (idxAt (A1 m c) ![0, 0, 0] slices_S6x8192x4_S1x8192x4_0_0_0) : S8192x4x512.Idx → EReal) (ix3 n k q))
        (fun k q => (childRows (W10 m ρ c (Proc.devRef .tc main_v166_1)) (idxAt (A1 m c) ![0, 0, 0] slices_S6x8192x4_S1x8192x4_0_0_0) : S8192x4x512.Idx → EReal) (ix3 n k q))
        (fun k => maskAt (A3 m c) ![0, 0, 0] slices_S6x8192x4_S1x8192x4_0_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W12 m ρ c (Proc.devRef .tc main_v203_0) = (dat5 (V11 m ρ) c).arrAt 8 cfg5.N from W12_arr m ρ c 8,
    Region5.finalH (V11 m ρ) hb c]
  show TreeCell.hNew (fun e => (V11 m ρ c main_v180 : S8192x300.Idx → EReal) (ix2 n e))
    (fun k q => (V11 m ρ c main_v191 : S8192x4x512.Idx → EReal) (ix3 n k q))
    (fun k q => (V11 m ρ c main_v200 : S8192x4x512.Idx → EReal) (ix3 n k q))
    (fun k => (V11 m ρ c main_v202 : S8192x4.Idx → EReal) (ix2 n k))
    (fun e q => (V11 m ρ c main_v1 : S300x2048.Idx → EReal) (ix2 e (TreeCell.colF q)))
    (fun e q => (V11 m ρ c main_v1 : S300x2048.Idx → EReal) (ix2 e (TreeCell.colIou q)))
    (fun a q => (V11 m ρ c main_arg9 : S512x512.Idx → EReal) (ix2 a q))
    (fun a q => (V11 m ρ c main_arg6 : S512x1536.Idx → EReal) (ix2 a q))
    (fun q => (V11 m ρ c main_v3 : S1x2048.Idx → EReal) (ix2 0 (TreeCell.colF q)))
    (fun q => (V11 m ρ c main_v3 : S1x2048.Idx → EReal) (ix2 0 (TreeCell.colIou q))) j = _
  rw [x_eq, h_eq, c_eq, m_eq, wF_fun, wIou_fun, uf_eq, uiou_eq, bF_fun, bIou_fun]

/-- The memory array after launch 5, at an entry. -/
theorem memory (hb : Region5.BodyC) (c : Dev nD) (n : Fin 8192) (j : Fin 512) :
    (W12 m ρ c (Proc.devRef .tc main_v203_1) : S8192x512.Idx → EReal) (ix2 n j) =
      TreeCell.cNew (fun e => xAt (A0 m c) (A2 m c) (A4 m c) ![0, 0] slices_S6x8192_S1x8192_0_0 (ix2 n e))
        (fun k q => (childRows (W10 m ρ c (Proc.devRef .tc main_v166_0)) (idxAt (A1 m c) ![0, 0, 0] slices_S6x8192x4_S1x8192x4_0_0_0) : S8192x4x512.Idx → EReal) (ix3 n k q))
        (fun k q => (childRows (W10 m ρ c (Proc.devRef .tc main_v166_1)) (idxAt (A1 m c) ![0, 0, 0] slices_S6x8192x4_S1x8192x4_0_0_0) : S8192x4x512.Idx → EReal) (ix3 n k q))
        (fun k => maskAt (A3 m c) ![0, 0, 0] slices_S6x8192x4_S1x8192x4_0_0_0 (ix2 n k))
        (fun e q => A8 m c (ix2 e q)) (fun e q => A5 m c (ix2 e q)) (fun a q => A9 m c (ix2 a q)) (fun a q => A6 m c (ix2 a q))
        (fun q => A10 m c (ix1 q)) (fun q => A7 m c (ix1 q)) j := by
  rw [show W12 m ρ c (Proc.devRef .tc main_v203_1) = (dat5 (V11 m ρ) c).arrAt 9 cfg5.N from W12_arr m ρ c 9,
    Region5.finalC (V11 m ρ) hb c]
  show TreeCell.cNew (fun e => (V11 m ρ c main_v180 : S8192x300.Idx → EReal) (ix2 n e))
    (fun k q => (V11 m ρ c main_v191 : S8192x4x512.Idx → EReal) (ix3 n k q))
    (fun k q => (V11 m ρ c main_v200 : S8192x4x512.Idx → EReal) (ix3 n k q))
    (fun k => (V11 m ρ c main_v202 : S8192x4.Idx → EReal) (ix2 n k))
    (fun e q => (V11 m ρ c main_v1 : S300x2048.Idx → EReal) (ix2 e (TreeCell.colF q)))
    (fun e q => (V11 m ρ c main_v1 : S300x2048.Idx → EReal) (ix2 e (TreeCell.colIou q)))
    (fun a q => (V11 m ρ c main_arg9 : S512x512.Idx → EReal) (ix2 a q))
    (fun a q => (V11 m ρ c main_arg6 : S512x1536.Idx → EReal) (ix2 a q))
    (fun q => (V11 m ρ c main_v3 : S1x2048.Idx → EReal) (ix2 0 (TreeCell.colF q)))
    (fun q => (V11 m ρ c main_v3 : S1x2048.Idx → EReal) (ix2 0 (TreeCell.colIou q))) j = _
  rw [x_eq, h_eq, c_eq, m_eq, wF_fun, wIou_fun, uf_eq, uiou_eq, bF_fun, bIou_fun]

end Cert.KernelIdeal.Launch5

end
-- ==== Proof.Bridge.lean ====
/-
  The kernel's result array is the reference's, level by level.

  After launch r (r = 0 the leaves … r = 5 the root) the kernel program's hidden and memory arrays are the reference's
  hidden and memory arrays after level 5 − r. The leaves: both are the leaf cell's row function of level 5's node inputs.
  A level: both are the cell's row function of the level's node inputs, child mask and weights, and of the child rows
  gathered from the level below — equal arrays by the level below. The reference's own grouping of the sums and its
  zero terms are dealt with where its run is read; the kernel's blocks and fused weights where its launches are read;
  what is left here is that the two programs cut their inputs out of the same arguments by the same operations.
-/
import proofs.«117485_j54365696033410_2_alg».proof.Proof.BridgeTerms
import proofs.«117485_j54365696033410_2_alg».proof.Proof.RefLeaf
import proofs.«117485_j54365696033410_2_alg».proof.Proof.RefLevels
import proofs.«117485_j54365696033410_2_alg».proof.Proof.BodyLeaf
import proofs.«117485_j54365696033410_2_alg».proof.Proof.BodyLevelOut
import proofs.«117485_j54365696033410_2_alg».proof.Proof.BodyLevelRegions
import proofs.«117485_j54365696033410_2_alg».proof.Proof.KLaunch0
import proofs.«117485_j54365696033410_2_alg».proof.Proof.KLaunch1
import proofs.«117485_j54365696033410_2_alg».proof.Proof.KLaunch2
import proofs.«117485_j54365696033410_2_alg».proof.Proof.KLaunch3
import proofs.«117485_j54365696033410_2_alg».proof.Proof.KLaunch4
import proofs.«117485_j54365696033410_2_alg».proof.Proof.KLaunch5

set_option maxRecDepth 16384

noncomputable section

namespace Cert.Bridge

open Cert.KernelIdeal Cert.KernelIdeal.Gen Cert.KernelIdeal.Terms Cert.ReferenceIdeal.RefValue Cert.Bridge.SameTerms
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The two launch memories agree on the eleven argument arrays at core `c`. -/
def Agree (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)

/-- After the leaf launch. -/
theorem leaf (c : Dev nD) (hag : Agree m m' c) :
    (W2 m ρ c (Proc.devRef .tc main_v18_0) : S8192x512.Idx → EReal) = refH5 (launchContents m' c)
    ∧ (W2 m ρ c (Proc.devRef .tc main_v18_1) : S8192x512.Idx → EReal) = refC5 (launchContents m' c) := by
  obtain ⟨g0, g1, g2, g3, g4, g5, g6, g7, g8, g9, g10⟩ := hag
  have e0 : Launch0.A0 m c = launchContents m' c (Proc.devRef .tc Cert.ReferenceIdeal.main_arg0) := g0.symm
  have e1 : Launch0.A1 m c = launchContents m' c (Proc.devRef .tc Cert.ReferenceIdeal.main_arg1) := g1.symm
  have e2 : Launch0.A2 m c = launchContents m' c (Proc.devRef .tc Cert.ReferenceIdeal.main_arg2) := g2.symm
  have e3 : Launch0.A3 m c = launchContents m' c (Proc.devRef .tc Cert.ReferenceIdeal.main_arg3) := g3.symm
  have e4 : Launch0.A4 m c = launchContents m' c (Proc.devRef .tc Cert.ReferenceIdeal.main_arg4) := g4.symm
  have e5 : Launch0.A5 m c = launchContents m' c (Proc.devRef .tc Cert.ReferenceIdeal.main_arg5) := g5.symm
  have e6 : Launch0.A6 m c = launchContents m' c (Proc.devRef .tc Cert.ReferenceIdeal.main_arg6) := g6.symm
  have e7 : Launch0.A7 m c = launchContents m' c (Proc.devRef .tc Cert.ReferenceIdeal.main_arg7) := g7.symm
  have e8 : Launch0.A8 m c = launchContents m' c (Proc.devRef .tc Cert.ReferenceIdeal.main_arg8) := g8.symm
  have e9 : Launch0.A9 m c = launchContents m' c (Proc.devRef .tc Cert.ReferenceIdeal.main_arg9) := g9.symm
  have e10 : Launch0.A10 m c = launchContents m' c (Proc.devRef .tc Cert.ReferenceIdeal.main_arg10) := g10.symm
  constructor
  · funext i
    obtain ⟨n, j, rfl⟩ : ∃ (n : Fin 8192) (j : Fin 512), i = ix2 n j := ⟨i 0, i 1, eq_ix2 i⟩
    rw [Launch0.hidden m ρ Body.out0_3_apply c n j, refH5_apply]
    rw [e0, e2, e4, e5, e7, x5 (launchContents m' c)]
    all_goals rfl
  · funext i
    obtain ⟨n, j, rfl⟩ : ∃ (n : Fin 8192) (j : Fin 512), i = ix2 n j := ⟨i 0, i 1, eq_ix2 i⟩
    rw [Launch0.memory m ρ Body.out0_4_apply c n j, refC5_apply]
    rw [e0, e2, e4, e5, e7, x5 (launchContents m' c)]
    all_goals rfl

/-- After launch 1: level 4. -/
theorem level4 (c : Dev nD) (hag : Agree m m' c)
    (ihH : (W2 m ρ c (Proc.devRef .tc main_v18_0) : S8192x512.Idx → EReal) = refH5 (launchContents m' c))
    (ihC : (W2 m ρ c (Proc.devRef .tc main_v18_1) : S8192x512.Idx → EReal) = refC5 (launchContents m' c)) :
    (W4 m ρ c (Proc.devRef .tc main_v55_0) : S8192x512.Idx → EReal) = refH4 (launchContents m' c)
    ∧ (W4 m ρ c (Proc.devRef .tc main_v55_1) : S8192x512.Idx → EReal) = refC4 (launchContents m' c) := by
  obtain ⟨g0, g1, g2, g3, g4, g5, g6, g7, g8, g9, g10⟩ := hag
  have e0 : Launch1.A0 m c = launchContents m' c (Proc.devRef .tc Cert.ReferenceIdeal.main_arg0) := g0.symm
  have e1 : Launch1.A1 m c = launchContents m' c (Proc.devRef .tc Cert.ReferenceIdeal.main_arg1) := g1.symm
  have e2 : Launch1.A2 m c = launchContents m' c (Proc.devRef .tc Cert.ReferenceIdeal.main_arg2) := g2.symm
  have e3 : Launch1.A3 m c = launchContents m' c (Proc.devRef .tc Cert.ReferenceIdeal.main_arg3) := g3.symm
  have e4 : Launch1.A4 m c = launchContents m' c (Proc.devRef .tc Cert.ReferenceIdeal.main_arg4) := g4.symm
  have e5 : Launch1.A5 m c = launchContents m' c (Proc.devRef .tc Cert.ReferenceIdeal.main_arg5) := g5.symm
  have e6 : Launch1.A6 m c = launchContents m' c (Proc.devRef .tc Cert.ReferenceIdeal.main_arg6) := g6.symm
  have e7 : Launch1.A7 m c = launchContents m' c (Proc.devRef .tc Cert.ReferenceIdeal.main_arg7) := g7.symm
  have e8 : Launch1.A8 m c = launchContents m' c (Proc.devRef .tc Cert.ReferenceIdeal.main_arg8) := g8.symm
  have e9 : Launch1.A9 m c = launchContents m' c (Proc.devRef .tc Cert.ReferenceIdeal.main_arg9) := g9.symm
  have e10 : Launch1.A10 m c = launchContents m' c (Proc.devRef .tc Cert.ReferenceIdeal.main_arg10) := g10.symm
  constructor
  · funext i
    obtain ⟨n, j, rfl⟩ : ∃ (n : Fin 8192) (j : Fin 512), i = ix2 n j := ⟨i 0, i 1, eq_ix2 i⟩
    rw [Launch1.hidden m ρ Body.out1_8_apply c n j, refH4_apply, ihH, ihC]
    rw [e0, e1, e2, e3, e4, e5, e6, e7, e8, e9, e10, x4 (launchContents m' c), rows4 (launchContents m' c), rows4 (launchContents m' c), mask4 (launchContents m' c)]
    all_goals rfl
  · funext i
    obtain ⟨n, j, rfl⟩ : ∃ (n : Fin 8192) (j : Fin 512), i = ix2 n j := ⟨i 0, i 1, eq_ix2 i⟩
    rw [Launch1.memory m ρ Body.out1_9_apply c n j, refC4_apply, ihH, ihC]
    rw [e0, e1, e2, e3, e4, e5, e6, e7, e8, e9, e10, x4 (launchContents m' c), rows4 (launchContents m' c), rows4 (launchContents m' c), mask4 (launchContents m' c)]
    all_goals rfl

/-- After launch 2: level 3. -/
theorem level3 (c : Dev nD) (hag : Agree m m' c)
    (ihH : (W4 m ρ c (Proc.devRef .tc main_v55_0) : S8192x512.Idx → EReal) = refH4 (launchContents m' c))
    (ihC : (W4 m ρ c (Proc.devRef .tc main_v55_1) : S8192x512.Idx → EReal) = refC4 (launchContents m' c)) :
    (W6 m ρ c (Proc.devRef .tc main_v92_0) : S8192x512.Idx → EReal) = refH3 (launchContents m' c)
    ∧ (W6 m ρ c (Proc.devRef .tc main_v92_1) : S8192x512.Idx → EReal) = refC3 (launchContents m' c) := by
  obtain ⟨g0, g1, g2, g3, g4, g5, g6, g7, g8, g9, g10⟩ := hag
  have e0 : Launch2.A0 m c = launchContents m' c (Proc.devRef .tc Cert.ReferenceIdeal.main_arg0) := g0.symm
  have e1 : Launch2.A1 m c = launchContents m' c (Proc.devRef .tc Cert.ReferenceIdeal.main_arg1) := g1.symm
  have e2 : Launch2.A2 m c = launchContents m' c (Proc.devRef .tc Cert.ReferenceIdeal.main_arg2) := g2.symm
  have e3 : Launch2.A3 m c = launchContents m' c (Proc.devRef .tc Cert.ReferenceIdeal.main_arg3) := g3.symm
  have e4 : Launch2.A4 m c = launchContents m' c (Proc.devRef .tc Cert.ReferenceIdeal.main_arg4) := g4.symm
  have e5 : Launch2.A5 m c = launchContents m' c (Proc.devRef .tc Cert.ReferenceIdeal.main_arg5) := g5.symm
  have e6 : Launch2.A6 m c = launchContents m' c (Proc.devRef .tc Cert.ReferenceIdeal.main_arg6) := g6.symm
  have e7 : Launch2.A7 m c = launchContents m' c (Proc.devRef .tc Cert.ReferenceIdeal.main_arg7) := g7.symm
  have e8 : Launch2.A8 m c = launchContents m' c (Proc.devRef .tc Cert.ReferenceIdeal.main_arg8) := g8.symm
  have e9 : Launch2.A9 m c = launchContents m' c (Proc.devRef .tc Cert.ReferenceIdeal.main_arg9) := g9.symm
  have e10 : Launch2.A10 m c = launchContents m' c (Proc.devRef .tc Cert.ReferenceIdeal.main_arg10) := g10.symm
  constructor
  · funext i
    obtain ⟨n, j, rfl⟩ : ∃ (n : Fin 8192) (j : Fin 512), i = ix2 n j := ⟨i 0, i 1, eq_ix2 i⟩
    rw [Launch2.hidden m ρ Body.out2_8_apply c n j, refH3_apply, ihH, ihC]
    rw [e0, e1, e2, e3, e4, e5, e6, e7, e8, e9, e10, x3 (launchContents m' c), rows3 (launchContents m' c), rows3 (launchContents m' c), mask3 (launchContents m' c)]
    all_goals rfl
  · funext i
    obtain ⟨n, j, rfl⟩ : ∃ (n : Fin 8192) (j : Fin 512), i = ix2 n j := ⟨i 0, i 1, eq_ix2 i⟩
    rw [Launch2.memory m ρ Body.out2_9_apply c n j, refC3_apply, ihH, ihC]
    rw [e0, e1, e2, e3, e4, e5, e6, e7, e8, e9, e10, x3 (launchContents m' c), rows3 (launchContents m' c), rows3 (launchContents m' c), mask3 (launchContents m' c)]
    all_goals rfl

/-- After launch 3: level 2. -/
theorem level2 (c : Dev nD) (hag : Agree m m' c)
    (ihH : (W6 m ρ c (Proc.devRef .tc main_v92_0) : S8192x512.Idx → EReal) = refH3 (launchContents m' c))
    (ihC : (W6 m ρ c (Proc.devRef .tc main_v92_1) : S8192x512.Idx → EReal) = refC3 (launchContents m' c)) :
    (W8 m ρ c (Proc.devRef .tc main_v129_0) : S8192x512.Idx → EReal) = refH2 (launchContents m' c)
    ∧ (W8 m ρ c (Proc.devRef .tc main_v129_1) : S8192x512.Idx → EReal) = refC2 (launchContents m' c) := by
  obtain ⟨g0, g1, g2, g3, g4, g5, g6, g7, g8, g9, g10⟩ := hag
  have e0 : Launch3.A0 m c = launchContents m' c (Proc.devRef .tc Cert.ReferenceIdeal.main_arg0) := g0.symm
  have e1 : Launch3.A1 m c = launchContents m' c (Proc.devRef .tc Cert.ReferenceIdeal.main_arg1) := g1.symm
  have e2 : Launch3.A2 m c = launchContents m' c (Proc.devRef .tc Cert.ReferenceIdeal.main_arg2) := g2.symm
  have e3 : Launch3.A3 m c = launchContents m' c (Proc.devRef .tc Cert.ReferenceIdeal.main_arg3) := g3.symm
  have e4 : Launch3.A4 m c = launchContents m' c (Proc.devRef .tc Cert.ReferenceIdeal.main_arg4) := g4.symm
  have e5 : Launch3.A5 m c = launchContents m' c (Proc.devRef .tc Cert.ReferenceIdeal.main_arg5) := g5.symm
  have e6 : Launch3.A6 m c = launchContents m' c (Proc.devRef .tc Cert.ReferenceIdeal.main_arg6) := g6.symm
  have e7 : Launch3.A7 m c = launchContents m' c (Proc.devRef .tc Cert.ReferenceIdeal.main_arg7) := g7.symm
  have e8 : Launch3.A8 m c = launchContents m' c (Proc.devRef .tc Cert.ReferenceIdeal.main_arg8) := g8.symm
  have e9 : Launch3.A9 m c = launchContents m' c (Proc.devRef .tc Cert.ReferenceIdeal.main_arg9) := g9.symm
  have e10 : Launch3.A10 m c = launchContents m' c (Proc.devRef .tc Cert.ReferenceIdeal.main_arg10) := g10.symm
  constructor
  · funext i
    obtain ⟨n, j, rfl⟩ : ∃ (n : Fin 8192) (j : Fin 512), i = ix2 n j := ⟨i 0, i 1, eq_ix2 i⟩
    rw [Launch3.hidden m ρ Body.out3_8_apply c n j, refH2_apply, ihH, ihC]
    rw [e0, e1, e2, e3, e4, e5, e6, e7, e8, e9, e10, x2 (launchContents m' c), rows2 (launchContents m' c), rows2 (launchContents m' c), mask2 (launchContents m' c)]
    all_goals rfl
  · funext i
    obtain ⟨n, j, rfl⟩ : ∃ (n : Fin 8192) (j : Fin 512), i = ix2 n j := ⟨i 0, i 1, eq_ix2 i⟩
    rw [Launch3.memory m ρ Body.out3_9_apply c n j, refC2_apply, ihH, ihC]
    rw [e0, e1, e2, e3, e4, e5, e6, e7, e8, e9, e10, x2 (launchContents m' c), rows2 (launchContents m' c), rows2 (launchContents m' c), mask2 (launchContents m' c)]
    all_goals rfl

/-- After launch 4: level 1. -/
theorem level1 (c : Dev nD) (hag : Agree m m' c)
    (ihH : (W8 m ρ c (Proc.devRef .tc main_v129_0) : S8192x512.Idx → EReal) = refH2 (launchContents m' c))
    (ihC : (W8 m ρ c (Proc.devRef .tc main_v129_1) : S8192x512.Idx → EReal) = refC2 (launchContents m' c)) :
    (W10 m ρ c (Proc.devRef .tc main_v166_0) : S8192x512.Idx → EReal) = refH1 (launchContents m' c)
    ∧ (W10 m ρ c (Proc.devRef .tc main_v166_1) : S8192x512.Idx → EReal) = refC1 (launchContents m' c) := by
  obtain ⟨g0, g1, g2, g3, g4, g5, g6, g7, g8, g9, g10⟩ := hag
  have e0 : Launch4.A0 m c = launchContents m' c (Proc.devRef .tc Cert.ReferenceIdeal.main_arg0) := g0.symm
  have e1 : Launch4.A1 m c = launchContents m' c (Proc.devRef .tc Cert.ReferenceIdeal.main_arg1) := g1.symm
  have e2 : Launch4.A2 m c = launchContents m' c (Proc.devRef .tc Cert.ReferenceIdeal.main_arg2) := g2.symm
  have e3 : Launch4.A3 m c = launchContents m' c (Proc.devRef .tc Cert.ReferenceIdeal.main_arg3) := g3.symm
  have e4 : Launch4.A4 m c = launchContents m' c (Proc.devRef .tc Cert.ReferenceIdeal.main_arg4) := g4.symm
  have e5 : Launch4.A5 m c = launchContents m' c (Proc.devRef .tc Cert.ReferenceIdeal.main_arg5) := g5.symm
  have e6 : Launch4.A6 m c = launchContents m' c (Proc.devRef .tc Cert.ReferenceIdeal.main_arg6) := g6.symm
  have e7 : Launch4.A7 m c = launchContents m' c (Proc.devRef .tc Cert.ReferenceIdeal.main_arg7) := g7.symm
  have e8 : Launch4.A8 m c = launchContents m' c (Proc.devRef .tc Cert.ReferenceIdeal.main_arg8) := g8.symm
  have e9 : Launch4.A9 m c = launchContents m' c (Proc.devRef .tc Cert.ReferenceIdeal.main_arg9) := g9.symm
  have e10 : Launch4.A10 m c = launchContents m' c (Proc.devRef .tc Cert.ReferenceIdeal.main_arg10) := g10.symm
  constructor
  · funext i
    obtain ⟨n, j, rfl⟩ : ∃ (n : Fin 8192) (j : Fin 512), i = ix2 n j := ⟨i 0, i 1, eq_ix2 i⟩
    rw [Launch4.hidden m ρ Body.out4_8_apply c n j, refH1_apply, ihH, ihC]
    rw [e0, e1, e2, e3, e4, e5, e6, e7, e8, e9, e10, x1 (launchContents m' c), rows1 (launchContents m' c), rows1 (launchContents m' c), mask1 (launchContents m' c)]
    all_goals rfl
  · funext i
    obtain ⟨n, j, rfl⟩ : ∃ (n : Fin 8192) (j : Fin 512), i = ix2 n j := ⟨i 0, i 1, eq_ix2 i⟩
    rw [Launch4.memory m ρ Body.out4_9_apply c n j, refC1_apply, ihH, ihC]
    rw [e0, e1, e2, e3, e4, e5, e6, e7, e8, e9, e10, x1 (launchContents m' c), rows1 (launchContents m' c), rows1 (launchContents m' c), mask1 (launchContents m' c)]
    all_goals rfl

/-- After launch 5: level 0. -/
theorem level0 (c : Dev nD) (hag : Agree m m' c)
    (ihH : (W10 m ρ c (Proc.devRef .tc main_v166_0) : S8192x512.Idx → EReal) = refH1 (launchContents m' c))
    (ihC : (W10 m ρ c (Proc.devRef .tc main_v166_1) : S8192x512.Idx → EReal) = refC1 (launchContents m' c)) :
    (W12 m ρ c (Proc.devRef .tc main_v203_0) : S8192x512.Idx → EReal) = refH0 (launchContents m' c)
    ∧ (W12 m ρ c (Proc.devRef .tc main_v203_1) : S8192x512.Idx → EReal) = refC0 (launchContents m' c) := by
  obtain ⟨g0, g1, g2, g3, g4, g5, g6, g7, g8, g9, g10⟩ := hag
  have e0 : Launch5.A0 m c = launchContents m' c (Proc.devRef .tc Cert.ReferenceIdeal.main_arg0) := g0.symm
  have e1 : Launch5.A1 m c = launchContents m' c (Proc.devRef .tc Cert.ReferenceIdeal.main_arg1) := g1.symm
  have e2 : Launch5.A2 m c = launchContents m' c (Proc.devRef .tc Cert.ReferenceIdeal.main_arg2) := g2.symm
  have e3 : Launch5.A3 m c = launchContents m' c (Proc.devRef .tc Cert.ReferenceIdeal.main_arg3) := g3.symm
  have e4 : Launch5.A4 m c = launchContents m' c (Proc.devRef .tc Cert.ReferenceIdeal.main_arg4) := g4.symm
  have e5 : Launch5.A5 m c = launchContents m' c (Proc.devRef .tc Cert.ReferenceIdeal.main_arg5) := g5.symm
  have e6 : Launch5.A6 m c = launchContents m' c (Proc.devRef .tc Cert.ReferenceIdeal.main_arg6) := g6.symm
  have e7 : Launch5.A7 m c = launchContents m' c (Proc.devRef .tc Cert.ReferenceIdeal.main_arg7) := g7.symm
  have e8 : Launch5.A8 m c = launchContents m' c (Proc.devRef .tc Cert.ReferenceIdeal.main_arg8) := g8.symm
  have e9 : Launch5.A9 m c = launchContents m' c (Proc.devRef .tc Cert.ReferenceIdeal.main_arg9) := g9.symm
  have e10 : Launch5.A10 m c = launchContents m' c (Proc.devRef .tc Cert.ReferenceIdeal.main_arg10) := g10.symm
  constructor
  · funext i
    obtain ⟨n, j, rfl⟩ : ∃ (n : Fin 8192) (j : Fin 512), i = ix2 n j := ⟨i 0, i 1, eq_ix2 i⟩
    rw [Launch5.hidden m ρ Body.out5_8_apply c n j, refH0_apply, ihH, ihC]
    rw [e0, e1, e2, e3, e4, e5, e6, e7, e8, e9, e10, x0 (launchContents m' c), rows0 (launchContents m' c), rows0 (launchContents m' c), mask0 (launchContents m' c)]
    all_goals rfl
  · funext i
    obtain ⟨n, j, rfl⟩ : ∃ (n : Fin 8192) (j : Fin 512), i = ix2 n j := ⟨i 0, i 1, eq_ix2 i⟩
    rw [Launch5.memory m ρ Body.out5_9_apply c n j, refC0_apply, ihH, ihC]
    rw [e0, e1, e2, e3, e4, e5, e6, e7, e8, e9, e10, x0 (launchContents m' c), rows0 (launchContents m' c), rows0 (launchContents m' c), mask0 (launchContents m' c)]
    all_goals rfl

/-- The kernel program's result array is the reference's root hidden array. -/
theorem root (c : Dev nD) (hag : Agree m m' c) :
    (W12 m ρ c (Proc.devRef .tc main_v203_0) : S8192x512.Idx → EReal) = refH0 (launchContents m' c) :=
  have L5 := leaf m ρ m' c hag
  have L4 := level4 m ρ m' c hag L5.1 L5.2
  have L3 := level3 m ρ m' c hag L4.1 L4.2
  have L2 := level2 m ρ m' c hag L3.1 L3.2
  have L1 := level1 m ρ m' c hag L2.1 L2.2
  (level0 m ρ m' c hag L1.1 L1.2).1

end Cert.Bridge

end
-- ==== Proof.lean ====
/-
  A Child-Sum Tree-LSTM encoder over six levels of 8192 nodes, as six kernel launches, against its whole-array reference.

  The kernel's program runs the leaves' cell, then five times the level cell, each on 32 row blocks of 256 nodes;
  between launches host operations look up the level's embeddings, gather the four child rows of every node from the
  level below, and cut out the level's masks. The reference computes the same six levels on whole arrays.
  Over the extended reals a change of float format is the identity, the kernel's logistic operation and the reference's
  1 / (1 + exp (−x)) are one function, a product of blocks onto a zero accumulator and a whole product are the same sums,
  and the two programs differ only in how they group three-term sums, in the reference's zero terms at the leaves
  (0·U_iou, + 0), and in the kernel's fusing of the forget and gate weights into one product. Addition on the extended
  reals is commutative and associative and 0 · y = 0 also at the infinities, so the two results are equal entry by entry
  for all inputs: the precondition is not used in the equivalence.
  The three frames: the two kernel programs by their launch-by-launch frame proofs, the reference by its run.
  No rewrite was applied when the kernel was idealized, so nothing is owed for it.
-/
import proofs.«117485_j54365696033410_2_alg».proof.Defs
import proofs.«117485_j54365696033410_2_alg».proof.Proof.Gen.Kernel
import proofs.«117485_j54365696033410_2_alg».proof.Proof.Gen.Kernel.Skeleton
import proofs.«117485_j54365696033410_2_alg».proof.Proof.Gen.Kernel.Launch
import proofs.«117485_j54365696033410_2_alg».proof.Proof.Gen.Kernel.Points
import proofs.«117485_j54365696033410_2_alg».proof.Proof.Gen.Kernel.Frame
import proofs.«117485_j54365696033410_2_alg».proof.Proof.Gen.KernelIdeal
import proofs.«117485_j54365696033410_2_alg».proof.Proof.Gen.KernelIdeal.Skeleton
import proofs.«117485_j54365696033410_2_alg».proof.Proof.Gen.KernelIdeal.Launch
import proofs.«117485_j54365696033410_2_alg».proof.Proof.Gen.KernelIdeal.Points
import proofs.«117485_j54365696033410_2_alg».proof.Proof.Gen.KernelIdeal.Frame
import proofs.«117485_j54365696033410_2_alg».proof.Proof.Gen.ReferenceIdeal
import proofs.«117485_j54365696033410_2_alg».proof.Proof.Gen.ReferenceIdeal.Run
import proofs.«117485_j54365696033410_2_alg».proof.Proof.Gen.Pre_finite_inputs
import proofs.«117485_j54365696033410_2_alg».proof.Proof.KRun
import proofs.«117485_j54365696033410_2_alg».proof.Proof.RefRoot
import proofs.«117485_j54365696033410_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's result array is what its fold through the twelve segments leaves, the
    reference's is its root hidden array, and level by level the two are the same array. -/
theorem algebraic : Cert.algebraic_KernelIdeal_ReferenceIdeal := by
  intro m ρ m' ρ' _ hagree
  refine ⟨fun c => Cert.KernelIdeal.Gen.W12 m ρ c (Proc.devRef .tc Cert.KernelIdeal.main_v203_0),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  exact ((Cert.ReferenceIdeal.Value.val9_main_v454 (launchContents m' c)).symm.trans
    (Cert.ReferenceIdeal.RefValue.ref_root (launchContents m' c))).trans (Cert.Bridge.root m ρ m' c (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
